-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S5x128 .f32) (main_arg7 : FVec F S5x128x128 .f32) (main_arg8 : FVec F S5x128 .f32) (main_arg9 : FVec F S128x128 .f32) (main_arg10 : FVec F S128 .f32) (main_arg11 : FVec F S128x10 .f32) (main_arg12 : FVec F S10 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128x128 .f32 := Host.absf main_arg7
  let main_cst_8 : FVec F S_ .f32 := constant S_ .f32 0x7F800000#32
  let main_v25 : FVec F S5x128x128 .f32 := broadcastInDim S5x128x128 ![] bcast_S_S5x128x128 main_cst_8
  let main_v26 : IVec S5x128x128 1 := cmpf .olt main_v24 main_v25
  let main_c_9 : IVec S_ 1 := constantI S_ 1 1#1
  let main_v27 : IVec S_ 1 := (fun x v => Host.reduce IntOp.andi x v reducesTo_S5x128x128_S_d0_1_2 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S5x128x128 .f32) (main_arg4 : FVec F S5x128 .f32) (main_arg5 : FVec F S5x128 .f32) (main_arg6 : FVec F S5x128 .f32) (main_arg7 : FVec F S5x128x128 .f32) (main_arg8 : FVec F S5x128 .f32) (main_arg9 : FVec F S128x128 .f32) (main_arg10 : FVec F S128 .f32) (main_arg11 : FVec F S128x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S5000x128 : Shape := ⟨2, ![5000, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩

abbrev nBuf : Space → Nat
  | .hbm => 207
  | .vmem => 106
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S5x128x128, .f32⟩
  | 4 => ⟨S5x128, .f32⟩
  | 5 => ⟨S5x128, .f32⟩
  | 6 => ⟨S5x128, .f32⟩
  | 7 => ⟨S5x128x128, .f32⟩
  | 8 => ⟨S5x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S1x128x128, .f32⟩
  | 31 => ⟨S128x128, .f32⟩
  | 32 => ⟨S1x128, .f32⟩
  | 33 => ⟨S128, .f32⟩
  | 34 => ⟨S100000x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S1x128x128, .f32⟩
  | 68 => ⟨S128x128, .f32⟩
  | 69 => ⟨S1x128, .f32⟩
  | 70 => ⟨S128, .f32⟩
  | 71 => ⟨S100000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S128, .f32⟩
  | 84 => ⟨S1x128, .f32⟩
  | 85 => ⟨S128, .f32⟩
  | 86 => ⟨S1x128x128, .f32⟩
  | 87 => ⟨S128x128, .f32⟩
  | 88 => ⟨S1x128, .f32⟩
  | 89 => ⟨S128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S1x128x128, .f32⟩
  | 105 => ⟨S128x128, .f32⟩
  | 106 => ⟨S1x128, .f32⟩
  | 107 => ⟨S128, .f32⟩
  | 108 => ⟨S100000x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S128, .f32⟩
  | 121 => ⟨S1x128, .f32⟩
  | 122 => ⟨S128, .f32⟩
  | 123 => ⟨S1x128x128, .f32⟩
  | 124 => ⟨S128x128, .f32⟩
  | 125 => ⟨S1x128, .f32⟩
  | 126 => ⟨S128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S1x128x128, .f32⟩
  | 14 => ⟨S128x128, .f32⟩
  | 15 => ⟨S1x128, .f32⟩
  | 16 => ⟨S128, .f32⟩
  | 17 => ⟨S100000x128, .f32⟩
  | 18 => ⟨S1x128, .f32⟩
  | 19 => ⟨S1x128, .f32⟩
  | 20 => ⟨S_, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S128, .f32⟩
  | 30 => ⟨S1x128, .f32⟩
  | 31 => ⟨S128, .f32⟩
  | 32 => ⟨S1x128x128, .f32⟩
  | 33 => ⟨S128x128, .f32⟩
  | 34 => ⟨S1x128, .f32⟩
  | 35 => ⟨S128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S100000x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S128, .f32⟩
  | 67 => ⟨S1x128, .f32⟩
  | 68 => ⟨S128, .f32⟩
  | 69 => ⟨S1x128x128, .f32⟩
  | 70 => ⟨S128x128, .f32⟩
  | 71 => ⟨S1x128, .f32⟩
  | 72 => ⟨S128, .f32⟩
  | 73 => ⟨S100000x128, .f32⟩
  | 74 => ⟨S_, .f32⟩
  | 75 => ⟨S512x128, .f32⟩
  | 76 => ⟨S100000x1, .i32⟩
  | 77 => ⟨S512x128, .f32⟩
  | 78 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S128, .f32⟩
  | .local _ .vmem, ⟨55, _⟩ => ⟨S128, .f32⟩
  | .local _ .vmem, ⟨56, _⟩ => ⟨S128x128, .f32⟩
  | .local _ .vmem, ⟨57, _⟩ => ⟨S128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S128, .f32⟩
  | .local _ .vmem, ⟨75, _⟩ => ⟨S128, .f32⟩
  | .local _ .vmem, ⟨76, _⟩ => ⟨S128x128, .f32⟩
  | .local _ .vmem, ⟨77, _⟩ => ⟨S128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S128x128, .f32⟩
  | .local _ .vmem, ⟨85, _⟩ => ⟨S128, .f32⟩
  | .local _ .vmem, ⟨86, _⟩ => ⟨S5000x128, .f32⟩
  | .local _ .vmem, ⟨87, _⟩ => ⟨S5000x128, .f32⟩
  | .local _ .vmem, ⟨88, _⟩ => ⟨S1x128, .f32⟩
  | .local _ .vmem, ⟨89, _⟩ => ⟨S1x128, .f32⟩
  | .local _ .vmem, ⟨90, _⟩ => ⟨S5000x128, .f32⟩
  | .local _ .vmem, ⟨91, _⟩ => ⟨S5000x128, .f32⟩
  | .local _ .vmem, ⟨92, _⟩ => ⟨S1x128, .f32⟩
  | .local _ .vmem, ⟨93, _⟩ => ⟨S1x128, .f32⟩
  | .local _ .vmem, ⟨94, _⟩ => ⟨S128, .f32⟩
  | .local _ .vmem, ⟨95, _⟩ => ⟨S128, .f32⟩
  | .local _ .vmem, ⟨96, _⟩ => ⟨S128x128, .f32⟩
  | .local _ .vmem, ⟨97, _⟩ => ⟨S128, .f32⟩
  | .local _ .vmem, ⟨98, _⟩ => ⟨S5000x128, .f32⟩
  | .local _ .vmem, ⟨99, _⟩ => ⟨S5000x128, .f32⟩
  | .local _ .vmem, ⟨100, _⟩ => ⟨S512x128, .f32⟩
  | .local _ .vmem, ⟨101, _⟩ => ⟨S128x128, .f32⟩
  | .local _ .vmem, ⟨102, _⟩ => ⟨S128, .f32⟩
  | .local _ .vmem, ⟨103, _⟩ => ⟨S128x10, .f32⟩
  | .local _ .vmem, ⟨104, _⟩ => ⟨S10, .f32⟩
  | .local _ .vmem, ⟨105, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_3 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v48_2 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_8 : Ref sig .tc := ⟨.hbm, 91, rfl⟩
abbrev main_v64 : Ref sig .tc := ⟨.hbm, 92, rfl⟩
abbrev main_v65 : Ref sig .tc := ⟨.hbm, 93, rfl⟩
abbrev main_c_9 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78_0 : Ref sig .tc := ⟨.hbm, 108, rfl⟩
abbrev main_v78_1 : Ref sig .tc := ⟨.hbm, 109, rfl⟩
abbrev main_v78_2 : Ref sig .tc := ⟨.hbm, 110, rfl⟩
abbrev main_cst_11 : Ref sig .tc := ⟨.hbm, 111, rfl⟩
abbrev main_v79 : Ref sig .tc := ⟨.hbm, 112, rfl⟩
abbrev main_v80 : Ref sig .tc := ⟨.hbm, 113, rfl⟩
abbrev main_cst_12 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_13 : Ref sig .tc := ⟨.hbm, 128, rfl⟩
abbrev main_v94 : Ref sig .tc := ⟨.hbm, 129, rfl⟩
abbrev main_v95 : Ref sig .tc := ⟨.hbm, 130, rfl⟩
abbrev main_c_14 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_15 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108_0 : Ref sig .tc := ⟨.hbm, 145, rfl⟩
abbrev main_v108_1 : Ref sig .tc := ⟨.hbm, 146, rfl⟩
abbrev main_v108_2 : Ref sig .tc := ⟨.hbm, 147, rfl⟩
abbrev main_cst_16 : Ref sig .tc := ⟨.hbm, 148, rfl⟩
abbrev main_v109 : Ref sig .tc := ⟨.hbm, 149, rfl⟩
abbrev main_v110 : Ref sig .tc := ⟨.hbm, 150, rfl⟩
abbrev main_cst_17 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_18 : Ref sig .tc := ⟨.hbm, 165, rfl⟩
abbrev main_v124 : Ref sig .tc := ⟨.hbm, 166, rfl⟩
abbrev main_v125 : Ref sig .tc := ⟨.hbm, 167, rfl⟩
abbrev main_c_19 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_20 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138_0 : Ref sig .tc := ⟨.hbm, 182, rfl⟩
abbrev main_v138_1 : Ref sig .tc := ⟨.hbm, 183, rfl⟩
abbrev main_v138_2 : Ref sig .tc := ⟨.hbm, 184, rfl⟩
abbrev main_cst_21 : Ref sig .tc := ⟨.hbm, 185, rfl⟩
abbrev main_v139 : Ref sig .tc := ⟨.hbm, 186, rfl⟩
abbrev main_v140 : Ref sig .tc := ⟨.hbm, 187, rfl⟩
abbrev main_cst_22 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_23 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc7_stg7_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg4_1 : Ref sig .tc := ⟨.vmem, 87, rfl⟩
abbrev cc8_stg5_0 : Ref sig .tc := ⟨.vmem, 88, rfl⟩
abbrev cc8_stg6_0 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg2_0 : Ref sig .tc := ⟨.vmem, 93, rfl⟩
abbrev cc9_stg3_0 : Ref sig .tc := ⟨.vmem, 94, rfl⟩
abbrev cc9_stg4_0 : Ref sig .tc := ⟨.vmem, 95, rfl⟩
abbrev cc9_stg5_0 : Ref sig .tc := ⟨.vmem, 96, rfl⟩
abbrev cc9_stg6_0 : Ref sig .tc := ⟨.vmem, 97, rfl⟩
abbrev cc9_stg7_0 : Ref sig .tc := ⟨.vmem, 98, rfl⟩
abbrev cc9_stg7_1 : Ref sig .tc := ⟨.vmem, 99, rfl⟩
abbrev cc10_stg0_0 : Ref sig .tc := ⟨.vmem, 100, rfl⟩
abbrev cc10_stg1_0 : Ref sig .tc := ⟨.vmem, 101, rfl⟩
abbrev cc10_stg2_0 : Ref sig .tc := ⟨.vmem, 102, rfl⟩
abbrev cc10_stg3_0 : Ref sig .tc := ⟨.vmem, 103, rfl⟩
abbrev cc10_stg4_0 : Ref sig .tc := ⟨.vmem, 104, rfl⟩
abbrev cc10_stg5_0 : Ref sig .tc := ⟨.vmem, 105, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem6_0 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem7_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem4_1 : DmaSem sig := 87
abbrev cc8_sem5_0 : DmaSem sig := 88
abbrev cc8_sem6_0 : DmaSem sig := 89
abbrev cc9_sem0_0 : DmaSem sig := 90
abbrev cc9_sem0_1 : DmaSem sig := 91
abbrev cc9_sem1_0 : DmaSem sig := 92
abbrev cc9_sem2_0 : DmaSem sig := 93
abbrev cc9_sem3_0 : DmaSem sig := 94
abbrev cc9_sem4_0 : DmaSem sig := 95
abbrev cc9_sem5_0 : DmaSem sig := 96
abbrev cc9_sem6_0 : DmaSem sig := 97
abbrev cc9_sem7_0 : DmaSem sig := 98
abbrev cc9_sem7_1 : DmaSem sig := 99
abbrev cc10_sem0_0 : DmaSem sig := 100
abbrev cc10_sem1_0 : DmaSem sig := 101
abbrev cc10_sem2_0 : DmaSem sig := 102
abbrev cc10_sem3_0 : DmaSem sig := 103
abbrev cc10_sem4_0 : DmaSem sig := 104
abbrev cc10_sem5_0 : DmaSem sig := 105

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S512x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x10 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S10 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512x10 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  shapeCasts_S1x128_S1x128 : S1x128.ShapeCasts S1x128
  reduces_S5000x128_S128 : S5000x128.Reduces [0] S128
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128.size a ≤ S128.size a
  hwx7_6 : ∀ i : grid7.Coords, EltTy.bits .f32 = 32 ∨ (Rect.block (s := S128) S128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S100000x128.size a
  hwx7_7 : ∀ i : grid7.Coords, EltTy.bits .f32 = 32 ∨ (Rect.block (s := S100000x128) S5000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128.size a ≤ S128.size a
  hwx9_4 : ∀ i : grid9.Coords, EltTy.bits .f32 = 32 ∨ (Rect.block (s := S128) S128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S128.size a ≤ S128.size a
  hwx9_6 : ∀ i : grid9.Coords, EltTy.bits .f32 = 32 ∨ (Rect.block (s := S128) S128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S100000x128.size a
  hwx9_7 : ∀ i : grid9.Coords, EltTy.bits .f32 = 32 ∨ (Rect.block (s := S100000x128) S5000x128.size (cc9_transform_7 i) (hinb9_7 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S512x128.size a ≤ S512x128.size a
  hwx10_0 : ∀ i : grid10.Coords, EltTy.bits .f32 = 32 ∨ (Rect.block (s := S512x128) S512x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128.size a ≤ S128.size a
  hwx10_2 : ∀ i : grid10.Coords, EltTy.bits .f32 = 32 ∨ (Rect.block (s := S128) S128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x10.size a ≤ S128x10.size a
  hwx10_3 : ∀ i : grid10.Coords, EltTy.bits .f32 = 32 ∨ (Rect.block (s := S128x10) S128x10.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S10.size a ≤ S10.size a
  hwx10_4 : ∀ i : grid10.Coords, EltTy.bits .f32 = 32 ∨ (Rect.block (s := S10) S10.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x10.size a ≤ S512x10.size a
  hwx10_5 : ∀ i : grid10.Coords, EltTy.bits .f32 = 32 ∨ (Rect.block (s := S512x10) S512x10.size (cc10_transform_5 i) (hinb10_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v48_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v78_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v78_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v93) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v93) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v103) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v107) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v108_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v108_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v108_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v108_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v114) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v116) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v118) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v120) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v122) S128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v123) S5000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v123) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v135) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v137) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v138_0) S5000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v138_1) S1x128.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v138_2) S1x128.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v138_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v140) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v144) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v146) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v148) S128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v150) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v152) S128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v153) S5000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v156) S512x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg9) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg10) S128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg11) S128x10.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg12) S10.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v157) S512x10.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩

abbrev nBuf : Space → Nat
  | .hbm => 452
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S5x128x128, .f32⟩
  | 4 => ⟨S5x128, .f32⟩
  | 5 => ⟨S5x128, .f32⟩
  | 6 => ⟨S5x128, .f32⟩
  | 7 => ⟨S5x128x128, .f32⟩
  | 8 => ⟨S5x128, .f32⟩
  | 9 => ⟨S128x128, .f32⟩
  | 10 => ⟨S128, .f32⟩
  | 11 => ⟨S128x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x128, .f32⟩
  | 115 => ⟨S1x128x128, .f32⟩
  | 116 => ⟨S128x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S128, .f32⟩
  | 125 => ⟨S1x128, .f32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S128, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S1x128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S100000x128, .f32⟩
  | 96 => ⟨S100000x128, .f32⟩
  | 97 => ⟨S100000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S128, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S100000x128, .f32⟩
  | 52 => ⟨S100000x128, .f32⟩
  | 53 => ⟨S100000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S128, .f32⟩
  | 121 => ⟨S1x128, .f32⟩
  | 122 => ⟨S128, .f32⟩
  | 123 => ⟨S_, .f32⟩
  | 124 => ⟨S128, .f32⟩
  | 125 => ⟨S_, .f32⟩
  | 126 => ⟨S128, .f32⟩
  | 127 => ⟨S128, .f32⟩
  | _ => ⟨S100000x128, .f32⟩

abbrev hbmTy0_3 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S100000x128, .f32⟩
  | 8 => ⟨S100000x128, .f32⟩
  | 9 => ⟨S100000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S512x128, .f32⟩
  | 55 => ⟨S100000x1, .i32⟩
  | 56 => ⟨S512x128, .f32⟩
  | 57 => ⟨S512x128, .f32⟩
  | 58 => ⟨S1x128, .f32⟩
  | 59 => ⟨S512x128, .f32⟩
  | 60 => ⟨S512x128, .f32⟩
  | 61 => ⟨S_, .f32⟩
  | 62 => ⟨S512x128, .f32⟩
  | 63 => ⟨S512x128, .f32⟩
  | 64 => ⟨S512x10, .f32⟩
  | 65 => ⟨S1x10, .f32⟩
  | 66 => ⟨S512x10, .f32⟩
  | 67 => ⟨S512x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call2_cst : Ref sig .tc := ⟨.hbm, 98, rfl⟩
abbrev main_call2_v0 : Ref sig .tc := ⟨.hbm, 99, rfl⟩
abbrev main_v55 : Ref sig .tc := ⟨.hbm, 100, rfl⟩
abbrev main_c_5 : Ref sig .tc := ⟨.hbm, 101, rfl⟩
abbrev main_v56 : Ref sig .tc := ⟨.hbm, 102, rfl⟩
abbrev main_v57 : Ref sig .tc := ⟨.hbm, 103, rfl⟩
abbrev main_c_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_7 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_8 : Ref sig .tc := ⟨.hbm, 127, rfl⟩
abbrev main_v79 : Ref sig .tc := ⟨.hbm, 128, rfl⟩
abbrev main_cst_9 : Ref sig .tc := ⟨.hbm, 129, rfl⟩
abbrev main_v80 : Ref sig .tc := ⟨.hbm, 130, rfl⟩
abbrev main_v81 : Ref sig .tc := ⟨.hbm, 131, rfl⟩
abbrev main_c_10 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_cst_3 : Ref sig .tc := ⟨.hbm, 149, rfl⟩
abbrev main_call3_v12 : Ref sig .tc := ⟨.hbm, 150, rfl⟩
abbrev main_call3_cst_4 : Ref sig .tc := ⟨.hbm, 151, rfl⟩
abbrev main_call3_call0_v0 : Ref sig .tc := ⟨.hbm, 152, rfl⟩
abbrev main_call3_call0_v1 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_11 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_call4_cst : Ref sig .tc := ⟨.hbm, 171, rfl⟩
abbrev main_call4_v0 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_call5_cst : Ref sig .tc := ⟨.hbm, 182, rfl⟩
abbrev main_call5_v0 : Ref sig .tc := ⟨.hbm, 183, rfl⟩
abbrev main_v107 : Ref sig .tc := ⟨.hbm, 184, rfl⟩
abbrev main_c_12 : Ref sig .tc := ⟨.hbm, 185, rfl⟩
abbrev main_v108 : Ref sig .tc := ⟨.hbm, 186, rfl⟩
abbrev main_v109 : Ref sig .tc := ⟨.hbm, 187, rfl⟩
abbrev main_c_13 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_14 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_cst_15 : Ref sig .tc := ⟨.hbm, 211, rfl⟩
abbrev main_v131 : Ref sig .tc := ⟨.hbm, 212, rfl⟩
abbrev main_cst_16 : Ref sig .tc := ⟨.hbm, 213, rfl⟩
abbrev main_v132 : Ref sig .tc := ⟨.hbm, 214, rfl⟩
abbrev main_v133 : Ref sig .tc := ⟨.hbm, 215, rfl⟩
abbrev main_c_17 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_cst_3 : Ref sig .tc := ⟨.hbm, 233, rfl⟩
abbrev main_call6_v12 : Ref sig .tc := ⟨.hbm, 234, rfl⟩
abbrev main_call6_cst_4 : Ref sig .tc := ⟨.hbm, 235, rfl⟩
abbrev main_call6_call0_v0 : Ref sig .tc := ⟨.hbm, 236, rfl⟩
abbrev main_call6_call0_v1 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_cst_18 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_call7_cst : Ref sig .tc := ⟨.hbm, 255, rfl⟩
abbrev main_call7_v0 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_call8_cst : Ref sig .tc := ⟨.hbm, 266, rfl⟩
abbrev main_call8_v0 : Ref sig .tc := ⟨.hbm, 267, rfl⟩
abbrev main_v159 : Ref sig .tc := ⟨.hbm, 268, rfl⟩
abbrev main_c_19 : Ref sig .tc := ⟨.hbm, 269, rfl⟩
abbrev main_v160 : Ref sig .tc := ⟨.hbm, 270, rfl⟩
abbrev main_v161 : Ref sig .tc := ⟨.hbm, 271, rfl⟩
abbrev main_c_20 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_21 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_cst_22 : Ref sig .tc := ⟨.hbm, 295, rfl⟩
abbrev main_v183 : Ref sig .tc := ⟨.hbm, 296, rfl⟩
abbrev main_cst_23 : Ref sig .tc := ⟨.hbm, 297, rfl⟩
abbrev main_v184 : Ref sig .tc := ⟨.hbm, 298, rfl⟩
abbrev main_v185 : Ref sig .tc := ⟨.hbm, 299, rfl⟩
abbrev main_c_24 : Ref sig .tc := ⟨.hbm, 300, rfl⟩
abbrev main_call9_cst : Ref sig .tc := ⟨.hbm, 301, rfl⟩
abbrev main_call9_v0 : Ref sig .tc := ⟨.hbm, 302, rfl⟩
abbrev main_call9_v1 : Ref sig .tc := ⟨.hbm, 303, rfl⟩
abbrev main_call9_cst_0 : Ref sig .tc := ⟨.hbm, 304, rfl⟩
abbrev main_call9_v2 : Ref sig .tc := ⟨.hbm, 305, rfl⟩
abbrev main_call9_v3 : Ref sig .tc := ⟨.hbm, 306, rfl⟩
abbrev main_call9_v4 : Ref sig .tc := ⟨.hbm, 307, rfl⟩
abbrev main_call9_v5 : Ref sig .tc := ⟨.hbm, 308, rfl⟩
abbrev main_call9_v6 : Ref sig .tc := ⟨.hbm, 309, rfl⟩
abbrev main_call9_v7 : Ref sig .tc := ⟨.hbm, 310, rfl⟩
abbrev main_call9_cst_1 : Ref sig .tc := ⟨.hbm, 311, rfl⟩
abbrev main_call9_v8 : Ref sig .tc := ⟨.hbm, 312, rfl⟩
abbrev main_call9_cst_2 : Ref sig .tc := ⟨.hbm, 313, rfl⟩
abbrev main_call9_v9 : Ref sig .tc := ⟨.hbm, 314, rfl⟩
abbrev main_call9_v10 : Ref sig .tc := ⟨.hbm, 315, rfl⟩
abbrev main_call9_v11 : Ref sig .tc := ⟨.hbm, 316, rfl⟩
abbrev main_call9_cst_3 : Ref sig .tc := ⟨.hbm, 317, rfl⟩
abbrev main_call9_v12 : Ref sig .tc := ⟨.hbm, 318, rfl⟩
abbrev main_call9_cst_4 : Ref sig .tc := ⟨.hbm, 319, rfl⟩
abbrev main_call9_call0_v0 : Ref sig .tc := ⟨.hbm, 320, rfl⟩
abbrev main_call9_call0_v1 : Ref sig .tc := ⟨.hbm, 321, rfl⟩
abbrev main_v186 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_v192 : Ref sig .tc := ⟨.hbm, 328, rfl⟩
abbrev main_cst_25 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_v196 : Ref sig .tc := ⟨.hbm, 333, rfl⟩
abbrev main_v197 : Ref sig .tc := ⟨.hbm, 334, rfl⟩
abbrev main_v198 : Ref sig .tc := ⟨.hbm, 335, rfl⟩
abbrev main_v199 : Ref sig .tc := ⟨.hbm, 336, rfl⟩
abbrev main_v200 : Ref sig .tc := ⟨.hbm, 337, rfl⟩
abbrev main_v201 : Ref sig .tc := ⟨.hbm, 338, rfl⟩
abbrev main_call10_cst : Ref sig .tc := ⟨.hbm, 339, rfl⟩
abbrev main_call10_v0 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_call11_cst : Ref sig .tc := ⟨.hbm, 350, rfl⟩
abbrev main_call11_v0 : Ref sig .tc := ⟨.hbm, 351, rfl⟩
abbrev main_v211 : Ref sig .tc := ⟨.hbm, 352, rfl⟩
abbrev main_c_26 : Ref sig .tc := ⟨.hbm, 353, rfl⟩
abbrev main_v212 : Ref sig .tc := ⟨.hbm, 354, rfl⟩
abbrev main_v213 : Ref sig .tc := ⟨.hbm, 355, rfl⟩
abbrev main_c_27 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_cst_28 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_cst_29 : Ref sig .tc := ⟨.hbm, 379, rfl⟩
abbrev main_v235 : Ref sig .tc := ⟨.hbm, 380, rfl⟩
abbrev main_cst_30 : Ref sig .tc := ⟨.hbm, 381, rfl⟩
abbrev main_v236 : Ref sig .tc := ⟨.hbm, 382, rfl⟩
abbrev main_v237 : Ref sig .tc := ⟨.hbm, 383, rfl⟩
abbrev main_c_31 : Ref sig .tc := ⟨.hbm, 384, rfl⟩
abbrev main_call12_cst : Ref sig .tc := ⟨.hbm, 385, rfl⟩
abbrev main_call12_v0 : Ref sig .tc := ⟨.hbm, 386, rfl⟩
abbrev main_call12_v1 : Ref sig .tc := ⟨.hbm, 387, rfl⟩
abbrev main_call12_cst_0 : Ref sig .tc := ⟨.hbm, 388, rfl⟩
abbrev main_call12_v2 : Ref sig .tc := ⟨.hbm, 389, rfl⟩
abbrev main_call12_v3 : Ref sig .tc := ⟨.hbm, 390, rfl⟩
abbrev main_call12_v4 : Ref sig .tc := ⟨.hbm, 391, rfl⟩
abbrev main_call12_v5 : Ref sig .tc := ⟨.hbm, 392, rfl⟩
abbrev main_call12_v6 : Ref sig .tc := ⟨.hbm, 393, rfl⟩
abbrev main_call12_v7 : Ref sig .tc := ⟨.hbm, 394, rfl⟩
abbrev main_call12_cst_1 : Ref sig .tc := ⟨.hbm, 395, rfl⟩
abbrev main_call12_v8 : Ref sig .tc := ⟨.hbm, 396, rfl⟩
abbrev main_call12_cst_2 : Ref sig .tc := ⟨.hbm, 397, rfl⟩
abbrev main_call12_v9 : Ref sig .tc := ⟨.hbm, 398, rfl⟩
abbrev main_call12_v10 : Ref sig .tc := ⟨.hbm, 399, rfl⟩
abbrev main_call12_v11 : Ref sig .tc := ⟨.hbm, 400, rfl⟩
abbrev main_call12_cst_3 : Ref sig .tc := ⟨.hbm, 401, rfl⟩
abbrev main_call12_v12 : Ref sig .tc := ⟨.hbm, 402, rfl⟩
abbrev main_call12_cst_4 : Ref sig .tc := ⟨.hbm, 403, rfl⟩
abbrev main_call12_call0_v0 : Ref sig .tc := ⟨.hbm, 404, rfl⟩
abbrev main_call12_call0_v1 : Ref sig .tc := ⟨.hbm, 405, rfl⟩
abbrev main_v238 : Ref sig .tc := ⟨.hbm, 406, rfl⟩
abbrev main_v239 : Ref sig .tc := ⟨.hbm, 407, rfl⟩
abbrev main_v240 : Ref sig .tc := ⟨.hbm, 408, rfl⟩
abbrev main_v241 : Ref sig .tc := ⟨.hbm, 409, rfl⟩
abbrev main_v242 : Ref sig .tc := ⟨.hbm, 410, rfl⟩
abbrev main_v243 : Ref sig .tc := ⟨.hbm, 411, rfl⟩
abbrev main_v244 : Ref sig .tc := ⟨.hbm, 412, rfl⟩
abbrev main_cst_32 : Ref sig .tc := ⟨.hbm, 413, rfl⟩
abbrev main_v245 : Ref sig .tc := ⟨.hbm, 414, rfl⟩
abbrev main_v246 : Ref sig .tc := ⟨.hbm, 415, rfl⟩
abbrev main_v247 : Ref sig .tc := ⟨.hbm, 416, rfl⟩
abbrev main_v248 : Ref sig .tc := ⟨.hbm, 417, rfl⟩
abbrev main_v249 : Ref sig .tc := ⟨.hbm, 418, rfl⟩
abbrev main_v250 : Ref sig .tc := ⟨.hbm, 419, rfl⟩
abbrev main_v251 : Ref sig .tc := ⟨.hbm, 420, rfl⟩
abbrev main_v252 : Ref sig .tc := ⟨.hbm, 421, rfl⟩
abbrev main_v253 : Ref sig .tc := ⟨.hbm, 422, rfl⟩
abbrev main_call13_cst : Ref sig .tc := ⟨.hbm, 423, rfl⟩
abbrev main_call13_v0 : Ref sig .tc := ⟨.hbm, 424, rfl⟩
abbrev main_v254 : Ref sig .tc := ⟨.hbm, 425, rfl⟩
abbrev main_v255 : Ref sig .tc := ⟨.hbm, 426, rfl⟩
abbrev main_v256 : Ref sig .tc := ⟨.hbm, 427, rfl⟩
abbrev main_v257 : Ref sig .tc := ⟨.hbm, 428, rfl⟩
abbrev main_v258 : Ref sig .tc := ⟨.hbm, 429, rfl⟩
abbrev main_v259 : Ref sig .tc := ⟨.hbm, 430, rfl⟩
abbrev main_v260 : Ref sig .tc := ⟨.hbm, 431, rfl⟩
abbrev main_v261 : Ref sig .tc := ⟨.hbm, 432, rfl⟩
abbrev main_v262 : Ref sig .tc := ⟨.hbm, 433, rfl⟩
abbrev main_call14_cst : Ref sig .tc := ⟨.hbm, 434, rfl⟩
abbrev main_call14_v0 : Ref sig .tc := ⟨.hbm, 435, rfl⟩
abbrev main_v263 : Ref sig .tc := ⟨.hbm, 436, rfl⟩
abbrev main_cst_33 : Ref sig .tc := ⟨.hbm, 437, rfl⟩
abbrev main_v264 : Ref sig .tc := ⟨.hbm, 438, rfl⟩
abbrev main_v265 : Ref sig .tc := ⟨.hbm, 439, rfl⟩
abbrev main_v266 : Ref sig .tc := ⟨.hbm, 440, rfl⟩
abbrev main_v267 : Ref sig .tc := ⟨.hbm, 441, rfl⟩
abbrev main_v268 : Ref sig .tc := ⟨.hbm, 442, rfl⟩
abbrev main_v269 : Ref sig .tc := ⟨.hbm, 443, rfl⟩
abbrev main_v270 : Ref sig .tc := ⟨.hbm, 444, rfl⟩
abbrev main_call15_cst : Ref sig .tc := ⟨.hbm, 445, rfl⟩
abbrev main_call15_v0 : Ref sig .tc := ⟨.hbm, 446, rfl⟩
abbrev main_v271 : Ref sig .tc := ⟨.hbm, 447, rfl⟩
abbrev main_v272 : Ref sig .tc := ⟨.hbm, 448, rfl⟩
abbrev main_v273 : Ref sig .tc := ⟨.hbm, 449, rfl⟩
abbrev main_v274 : Ref sig .tc := ⟨.hbm, 450, rfl⟩
abbrev main_v275 : Ref sig .tc := ⟨.hbm, 451, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRunV.lean ====
/-
  The kernel program's run with its result named. The program is eleven regions among stretches of host
  operations; its buffer contents at the last boundary are the fold `W22` of the generated frame module. Every weakly
  fair execution from a memory with zero counters terminates without a fault, the result array `main_v157`
  (the graph-level logits, 512 x 10) ends at `W22` read at that array, and the thirteen argument arrays end as launched.
  The result array is the head region's one output window, so `W22` there is what that region's write-backs leave.
-/
import proofs.«164329_j2903397892177_1_alg».proof.Proof.Gen.KernelIdeal.Frame

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the TensorCores, from the memory `m` with zero counters, terminates
    without a fault; in every final state the result array holds the last boundary's contents `W22` at that array, and
    each of the thirteen argument arrays holds what it held at launch. -/
theorem run_value : θ_run defs (onTc (τ := τ) (main (F := F))) ⟨m, fun _ => 0, ρ⟩ (fun r => ∀ c : Dev nD,
      r.2.mem ((c.tc : Thread nD τ).loc main_v157) = W22 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v157 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c)⟩)

/-- The result array is the array of the head region's window 5, its one output: the last boundary's contents there are
    what that region's write-backs leave of it, the array of window 5 after the region's single grid point, read from
    the region's entry contents `V21`. -/
theorem result_eq (c : Dev nD) :
    W22 m ρ c (Proc.devRef .tc main_v157) = (dat10 (V21 m ρ) c).arrAt 5 cfg10.N :=
  W22_arr m ρ c 5

end Cert.KernelIdeal.RunV

end
-- ==== Proof.RefRunOps.lean ====
/-
  The reference network as one straight line of whole-array operations.

  The program is 439 operations: four that cut the edge list into its source row and its destination row; five
  layers of 84 operations each (wrap negative source rows, gather the source rows, add each into its destination row
  from zeros, add the node's own row, multiply by the first weight matrix and add its bias, take the column means and
  the column variances of the result over its 100000 rows, normalise, scale and shift, take the maximum with zero,
  multiply by the second weight matrix, add its bias, take the maximum with zero); and fifteen that add each node's row
  into its graph's row and apply the two dense maps of the head.  Where the program calls a function (the variance,
  its guarded select, the maximum with zero) the function's operations stand in the call's place, over the buffers of
  that call.  The line is cut into eleven stretches, at the ends of the layers and at the places where the program's
  text is cut, so that each layer and each piece of the text is a concatenation of whole stretches.
-/
import proofs.«164329_j2903397892177_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

/-- Operations 1 … 4 of 439 (the two rows of the edge list). -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Operations 5 … 83 of 439 (layer 0). -/
abbrev seg1 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    unary main_arg3 main_v15 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v18 ((extractStridedSlice S1x128 ![0, 0] · slices_S5x128_S1x128_0_0) : (⟨S5x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v17 main_v21 main_v22 (addf : (⟨S100000x128, .f32⟩ : BufTy).Contents (Elt F) → (⟨S100000x128, .f32⟩ : BufTy).Contents (Elt F) → (⟨S100000x128, .f32⟩ : BufTy).Contents (Elt F)),
    unary main_arg5 main_v23 ((extractStridedSlice S1x128 ![0, 0] · slices_S5x128_S1x128_0_0) : (⟨S5x128, .f32⟩ : BufTy).Contents (Elt F) → (⟨S1x128, .f32⟩ : BufTy).Contents (Elt F)),
    reshape main_v23 main_v24 rfl shapeCasts_S1x128_S128,
    unary main_arg6 main_v25 ((extractStridedSlice S1x128 ![0, 0] · slices_S5x128_S1x128_0_0) : (⟨S5x128, .f32⟩ : BufTy).Contents (Elt F) → (⟨S1x128, .f32⟩ : BufTy).Contents (Elt F)),
    reshape main_v25 main_v26 rfl shapeCasts_S1x128_S128,
    nullary main_cst_1 (constant S_ .f32 0x00000000#32),
    binary main_v22 main_cst_1 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v28 (broadcastInDim S128 ![] bcast_S_S128 : (⟨S_, .f32⟩ : BufTy).Contents (Elt F) → (⟨S128, .f32⟩ : BufTy).Contents (Elt F)),
    binary main_v27 main_v28 main_v29 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary (TRef.of (T := ⟨S_, .f32⟩) main_call0_cst) (constant S_ .f32 0x00000000#32),
    TRef.binary (TRef.of (T := ⟨S100000x128, .f32⟩) main_v22) (TRef.of (T := ⟨S_, .f32⟩) main_call0_cst) (TRef.of (T := ⟨S128, .f32⟩) main_call0_v0) (fun x v => Host.reduceAdd x v reducesTo_S100000x128_S128_d0 h_S_),
    TRef.unary (TRef.of (T := ⟨S128, .f32⟩) main_call0_v0) (TRef.of (T := ⟨S1x128, .f32⟩) main_call0_v1) (broadcastInDim S1x128 ![1] bcast_S128_S1x128_1),
    TRef.nullary (TRef.of (T := ⟨S_, .f32⟩) main_call0_cst_0) (constant S_ .f32 0x47C35000#32),
    TRef.unary (TRef.of (T := ⟨S_, .f32⟩) main_call0_cst_0) (TRef.of (T := ⟨S1x128, .f32⟩) main_call0_v2) (broadcastInDim S1x128 ![] bcast_S_S1x128),
    TRef.binary (TRef.of (T := ⟨S1x128, .f32⟩) main_call0_v1) (TRef.of (T := ⟨S1x128, .f32⟩) main_call0_v2) (TRef.of (T := ⟨S1x128, .f32⟩) main_call0_v3) Host.divf,
    TRef.unary (TRef.of (T := ⟨S1x128, .f32⟩) main_call0_v3) (TRef.of (T := ⟨S100000x128, .f32⟩) main_call0_v4) (broadcastInDim S100000x128 ![0, 1] bcast_S1x128_S100000x128_0_1),
    TRef.binary (TRef.of (T := ⟨S100000x128, .f32⟩) main_v22) (TRef.of (T := ⟨S100000x128, .f32⟩) main_call0_v4) (TRef.of (T := ⟨S100000x128, .f32⟩) main_call0_v5) subf,
    TRef.binary (TRef.of (T := ⟨S100000x128, .f32⟩) main_call0_v5) (TRef.of (T := ⟨S100000x128, .f32⟩) main_call0_v5) (TRef.of (T := ⟨S100000x128, .f32⟩) main_call0_v6) mulf,
    TRef.unary (TRef.of (T := ⟨S_, .i32⟩) main_c_3) (TRef.of (T := ⟨S_, .f32⟩) main_call0_v7) (sitofp .f32),
    TRef.nullary (TRef.of (T := ⟨S_, .f32⟩) main_call0_cst_1) (constant S_ .f32 0x47C35000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S100000x128, .f32⟩) main_call0_v6) (TRef.of (T := ⟨S_, .f32⟩) main_call0_cst_2) (TRef.of (T := ⟨S128, .f32⟩) main_call0_v9) (fun x v => Host.reduceAdd x v reducesTo_S100000x128_S128_d0 h_S_),
    TRef.unary (TRef.of (T := ⟨S_, .f32⟩) main_call0_v8) (TRef.of (T := ⟨S128, .f32⟩) main_call0_v10) (broadcastInDim S128 ![] bcast_S_S128),
    TRef.binary (TRef.of (T := ⟨S128, .f32⟩) main_call0_v9) (TRef.of (T := ⟨S128, .f32⟩) main_call0_v10) (TRef.of (T := ⟨S128, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S128, .f32⟩) main_call0_call0_v1) (broadcastInDim S128 ![] bcast_S_S128),
    TRef.ternary (TRef.of (T := ⟨S_, .i1⟩) main_call0_v12) (TRef.of (T := ⟨S128, .f32⟩) main_call0_v11) (TRef.of (T := ⟨S128, .f32⟩) main_call0_call0_v1) (TRef.of (T := ⟨S128, .f32⟩) main_v30) (fun p a b => select (broadcastInDim S128 ![] bcast_S_S128 p) a b),
    unary main_v29 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v22 main_v32 main_v33 (subf : (⟨S100000x128, .f32⟩ : BufTy).Contents (Elt F) → (⟨S100000x128, .f32⟩ : BufTy).Contents (Elt F) → (⟨S100000x128, .f32⟩ : BufTy).Contents (Elt F)),
    unary main_v24 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v35 main_v33 main_v36 (mulf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v37 (broadcastInDim S128 ![] bcast_S_S128 : (⟨S_, .f32⟩ : BufTy).Contents (Elt F) → (⟨S128, .f32⟩ : BufTy).Contents (Elt F)),
    binary main_v30 main_v37 main_v38 (addf : (⟨S128, .f32⟩ : BufTy).Contents (Elt F) → (⟨S128, .f32⟩ : BufTy).Contents (Elt F) → (⟨S128, .f32⟩ : BufTy).Contents (Elt F)),
    unary main_v38 main_v39 (Host.rsqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v36 main_v41 main_v42 (mulf : (⟨S100000x128, .f32⟩ : BufTy).Contents (Elt F) → (⟨S100000x128, .f32⟩ : BufTy).Contents (Elt F) → (⟨S100000x128, .f32⟩ : BufTy).Contents (Elt F)),
    unary main_v26 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v45) (TRef.of (T := ⟨S100000x128, .f32⟩) main_call1_v0) (TRef.of (T := ⟨S100000x128, .f32⟩) main_v46) maximumf,
    unary main_arg7 main_v47 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v47 main_v48 rfl shapeCasts_S1x128x128_S128x128,
    binary main_v46 main_v48 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v50 ((extractStridedSlice S1x128 ![0, 0] · slices_S5x128_S1x128_0_0) : (⟨S5x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)) ]

/-- Operations 84 … 88 of 439 (layer 0). -/
abbrev seg2 : List (HloOp τ sig (Elt F)) :=
  [ unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v49 main_v53 main_v54 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v54) (TRef.of (T := ⟨S100000x128, .f32⟩) main_call2_v0) (TRef.of (T := ⟨S100000x128, .f32⟩) main_v55) maximumf ]

/-- Operations 89 … 168 of 439 (layer 1). -/
abbrev seg3 : List (HloOp τ sig (Elt F)) :=
  [ nullary main_c_5 (constantI S_ 32 0#32),
    unary main_c_5 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v55 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v63 (broadcastInDim S100000x128 ![] bcast_S_S100000x128 : (⟨S_, .f32⟩ : BufTy).Contents (Elt F) → (⟨S100000x128, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v55 main_v65 main_v66 (addf : (⟨S100000x128, .f32⟩ : BufTy).Contents (Elt F) → (⟨S100000x128, .f32⟩ : BufTy).Contents (Elt F) → (⟨S100000x128, .f32⟩ : BufTy).Contents (Elt F)),
    unary main_arg3 main_v67 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v67 main_v68 rfl shapeCasts_S1x128x128_S128x128,
    binary main_v66 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v70 ((extractStridedSlice S1x128 ![1, 0] · slices_S5x128_S1x128_1_0) : (⟨S5x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v69 main_v73 main_v74 (addf : (⟨S100000x128, .f32⟩ : BufTy).Contents (Elt F) → (⟨S100000x128, .f32⟩ : BufTy).Contents (Elt F) → (⟨S100000x128, .f32⟩ : BufTy).Contents (Elt F)),
    unary main_arg5 main_v75 ((extractStridedSlice S1x128 ![1, 0] · slices_S5x128_S1x128_1_0) : (⟨S5x128, .f32⟩ : BufTy).Contents (Elt F) → (⟨S1x128, .f32⟩ : BufTy).Contents (Elt F)),
    reshape main_v75 main_v76 rfl shapeCasts_S1x128_S128,
    unary main_arg6 main_v77 ((extractStridedSlice S1x128 ![1, 0] · slices_S5x128_S1x128_1_0) : (⟨S5x128, .f32⟩ : BufTy).Contents (Elt F) → (⟨S1x128, .f32⟩ : BufTy).Contents (Elt F)),
    reshape main_v77 main_v78 rfl shapeCasts_S1x128_S128,
    nullary main_cst_8 (constant S_ .f32 0x00000000#32),
    binary main_v74 main_cst_8 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v80 (broadcastInDim S128 ![] bcast_S_S128 : (⟨S_, .f32⟩ : BufTy).Contents (Elt F) → (⟨S128, .f32⟩ : BufTy).Contents (Elt F)),
    binary main_v79 main_v80 main_v81 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary (TRef.of (T := ⟨S_, .f32⟩) main_call3_cst) (constant S_ .f32 0x00000000#32),
    TRef.binary (TRef.of (T := ⟨S100000x128, .f32⟩) main_v74) (TRef.of (T := ⟨S_, .f32⟩) main_call3_cst) (TRef.of (T := ⟨S128, .f32⟩) main_call3_v0) (fun x v => Host.reduceAdd x v reducesTo_S100000x128_S128_d0 h_S_),
    TRef.unary (TRef.of (T := ⟨S128, .f32⟩) main_call3_v0) (TRef.of (T := ⟨S1x128, .f32⟩) main_call3_v1) (broadcastInDim S1x128 ![1] bcast_S128_S1x128_1),
    TRef.nullary (TRef.of (T := ⟨S_, .f32⟩) main_call3_cst_0) (constant S_ .f32 0x47C35000#32),
    TRef.unary (TRef.of (T := ⟨S_, .f32⟩) main_call3_cst_0) (TRef.of (T := ⟨S1x128, .f32⟩) main_call3_v2) (broadcastInDim S1x128 ![] bcast_S_S1x128),
    TRef.binary (TRef.of (T := ⟨S1x128, .f32⟩) main_call3_v1) (TRef.of (T := ⟨S1x128, .f32⟩) main_call3_v2) (TRef.of (T := ⟨S1x128, .f32⟩) main_call3_v3) Host.divf,
    TRef.unary (TRef.of (T := ⟨S1x128, .f32⟩) main_call3_v3) (TRef.of (T := ⟨S100000x128, .f32⟩) main_call3_v4) (broadcastInDim S100000x128 ![0, 1] bcast_S1x128_S100000x128_0_1),
    TRef.binary (TRef.of (T := ⟨S100000x128, .f32⟩) main_v74) (TRef.of (T := ⟨S100000x128, .f32⟩) main_call3_v4) (TRef.of (T := ⟨S100000x128, .f32⟩) main_call3_v5) subf,
    TRef.binary (TRef.of (T := ⟨S100000x128, .f32⟩) main_call3_v5) (TRef.of (T := ⟨S100000x128, .f32⟩) main_call3_v5) (TRef.of (T := ⟨S100000x128, .f32⟩) main_call3_v6) mulf,
    TRef.unary (TRef.of (T := ⟨S_, .i32⟩) main_c_10) (TRef.of (T := ⟨S_, .f32⟩) main_call3_v7) (sitofp .f32),
    TRef.nullary (TRef.of (T := ⟨S_, .f32⟩) main_call3_cst_1) (constant S_ .f32 0x47C35000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S100000x128, .f32⟩) main_call3_v6) (TRef.of (T := ⟨S_, .f32⟩) main_call3_cst_2) (TRef.of (T := ⟨S128, .f32⟩) main_call3_v9) (fun x v => Host.reduceAdd x v reducesTo_S100000x128_S128_d0 h_S_),
    TRef.unary (TRef.of (T := ⟨S_, .f32⟩) main_call3_v8) (TRef.of (T := ⟨S128, .f32⟩) main_call3_v10) (broadcastInDim S128 ![] bcast_S_S128),
    TRef.binary (TRef.of (T := ⟨S128, .f32⟩) main_call3_v9) (TRef.of (T := ⟨S128, .f32⟩) main_call3_v10) (TRef.of (T := ⟨S128, .f32⟩) main_call3_v11) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v12) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S128, .f32⟩) main_call3_call0_v1) (broadcastInDim S128 ![] bcast_S_S128),
    TRef.ternary (TRef.of (T := ⟨S_, .i1⟩) main_call3_v12) (TRef.of (T := ⟨S128, .f32⟩) main_call3_v11) (TRef.of (T := ⟨S128, .f32⟩) main_call3_call0_v1) (TRef.of (T := ⟨S128, .f32⟩) main_v82) (fun p a b => select (broadcastInDim S128 ![] bcast_S_S128 p) a b),
    unary main_v81 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v74 main_v84 main_v85 (subf : (⟨S100000x128, .f32⟩ : BufTy).Contents (Elt F) → (⟨S100000x128, .f32⟩ : BufTy).Contents (Elt F) → (⟨S100000x128, .f32⟩ : BufTy).Contents (Elt F)),
    unary main_v76 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v87 main_v85 main_v88 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v89 (broadcastInDim S128 ![] bcast_S_S128 : (⟨S_, .f32⟩ : BufTy).Contents (Elt F) → (⟨S128, .f32⟩ : BufTy).Contents (Elt F)),
    binary main_v82 main_v89 main_v90 (addf : (⟨S128, .f32⟩ : BufTy).Contents (Elt F) → (⟨S128, .f32⟩ : BufTy).Contents (Elt F) → (⟨S128, .f32⟩ : BufTy).Contents (Elt F)),
    unary main_v90 main_v91 (Host.rsqrt : (⟨S128, .f32⟩ : BufTy).Contents (Elt F) → (⟨S128, .f32⟩ : BufTy).Contents (Elt F)),
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v88 main_v93 main_v94 (mulf : (⟨S100000x128, .f32⟩ : BufTy).Contents (Elt F) → (⟨S100000x128, .f32⟩ : BufTy).Contents (Elt F) → (⟨S100000x128, .f32⟩ : BufTy).Contents (Elt F)),
    unary main_v78 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v94 main_v96 main_v97 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v97) (TRef.of (T := ⟨S100000x128, .f32⟩) main_call4_v0) (TRef.of (T := ⟨S100000x128, .f32⟩) main_v98) maximumf,
    unary main_arg7 main_v99 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v99 main_v100 rfl shapeCasts_S1x128x128_S128x128,
    binary main_v98 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v102 ((extractStridedSlice S1x128 ![1, 0] · slices_S5x128_S1x128_1_0) : (⟨S5x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)) ]

/-- Operations 169 … 172 of 439 (layer 1). -/
abbrev seg4 : List (HloOp τ sig (Elt F)) :=
  [ binary main_v101 main_v105 main_v106 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v106) (TRef.of (T := ⟨S100000x128, .f32⟩) main_call5_v0) (TRef.of (T := ⟨S100000x128, .f32⟩) main_v107) maximumf ]

/-- Operations 173 … 253 of 439 (layer 2). -/
abbrev seg5 : List (HloOp τ sig (Elt F)) :=
  [ nullary main_c_12 (constantI S_ 32 0#32),
    unary main_c_12 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v107 main_v113 main_v114 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v115 (broadcastInDim S100000x128 ![] bcast_S_S100000x128 : (⟨S_, .f32⟩ : BufTy).Contents (Elt F) → (⟨S100000x128, .f32⟩ : BufTy).Contents (Elt F)),
    unary main_v3 main_v116 (broadcastInDim S1600000x1 ![0] bcast_S1600000_S1600000x1_0 : (⟨S1600000, .i32⟩ : BufTy).Contents (Elt F) → (⟨S1600000x1, .i32⟩ : BufTy).Contents (Elt F)),
    ternary main_v115 main_v116 main_v114 main_v117 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v107 main_v117 main_v118 (addf : (⟨S100000x128, .f32⟩ : BufTy).Contents (Elt F) → (⟨S100000x128, .f32⟩ : BufTy).Contents (Elt F) → (⟨S100000x128, .f32⟩ : BufTy).Contents (Elt F)),
    unary main_arg3 main_v119 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v119 main_v120 rfl shapeCasts_S1x128x128_S128x128,
    binary main_v118 main_v120 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v122 ((extractStridedSlice S1x128 ![2, 0] · slices_S5x128_S1x128_2_0) : (⟨S5x128, .f32⟩ : BufTy).Contents (Elt F) → (⟨S1x128, .f32⟩ : BufTy).Contents (Elt F)),
    reshape main_v122 main_v123 rfl shapeCasts_S1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v121 main_v125 main_v126 (addf : (⟨S100000x128, .f32⟩ : BufTy).Contents (Elt F) → (⟨S100000x128, .f32⟩ : BufTy).Contents (Elt F) → (⟨S100000x128, .f32⟩ : BufTy).Contents (Elt F)),
    unary main_arg5 main_v127 ((extractStridedSlice S1x128 ![2, 0] · slices_S5x128_S1x128_2_0) : (⟨S5x128, .f32⟩ : BufTy).Contents (Elt F) → (⟨S1x128, .f32⟩ : BufTy).Contents (Elt F)),
    reshape main_v127 main_v128 rfl shapeCasts_S1x128_S128,
    unary main_arg6 main_v129 ((extractStridedSlice S1x128 ![2, 0] · slices_S5x128_S1x128_2_0) : (⟨S5x128, .f32⟩ : BufTy).Contents (Elt F) → (⟨S1x128, .f32⟩ : BufTy).Contents (Elt F)),
    reshape main_v129 main_v130 rfl shapeCasts_S1x128_S128,
    nullary main_cst_15 (constant S_ .f32 0x00000000#32),
    binary main_v126 main_cst_15 main_v131 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v132 (broadcastInDim S128 ![] bcast_S_S128 : (⟨S_, .f32⟩ : BufTy).Contents (Elt F) → (⟨S128, .f32⟩ : BufTy).Contents (Elt F)),
    binary main_v131 main_v132 main_v133 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary (TRef.of (T := ⟨S_, .f32⟩) main_call6_cst) (constant S_ .f32 0x00000000#32),
    TRef.binary (TRef.of (T := ⟨S100000x128, .f32⟩) main_v126) (TRef.of (T := ⟨S_, .f32⟩) main_call6_cst) (TRef.of (T := ⟨S128, .f32⟩) main_call6_v0) (fun x v => Host.reduceAdd x v reducesTo_S100000x128_S128_d0 h_S_),
    TRef.unary (TRef.of (T := ⟨S128, .f32⟩) main_call6_v0) (TRef.of (T := ⟨S1x128, .f32⟩) main_call6_v1) (broadcastInDim S1x128 ![1] bcast_S128_S1x128_1),
    TRef.nullary (TRef.of (T := ⟨S_, .f32⟩) main_call6_cst_0) (constant S_ .f32 0x47C35000#32),
    TRef.unary (TRef.of (T := ⟨S_, .f32⟩) main_call6_cst_0) (TRef.of (T := ⟨S1x128, .f32⟩) main_call6_v2) (broadcastInDim S1x128 ![] bcast_S_S1x128),
    TRef.binary (TRef.of (T := ⟨S1x128, .f32⟩) main_call6_v1) (TRef.of (T := ⟨S1x128, .f32⟩) main_call6_v2) (TRef.of (T := ⟨S1x128, .f32⟩) main_call6_v3) Host.divf,
    TRef.unary (TRef.of (T := ⟨S1x128, .f32⟩) main_call6_v3) (TRef.of (T := ⟨S100000x128, .f32⟩) main_call6_v4) (broadcastInDim S100000x128 ![0, 1] bcast_S1x128_S100000x128_0_1),
    TRef.binary (TRef.of (T := ⟨S100000x128, .f32⟩) main_v126) (TRef.of (T := ⟨S100000x128, .f32⟩) main_call6_v4) (TRef.of (T := ⟨S100000x128, .f32⟩) main_call6_v5) subf,
    TRef.binary (TRef.of (T := ⟨S100000x128, .f32⟩) main_call6_v5) (TRef.of (T := ⟨S100000x128, .f32⟩) main_call6_v5) (TRef.of (T := ⟨S100000x128, .f32⟩) main_call6_v6) mulf,
    TRef.unary (TRef.of (T := ⟨S_, .i32⟩) main_c_17) (TRef.of (T := ⟨S_, .f32⟩) main_call6_v7) (sitofp .f32),
    TRef.nullary (TRef.of (T := ⟨S_, .f32⟩) main_call6_cst_1) (constant S_ .f32 0x47C35000#32),
    TRef.binary (TRef.of (T := ⟨S_, .f32⟩) main_call6_cst_1) (TRef.of (T := ⟨S_, .f32⟩) main_call6_v7) (TRef.of (T := ⟨S_, .f32⟩) main_call6_v8) subf,
    TRef.nullary (TRef.of (T := ⟨S_, .f32⟩) main_call6_cst_2) (constant S_ .f32 0x00000000#32),
    TRef.binary (TRef.of (T := ⟨S100000x128, .f32⟩) main_call6_v6) (TRef.of (T := ⟨S_, .f32⟩) main_call6_cst_2) (TRef.of (T := ⟨S128, .f32⟩) main_call6_v9) (fun x v => Host.reduceAdd x v reducesTo_S100000x128_S128_d0 h_S_),
    TRef.unary (TRef.of (T := ⟨S_, .f32⟩) main_call6_v8) (TRef.of (T := ⟨S128, .f32⟩) main_call6_v10) (broadcastInDim S128 ![] bcast_S_S128),
    TRef.binary (TRef.of (T := ⟨S128, .f32⟩) main_call6_v9) (TRef.of (T := ⟨S128, .f32⟩) main_call6_v10) (TRef.of (T := ⟨S128, .f32⟩) main_call6_v11) Host.divf,
    TRef.nullary (TRef.of (T := ⟨S_, .f32⟩) main_call6_cst_3) (constant S_ .f32 0x00000000#32),
    TRef.binary (TRef.of (T := ⟨S_, .f32⟩) main_call6_v8) (TRef.of (T := ⟨S_, .f32⟩) main_call6_cst_3) (TRef.of (T := ⟨S_, .i1⟩) main_call6_v12) (cmpf .ogt),
    TRef.nullary (TRef.of (T := ⟨S_, .f32⟩) main_call6_cst_4) (constant S_ .f32 0x7FC00000#32),
    TRef.unary (TRef.of (T := ⟨S_, .f32⟩) main_call6_cst_4) (TRef.of (T := ⟨S_, .f32⟩) main_call6_call0_v0) id,
    TRef.unary (TRef.of (T := ⟨S_, .f32⟩) main_call6_call0_v0) (TRef.of (T := ⟨S128, .f32⟩) main_call6_call0_v1) (broadcastInDim S128 ![] bcast_S_S128),
    TRef.ternary (TRef.of (T := ⟨S_, .i1⟩) main_call6_v12) (TRef.of (T := ⟨S128, .f32⟩) main_call6_v11) (TRef.of (T := ⟨S128, .f32⟩) main_call6_call0_v1) (TRef.of (T := ⟨S128, .f32⟩) main_v134) (fun p a b => select (broadcastInDim S128 ![] bcast_S_S128 p) a b),
    unary main_v133 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v126 main_v136 main_v137 (subf : (⟨S100000x128, .f32⟩ : BufTy).Contents (Elt F) → (⟨S100000x128, .f32⟩ : BufTy).Contents (Elt F) → (⟨S100000x128, .f32⟩ : BufTy).Contents (Elt F)),
    unary main_v128 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v139 main_v137 main_v140 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v141 (broadcastInDim S128 ![] bcast_S_S128 : (⟨S_, .f32⟩ : BufTy).Contents (Elt F) → (⟨S128, .f32⟩ : BufTy).Contents (Elt F)),
    binary main_v134 main_v141 main_v142 (addf : (⟨S128, .f32⟩ : BufTy).Contents (Elt F) → (⟨S128, .f32⟩ : BufTy).Contents (Elt F) → (⟨S128, .f32⟩ : BufTy).Contents (Elt F)),
    unary main_v142 main_v143 (Host.rsqrt : (⟨S128, .f32⟩ : BufTy).Contents (Elt F) → (⟨S128, .f32⟩ : BufTy).Contents (Elt F)),
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S100000x128 ![0, 1] bcast_S1x128_S100000x128_0_1 : (⟨S1x128, .f32⟩ : BufTy).Contents (Elt F) → (⟨S100000x128, .f32⟩ : BufTy).Contents (Elt F)),
    binary main_v140 main_v145 main_v146 (mulf : (⟨S100000x128, .f32⟩ : BufTy).Contents (Elt F) → (⟨S100000x128, .f32⟩ : BufTy).Contents (Elt F) → (⟨S100000x128, .f32⟩ : BufTy).Contents (Elt F)),
    unary main_v130 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v146 main_v148 main_v149 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v149) (TRef.of (T := ⟨S100000x128, .f32⟩) main_call7_v0) (TRef.of (T := ⟨S100000x128, .f32⟩) main_v150) maximumf,
    unary main_arg7 main_v151 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v151 main_v152 rfl shapeCasts_S1x128x128_S128x128,
    binary main_v150 main_v152 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v154 ((extractStridedSlice S1x128 ![2, 0] · slices_S5x128_S1x128_2_0) : (⟨S5x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S100000x128 ![0, 1] bcast_S1x128_S100000x128_0_1 : (⟨S1x128, .f32⟩ : BufTy).Contents (Elt F) → (⟨S100000x128, .f32⟩ : BufTy).Contents (Elt F)),
    binary main_v153 main_v157 main_v158 (addf : (⟨S100000x128, .f32⟩ : BufTy).Contents (Elt F) → (⟨S100000x128, .f32⟩ : BufTy).Contents (Elt F) → (⟨S100000x128, .f32⟩ : BufTy).Contents (Elt F)) ]

/-- Operations 254 … 256 of 439 (layer 2). -/
abbrev seg6 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v158) (TRef.of (T := ⟨S100000x128, .f32⟩) main_call8_v0) (TRef.of (T := ⟨S100000x128, .f32⟩) main_v159) maximumf ]

/-- Operations 257 … 340 of 439 (layer 3). -/
abbrev seg7 : List (HloOp τ sig (Elt F)) :=
  [ nullary main_c_19 (constantI S_ 32 0#32),
    unary main_c_19 main_v160 (broadcastInDim S1600000 ![] bcast_S_S1600000 : (⟨S_, .i32⟩ : BufTy).Contents (Elt F) → (⟨S1600000, .i32⟩ : BufTy).Contents (Elt F)),
    binary main_v1 main_v160 main_v161 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v162 (broadcastInDim S1600000 ![] bcast_S_S1600000 : (⟨S_, .i32⟩ : BufTy).Contents (Elt F) → (⟨S1600000, .i32⟩ : BufTy).Contents (Elt F)),
    binary main_v1 main_v162 main_v163 (addi : (⟨S1600000, .i32⟩ : BufTy).Contents (Elt F) → (⟨S1600000, .i32⟩ : BufTy).Contents (Elt F) → (⟨S1600000, .i32⟩ : BufTy).Contents (Elt F)),
    ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v164 main_v165 (broadcastInDim S1600000x1 ![0] bcast_S1600000_S1600000x1_0 : (⟨S1600000, .i32⟩ : BufTy).Contents (Elt F) → (⟨S1600000x1, .i32⟩ : BufTy).Contents (Elt F)),
    binary main_v159 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_21 (constant S_ .f32 0x00000000#32),
    unary main_cst_21 main_v167 (broadcastInDim S100000x128 ![] bcast_S_S100000x128 : (⟨S_, .f32⟩ : BufTy).Contents (Elt F) → (⟨S100000x128, .f32⟩ : BufTy).Contents (Elt F)),
    unary main_v3 main_v168 (broadcastInDim S1600000x1 ![0] bcast_S1600000_S1600000x1_0 : (⟨S1600000, .i32⟩ : BufTy).Contents (Elt F) → (⟨S1600000x1, .i32⟩ : BufTy).Contents (Elt F)),
    ternary main_v167 main_v168 main_v166 main_v169 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v159 main_v169 main_v170 (addf : (⟨S100000x128, .f32⟩ : BufTy).Contents (Elt F) → (⟨S100000x128, .f32⟩ : BufTy).Contents (Elt F) → (⟨S100000x128, .f32⟩ : BufTy).Contents (Elt F)),
    unary main_arg3 main_v171 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v171 main_v172 rfl shapeCasts_S1x128x128_S128x128,
    binary main_v170 main_v172 main_v173 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v174 ((extractStridedSlice S1x128 ![3, 0] · slices_S5x128_S1x128_3_0) : (⟨S5x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v173 main_v177 main_v178 (addf : (⟨S100000x128, .f32⟩ : BufTy).Contents (Elt F) → (⟨S100000x128, .f32⟩ : BufTy).Contents (Elt F) → (⟨S100000x128, .f32⟩ : BufTy).Contents (Elt F)),
    unary main_arg5 main_v179 ((extractStridedSlice S1x128 ![3, 0] · slices_S5x128_S1x128_3_0) : (⟨S5x128, .f32⟩ : BufTy).Contents (Elt F) → (⟨S1x128, .f32⟩ : BufTy).Contents (Elt F)),
    reshape main_v179 main_v180 rfl shapeCasts_S1x128_S128,
    unary main_arg6 main_v181 ((extractStridedSlice S1x128 ![3, 0] · slices_S5x128_S1x128_3_0) : (⟨S5x128, .f32⟩ : BufTy).Contents (Elt F) → (⟨S1x128, .f32⟩ : BufTy).Contents (Elt F)),
    reshape main_v181 main_v182 rfl shapeCasts_S1x128_S128,
    nullary main_cst_22 (constant S_ .f32 0x00000000#32),
    binary main_v178 main_cst_22 main_v183 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v184 (broadcastInDim S128 ![] bcast_S_S128 : (⟨S_, .f32⟩ : BufTy).Contents (Elt F) → (⟨S128, .f32⟩ : BufTy).Contents (Elt F)),
    binary main_v183 main_v184 main_v185 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary (TRef.of (T := ⟨S_, .f32⟩) main_call9_cst) (constant S_ .f32 0x00000000#32),
    TRef.binary (TRef.of (T := ⟨S100000x128, .f32⟩) main_v178) (TRef.of (T := ⟨S_, .f32⟩) main_call9_cst) (TRef.of (T := ⟨S128, .f32⟩) main_call9_v0) (fun x v => Host.reduceAdd x v reducesTo_S100000x128_S128_d0 h_S_),
    TRef.unary (TRef.of (T := ⟨S128, .f32⟩) main_call9_v0) (TRef.of (T := ⟨S1x128, .f32⟩) main_call9_v1) (broadcastInDim S1x128 ![1] bcast_S128_S1x128_1),
    TRef.nullary (TRef.of (T := ⟨S_, .f32⟩) main_call9_cst_0) (constant S_ .f32 0x47C35000#32),
    TRef.unary (TRef.of (T := ⟨S_, .f32⟩) main_call9_cst_0) (TRef.of (T := ⟨S1x128, .f32⟩) main_call9_v2) (broadcastInDim S1x128 ![] bcast_S_S1x128),
    TRef.binary (TRef.of (T := ⟨S1x128, .f32⟩) main_call9_v1) (TRef.of (T := ⟨S1x128, .f32⟩) main_call9_v2) (TRef.of (T := ⟨S1x128, .f32⟩) main_call9_v3) Host.divf,
    TRef.unary (TRef.of (T := ⟨S1x128, .f32⟩) main_call9_v3) (TRef.of (T := ⟨S100000x128, .f32⟩) main_call9_v4) (broadcastInDim S100000x128 ![0, 1] bcast_S1x128_S100000x128_0_1),
    TRef.binary (TRef.of (T := ⟨S100000x128, .f32⟩) main_v178) (TRef.of (T := ⟨S100000x128, .f32⟩) main_call9_v4) (TRef.of (T := ⟨S100000x128, .f32⟩) main_call9_v5) subf,
    TRef.binary (TRef.of (T := ⟨S100000x128, .f32⟩) main_call9_v5) (TRef.of (T := ⟨S100000x128, .f32⟩) main_call9_v5) (TRef.of (T := ⟨S100000x128, .f32⟩) main_call9_v6) mulf,
    TRef.unary (TRef.of (T := ⟨S_, .i32⟩) main_c_24) (TRef.of (T := ⟨S_, .f32⟩) main_call9_v7) (sitofp .f32),
    TRef.nullary (TRef.of (T := ⟨S_, .f32⟩) main_call9_cst_1) (constant S_ .f32 0x47C35000#32),
    TRef.binary (TRef.of (T := ⟨S_, .f32⟩) main_call9_cst_1) (TRef.of (T := ⟨S_, .f32⟩) main_call9_v7) (TRef.of (T := ⟨S_, .f32⟩) main_call9_v8) subf,
    TRef.nullary (TRef.of (T := ⟨S_, .f32⟩) main_call9_cst_2) (constant S_ .f32 0x00000000#32),
    TRef.binary (TRef.of (T := ⟨S100000x128, .f32⟩) main_call9_v6) (TRef.of (T := ⟨S_, .f32⟩) main_call9_cst_2) (TRef.of (T := ⟨S128, .f32⟩) main_call9_v9) (fun x v => Host.reduceAdd x v reducesTo_S100000x128_S128_d0 h_S_),
    TRef.unary (TRef.of (T := ⟨S_, .f32⟩) main_call9_v8) (TRef.of (T := ⟨S128, .f32⟩) main_call9_v10) (broadcastInDim S128 ![] bcast_S_S128),
    TRef.binary (TRef.of (T := ⟨S128, .f32⟩) main_call9_v9) (TRef.of (T := ⟨S128, .f32⟩) main_call9_v10) (TRef.of (T := ⟨S128, .f32⟩) main_call9_v11) Host.divf,
    TRef.nullary (TRef.of (T := ⟨S_, .f32⟩) main_call9_cst_3) (constant S_ .f32 0x00000000#32),
    TRef.binary (TRef.of (T := ⟨S_, .f32⟩) main_call9_v8) (TRef.of (T := ⟨S_, .f32⟩) main_call9_cst_3) (TRef.of (T := ⟨S_, .i1⟩) main_call9_v12) (cmpf .ogt),
    TRef.nullary (TRef.of (T := ⟨S_, .f32⟩) main_call9_cst_4) (constant S_ .f32 0x7FC00000#32),
    TRef.unary (TRef.of (T := ⟨S_, .f32⟩) main_call9_cst_4) (TRef.of (T := ⟨S_, .f32⟩) main_call9_call0_v0) id,
    TRef.unary (TRef.of (T := ⟨S_, .f32⟩) main_call9_call0_v0) (TRef.of (T := ⟨S128, .f32⟩) main_call9_call0_v1) (broadcastInDim S128 ![] bcast_S_S128),
    TRef.ternary (TRef.of (T := ⟨S_, .i1⟩) main_call9_v12) (TRef.of (T := ⟨S128, .f32⟩) main_call9_v11) (TRef.of (T := ⟨S128, .f32⟩) main_call9_call0_v1) (TRef.of (T := ⟨S128, .f32⟩) main_v186) (fun p a b => select (broadcastInDim S128 ![] bcast_S_S128 p) a b),
    unary main_v185 main_v187 (broadcastInDim S1x128 ![1] bcast_S128_S1x128_1 : (⟨S128, .f32⟩ : BufTy).Contents (Elt F) → (⟨S1x128, .f32⟩ : BufTy).Contents (Elt F)),
    unary main_v187 main_v188 (broadcastInDim S100000x128 ![0, 1] bcast_S1x128_S100000x128_0_1 : (⟨S1x128, .f32⟩ : BufTy).Contents (Elt F) → (⟨S100000x128, .f32⟩ : BufTy).Contents (Elt F)),
    binary main_v178 main_v188 main_v189 (subf : (⟨S100000x128, .f32⟩ : BufTy).Contents (Elt F) → (⟨S100000x128, .f32⟩ : BufTy).Contents (Elt F) → (⟨S100000x128, .f32⟩ : BufTy).Contents (Elt F)),
    unary main_v180 main_v190 (broadcastInDim S1x128 ![1] bcast_S128_S1x128_1 : (⟨S128, .f32⟩ : BufTy).Contents (Elt F) → (⟨S1x128, .f32⟩ : BufTy).Contents (Elt F)),
    unary main_v190 main_v191 (broadcastInDim S100000x128 ![0, 1] bcast_S1x128_S100000x128_0_1 : (⟨S1x128, .f32⟩ : BufTy).Contents (Elt F) → (⟨S100000x128, .f32⟩ : BufTy).Contents (Elt F)),
    binary main_v191 main_v189 main_v192 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v193 (broadcastInDim S128 ![] bcast_S_S128 : (⟨S_, .f32⟩ : BufTy).Contents (Elt F) → (⟨S128, .f32⟩ : BufTy).Contents (Elt F)),
    binary main_v186 main_v193 main_v194 (addf : (⟨S128, .f32⟩ : BufTy).Contents (Elt F) → (⟨S128, .f32⟩ : BufTy).Contents (Elt F) → (⟨S128, .f32⟩ : BufTy).Contents (Elt F)),
    unary main_v194 main_v195 (Host.rsqrt : (⟨S128, .f32⟩ : BufTy).Contents (Elt F) → (⟨S128, .f32⟩ : BufTy).Contents (Elt F)),
    unary main_v195 main_v196 (broadcastInDim S1x128 ![1] bcast_S128_S1x128_1 : (⟨S128, .f32⟩ : BufTy).Contents (Elt F) → (⟨S1x128, .f32⟩ : BufTy).Contents (Elt F)),
    unary main_v196 main_v197 (broadcastInDim S100000x128 ![0, 1] bcast_S1x128_S100000x128_0_1 : (⟨S1x128, .f32⟩ : BufTy).Contents (Elt F) → (⟨S100000x128, .f32⟩ : BufTy).Contents (Elt F)),
    binary main_v192 main_v197 main_v198 (mulf : (⟨S100000x128, .f32⟩ : BufTy).Contents (Elt F) → (⟨S100000x128, .f32⟩ : BufTy).Contents (Elt F) → (⟨S100000x128, .f32⟩ : BufTy).Contents (Elt F)),
    unary main_v182 main_v199 (broadcastInDim S1x128 ![1] bcast_S128_S1x128_1 : (⟨S128, .f32⟩ : BufTy).Contents (Elt F) → (⟨S1x128, .f32⟩ : BufTy).Contents (Elt F)),
    unary main_v199 main_v200 (broadcastInDim S100000x128 ![0, 1] bcast_S1x128_S100000x128_0_1 : (⟨S1x128, .f32⟩ : BufTy).Contents (Elt F) → (⟨S100000x128, .f32⟩ : BufTy).Contents (Elt F)),
    binary main_v198 main_v200 main_v201 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v201) (TRef.of (T := ⟨S100000x128, .f32⟩) main_call10_v0) (TRef.of (T := ⟨S100000x128, .f32⟩) main_v202) maximumf,
    unary main_arg7 main_v203 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v203 main_v204 rfl shapeCasts_S1x128x128_S128x128,
    binary main_v202 main_v204 main_v205 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v206 ((extractStridedSlice S1x128 ![3, 0] · slices_S5x128_S1x128_3_0) : (⟨S5x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S100000x128 ![0, 1] bcast_S1x128_S100000x128_0_1 : (⟨S1x128, .f32⟩ : BufTy).Contents (Elt F) → (⟨S100000x128, .f32⟩ : BufTy).Contents (Elt F)),
    binary main_v205 main_v209 main_v210 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x128, .f32⟩) main_call11_v0) (broadcastInDim S100000x128 ![] bcast_S_S100000x128),
    TRef.binary (TRef.of (T := ⟨S100000x128, .f32⟩) main_v210) (TRef.of (T := ⟨S100000x128, .f32⟩) main_call11_v0) (TRef.of (T := ⟨S100000x128, .f32⟩) main_v211) maximumf ]

/-- Operations 341 … 424 of 439 (layer 4). -/
abbrev seg8 : List (HloOp τ sig (Elt F)) :=
  [ nullary main_c_26 (constantI S_ 32 0#32),
    unary main_c_26 main_v212 (broadcastInDim S1600000 ![] bcast_S_S1600000 : (⟨S_, .i32⟩ : BufTy).Contents (Elt F) → (⟨S1600000, .i32⟩ : BufTy).Contents (Elt F)),
    binary main_v1 main_v212 main_v213 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v214 (broadcastInDim S1600000 ![] bcast_S_S1600000 : (⟨S_, .i32⟩ : BufTy).Contents (Elt F) → (⟨S1600000, .i32⟩ : BufTy).Contents (Elt F)),
    binary main_v1 main_v214 main_v215 (addi : (⟨S1600000, .i32⟩ : BufTy).Contents (Elt F) → (⟨S1600000, .i32⟩ : BufTy).Contents (Elt F) → (⟨S1600000, .i32⟩ : BufTy).Contents (Elt F)),
    ternary main_v213 main_v215 main_v1 main_v216 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v216 main_v217 (broadcastInDim S1600000x1 ![0] bcast_S1600000_S1600000x1_0 : (⟨S1600000, .i32⟩ : BufTy).Contents (Elt F) → (⟨S1600000x1, .i32⟩ : BufTy).Contents (Elt F)),
    binary main_v211 main_v217 main_v218 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_28 (constant S_ .f32 0x00000000#32),
    unary main_cst_28 main_v219 (broadcastInDim S100000x128 ![] bcast_S_S100000x128 : (⟨S_, .f32⟩ : BufTy).Contents (Elt F) → (⟨S100000x128, .f32⟩ : BufTy).Contents (Elt F)),
    unary main_v3 main_v220 (broadcastInDim S1600000x1 ![0] bcast_S1600000_S1600000x1_0 : (⟨S1600000, .i32⟩ : BufTy).Contents (Elt F) → (⟨S1600000x1, .i32⟩ : BufTy).Contents (Elt F)),
    ternary main_v219 main_v220 main_v218 main_v221 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v211 main_v221 main_v222 (addf : (⟨S100000x128, .f32⟩ : BufTy).Contents (Elt F) → (⟨S100000x128, .f32⟩ : BufTy).Contents (Elt F) → (⟨S100000x128, .f32⟩ : BufTy).Contents (Elt F)),
    unary main_arg3 main_v223 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v223 main_v224 rfl shapeCasts_S1x128x128_S128x128,
    binary main_v222 main_v224 main_v225 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v226 ((extractStridedSlice S1x128 ![4, 0] · slices_S5x128_S1x128_4_0) : (⟨S5x128, .f32⟩ : BufTy).Contents (Elt F) → (⟨S1x128, .f32⟩ : BufTy).Contents (Elt F)),
    reshape main_v226 main_v227 rfl shapeCasts_S1x128_S128,
    unary main_v227 main_v228 (broadcastInDim S1x128 ![1] bcast_S128_S1x128_1 : (⟨S128, .f32⟩ : BufTy).Contents (Elt F) → (⟨S1x128, .f32⟩ : BufTy).Contents (Elt F)),
    unary main_v228 main_v229 (broadcastInDim S100000x128 ![0, 1] bcast_S1x128_S100000x128_0_1 : (⟨S1x128, .f32⟩ : BufTy).Contents (Elt F) → (⟨S100000x128, .f32⟩ : BufTy).Contents (Elt F)),
    binary main_v225 main_v229 main_v230 (addf : (⟨S100000x128, .f32⟩ : BufTy).Contents (Elt F) → (⟨S100000x128, .f32⟩ : BufTy).Contents (Elt F) → (⟨S100000x128, .f32⟩ : BufTy).Contents (Elt F)),
    unary main_arg5 main_v231 ((extractStridedSlice S1x128 ![4, 0] · slices_S5x128_S1x128_4_0) : (⟨S5x128, .f32⟩ : BufTy).Contents (Elt F) → (⟨S1x128, .f32⟩ : BufTy).Contents (Elt F)),
    reshape main_v231 main_v232 rfl shapeCasts_S1x128_S128,
    unary main_arg6 main_v233 ((extractStridedSlice S1x128 ![4, 0] · slices_S5x128_S1x128_4_0) : (⟨S5x128, .f32⟩ : BufTy).Contents (Elt F) → (⟨S1x128, .f32⟩ : BufTy).Contents (Elt F)),
    reshape main_v233 main_v234 rfl shapeCasts_S1x128_S128,
    nullary main_cst_29 (constant S_ .f32 0x00000000#32),
    binary main_v230 main_cst_29 main_v235 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_30 (constant S_ .f32 0x47C35000#32),
    unary main_cst_30 main_v236 (broadcastInDim S128 ![] bcast_S_S128 : (⟨S_, .f32⟩ : BufTy).Contents (Elt F) → (⟨S128, .f32⟩ : BufTy).Contents (Elt F)),
    binary main_v235 main_v236 main_v237 (Host.divf : (⟨S128, .f32⟩ : BufTy).Contents (Elt F) → (⟨S128, .f32⟩ : BufTy).Contents (Elt F) → (⟨S128, .f32⟩ : BufTy).Contents (Elt F)),
    nullary main_c_31 (constantI S_ 32 0#32),
    TRef.nullary (TRef.of (T := ⟨S_, .f32⟩) main_call12_cst) (constant S_ .f32 0x00000000#32),
    TRef.binary (TRef.of (T := ⟨S100000x128, .f32⟩) main_v230) (TRef.of (T := ⟨S_, .f32⟩) main_call12_cst) (TRef.of (T := ⟨S128, .f32⟩) main_call12_v0) (fun x v => Host.reduceAdd x v reducesTo_S100000x128_S128_d0 h_S_),
    TRef.unary (TRef.of (T := ⟨S128, .f32⟩) main_call12_v0) (TRef.of (T := ⟨S1x128, .f32⟩) main_call12_v1) (broadcastInDim S1x128 ![1] bcast_S128_S1x128_1),
    TRef.nullary (TRef.of (T := ⟨S_, .f32⟩) main_call12_cst_0) (constant S_ .f32 0x47C35000#32),
    TRef.unary (TRef.of (T := ⟨S_, .f32⟩) main_call12_cst_0) (TRef.of (T := ⟨S1x128, .f32⟩) main_call12_v2) (broadcastInDim S1x128 ![] bcast_S_S1x128),
    TRef.binary (TRef.of (T := ⟨S1x128, .f32⟩) main_call12_v1) (TRef.of (T := ⟨S1x128, .f32⟩) main_call12_v2) (TRef.of (T := ⟨S1x128, .f32⟩) main_call12_v3) Host.divf,
    TRef.unary (TRef.of (T := ⟨S1x128, .f32⟩) main_call12_v3) (TRef.of (T := ⟨S100000x128, .f32⟩) main_call12_v4) (broadcastInDim S100000x128 ![0, 1] bcast_S1x128_S100000x128_0_1),
    TRef.binary (TRef.of (T := ⟨S100000x128, .f32⟩) main_v230) (TRef.of (T := ⟨S100000x128, .f32⟩) main_call12_v4) (TRef.of (T := ⟨S100000x128, .f32⟩) main_call12_v5) subf,
    TRef.binary (TRef.of (T := ⟨S100000x128, .f32⟩) main_call12_v5) (TRef.of (T := ⟨S100000x128, .f32⟩) main_call12_v5) (TRef.of (T := ⟨S100000x128, .f32⟩) main_call12_v6) mulf,
    TRef.unary (TRef.of (T := ⟨S_, .i32⟩) main_c_31) (TRef.of (T := ⟨S_, .f32⟩) main_call12_v7) (sitofp .f32),
    TRef.nullary (TRef.of (T := ⟨S_, .f32⟩) main_call12_cst_1) (constant S_ .f32 0x47C35000#32),
    TRef.binary (TRef.of (T := ⟨S_, .f32⟩) main_call12_cst_1) (TRef.of (T := ⟨S_, .f32⟩) main_call12_v7) (TRef.of (T := ⟨S_, .f32⟩) main_call12_v8) subf,
    TRef.nullary (TRef.of (T := ⟨S_, .f32⟩) main_call12_cst_2) (constant S_ .f32 0x00000000#32),
    TRef.binary (TRef.of (T := ⟨S100000x128, .f32⟩) main_call12_v6) (TRef.of (T := ⟨S_, .f32⟩) main_call12_cst_2) (TRef.of (T := ⟨S128, .f32⟩) main_call12_v9) (fun x v => Host.reduceAdd x v reducesTo_S100000x128_S128_d0 h_S_),
    TRef.unary (TRef.of (T := ⟨S_, .f32⟩) main_call12_v8) (TRef.of (T := ⟨S128, .f32⟩) main_call12_v10) (broadcastInDim S128 ![] bcast_S_S128),
    TRef.binary (TRef.of (T := ⟨S128, .f32⟩) main_call12_v9) (TRef.of (T := ⟨S128, .f32⟩) main_call12_v10) (TRef.of (T := ⟨S128, .f32⟩) main_call12_v11) Host.divf,
    TRef.nullary (TRef.of (T := ⟨S_, .f32⟩) main_call12_cst_3) (constant S_ .f32 0x00000000#32),
    TRef.binary (TRef.of (T := ⟨S_, .f32⟩) main_call12_v8) (TRef.of (T := ⟨S_, .f32⟩) main_call12_cst_3) (TRef.of (T := ⟨S_, .i1⟩) main_call12_v12) (cmpf .ogt),
    TRef.nullary (TRef.of (T := ⟨S_, .f32⟩) main_call12_cst_4) (constant S_ .f32 0x7FC00000#32),
    TRef.unary (TRef.of (T := ⟨S_, .f32⟩) main_call12_cst_4) (TRef.of (T := ⟨S_, .f32⟩) main_call12_call0_v0) id,
    TRef.unary (TRef.of (T := ⟨S_, .f32⟩) main_call12_call0_v0) (TRef.of (T := ⟨S128, .f32⟩) main_call12_call0_v1) (broadcastInDim S128 ![] bcast_S_S128),
    TRef.ternary (TRef.of (T := ⟨S_, .i1⟩) main_call12_v12) (TRef.of (T := ⟨S128, .f32⟩) main_call12_v11) (TRef.of (T := ⟨S128, .f32⟩) main_call12_call0_v1) (TRef.of (T := ⟨S128, .f32⟩) main_v238) (fun p a b => select (broadcastInDim S128 ![] bcast_S_S128 p) a b),
    unary main_v237 main_v239 (broadcastInDim S1x128 ![1] bcast_S128_S1x128_1 : (⟨S128, .f32⟩ : BufTy).Contents (Elt F) → (⟨S1x128, .f32⟩ : BufTy).Contents (Elt F)),
    unary main_v239 main_v240 (broadcastInDim S100000x128 ![0, 1] bcast_S1x128_S100000x128_0_1 : (⟨S1x128, .f32⟩ : BufTy).Contents (Elt F) → (⟨S100000x128, .f32⟩ : BufTy).Contents (Elt F)),
    binary main_v230 main_v240 main_v241 (subf : (⟨S100000x128, .f32⟩ : BufTy).Contents (Elt F) → (⟨S100000x128, .f32⟩ : BufTy).Contents (Elt F) → (⟨S100000x128, .f32⟩ : BufTy).Contents (Elt F)),
    unary main_v232 main_v242 (broadcastInDim S1x128 ![1] bcast_S128_S1x128_1 : (⟨S128, .f32⟩ : BufTy).Contents (Elt F) → (⟨S1x128, .f32⟩ : BufTy).Contents (Elt F)),
    unary main_v242 main_v243 (broadcastInDim S100000x128 ![0, 1] bcast_S1x128_S100000x128_0_1 : (⟨S1x128, .f32⟩ : BufTy).Contents (Elt F) → (⟨S100000x128, .f32⟩ : BufTy).Contents (Elt F)),
    binary main_v243 main_v241 main_v244 (mulf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x3727C5AC#32),
    unary main_cst_32 main_v245 (broadcastInDim S128 ![] bcast_S_S128 : (⟨S_, .f32⟩ : BufTy).Contents (Elt F) → (⟨S128, .f32⟩ : BufTy).Contents (Elt F)),
    binary main_v238 main_v245 main_v246 (addf : (⟨S128, .f32⟩ : BufTy).Contents (Elt F) → (⟨S128, .f32⟩ : BufTy).Contents (Elt F) → (⟨S128, .f32⟩ : BufTy).Contents (Elt F)),
    unary main_v246 main_v247 (Host.rsqrt : (⟨S128, .f32⟩ : BufTy).Contents (Elt F) → (⟨S128, .f32⟩ : BufTy).Contents (Elt F)),
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S100000x128 ![0, 1] bcast_S1x128_S100000x128_0_1 : (⟨S1x128, .f32⟩ : BufTy).Contents (Elt F) → (⟨S100000x128, .f32⟩ : BufTy).Contents (Elt F)),
    binary main_v244 main_v249 main_v250 (mulf : (⟨S100000x128, .f32⟩ : BufTy).Contents (Elt F) → (⟨S100000x128, .f32⟩ : BufTy).Contents (Elt F) → (⟨S100000x128, .f32⟩ : BufTy).Contents (Elt F)),
    unary main_v234 main_v251 (broadcastInDim S1x128 ![1] bcast_S128_S1x128_1 : (⟨S128, .f32⟩ : BufTy).Contents (Elt F) → (⟨S1x128, .f32⟩ : BufTy).Contents (Elt F)),
    unary main_v251 main_v252 (broadcastInDim S100000x128 ![0, 1] bcast_S1x128_S100000x128_0_1 : (⟨S1x128, .f32⟩ : BufTy).Contents (Elt F) → (⟨S100000x128, .f32⟩ : BufTy).Contents (Elt F)),
    binary main_v250 main_v252 main_v253 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x128, .f32⟩) main_call13_v0) (broadcastInDim S100000x128 ![] bcast_S_S100000x128),
    TRef.binary (TRef.of (T := ⟨S100000x128, .f32⟩) main_v253) (TRef.of (T := ⟨S100000x128, .f32⟩) main_call13_v0) (TRef.of (T := ⟨S100000x128, .f32⟩) main_v254) maximumf,
    unary main_arg7 main_v255 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v255 main_v256 rfl shapeCasts_S1x128x128_S128x128,
    binary main_v254 main_v256 main_v257 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v258 ((extractStridedSlice S1x128 ![4, 0] · slices_S5x128_S1x128_4_0) : (⟨S5x128, .f32⟩ : BufTy).Contents (Elt F) → (⟨S1x128, .f32⟩ : BufTy).Contents (Elt F)),
    reshape main_v258 main_v259 rfl shapeCasts_S1x128_S128,
    unary main_v259 main_v260 (broadcastInDim S1x128 ![1] bcast_S128_S1x128_1 : (⟨S128, .f32⟩ : BufTy).Contents (Elt F) → (⟨S1x128, .f32⟩ : BufTy).Contents (Elt F)),
    unary main_v260 main_v261 (broadcastInDim S100000x128 ![0, 1] bcast_S1x128_S100000x128_0_1 : (⟨S1x128, .f32⟩ : BufTy).Contents (Elt F) → (⟨S100000x128, .f32⟩ : BufTy).Contents (Elt F)),
    binary main_v257 main_v261 main_v262 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x128, .f32⟩) main_call14_v0) (broadcastInDim S100000x128 ![] bcast_S_S100000x128),
    TRef.binary (TRef.of (T := ⟨S100000x128, .f32⟩) main_v262) (TRef.of (T := ⟨S100000x128, .f32⟩) main_call14_v0) (TRef.of (T := ⟨S100000x128, .f32⟩) main_v263) maximumf ]

/-- Operations 425 … 425 of 439 (pooling and head). -/
abbrev seg9 : List (HloOp τ sig (Elt F)) :=
  [ nullary main_cst_33 (constant S_ .f32 0x00000000#32) ]

/-- Operations 426 … 439 of 439 (pooling and head). -/
abbrev seg10 : List (HloOp τ sig (Elt F)) :=
  [ unary main_cst_33 main_v264 (broadcastInDim S512x128 ![] bcast_S_S512x128 : (⟨S_, .f32⟩ : BufTy).Contents (Elt F) → (⟨S512x128, .f32⟩ : BufTy).Contents (Elt F)),
    unary main_arg2 main_v265 (broadcastInDim S100000x1 ![0] bcast_S100000_S100000x1_0 : (⟨S100000, .i32⟩ : BufTy).Contents (Elt F) → (⟨S100000x1, .i32⟩ : BufTy).Contents (Elt F)),
    ternary main_v264 main_v265 main_v263 main_v266 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    binary main_v266 main_arg9 main_v267 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_arg10 main_v268 (broadcastInDim S1x128 ![1] bcast_S128_S1x128_1 : (⟨S128, .f32⟩ : BufTy).Contents (Elt F) → (⟨S1x128, .f32⟩ : BufTy).Contents (Elt F)),
    unary main_v268 main_v269 (broadcastInDim S512x128 ![0, 1] bcast_S1x128_S512x128_0_1 : (⟨S1x128, .f32⟩ : BufTy).Contents (Elt F) → (⟨S512x128, .f32⟩ : BufTy).Contents (Elt F)),
    binary main_v267 main_v269 main_v270 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S512x128, .f32⟩) main_call15_v0) (broadcastInDim S512x128 ![] bcast_S_S512x128),
    TRef.binary (TRef.of (T := ⟨S512x128, .f32⟩) main_v270) (TRef.of (T := ⟨S512x128, .f32⟩) main_call15_v0) (TRef.of (T := ⟨S512x128, .f32⟩) main_v271) maximumf,
    binary main_v271 main_arg11 main_v272 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg12 main_v273 (broadcastInDim S1x10 ![1] bcast_S10_S1x10_1 : (⟨S10, .f32⟩ : BufTy).Contents (Elt F) → (⟨S1x10, .f32⟩ : BufTy).Contents (Elt F)),
    unary main_v273 main_v274 (broadcastInDim S512x10 ![0, 1] bcast_S1x10_S512x10_0_1 : (⟨S1x10, .f32⟩ : BufTy).Contents (Elt F) → (⟨S512x10, .f32⟩ : BufTy).Contents (Elt F)),
    binary main_v272 main_v274 main_v275 (addf : (⟨S512x10, .f32⟩ : BufTy).Contents (Elt F) → (⟨S512x10, .f32⟩ : BufTy).Contents (Elt F) → (⟨S512x10, .f32⟩ : BufTy).Contents (Elt F)) ]

/-- The source row and the destination row of the edge list. -/
abbrev opsP : List (HloOp τ sig (Elt F)) := seg0

/-- Layer 0 of the network. -/
abbrev opsL0 : List (HloOp τ sig (Elt F)) := seg1 ++ (seg2)

/-- Layer 1 of the network. -/
abbrev opsL1 : List (HloOp τ sig (Elt F)) := seg3 ++ (seg4)

/-- Layer 2 of the network. -/
abbrev opsL2 : List (HloOp τ sig (Elt F)) := seg5 ++ (seg6)

/-- Layer 3 of the network. -/
abbrev opsL3 : List (HloOp τ sig (Elt F)) := seg7

/-- Layer 4 of the network. -/
abbrev opsL4 : List (HloOp τ sig (Elt F)) := seg8

/-- The pooling of nodes into graphs and the two dense maps of the head. -/
abbrev opsH : List (HloOp τ sig (Elt F)) := seg9 ++ (seg10)

/-- The whole program, stretch by stretch. -/
abbrev ops : List (HloOp τ sig (Elt F)) := seg0 ++ (seg1 ++ (seg2 ++ (seg3 ++ (seg4 ++ (seg5 ++ (seg6 ++ (seg7 ++ (seg8 ++ (seg9 ++ (seg10))))))))))

/-- The contents after two stretches in a row are the contents after the second, from those after the first. -/
theorem after_app : ∀ (l₁ l₂ : List (HloOp τ sig (Elt F))) (V : Valuation τ sig (Elt F)),
    after (l₁ ++ l₂) V = after l₂ (after l₁ V)
  | [], _, _ => rfl
  | op :: l₁, l₂, V => by
    rw [List.cons_append, after_cons, after_cons]
    exact after_app l₁ l₂ _

end Cert.ReferenceIdeal.RefRun

end
-- ==== Proof.RefRunMain.lean ====
/-
  The printed program is the straight line.

  The program's text is six pieces run one after the other; a piece is a sequence of single operations and of calls of
  the variance function, its guarded select and the maximum with zero.  Unfolding the calls, and re-associating the
  sequencing, each piece is the run of its stretches of the list of operations in order — an equality that holds by
  computation — and so the whole program is the run of the whole list.
-/
import proofs.«164329_j2903397892177_1_alg».proof.Proof.RefRunOps

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- Piece 0 of the program's text runs stretches 0 and 1: its calls unfolded, it is those operations in that order. -/
theorem main_part0_eq (c : Dev nD) : main_part0 (F := F) c = (seq seg0 >>= fun _ => seq seg1) := rfl

set_option maxRecDepth 8192 in
/-- Piece 1 of the program's text runs stretches 2 and 3: its calls unfolded, it is those operations in that order. -/
theorem main_part1_eq (c : Dev nD) : main_part1 (F := F) c = (seq seg2 >>= fun _ => seq seg3) := rfl

set_option maxRecDepth 8192 in
/-- Piece 2 of the program's text runs stretches 4 and 5: its calls unfolded, it is those operations in that order. -/
theorem main_part2_eq (c : Dev nD) : main_part2 (F := F) c = (seq seg4 >>= fun _ => seq seg5) := rfl

set_option maxRecDepth 8192 in
/-- Piece 3 of the program's text runs stretches 6 and 7: its calls unfolded, it is those operations in that order. -/
theorem main_part3_eq (c : Dev nD) : main_part3 (F := F) c = (seq seg6 >>= fun _ => seq seg7) := rfl

set_option maxRecDepth 8192 in
/-- Piece 4 of the program's text runs stretches 8 and 9: its calls unfolded, it is those operations in that order. -/
theorem main_part4_eq (c : Dev nD) : main_part4 (F := F) c = (seq seg8 >>= fun _ => seq seg9) := rfl

set_option maxRecDepth 8192 in
/-- Piece 5 of the program's text runs stretches 10: its calls unfolded, it is those operations in that order. -/
theorem main_part5_eq (c : Dev nD) : main_part5 (F := F) c = seq seg10 := rfl

/-- The whole program is the run of the whole list of operations: piece by piece, then sequencing re-associated. -/
theorem main_eq (c : Dev nD) : main (F := F) c = seq ops := by
  show (main_part0 (F := F) c >>= fun _ => main_part1 (F := F) c >>= fun _ => main_part2 (F := F) c >>= fun _ => main_part3 (F := F) c >>= fun _ => main_part4 (F := F) c >>= fun _ => main_part5 (F := F) c) = _
  rw [main_part0_eq c, main_part1_eq c, main_part2_eq c, main_part3_eq c, main_part4_eq c, main_part5_eq c]
  simp only [ops, seq_append, bind_assoc]

end Cert.ReferenceIdeal.RefRun

end
-- ==== Proof.RefRunSide.lean ====
/-
  The side conditions of running the straight line.

  The machine runs a list of whole-array operations when every operation touches buffers of the TensorCore only and
  none of them allocates a buffer, on a signature none of whose buffers or semaphores is scoped to a region.  Each is
  checked stretch by stretch — an operation's buffers are its operands' and its result's, all literal — and then holds
  of the concatenation.
-/
import proofs.«164329_j2903397892177_1_alg».proof.Proof.RefRunOps

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

/-- No buffer of the signature is scoped to a region. -/
theorem scopedRefs_eq : (Finset.univ.filter fun b : Ref sig .tc => b.isScoped) = ∅ := by decide
/-- No semaphore of the signature is scoped to a region. -/
theorem scopedSems_eq : (Finset.univ.filter fun sm : SemLoc sig => sm.isScoped .tc) = ∅ := by decide

set_option maxRecDepth 8192 in
/-- Every operation of this stretch reads and writes buffers of the TensorCore only. -/
theorem seg0_sub : (seg0 : List (HloOp τ sig (Elt F))).Forall fun op => op.bufs ⊆ tcRefs τ sig :=
  ⟨unary_bufs_sub .., reshape_bufs_sub .., unary_bufs_sub .., reshape_bufs_sub ..⟩

set_option maxRecDepth 8192 in
/-- No operation of this stretch allocates: each determines its results. -/
theorem seg0_fresh : (seg0 : List (HloOp τ sig (Elt F))).Forall fun op => op.fresh = ∅ :=
  ⟨rfl, rfl, rfl, rfl⟩

set_option maxRecDepth 8192 in
/-- Every operation of this stretch reads and writes buffers of the TensorCore only. -/
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩

set_option maxRecDepth 8192 in
/-- No operation of this stretch allocates: each determines its results. -/
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of this stretch reads and writes buffers of the TensorCore only. -/
theorem seg2_sub : (seg2 : List (HloOp τ sig (Elt F))).Forall fun op => op.bufs ⊆ tcRefs τ sig :=
  ⟨unary_bufs_sub .., binary_bufs_sub .., nullary_bufs_sub .., unary_bufs_sub .., binary_bufs_sub ..⟩

set_option maxRecDepth 8192 in
/-- No operation of this stretch allocates: each determines its results. -/
theorem seg2_fresh : (seg2 : List (HloOp τ sig (Elt F))).Forall fun op => op.fresh = ∅ :=
  ⟨rfl, rfl, rfl, rfl, rfl⟩

set_option maxRecDepth 8192 in
/-- Every operation of this stretch reads and writes buffers of the TensorCore only. -/
theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩

set_option maxRecDepth 8192 in
/-- No operation of this stretch allocates: each determines its results. -/
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of this stretch reads and writes buffers of the TensorCore only. -/
theorem seg4_sub : (seg4 : List (HloOp τ sig (Elt F))).Forall fun op => op.bufs ⊆ tcRefs τ sig :=
  ⟨binary_bufs_sub .., nullary_bufs_sub .., unary_bufs_sub .., binary_bufs_sub ..⟩

set_option maxRecDepth 8192 in
/-- No operation of this stretch allocates: each determines its results. -/
theorem seg4_fresh : (seg4 : List (HloOp τ sig (Elt F))).Forall fun op => op.fresh = ∅ :=
  ⟨rfl, rfl, rfl, rfl⟩

set_option maxRecDepth 8192 in
/-- Every operation of this stretch reads and writes buffers of the TensorCore only. -/
theorem seg5_sub : (seg5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

set_option maxRecDepth 8192 in
/-- No operation of this stretch allocates: each determines its results. -/
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of this stretch reads and writes buffers of the TensorCore only. -/
theorem seg6_sub : (seg6 : List (HloOp τ sig (Elt F))).Forall fun op => op.bufs ⊆ tcRefs τ sig :=
  ⟨nullary_bufs_sub .., unary_bufs_sub .., binary_bufs_sub ..⟩

set_option maxRecDepth 8192 in
/-- No operation of this stretch allocates: each determines its results. -/
theorem seg6_fresh : (seg6 : List (HloOp τ sig (Elt F))).Forall fun op => op.fresh = ∅ :=
  ⟨rfl, rfl, rfl⟩

set_option maxRecDepth 8192 in
/-- Every operation of this stretch reads and writes buffers of the TensorCore only. -/
theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
/-- No operation of this stretch allocates: each determines its results. -/
theorem seg7_fresh : (seg7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of this stretch reads and writes buffers of the TensorCore only. -/
theorem seg8_sub : (seg8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
/-- No operation of this stretch allocates: each determines its results. -/
theorem seg8_fresh : (seg8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of this stretch reads and writes buffers of the TensorCore only. -/
theorem seg9_sub : (seg9 : List (HloOp τ sig (Elt F))).Forall fun op => op.bufs ⊆ tcRefs τ sig :=
  nullary_bufs_sub ..

set_option maxRecDepth 8192 in
/-- No operation of this stretch allocates: each determines its results. -/
theorem seg9_fresh : (seg9 : List (HloOp τ sig (Elt F))).Forall fun op => op.fresh = ∅ :=
  rfl

set_option maxRecDepth 8192 in
/-- Every operation of this stretch reads and writes buffers of the TensorCore only. -/
theorem seg10_sub : (seg10 : List (HloOp τ sig (Elt F))).Forall fun op => op.bufs ⊆ tcRefs τ sig :=
  ⟨unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
/-- No operation of this stretch allocates: each determines its results. -/
theorem seg10_fresh : (seg10 : List (HloOp τ sig (Elt F))).Forall fun op => op.fresh = ∅ :=
  ⟨rfl, rfl, rfl, rfl, rfl, rfl, rfl, rfl, rfl, rfl, rfl, rfl, rfl, rfl⟩

/-- A property of every operation of each stretch is a property of every operation of the program. -/
theorem forall_ops {p : HloOp τ sig (Elt F) → Prop}
    (h0 : (seg0 : List (HloOp τ sig (Elt F))).Forall p)
    (h1 : (seg1 : List (HloOp τ sig (Elt F))).Forall p)
    (h2 : (seg2 : List (HloOp τ sig (Elt F))).Forall p)
    (h3 : (seg3 : List (HloOp τ sig (Elt F))).Forall p)
    (h4 : (seg4 : List (HloOp τ sig (Elt F))).Forall p)
    (h5 : (seg5 : List (HloOp τ sig (Elt F))).Forall p)
    (h6 : (seg6 : List (HloOp τ sig (Elt F))).Forall p)
    (h7 : (seg7 : List (HloOp τ sig (Elt F))).Forall p)
    (h8 : (seg8 : List (HloOp τ sig (Elt F))).Forall p)
    (h9 : (seg9 : List (HloOp τ sig (Elt F))).Forall p)
    (h10 : (seg10 : List (HloOp τ sig (Elt F))).Forall p) :
    ∀ op ∈ (ops : List (HloOp τ sig (Elt F))), p op := by
  intro op h
  simp only [ops, List.mem_append] at h
  rcases h with h | h | h | h | h | h | h | h | h | h | h
  exacts [List.forall_iff_forall_mem.mp h0 op h, List.forall_iff_forall_mem.mp h1 op h, List.forall_iff_forall_mem.mp h2 op h, List.forall_iff_forall_mem.mp h3 op h, List.forall_iff_forall_mem.mp h4 op h, List.forall_iff_forall_mem.mp h5 op h, List.forall_iff_forall_mem.mp h6 op h, List.forall_iff_forall_mem.mp h7 op h, List.forall_iff_forall_mem.mp h8 op h, List.forall_iff_forall_mem.mp h9 op h, List.forall_iff_forall_mem.mp h10 op h]

/-- Every operation of the program reads and writes buffers of the TensorCore only. -/
theorem ops_sub : (ops : List (HloOp τ sig (Elt F))).Forall fun op => op.bufs ⊆ tcRefs τ sig :=
  List.forall_iff_forall_mem.mpr (forall_ops seg0_sub seg1_sub seg2_sub seg3_sub seg4_sub seg5_sub seg6_sub seg7_sub seg8_sub seg9_sub seg10_sub)

/-- No operation of the program allocates. -/
theorem ops_fresh : ∀ op ∈ (ops : List (HloOp τ sig (Elt F))), op.fresh = ∅ :=
  forall_ops seg0_fresh seg1_fresh seg2_fresh seg3_fresh seg4_fresh seg5_fresh seg6_fresh seg7_fresh seg8_fresh seg9_fresh seg10_fresh

end Cert.ReferenceIdeal.RefRun

end
-- ==== Proof.RefLayer.lean ====
/-
  One layer of the reference network, and its head, each as ONE function of arrays.

  A layer takes the node features x (100000 × 128), the two rows of edge indices, and one layer's weights, and applies:
  the neighbour sum (gather the source rows — a negative row number first wrapped by adding 100000 — and add each into
  its destination row, starting from zeros); h = (x + neighbour sum)·W1 + b1; the batch statistics of h over its
  100000 rows, column by column — mean = Σ h / 100000, variance = Σ (h − mean)·(h − mean) / (100000 − 0), kept where
  100000 − 0 > 0 and a quiet NaN elsewhere; γ·(h − mean)·rsqrt(variance + ε) + β; max with 0; ·W2 + b2; max with 0.
  The head adds each node's features into its graph's row (512 graphs, from zeros), then max(·W1 + b1, 0)·W2 + b2.
  These are the host operations of the reference verbatim, so that its run's result is these functions composed.
-/
import proofs.«164329_j2903397892177_1_alg».proof.ReferenceIdeal
import Idealize.ShloMosaic.PureOps.Ideal

noncomputable section

namespace Cert.ReferenceIdeal.RefSpec

open Idealize.ShloMosaic Cert.ReferenceIdeal

-- the side conditions of the printed program's records (slices, broadcasts, reductions), cited by name below
variable [Facts]
open Facts₀ Facts

/-- A float array of shape `s` at the exact instance. -/
abbrev FA (s : Shape) : Type := FVec Ideal s .f32
/-- A 32-bit integer array of shape `s`. -/
abbrev IA (s : Shape) : Type := IVec s 32

/-- A vector of 128 entries repeated down the 100000 rows. -/
def rows128 (v : FA S128) : FA S100000x128 :=
  broadcastInDim S100000x128 ![0, 1] bcast_S1x128_S100000x128_0_1 (broadcastInDim S1x128 ![1] bcast_S128_S1x128_1 v)

/-- A scalar word repeated over a shape. -/
def zeros (s : Shape) (h : S_.BroadcastsInDim s ![]) : FA s :=
  broadcastInDim s ![] h (constant (F := Ideal) S_ .f32 0x00000000#32)

/-- The source rows with negative row numbers wrapped, as the column the gather takes. -/
def srcColumn (src : IA S1600000) : IA S1600000x1 :=
  broadcastInDim S1600000x1 ![0] bcast_S1600000_S1600000x1_0
    (select (cmpi .slt src (broadcastInDim S1600000 ![] bcast_S_S1600000 (constantI S_ 32 0#32 : IA S_)))
      (addi src (broadcastInDim S1600000 ![] bcast_S_S1600000 (constantI S_ 32 100000#32 : IA S_))) src)

/-- The neighbour sum: row `dst e` receives row `src e` of x, for every edge e, starting from zeros. -/
def neighbourSum (x : FA S100000x128) (src dst : IA S1600000) : FA S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x (srcColumn src))

/-- The first linear map of a layer: (x + neighbour sum)·W1 + b1. -/
def linear1 (x : FA S100000x128) (src dst : IA S1600000) (W1 : FA S128x128) (b1 : FA S128) : FA S100000x128 :=
  addf (Host.dotGeneral dot_S100000x128_S128x128_S100000x128_1_0_0_1_n_n none (addf x (neighbourSum x src dst)) W1) (rows128 b1)

/-- The column means of h. -/
def colMean (h : FA S100000x128) : FA S128 :=
  Host.divf (Host.reduceAdd h (constant (F := Ideal) S_ .f32 0x00000000#32) reducesTo_S100000x128_S128_d0 h_S_)
    (broadcastInDim S128 ![] bcast_S_S128 (constant (F := Ideal) S_ .f32 0x47C35000#32))

/-- The column variances of h, as the variance function of the reference computes them (zero degrees of freedom
    removed; the guard against a nonpositive divisor kept as it is written). -/
def colVar (h : FA S100000x128) : FA S128 :=
  have mean1 : FA S1x128 := Host.divf
    (broadcastInDim S1x128 ![1] bcast_S128_S1x128_1
      (Host.reduceAdd h (constant (F := Ideal) S_ .f32 0x00000000#32) reducesTo_S100000x128_S128_d0 h_S_))
    (broadcastInDim S1x128 ![] bcast_S_S1x128 (constant (F := Ideal) S_ .f32 0x47C35000#32))
  have dev : FA S100000x128 := subf h (broadcastInDim S100000x128 ![0, 1] bcast_S1x128_S100000x128_0_1 mean1)
  have cnt : FA S_ := subf (constant (F := Ideal) S_ .f32 0x47C35000#32) (sitofp .f32 (constantI S_ 32 0#32 : IA S_))
  have quot : FA S128 := Host.divf
    (Host.reduceAdd (mulf dev dev) (constant (F := Ideal) S_ .f32 0x00000000#32) reducesTo_S100000x128_S128_d0 h_S_)
    (broadcastInDim S128 ![] bcast_S_S128 cnt)
  select (broadcastInDim S128 ![] bcast_S_S128 (cmpf .ogt cnt (constant (F := Ideal) S_ .f32 0x00000000#32)))
    quot (broadcastInDim S128 ![] bcast_S_S128 (id (constant (F := Ideal) S_ .f32 0x7FC00000#32)))

/-- Normalise, scale and shift; max with 0; the second linear map; max with 0. -/
def normAndLinear2 (h : FA S100000x128) (g be : FA S128) (W2 : FA S128x128) (b2 : FA S128) : FA S100000x128 :=
  have scale : FA S128 := Host.rsqrt (addf (colVar h)
    (broadcastInDim S128 ![] bcast_S_S128 (constant (F := Ideal) S_ .f32 0x3727C5AC#32)))
  have hn : FA S100000x128 := addf (mulf (mulf (rows128 g) (subf h (rows128 (colMean h)))) (rows128 scale)) (rows128 be)
  have hr : FA S100000x128 := maximumf hn (zeros S100000x128 bcast_S_S100000x128)
  maximumf (addf (Host.dotGeneral dot_S100000x128_S128x128_S100000x128_1_0_0_1_n_n none hr W2) (rows128 b2))
    (zeros S100000x128 bcast_S_S100000x128)

/-- One layer of the reference. -/
def refLayer (x : FA S100000x128) (src dst : IA S1600000) (W1 : FA S128x128) (b1 g be : FA S128)
    (W2 : FA S128x128) (b2 : FA S128) : FA S100000x128 :=
  normAndLinear2 (linear1 x src dst W1 b1) g be W2 b2

/-- The head of the reference: pool the nodes of each graph, then two linear maps with a max with 0 between. -/
def refHead (x : FA S100000x128) (batch : IA S100000) (W1 : FA S128x128) (b1 : FA S128) (W2 : FA S128x10)
    (b2 : FA S10) : FA S512x10 :=
  have pooled : FA S512x128 := Host.scatterAdd scatter_S512x128_S100000x1_S100000x128_1_0_0_1
    (broadcastInDim S512x128 ![] bcast_S_S512x128 (constant (F := Ideal) S_ .f32 0x00000000#32))
    (broadcastInDim S100000x1 ![0] bcast_S100000_S100000x1_0 batch) x
  have h : FA S512x128 := maximumf
    (addf (Host.dotGeneral dot_S512x128_S128x128_S512x128_1_0_0_1_n_n none pooled W1)
      (broadcastInDim S512x128 ![0, 1] bcast_S1x128_S512x128_0_1 (broadcastInDim S1x128 ![1] bcast_S128_S1x128_1 b1)))
    (zeros S512x128 bcast_S_S512x128)
  addf (Host.dotGeneral dot_S512x128_S128x10_S512x10_1_0_0_1_n_n none h W2)
    (broadcastInDim S512x10 ![0, 1] bcast_S1x10_S512x10_0_1 (broadcastInDim S1x10 ![1] bcast_S10_S1x10_1 b2))

/-- Row l of a stack of five 128 × 128 matrices. -/
def mat (l : Fin 5) (W : FA S5x128x128) : FA S128x128 :=
  match l with
  | 0 => shapeCast S128x128 (extractStridedSlice S1x128x128 ![0, 0, 0] W slices_S5x128x128_S1x128x128_0_0_0) shapeCasts_S1x128x128_S128x128
  | 1 => shapeCast S128x128 (extractStridedSlice S1x128x128 ![1, 0, 0] W slices_S5x128x128_S1x128x128_1_0_0) shapeCasts_S1x128x128_S128x128
  | 2 => shapeCast S128x128 (extractStridedSlice S1x128x128 ![2, 0, 0] W slices_S5x128x128_S1x128x128_2_0_0) shapeCasts_S1x128x128_S128x128
  | 3 => shapeCast S128x128 (extractStridedSlice S1x128x128 ![3, 0, 0] W slices_S5x128x128_S1x128x128_3_0_0) shapeCasts_S1x128x128_S128x128
  | 4 => shapeCast S128x128 (extractStridedSlice S1x128x128 ![4, 0, 0] W slices_S5x128x128_S1x128x128_4_0_0) shapeCasts_S1x128x128_S128x128

/-- Row l of a stack of five vectors of 128 entries. -/
def vec (l : Fin 5) (b : FA S5x128) : FA S128 :=
  match l with
  | 0 => shapeCast S128 (extractStridedSlice S1x128 ![0, 0] b slices_S5x128_S1x128_0_0) shapeCasts_S1x128_S128
  | 1 => shapeCast S128 (extractStridedSlice S1x128 ![1, 0] b slices_S5x128_S1x128_1_0) shapeCasts_S1x128_S128
  | 2 => shapeCast S128 (extractStridedSlice S1x128 ![2, 0] b slices_S5x128_S1x128_2_0) shapeCasts_S1x128_S128
  | 3 => shapeCast S128 (extractStridedSlice S1x128 ![3, 0] b slices_S5x128_S1x128_3_0) shapeCasts_S1x128_S128
  | 4 => shapeCast S128 (extractStridedSlice S1x128 ![4, 0] b slices_S5x128_S1x128_4_0) shapeCasts_S1x128_S128

/-- Row e of the 2 × 1600000 table of edge indices (row 0: sources, row 1: destinations). -/
def edgeRow (e : Fin 2) (ei : IA S2x1600000) : IA S1600000 :=
  match e with
  | 0 => shapeCast S1600000 (extractStridedSlice S1x1600000 ![0, 0] ei slices_S2x1600000_S1x1600000_0_0) shapeCasts_S1x1600000_S1600000
  | 1 => shapeCast S1600000 (extractStridedSlice S1x1600000 ![1, 0] ei slices_S2x1600000_S1x1600000_1_0) shapeCasts_S1x1600000_S1600000

/-- Layer l of the reference on features y, with the stacked weights. -/
def layerAt (l : Fin 5) (ei : IA S2x1600000) (W1s : FA S5x128x128) (b1s gs bes : FA S5x128) (W2s : FA S5x128x128)
    (b2s : FA S5x128) (y : FA S100000x128) : FA S100000x128 :=
  refLayer y (edgeRow 0 ei) (edgeRow 1 ei) (mat l W1s) (vec l b1s) (vec l gs) (vec l bes) (mat l W2s) (vec l b2s)

/-- The whole reference: five layers, then the head. -/
def refOut (x : FA S100000x128) (ei : IA S2x1600000) (batch : IA S100000) (W1s : FA S5x128x128) (b1s gs bes : FA S5x128)
    (W2s : FA S5x128x128) (b2s : FA S5x128) (hW1 : FA S128x128) (hb1 : FA S128) (hW2 : FA S128x10) (hb2 : FA S10) :
    FA S512x10 :=
  refHead (layerAt 4 ei W1s b1s gs bes W2s b2s (layerAt 3 ei W1s b1s gs bes W2s b2s (layerAt 2 ei W1s b1s gs bes W2s b2s
    (layerAt 1 ei W1s b1s gs bes W2s b2s (layerAt 0 ei W1s b1s gs bes W2s b2s x))))) batch hW1 hb1 hW2 hb2

end Cert.ReferenceIdeal.RefSpec

end
-- ==== Proof.RefRunP.lean ====
/-
  The two rows of the edge list, read back.

  The first four operations slice the 2 × 1600000 table of edge indices into its row of sources and its row of
  destinations and drop the leading axis of extent one.  From any contents of the buffers they leave those two rows —
  the specification's `edgeRow 0` and `edgeRow 1` of the table — in their buffers, and every other buffer as it was.
-/
import proofs.«164329_j2903397892177_1_alg».proof.Proof.RefRunOps
import proofs.«164329_j2903397892177_1_alg».proof.Proof.RefLayer

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- The buffers this stretch writes. -/
abbrev seg0_W : List (Ref sig .tc) := [main_v0, main_v1, main_v2, main_v3]

/-- Each operation of the stretch writes only a buffer of that list. -/
theorem seg0_writes : (seg0 : List (HloOp τ sig (Elt F))).Forall fun op => op.writes ⊆ (seg0_W.map (Proc.devRef (τ := τ) .tc)).toFinset := by
  simp only [seg0, List.Forall]
  refine ⟨?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg0_keep (V : Valuation τ sig (Elt F)) (r : Ref sig .tc) (h : r ∉ seg0_W) :
    after seg0 V (Proc.devRef .tc r) = V (Proc.devRef .tc r) :=
  after_of_writes_sub seg0 V seg0_writes h

/-- A buffer that none of the chunk's stretches writes keeps its contents through the chunk. -/
theorem opsP_keep (V : Valuation τ sig (Elt F)) (r : Ref sig .tc) (h0 : r ∉ seg0_W) :
    after opsP V (Proc.devRef .tc r) = V (Proc.devRef .tc r) := seg0_keep V r h0

/-- The source row of the edge list. -/
theorem opsP_src (W : Valuation τ sig (Elt Ideal)) :
    after (opsP (F := Ideal)) W (Proc.devRef .tc main_v1 : DevRef τ sig) = RefSpec.edgeRow 0 (W (Proc.devRef .tc main_arg1 : DevRef τ sig)) := by
  simp only [opsP, seg0]
  after_results_simp
  rfl

/-- The destination row of the edge list. -/
theorem opsP_dst (W : Valuation τ sig (Elt Ideal)) :
    after (opsP (F := Ideal)) W (Proc.devRef .tc main_v3 : DevRef τ sig) = RefSpec.edgeRow 1 (W (Proc.devRef .tc main_arg1 : DevRef τ sig)) := by
  simp only [opsP, seg0]
  after_results_simp
  rfl

end Cert.ReferenceIdeal.RefRun

end
-- ==== Proof.RefRunL0.lean ====
/-
  Layer 0 of the reference, read back as one function of arrays.

  From any contents of the device's buffers, the 84 operations of layer 0 leave in the layer's output buffer the layer function
  of the specification applied to what the buffers held: the node features, the source and destination rows of the
  edge list, and row 0 of each stacked weight.  Each operation writes its own buffer as a function of its operands'
  contents, so the output is the composition of those functions along the data flow; that composition is the
  specification's layer, term for term.  A buffer that no operation of the layer writes holds afterwards what it
  held before.
-/
import proofs.«164329_j2903397892177_1_alg».proof.Proof.RefRunOps
import proofs.«164329_j2903397892177_1_alg».proof.Proof.RefLayer

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- The buffers this stretch writes. -/
abbrev seg1_W : List (Ref sig .tc) := [main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30, main_v31, main_v32, main_v33, main_v34, main_v35, main_v36, main_cst_4, main_v37, main_v38, main_v39, main_v40, main_v41, main_v42, main_v43, main_v44, main_v45, main_call1_cst, main_call1_v0, main_v46, main_v47, main_v48, main_v49, main_v50, main_v51, main_v52]

/-- Each operation of the stretch writes only a buffer of that list. -/
theorem seg1_writes : (seg1 : List (HloOp τ sig (Elt F))).Forall fun op => op.writes ⊆ (seg1_W.map (Proc.devRef (τ := τ) .tc)).toFinset := by
  simp only [seg1, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg1_keep (V : Valuation τ sig (Elt F)) (r : Ref sig .tc) (h : r ∉ seg1_W) :
    after seg1 V (Proc.devRef .tc r) = V (Proc.devRef .tc r) :=
  after_of_writes_sub seg1 V seg1_writes h

set_option maxRecDepth 8192 in
/-- The buffers this stretch writes. -/
abbrev seg2_W : List (Ref sig .tc) := [main_v53, main_v54, main_call2_cst, main_call2_v0, main_v55]

/-- Each operation of the stretch writes only a buffer of that list. -/
theorem seg2_writes : (seg2 : List (HloOp τ sig (Elt F))).Forall fun op => op.writes ⊆ (seg2_W.map (Proc.devRef (τ := τ) .tc)).toFinset := by
  simp only [seg2, List.Forall]
  refine ⟨?_, ?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg2_keep (V : Valuation τ sig (Elt F)) (r : Ref sig .tc) (h : r ∉ seg2_W) :
    after seg2 V (Proc.devRef .tc r) = V (Proc.devRef .tc r) :=
  after_of_writes_sub seg2 V seg2_writes h

/-- A buffer that none of the chunk's stretches writes keeps its contents through the chunk. -/
theorem opsL0_keep (V : Valuation τ sig (Elt F)) (r : Ref sig .tc) (h0 : r ∉ seg1_W) (h1 : r ∉ seg2_W) :
    after opsL0 V (Proc.devRef .tc r) = V (Proc.devRef .tc r) := by
  rw [opsL0, after_app, seg2_keep _ r h1, seg1_keep _ r h0]

set_option maxRecDepth 8192 in
set_option maxHeartbeats 2000000 in
/-- The layer's output buffer after the layer's operations is the specification's layer of the contents before:
    features in `main_arg0`, edge rows in `main_v1` and `main_v3`, weights row 0 of the stacked arguments. -/
theorem opsL0_out (W : Valuation τ sig (Elt Ideal)) :
    after (opsL0 (F := Ideal)) W (Proc.devRef .tc main_v55 : DevRef τ sig)
      = RefSpec.refLayer (W (Proc.devRef .tc main_arg0 : DevRef τ sig)) (W (Proc.devRef .tc main_v1 : DevRef τ sig)) (W (Proc.devRef .tc main_v3 : DevRef τ sig))
          (RefSpec.mat 0 (W (Proc.devRef .tc main_arg3 : DevRef τ sig))) (RefSpec.vec 0 (W (Proc.devRef .tc main_arg4 : DevRef τ sig))) (RefSpec.vec 0 (W (Proc.devRef .tc main_arg5 : DevRef τ sig)))
          (RefSpec.vec 0 (W (Proc.devRef .tc main_arg6 : DevRef τ sig))) (RefSpec.mat 0 (W (Proc.devRef .tc main_arg7 : DevRef τ sig))) (RefSpec.vec 0 (W (Proc.devRef .tc main_arg8 : DevRef τ sig))) := by
  simp only [opsL0, after_app, seg1, seg2]
  after_results_simp
  rfl

end Cert.ReferenceIdeal.RefRun

end
-- ==== Proof.RefRunL1.lean ====
/-
  Layer 1 of the reference, read back as one function of arrays.

  From any contents of the device's buffers, the 84 operations of layer 1 leave in the layer's output buffer the layer function
  of the specification applied to what the buffers held: the node features, the source and destination rows of the
  edge list, and row 1 of each stacked weight.  Each operation writes its own buffer as a function of its operands'
  contents, so the output is the composition of those functions along the data flow; that composition is the
  specification's layer, term for term.  A buffer that no operation of the layer writes holds afterwards what it
  held before.
-/
import proofs.«164329_j2903397892177_1_alg».proof.Proof.RefRunOps
import proofs.«164329_j2903397892177_1_alg».proof.Proof.RefLayer

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- The buffers this stretch writes. -/
abbrev seg3_W : List (Ref sig .tc) := [main_c_5, main_v56, main_v57, main_c_6, main_v58, main_v59, main_v60, main_v61, main_v62, main_cst_7, main_v63, main_v64, main_v65, main_v66, main_v67, main_v68, main_v69, main_v70, main_v71, main_v72, main_v73, main_v74, main_v75, main_v76, main_v77, main_v78, main_cst_8, main_v79, main_cst_9, main_v80, main_v81, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v82, main_v83, main_v84, main_v85, main_v86, main_v87, main_v88, main_cst_11, main_v89, main_v90, main_v91, main_v92, main_v93, main_v94, main_v95, main_v96, main_v97, main_call4_cst, main_call4_v0, main_v98, main_v99, main_v100, main_v101, main_v102, main_v103, main_v104, main_v105]

/-- Each operation of the stretch writes only a buffer of that list. -/
theorem seg3_writes : (seg3 : List (HloOp τ sig (Elt F))).Forall fun op => op.writes ⊆ (seg3_W.map (Proc.devRef (τ := τ) .tc)).toFinset := by
  simp only [seg3, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg3_keep (V : Valuation τ sig (Elt F)) (r : Ref sig .tc) (h : r ∉ seg3_W) :
    after seg3 V (Proc.devRef .tc r) = V (Proc.devRef .tc r) :=
  after_of_writes_sub seg3 V seg3_writes h

set_option maxRecDepth 8192 in
/-- The buffers this stretch writes. -/
abbrev seg4_W : List (Ref sig .tc) := [main_v106, main_call5_cst, main_call5_v0, main_v107]

/-- Each operation of the stretch writes only a buffer of that list. -/
theorem seg4_writes : (seg4 : List (HloOp τ sig (Elt F))).Forall fun op => op.writes ⊆ (seg4_W.map (Proc.devRef (τ := τ) .tc)).toFinset := by
  simp only [seg4, List.Forall]
  refine ⟨?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg4_keep (V : Valuation τ sig (Elt F)) (r : Ref sig .tc) (h : r ∉ seg4_W) :
    after seg4 V (Proc.devRef .tc r) = V (Proc.devRef .tc r) :=
  after_of_writes_sub seg4 V seg4_writes h

/-- A buffer that none of the chunk's stretches writes keeps its contents through the chunk. -/
theorem opsL1_keep (V : Valuation τ sig (Elt F)) (r : Ref sig .tc) (h0 : r ∉ seg3_W) (h1 : r ∉ seg4_W) :
    after opsL1 V (Proc.devRef .tc r) = V (Proc.devRef .tc r) := by
  rw [opsL1, after_app, seg4_keep _ r h1, seg3_keep _ r h0]

set_option maxRecDepth 8192 in
set_option maxHeartbeats 2000000 in
/-- The layer's output buffer after the layer's operations is the specification's layer of the contents before:
    features in `main_v55`, edge rows in `main_v1` and `main_v3`, weights row 1 of the stacked arguments. -/
theorem opsL1_out (W : Valuation τ sig (Elt Ideal)) :
    after (opsL1 (F := Ideal)) W (Proc.devRef .tc main_v107 : DevRef τ sig)
      = RefSpec.refLayer (W (Proc.devRef .tc main_v55 : DevRef τ sig)) (W (Proc.devRef .tc main_v1 : DevRef τ sig)) (W (Proc.devRef .tc main_v3 : DevRef τ sig))
          (RefSpec.mat 1 (W (Proc.devRef .tc main_arg3 : DevRef τ sig))) (RefSpec.vec 1 (W (Proc.devRef .tc main_arg4 : DevRef τ sig))) (RefSpec.vec 1 (W (Proc.devRef .tc main_arg5 : DevRef τ sig)))
          (RefSpec.vec 1 (W (Proc.devRef .tc main_arg6 : DevRef τ sig))) (RefSpec.mat 1 (W (Proc.devRef .tc main_arg7 : DevRef τ sig))) (RefSpec.vec 1 (W (Proc.devRef .tc main_arg8 : DevRef τ sig))) := by
  simp only [opsL1, after_app, seg3, seg4]
  after_results_simp
  rfl

end Cert.ReferenceIdeal.RefRun

end
-- ==== Proof.RefRunL2.lean ====
/-
  Layer 2 of the reference, read back as one function of arrays.

  From any contents of the device's buffers, the 84 operations of layer 2 leave in the layer's output buffer the layer function
  of the specification applied to what the buffers held: the node features, the source and destination rows of the
  edge list, and row 2 of each stacked weight.  Each operation writes its own buffer as a function of its operands'
  contents, so the output is the composition of those functions along the data flow; that composition is the
  specification's layer, term for term.  A buffer that no operation of the layer writes holds afterwards what it
  held before.
-/
import proofs.«164329_j2903397892177_1_alg».proof.Proof.RefRunOps
import proofs.«164329_j2903397892177_1_alg».proof.Proof.RefLayer

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- The buffers this stretch writes. -/
abbrev seg5_W : List (Ref sig .tc) := [main_c_12, main_v108, main_v109, main_c_13, main_v110, main_v111, main_v112, main_v113, main_v114, main_cst_14, main_v115, main_v116, main_v117, main_v118, main_v119, main_v120, main_v121, main_v122, main_v123, main_v124, main_v125, main_v126, main_v127, main_v128, main_v129, main_v130, main_cst_15, main_v131, main_cst_16, main_v132, main_v133, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v134, main_v135, main_v136, main_v137, main_v138, main_v139, main_v140, main_cst_18, main_v141, main_v142, main_v143, main_v144, main_v145, main_v146, main_v147, main_v148, main_v149, main_call7_cst, main_call7_v0, main_v150, main_v151, main_v152, main_v153, main_v154, main_v155, main_v156, main_v157, main_v158]

/-- Each operation of the stretch writes only a buffer of that list. -/
theorem seg5_writes : (seg5 : List (HloOp τ sig (Elt F))).Forall fun op => op.writes ⊆ (seg5_W.map (Proc.devRef (τ := τ) .tc)).toFinset := by
  simp only [seg5, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg5_keep (V : Valuation τ sig (Elt F)) (r : Ref sig .tc) (h : r ∉ seg5_W) :
    after seg5 V (Proc.devRef .tc r) = V (Proc.devRef .tc r) :=
  after_of_writes_sub seg5 V seg5_writes h

set_option maxRecDepth 8192 in
/-- The buffers this stretch writes. -/
abbrev seg6_W : List (Ref sig .tc) := [main_call8_cst, main_call8_v0, main_v159]

/-- Each operation of the stretch writes only a buffer of that list. -/
theorem seg6_writes : (seg6 : List (HloOp τ sig (Elt F))).Forall fun op => op.writes ⊆ (seg6_W.map (Proc.devRef (τ := τ) .tc)).toFinset := by
  simp only [seg6, List.Forall]
  refine ⟨?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg6_keep (V : Valuation τ sig (Elt F)) (r : Ref sig .tc) (h : r ∉ seg6_W) :
    after seg6 V (Proc.devRef .tc r) = V (Proc.devRef .tc r) :=
  after_of_writes_sub seg6 V seg6_writes h

/-- A buffer that none of the chunk's stretches writes keeps its contents through the chunk. -/
theorem opsL2_keep (V : Valuation τ sig (Elt F)) (r : Ref sig .tc) (h0 : r ∉ seg5_W) (h1 : r ∉ seg6_W) :
    after opsL2 V (Proc.devRef .tc r) = V (Proc.devRef .tc r) := by
  rw [opsL2, after_app, seg6_keep _ r h1, seg5_keep _ r h0]

set_option maxRecDepth 8192 in
set_option maxHeartbeats 2000000 in
/-- The layer's output buffer after the layer's operations is the specification's layer of the contents before:
    features in `main_v107`, edge rows in `main_v1` and `main_v3`, weights row 2 of the stacked arguments. -/
theorem opsL2_out (W : Valuation τ sig (Elt Ideal)) :
    after (opsL2 (F := Ideal)) W (Proc.devRef .tc main_v159 : DevRef τ sig)
      = RefSpec.refLayer (W (Proc.devRef .tc main_v107 : DevRef τ sig)) (W (Proc.devRef .tc main_v1 : DevRef τ sig)) (W (Proc.devRef .tc main_v3 : DevRef τ sig))
          (RefSpec.mat 2 (W (Proc.devRef .tc main_arg3 : DevRef τ sig))) (RefSpec.vec 2 (W (Proc.devRef .tc main_arg4 : DevRef τ sig))) (RefSpec.vec 2 (W (Proc.devRef .tc main_arg5 : DevRef τ sig)))
          (RefSpec.vec 2 (W (Proc.devRef .tc main_arg6 : DevRef τ sig))) (RefSpec.mat 2 (W (Proc.devRef .tc main_arg7 : DevRef τ sig))) (RefSpec.vec 2 (W (Proc.devRef .tc main_arg8 : DevRef τ sig))) := by
  simp only [opsL2, after_app, seg5, seg6]
  after_results_simp
  rfl

end Cert.ReferenceIdeal.RefRun

end
-- ==== Proof.RefRunL3.lean ====
/-
  Layer 3 of the reference, read back as one function of arrays.

  From any contents of the device's buffers, the 84 operations of layer 3 leave in the layer's output buffer the layer function
  of the specification applied to what the buffers held: the node features, the source and destination rows of the
  edge list, and row 3 of each stacked weight.  Each operation writes its own buffer as a function of its operands'
  contents, so the output is the composition of those functions along the data flow; that composition is the
  specification's layer, term for term.  A buffer that no operation of the layer writes holds afterwards what it
  held before.
-/
import proofs.«164329_j2903397892177_1_alg».proof.Proof.RefRunOps
import proofs.«164329_j2903397892177_1_alg».proof.Proof.RefLayer

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- The buffers this stretch writes. -/
abbrev seg7_W : List (Ref sig .tc) := [main_c_19, main_v160, main_v161, main_c_20, main_v162, main_v163, main_v164, main_v165, main_v166, main_cst_21, main_v167, main_v168, main_v169, main_v170, main_v171, main_v172, main_v173, main_v174, main_v175, main_v176, main_v177, main_v178, main_v179, main_v180, main_v181, main_v182, main_cst_22, main_v183, main_cst_23, main_v184, main_v185, main_c_24, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v186, main_v187, main_v188, main_v189, main_v190, main_v191, main_v192, main_cst_25, main_v193, main_v194, main_v195, main_v196, main_v197, main_v198, main_v199, main_v200, main_v201, main_call10_cst, main_call10_v0, main_v202, main_v203, main_v204, main_v205, main_v206, main_v207, main_v208, main_v209, main_v210, main_call11_cst, main_call11_v0, main_v211]

/-- Each operation of the stretch writes only a buffer of that list. -/
theorem seg7_writes : (seg7 : List (HloOp τ sig (Elt F))).Forall fun op => op.writes ⊆ (seg7_W.map (Proc.devRef (τ := τ) .tc)).toFinset := by
  simp only [seg7, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg7_keep (V : Valuation τ sig (Elt F)) (r : Ref sig .tc) (h : r ∉ seg7_W) :
    after seg7 V (Proc.devRef .tc r) = V (Proc.devRef .tc r) :=
  after_of_writes_sub seg7 V seg7_writes h

/-- A buffer that none of the chunk's stretches writes keeps its contents through the chunk. -/
theorem opsL3_keep (V : Valuation τ sig (Elt F)) (r : Ref sig .tc) (h0 : r ∉ seg7_W) :
    after opsL3 V (Proc.devRef .tc r) = V (Proc.devRef .tc r) := seg7_keep V r h0

set_option maxRecDepth 8192 in
set_option maxHeartbeats 2000000 in
/-- The layer's output buffer after the layer's operations is the specification's layer of the contents before:
    features in `main_v159`, edge rows in `main_v1` and `main_v3`, weights row 3 of the stacked arguments. -/
theorem opsL3_out (W : Valuation τ sig (Elt Ideal)) :
    after (opsL3 (F := Ideal)) W (Proc.devRef .tc main_v211 : DevRef τ sig)
      = RefSpec.refLayer (W (Proc.devRef .tc main_v159 : DevRef τ sig)) (W (Proc.devRef .tc main_v1 : DevRef τ sig)) (W (Proc.devRef .tc main_v3 : DevRef τ sig))
          (RefSpec.mat 3 (W (Proc.devRef .tc main_arg3 : DevRef τ sig))) (RefSpec.vec 3 (W (Proc.devRef .tc main_arg4 : DevRef τ sig))) (RefSpec.vec 3 (W (Proc.devRef .tc main_arg5 : DevRef τ sig)))
          (RefSpec.vec 3 (W (Proc.devRef .tc main_arg6 : DevRef τ sig))) (RefSpec.mat 3 (W (Proc.devRef .tc main_arg7 : DevRef τ sig))) (RefSpec.vec 3 (W (Proc.devRef .tc main_arg8 : DevRef τ sig))) := by
  simp only [opsL3, after_app, seg7]
  after_results_simp
  rfl

end Cert.ReferenceIdeal.RefRun

end
-- ==== Proof.RefRunL4.lean ====
/-
  Layer 4 of the reference, read back as one function of arrays.

  From any contents of the device's buffers, the 84 operations of layer 4 leave in the layer's output buffer the layer function
  of the specification applied to what the buffers held: the node features, the source and destination rows of the
  edge list, and row 4 of each stacked weight.  Each operation writes its own buffer as a function of its operands'
  contents, so the output is the composition of those functions along the data flow; that composition is the
  specification's layer, term for term.  A buffer that no operation of the layer writes holds afterwards what it
  held before.
-/
import proofs.«164329_j2903397892177_1_alg».proof.Proof.RefRunOps
import proofs.«164329_j2903397892177_1_alg».proof.Proof.RefLayer

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- The buffers this stretch writes. -/
abbrev seg8_W : List (Ref sig .tc) := [main_c_26, main_v212, main_v213, main_c_27, main_v214, main_v215, main_v216, main_v217, main_v218, main_cst_28, main_v219, main_v220, main_v221, main_v222, main_v223, main_v224, main_v225, main_v226, main_v227, main_v228, main_v229, main_v230, main_v231, main_v232, main_v233, main_v234, main_cst_29, main_v235, main_cst_30, main_v236, main_v237, main_c_31, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v238, main_v239, main_v240, main_v241, main_v242, main_v243, main_v244, main_cst_32, main_v245, main_v246, main_v247, main_v248, main_v249, main_v250, main_v251, main_v252, main_v253, main_call13_cst, main_call13_v0, main_v254, main_v255, main_v256, main_v257, main_v258, main_v259, main_v260, main_v261, main_v262, main_call14_cst, main_call14_v0, main_v263]

/-- Each operation of the stretch writes only a buffer of that list. -/
theorem seg8_writes : (seg8 : List (HloOp τ sig (Elt F))).Forall fun op => op.writes ⊆ (seg8_W.map (Proc.devRef (τ := τ) .tc)).toFinset := by
  simp only [seg8, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg8_keep (V : Valuation τ sig (Elt F)) (r : Ref sig .tc) (h : r ∉ seg8_W) :
    after seg8 V (Proc.devRef .tc r) = V (Proc.devRef .tc r) :=
  after_of_writes_sub seg8 V seg8_writes h

/-- A buffer that none of the chunk's stretches writes keeps its contents through the chunk. -/
theorem opsL4_keep (V : Valuation τ sig (Elt F)) (r : Ref sig .tc) (h0 : r ∉ seg8_W) :
    after opsL4 V (Proc.devRef .tc r) = V (Proc.devRef .tc r) := seg8_keep V r h0

set_option maxRecDepth 8192 in
set_option maxHeartbeats 2000000 in
/-- The layer's output buffer after the layer's operations is the specification's layer of the contents before:
    features in `main_v211`, edge rows in `main_v1` and `main_v3`, weights row 4 of the stacked arguments. -/
theorem opsL4_out (W : Valuation τ sig (Elt Ideal)) :
    after (opsL4 (F := Ideal)) W (Proc.devRef .tc main_v263 : DevRef τ sig)
      = RefSpec.refLayer (W (Proc.devRef .tc main_v211 : DevRef τ sig)) (W (Proc.devRef .tc main_v1 : DevRef τ sig)) (W (Proc.devRef .tc main_v3 : DevRef τ sig))
          (RefSpec.mat 4 (W (Proc.devRef .tc main_arg3 : DevRef τ sig))) (RefSpec.vec 4 (W (Proc.devRef .tc main_arg4 : DevRef τ sig))) (RefSpec.vec 4 (W (Proc.devRef .tc main_arg5 : DevRef τ sig)))
          (RefSpec.vec 4 (W (Proc.devRef .tc main_arg6 : DevRef τ sig))) (RefSpec.mat 4 (W (Proc.devRef .tc main_arg7 : DevRef τ sig))) (RefSpec.vec 4 (W (Proc.devRef .tc main_arg8 : DevRef τ sig))) := by
  simp only [opsL4, after_app, seg8]
  after_results_simp
  rfl

end Cert.ReferenceIdeal.RefRun

end
-- ==== Proof.RefRunH.lean ====
/-
  The pooling and the head of the reference, read back as one function of arrays.

  The last fifteen operations add each node's feature row into the row of its graph (512 graphs, from zeros) and apply
  the two dense maps of the head with a maximum with zero between them.  From any contents of the buffers they leave in
  the result buffer the specification's head of the node features, the graph numbers and the head's weights, and every
  buffer they do not write as it was.
-/
import proofs.«164329_j2903397892177_1_alg».proof.Proof.RefRunOps
import proofs.«164329_j2903397892177_1_alg».proof.Proof.RefLayer

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

variable {F : FTy → Type} [FloatOps F]

set_option maxRecDepth 8192 in
/-- The buffers this stretch writes. -/
abbrev seg9_W : List (Ref sig .tc) := [main_cst_33]

/-- Each operation of the stretch writes only a buffer of that list. -/
theorem seg9_writes : (seg9 : List (HloOp τ sig (Elt F))).Forall fun op => op.writes ⊆ (seg9_W.map (Proc.devRef (τ := τ) .tc)).toFinset := by
  simp only [seg9, List.Forall]
  (simp only [nullary_writes, unary_writes, binary_writes, ternary_writes, reshape_writes, Finset.singleton_subset_iff, List.mem_toFinset]; exact List.mem_map_of_mem (by decide))

/-- A buffer the stretch does not write keeps its contents through it. -/
theorem seg9_keep (V : Valuation τ sig (Elt F)) (r : Ref sig .tc) (h : r ∉ seg9_W) :
    after seg9 V (Proc.devRef .tc r) = V (Proc.devRef .tc r) :=
  after_of_writes_sub seg9 V seg9_writes h

set_option maxRecDepth 8192 in
/-- The buffers this stretch writes. -/
abbrev seg10_W : List (Ref sig .tc) := [main_v264, main_v265, main_v266, main_v267, main_v268, main_v269, main_v270, main_call15_cst, main_call15_v0, main_v271, main_v272, main_v273, main_v274, main_v275]

/-- Each operation of the stretch writes only a buffer of that list. -/
theorem seg10_writes : (seg10 : List (HloOp τ sig (Elt F))).Forall fun op => op.writes ⊆ (seg10_W.map (Proc.devRef (τ := τ) .tc)).toFinset := by
  simp only [seg10, List.Forall]
  refine ⟨?_, ?_, ?_, ?_, ?_, ?_, ?_, ?_, ?_, ?_, ?_, ?_, ?_, ?_⟩ <;> (simp only [nullary_writes, unary_writes, binary_writes, ternary_writes, reshape_writes, Finset.singleton_subset_iff, List.mem_toFinset]; exact List.mem_map_of_mem (by decide))

/-- A buffer the stretch does not write keeps its contents through it. -/
theorem seg10_keep (V : Valuation τ sig (Elt F)) (r : Ref sig .tc) (h : r ∉ seg10_W) :
    after seg10 V (Proc.devRef .tc r) = V (Proc.devRef .tc r) :=
  after_of_writes_sub seg10 V seg10_writes h

/-- A buffer that none of the chunk's stretches writes keeps its contents through the chunk. -/
theorem opsH_keep (V : Valuation τ sig (Elt F)) (r : Ref sig .tc) (h0 : r ∉ seg9_W) (h1 : r ∉ seg10_W) :
    after opsH V (Proc.devRef .tc r) = V (Proc.devRef .tc r) := by
  rw [opsH, after_app, seg10_keep _ r h1, seg9_keep _ r h0]

set_option maxRecDepth 8192 in
/-- The result buffer after the pooling and the head is the specification's head of the contents before. -/
theorem opsH_out (W : Valuation τ sig (Elt Ideal)) :
    after (opsH (F := Ideal)) W (Proc.devRef .tc main_v275 : DevRef τ sig)
      = RefSpec.refHead (W (Proc.devRef .tc main_v263 : DevRef τ sig)) (W (Proc.devRef .tc main_arg2 : DevRef τ sig)) (W (Proc.devRef .tc main_arg9 : DevRef τ sig)) (W (Proc.devRef .tc main_arg10 : DevRef τ sig))
          (W (Proc.devRef .tc main_arg11 : DevRef τ sig)) (W (Proc.devRef .tc main_arg12 : DevRef τ sig)) := by
  simp only [opsH, after_app, seg9, seg10]
  after_results_simp
  rfl

end Cert.ReferenceIdeal.RefRun

end
-- ==== Proof.RefRun.lean ====
/-
  The reference's run: it terminates, its result is the specification's network of its arguments, and its arguments
  are unchanged.

  The program is a straight line of whole-array operations, so every weakly fair execution of it terminates with each
  buffer holding the fold of the operations' results over the memory it started from.  That fold is taken chunk by chunk:
  the two rows of the edge list, then the five layers, then the pooling and the head.  Each chunk has been read back
  over arbitrary contents as a function of the buffers it reads; no chunk writes an argument buffer, and no layer writes
  the two edge rows; so the contents each chunk reads are, in turn, the arguments, the edge rows of the edge table, and
  the previous layer's output.  Composing the seven readings gives the specification's `refOut` of the thirteen
  arguments in the result buffer.
-/
import proofs.«164329_j2903397892177_1_alg».proof.Proof.RefRunMain
import proofs.«164329_j2903397892177_1_alg».proof.Proof.RefRunSide
import proofs.«164329_j2903397892177_1_alg».proof.Proof.RefRunP
import proofs.«164329_j2903397892177_1_alg».proof.Proof.RefRunL0
import proofs.«164329_j2903397892177_1_alg».proof.Proof.RefRunL1
import proofs.«164329_j2903397892177_1_alg».proof.Proof.RefRunL2
import proofs.«164329_j2903397892177_1_alg».proof.Proof.RefRunL3
import proofs.«164329_j2903397892177_1_alg».proof.Proof.RefRunL4
import proofs.«164329_j2903397892177_1_alg».proof.Proof.RefRunH

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

/-- The buffers' contents after the two rows of the edge list are cut. -/
def X1 (V : Valuation τ sig (Elt Ideal)) : Valuation τ sig (Elt Ideal) := after opsP V
/-- The buffers' contents after layer 0. -/
def X2 (V : Valuation τ sig (Elt Ideal)) : Valuation τ sig (Elt Ideal) := after opsL0 (X1 V)
/-- The buffers' contents after layer 1. -/
def X3 (V : Valuation τ sig (Elt Ideal)) : Valuation τ sig (Elt Ideal) := after opsL1 (X2 V)
/-- The buffers' contents after layer 2. -/
def X4 (V : Valuation τ sig (Elt Ideal)) : Valuation τ sig (Elt Ideal) := after opsL2 (X3 V)
/-- The buffers' contents after layer 3. -/
def X5 (V : Valuation τ sig (Elt Ideal)) : Valuation τ sig (Elt Ideal) := after opsL3 (X4 V)
/-- The buffers' contents after layer 4. -/
def X6 (V : Valuation τ sig (Elt Ideal)) : Valuation τ sig (Elt Ideal) := after opsL4 (X5 V)
/-- The buffers' contents after the pooling and the head. -/
def X7 (V : Valuation τ sig (Elt Ideal)) : Valuation τ sig (Elt Ideal) := after opsH (X6 V)

/-- Running the whole list is running its seven chunks in turn. -/
theorem after_ops (V : Valuation τ sig (Elt Ideal)) : after ops V = X7 V := by
  simp only [X7, X6, X5, X4, X3, X2, X1, ops, opsP, opsL0, opsL1, opsL2, opsL3, opsL4, opsH, after_app]

/-! ## The argument buffers are never written -/

theorem X1_arg0 (V : Valuation τ sig (Elt Ideal)) : X1 V (Proc.devRef .tc main_arg0 : DevRef τ sig) = V (Proc.devRef .tc main_arg0 : DevRef τ sig) :=
  opsP_keep (F := Ideal) V main_arg0 (by decide)
theorem X1_arg1 (V : Valuation τ sig (Elt Ideal)) : X1 V (Proc.devRef .tc main_arg1 : DevRef τ sig) = V (Proc.devRef .tc main_arg1 : DevRef τ sig) :=
  opsP_keep (F := Ideal) V main_arg1 (by decide)
theorem X1_arg2 (V : Valuation τ sig (Elt Ideal)) : X1 V (Proc.devRef .tc main_arg2 : DevRef τ sig) = V (Proc.devRef .tc main_arg2 : DevRef τ sig) :=
  opsP_keep (F := Ideal) V main_arg2 (by decide)
theorem X1_arg3 (V : Valuation τ sig (Elt Ideal)) : X1 V (Proc.devRef .tc main_arg3 : DevRef τ sig) = V (Proc.devRef .tc main_arg3 : DevRef τ sig) :=
  opsP_keep (F := Ideal) V main_arg3 (by decide)
theorem X1_arg4 (V : Valuation τ sig (Elt Ideal)) : X1 V (Proc.devRef .tc main_arg4 : DevRef τ sig) = V (Proc.devRef .tc main_arg4 : DevRef τ sig) :=
  opsP_keep (F := Ideal) V main_arg4 (by decide)
theorem X1_arg5 (V : Valuation τ sig (Elt Ideal)) : X1 V (Proc.devRef .tc main_arg5 : DevRef τ sig) = V (Proc.devRef .tc main_arg5 : DevRef τ sig) :=
  opsP_keep (F := Ideal) V main_arg5 (by decide)
theorem X1_arg6 (V : Valuation τ sig (Elt Ideal)) : X1 V (Proc.devRef .tc main_arg6 : DevRef τ sig) = V (Proc.devRef .tc main_arg6 : DevRef τ sig) :=
  opsP_keep (F := Ideal) V main_arg6 (by decide)
theorem X1_arg7 (V : Valuation τ sig (Elt Ideal)) : X1 V (Proc.devRef .tc main_arg7 : DevRef τ sig) = V (Proc.devRef .tc main_arg7 : DevRef τ sig) :=
  opsP_keep (F := Ideal) V main_arg7 (by decide)
theorem X1_arg8 (V : Valuation τ sig (Elt Ideal)) : X1 V (Proc.devRef .tc main_arg8 : DevRef τ sig) = V (Proc.devRef .tc main_arg8 : DevRef τ sig) :=
  opsP_keep (F := Ideal) V main_arg8 (by decide)
theorem X1_arg9 (V : Valuation τ sig (Elt Ideal)) : X1 V (Proc.devRef .tc main_arg9 : DevRef τ sig) = V (Proc.devRef .tc main_arg9 : DevRef τ sig) :=
  opsP_keep (F := Ideal) V main_arg9 (by decide)
theorem X1_arg10 (V : Valuation τ sig (Elt Ideal)) : X1 V (Proc.devRef .tc main_arg10 : DevRef τ sig) = V (Proc.devRef .tc main_arg10 : DevRef τ sig) :=
  opsP_keep (F := Ideal) V main_arg10 (by decide)
theorem X1_arg11 (V : Valuation τ sig (Elt Ideal)) : X1 V (Proc.devRef .tc main_arg11 : DevRef τ sig) = V (Proc.devRef .tc main_arg11 : DevRef τ sig) :=
  opsP_keep (F := Ideal) V main_arg11 (by decide)
theorem X1_arg12 (V : Valuation τ sig (Elt Ideal)) : X1 V (Proc.devRef .tc main_arg12 : DevRef τ sig) = V (Proc.devRef .tc main_arg12 : DevRef τ sig) :=
  opsP_keep (F := Ideal) V main_arg12 (by decide)
theorem X2_arg0 (V : Valuation τ sig (Elt Ideal)) : X2 V (Proc.devRef .tc main_arg0 : DevRef τ sig) = V (Proc.devRef .tc main_arg0 : DevRef τ sig) :=
  (opsL0_keep (F := Ideal) (X1 V) main_arg0 (by decide) (by decide)).trans (X1_arg0 V)
theorem X2_arg1 (V : Valuation τ sig (Elt Ideal)) : X2 V (Proc.devRef .tc main_arg1 : DevRef τ sig) = V (Proc.devRef .tc main_arg1 : DevRef τ sig) :=
  (opsL0_keep (F := Ideal) (X1 V) main_arg1 (by decide) (by decide)).trans (X1_arg1 V)
theorem X2_arg2 (V : Valuation τ sig (Elt Ideal)) : X2 V (Proc.devRef .tc main_arg2 : DevRef τ sig) = V (Proc.devRef .tc main_arg2 : DevRef τ sig) :=
  (opsL0_keep (F := Ideal) (X1 V) main_arg2 (by decide) (by decide)).trans (X1_arg2 V)
theorem X2_arg3 (V : Valuation τ sig (Elt Ideal)) : X2 V (Proc.devRef .tc main_arg3 : DevRef τ sig) = V (Proc.devRef .tc main_arg3 : DevRef τ sig) :=
  (opsL0_keep (F := Ideal) (X1 V) main_arg3 (by decide) (by decide)).trans (X1_arg3 V)
theorem X2_arg4 (V : Valuation τ sig (Elt Ideal)) : X2 V (Proc.devRef .tc main_arg4 : DevRef τ sig) = V (Proc.devRef .tc main_arg4 : DevRef τ sig) :=
  (opsL0_keep (F := Ideal) (X1 V) main_arg4 (by decide) (by decide)).trans (X1_arg4 V)
theorem X2_arg5 (V : Valuation τ sig (Elt Ideal)) : X2 V (Proc.devRef .tc main_arg5 : DevRef τ sig) = V (Proc.devRef .tc main_arg5 : DevRef τ sig) :=
  (opsL0_keep (F := Ideal) (X1 V) main_arg5 (by decide) (by decide)).trans (X1_arg5 V)
theorem X2_arg6 (V : Valuation τ sig (Elt Ideal)) : X2 V (Proc.devRef .tc main_arg6 : DevRef τ sig) = V (Proc.devRef .tc main_arg6 : DevRef τ sig) :=
  (opsL0_keep (F := Ideal) (X1 V) main_arg6 (by decide) (by decide)).trans (X1_arg6 V)
theorem X2_arg7 (V : Valuation τ sig (Elt Ideal)) : X2 V (Proc.devRef .tc main_arg7 : DevRef τ sig) = V (Proc.devRef .tc main_arg7 : DevRef τ sig) :=
  (opsL0_keep (F := Ideal) (X1 V) main_arg7 (by decide) (by decide)).trans (X1_arg7 V)
theorem X2_arg8 (V : Valuation τ sig (Elt Ideal)) : X2 V (Proc.devRef .tc main_arg8 : DevRef τ sig) = V (Proc.devRef .tc main_arg8 : DevRef τ sig) :=
  (opsL0_keep (F := Ideal) (X1 V) main_arg8 (by decide) (by decide)).trans (X1_arg8 V)
theorem X2_arg9 (V : Valuation τ sig (Elt Ideal)) : X2 V (Proc.devRef .tc main_arg9 : DevRef τ sig) = V (Proc.devRef .tc main_arg9 : DevRef τ sig) :=
  (opsL0_keep (F := Ideal) (X1 V) main_arg9 (by decide) (by decide)).trans (X1_arg9 V)
theorem X2_arg10 (V : Valuation τ sig (Elt Ideal)) : X2 V (Proc.devRef .tc main_arg10 : DevRef τ sig) = V (Proc.devRef .tc main_arg10 : DevRef τ sig) :=
  (opsL0_keep (F := Ideal) (X1 V) main_arg10 (by decide) (by decide)).trans (X1_arg10 V)
theorem X2_arg11 (V : Valuation τ sig (Elt Ideal)) : X2 V (Proc.devRef .tc main_arg11 : DevRef τ sig) = V (Proc.devRef .tc main_arg11 : DevRef τ sig) :=
  (opsL0_keep (F := Ideal) (X1 V) main_arg11 (by decide) (by decide)).trans (X1_arg11 V)
theorem X2_arg12 (V : Valuation τ sig (Elt Ideal)) : X2 V (Proc.devRef .tc main_arg12 : DevRef τ sig) = V (Proc.devRef .tc main_arg12 : DevRef τ sig) :=
  (opsL0_keep (F := Ideal) (X1 V) main_arg12 (by decide) (by decide)).trans (X1_arg12 V)
theorem X3_arg0 (V : Valuation τ sig (Elt Ideal)) : X3 V (Proc.devRef .tc main_arg0 : DevRef τ sig) = V (Proc.devRef .tc main_arg0 : DevRef τ sig) :=
  (opsL1_keep (F := Ideal) (X2 V) main_arg0 (by decide) (by decide)).trans (X2_arg0 V)
theorem X3_arg1 (V : Valuation τ sig (Elt Ideal)) : X3 V (Proc.devRef .tc main_arg1 : DevRef τ sig) = V (Proc.devRef .tc main_arg1 : DevRef τ sig) :=
  (opsL1_keep (F := Ideal) (X2 V) main_arg1 (by decide) (by decide)).trans (X2_arg1 V)
theorem X3_arg2 (V : Valuation τ sig (Elt Ideal)) : X3 V (Proc.devRef .tc main_arg2 : DevRef τ sig) = V (Proc.devRef .tc main_arg2 : DevRef τ sig) :=
  (opsL1_keep (F := Ideal) (X2 V) main_arg2 (by decide) (by decide)).trans (X2_arg2 V)
theorem X3_arg3 (V : Valuation τ sig (Elt Ideal)) : X3 V (Proc.devRef .tc main_arg3 : DevRef τ sig) = V (Proc.devRef .tc main_arg3 : DevRef τ sig) :=
  (opsL1_keep (F := Ideal) (X2 V) main_arg3 (by decide) (by decide)).trans (X2_arg3 V)
theorem X3_arg4 (V : Valuation τ sig (Elt Ideal)) : X3 V (Proc.devRef .tc main_arg4 : DevRef τ sig) = V (Proc.devRef .tc main_arg4 : DevRef τ sig) :=
  (opsL1_keep (F := Ideal) (X2 V) main_arg4 (by decide) (by decide)).trans (X2_arg4 V)
theorem X3_arg5 (V : Valuation τ sig (Elt Ideal)) : X3 V (Proc.devRef .tc main_arg5 : DevRef τ sig) = V (Proc.devRef .tc main_arg5 : DevRef τ sig) :=
  (opsL1_keep (F := Ideal) (X2 V) main_arg5 (by decide) (by decide)).trans (X2_arg5 V)
theorem X3_arg6 (V : Valuation τ sig (Elt Ideal)) : X3 V (Proc.devRef .tc main_arg6 : DevRef τ sig) = V (Proc.devRef .tc main_arg6 : DevRef τ sig) :=
  (opsL1_keep (F := Ideal) (X2 V) main_arg6 (by decide) (by decide)).trans (X2_arg6 V)
theorem X3_arg7 (V : Valuation τ sig (Elt Ideal)) : X3 V (Proc.devRef .tc main_arg7 : DevRef τ sig) = V (Proc.devRef .tc main_arg7 : DevRef τ sig) :=
  (opsL1_keep (F := Ideal) (X2 V) main_arg7 (by decide) (by decide)).trans (X2_arg7 V)
theorem X3_arg8 (V : Valuation τ sig (Elt Ideal)) : X3 V (Proc.devRef .tc main_arg8 : DevRef τ sig) = V (Proc.devRef .tc main_arg8 : DevRef τ sig) :=
  (opsL1_keep (F := Ideal) (X2 V) main_arg8 (by decide) (by decide)).trans (X2_arg8 V)
theorem X3_arg9 (V : Valuation τ sig (Elt Ideal)) : X3 V (Proc.devRef .tc main_arg9 : DevRef τ sig) = V (Proc.devRef .tc main_arg9 : DevRef τ sig) :=
  (opsL1_keep (F := Ideal) (X2 V) main_arg9 (by decide) (by decide)).trans (X2_arg9 V)
theorem X3_arg10 (V : Valuation τ sig (Elt Ideal)) : X3 V (Proc.devRef .tc main_arg10 : DevRef τ sig) = V (Proc.devRef .tc main_arg10 : DevRef τ sig) :=
  (opsL1_keep (F := Ideal) (X2 V) main_arg10 (by decide) (by decide)).trans (X2_arg10 V)
theorem X3_arg11 (V : Valuation τ sig (Elt Ideal)) : X3 V (Proc.devRef .tc main_arg11 : DevRef τ sig) = V (Proc.devRef .tc main_arg11 : DevRef τ sig) :=
  (opsL1_keep (F := Ideal) (X2 V) main_arg11 (by decide) (by decide)).trans (X2_arg11 V)
theorem X3_arg12 (V : Valuation τ sig (Elt Ideal)) : X3 V (Proc.devRef .tc main_arg12 : DevRef τ sig) = V (Proc.devRef .tc main_arg12 : DevRef τ sig) :=
  (opsL1_keep (F := Ideal) (X2 V) main_arg12 (by decide) (by decide)).trans (X2_arg12 V)
theorem X4_arg0 (V : Valuation τ sig (Elt Ideal)) : X4 V (Proc.devRef .tc main_arg0 : DevRef τ sig) = V (Proc.devRef .tc main_arg0 : DevRef τ sig) :=
  (opsL2_keep (F := Ideal) (X3 V) main_arg0 (by decide) (by decide)).trans (X3_arg0 V)
theorem X4_arg1 (V : Valuation τ sig (Elt Ideal)) : X4 V (Proc.devRef .tc main_arg1 : DevRef τ sig) = V (Proc.devRef .tc main_arg1 : DevRef τ sig) :=
  (opsL2_keep (F := Ideal) (X3 V) main_arg1 (by decide) (by decide)).trans (X3_arg1 V)
theorem X4_arg2 (V : Valuation τ sig (Elt Ideal)) : X4 V (Proc.devRef .tc main_arg2 : DevRef τ sig) = V (Proc.devRef .tc main_arg2 : DevRef τ sig) :=
  (opsL2_keep (F := Ideal) (X3 V) main_arg2 (by decide) (by decide)).trans (X3_arg2 V)
theorem X4_arg3 (V : Valuation τ sig (Elt Ideal)) : X4 V (Proc.devRef .tc main_arg3 : DevRef τ sig) = V (Proc.devRef .tc main_arg3 : DevRef τ sig) :=
  (opsL2_keep (F := Ideal) (X3 V) main_arg3 (by decide) (by decide)).trans (X3_arg3 V)
theorem X4_arg4 (V : Valuation τ sig (Elt Ideal)) : X4 V (Proc.devRef .tc main_arg4 : DevRef τ sig) = V (Proc.devRef .tc main_arg4 : DevRef τ sig) :=
  (opsL2_keep (F := Ideal) (X3 V) main_arg4 (by decide) (by decide)).trans (X3_arg4 V)
theorem X4_arg5 (V : Valuation τ sig (Elt Ideal)) : X4 V (Proc.devRef .tc main_arg5 : DevRef τ sig) = V (Proc.devRef .tc main_arg5 : DevRef τ sig) :=
  (opsL2_keep (F := Ideal) (X3 V) main_arg5 (by decide) (by decide)).trans (X3_arg5 V)
theorem X4_arg6 (V : Valuation τ sig (Elt Ideal)) : X4 V (Proc.devRef .tc main_arg6 : DevRef τ sig) = V (Proc.devRef .tc main_arg6 : DevRef τ sig) :=
  (opsL2_keep (F := Ideal) (X3 V) main_arg6 (by decide) (by decide)).trans (X3_arg6 V)
theorem X4_arg7 (V : Valuation τ sig (Elt Ideal)) : X4 V (Proc.devRef .tc main_arg7 : DevRef τ sig) = V (Proc.devRef .tc main_arg7 : DevRef τ sig) :=
  (opsL2_keep (F := Ideal) (X3 V) main_arg7 (by decide) (by decide)).trans (X3_arg7 V)
theorem X4_arg8 (V : Valuation τ sig (Elt Ideal)) : X4 V (Proc.devRef .tc main_arg8 : DevRef τ sig) = V (Proc.devRef .tc main_arg8 : DevRef τ sig) :=
  (opsL2_keep (F := Ideal) (X3 V) main_arg8 (by decide) (by decide)).trans (X3_arg8 V)
theorem X4_arg9 (V : Valuation τ sig (Elt Ideal)) : X4 V (Proc.devRef .tc main_arg9 : DevRef τ sig) = V (Proc.devRef .tc main_arg9 : DevRef τ sig) :=
  (opsL2_keep (F := Ideal) (X3 V) main_arg9 (by decide) (by decide)).trans (X3_arg9 V)
theorem X4_arg10 (V : Valuation τ sig (Elt Ideal)) : X4 V (Proc.devRef .tc main_arg10 : DevRef τ sig) = V (Proc.devRef .tc main_arg10 : DevRef τ sig) :=
  (opsL2_keep (F := Ideal) (X3 V) main_arg10 (by decide) (by decide)).trans (X3_arg10 V)
theorem X4_arg11 (V : Valuation τ sig (Elt Ideal)) : X4 V (Proc.devRef .tc main_arg11 : DevRef τ sig) = V (Proc.devRef .tc main_arg11 : DevRef τ sig) :=
  (opsL2_keep (F := Ideal) (X3 V) main_arg11 (by decide) (by decide)).trans (X3_arg11 V)
theorem X4_arg12 (V : Valuation τ sig (Elt Ideal)) : X4 V (Proc.devRef .tc main_arg12 : DevRef τ sig) = V (Proc.devRef .tc main_arg12 : DevRef τ sig) :=
  (opsL2_keep (F := Ideal) (X3 V) main_arg12 (by decide) (by decide)).trans (X3_arg12 V)
theorem X5_arg0 (V : Valuation τ sig (Elt Ideal)) : X5 V (Proc.devRef .tc main_arg0 : DevRef τ sig) = V (Proc.devRef .tc main_arg0 : DevRef τ sig) :=
  (opsL3_keep (F := Ideal) (X4 V) main_arg0 (by decide)).trans (X4_arg0 V)
theorem X5_arg1 (V : Valuation τ sig (Elt Ideal)) : X5 V (Proc.devRef .tc main_arg1 : DevRef τ sig) = V (Proc.devRef .tc main_arg1 : DevRef τ sig) :=
  (opsL3_keep (F := Ideal) (X4 V) main_arg1 (by decide)).trans (X4_arg1 V)
theorem X5_arg2 (V : Valuation τ sig (Elt Ideal)) : X5 V (Proc.devRef .tc main_arg2 : DevRef τ sig) = V (Proc.devRef .tc main_arg2 : DevRef τ sig) :=
  (opsL3_keep (F := Ideal) (X4 V) main_arg2 (by decide)).trans (X4_arg2 V)
theorem X5_arg3 (V : Valuation τ sig (Elt Ideal)) : X5 V (Proc.devRef .tc main_arg3 : DevRef τ sig) = V (Proc.devRef .tc main_arg3 : DevRef τ sig) :=
  (opsL3_keep (F := Ideal) (X4 V) main_arg3 (by decide)).trans (X4_arg3 V)
theorem X5_arg4 (V : Valuation τ sig (Elt Ideal)) : X5 V (Proc.devRef .tc main_arg4 : DevRef τ sig) = V (Proc.devRef .tc main_arg4 : DevRef τ sig) :=
  (opsL3_keep (F := Ideal) (X4 V) main_arg4 (by decide)).trans (X4_arg4 V)
theorem X5_arg5 (V : Valuation τ sig (Elt Ideal)) : X5 V (Proc.devRef .tc main_arg5 : DevRef τ sig) = V (Proc.devRef .tc main_arg5 : DevRef τ sig) :=
  (opsL3_keep (F := Ideal) (X4 V) main_arg5 (by decide)).trans (X4_arg5 V)
theorem X5_arg6 (V : Valuation τ sig (Elt Ideal)) : X5 V (Proc.devRef .tc main_arg6 : DevRef τ sig) = V (Proc.devRef .tc main_arg6 : DevRef τ sig) :=
  (opsL3_keep (F := Ideal) (X4 V) main_arg6 (by decide)).trans (X4_arg6 V)
theorem X5_arg7 (V : Valuation τ sig (Elt Ideal)) : X5 V (Proc.devRef .tc main_arg7 : DevRef τ sig) = V (Proc.devRef .tc main_arg7 : DevRef τ sig) :=
  (opsL3_keep (F := Ideal) (X4 V) main_arg7 (by decide)).trans (X4_arg7 V)
theorem X5_arg8 (V : Valuation τ sig (Elt Ideal)) : X5 V (Proc.devRef .tc main_arg8 : DevRef τ sig) = V (Proc.devRef .tc main_arg8 : DevRef τ sig) :=
  (opsL3_keep (F := Ideal) (X4 V) main_arg8 (by decide)).trans (X4_arg8 V)
theorem X5_arg9 (V : Valuation τ sig (Elt Ideal)) : X5 V (Proc.devRef .tc main_arg9 : DevRef τ sig) = V (Proc.devRef .tc main_arg9 : DevRef τ sig) :=
  (opsL3_keep (F := Ideal) (X4 V) main_arg9 (by decide)).trans (X4_arg9 V)
theorem X5_arg10 (V : Valuation τ sig (Elt Ideal)) : X5 V (Proc.devRef .tc main_arg10 : DevRef τ sig) = V (Proc.devRef .tc main_arg10 : DevRef τ sig) :=
  (opsL3_keep (F := Ideal) (X4 V) main_arg10 (by decide)).trans (X4_arg10 V)
theorem X5_arg11 (V : Valuation τ sig (Elt Ideal)) : X5 V (Proc.devRef .tc main_arg11 : DevRef τ sig) = V (Proc.devRef .tc main_arg11 : DevRef τ sig) :=
  (opsL3_keep (F := Ideal) (X4 V) main_arg11 (by decide)).trans (X4_arg11 V)
theorem X5_arg12 (V : Valuation τ sig (Elt Ideal)) : X5 V (Proc.devRef .tc main_arg12 : DevRef τ sig) = V (Proc.devRef .tc main_arg12 : DevRef τ sig) :=
  (opsL3_keep (F := Ideal) (X4 V) main_arg12 (by decide)).trans (X4_arg12 V)
theorem X6_arg0 (V : Valuation τ sig (Elt Ideal)) : X6 V (Proc.devRef .tc main_arg0 : DevRef τ sig) = V (Proc.devRef .tc main_arg0 : DevRef τ sig) :=
  (opsL4_keep (F := Ideal) (X5 V) main_arg0 (by decide)).trans (X5_arg0 V)
theorem X6_arg1 (V : Valuation τ sig (Elt Ideal)) : X6 V (Proc.devRef .tc main_arg1 : DevRef τ sig) = V (Proc.devRef .tc main_arg1 : DevRef τ sig) :=
  (opsL4_keep (F := Ideal) (X5 V) main_arg1 (by decide)).trans (X5_arg1 V)
theorem X6_arg2 (V : Valuation τ sig (Elt Ideal)) : X6 V (Proc.devRef .tc main_arg2 : DevRef τ sig) = V (Proc.devRef .tc main_arg2 : DevRef τ sig) :=
  (opsL4_keep (F := Ideal) (X5 V) main_arg2 (by decide)).trans (X5_arg2 V)
theorem X6_arg3 (V : Valuation τ sig (Elt Ideal)) : X6 V (Proc.devRef .tc main_arg3 : DevRef τ sig) = V (Proc.devRef .tc main_arg3 : DevRef τ sig) :=
  (opsL4_keep (F := Ideal) (X5 V) main_arg3 (by decide)).trans (X5_arg3 V)
theorem X6_arg4 (V : Valuation τ sig (Elt Ideal)) : X6 V (Proc.devRef .tc main_arg4 : DevRef τ sig) = V (Proc.devRef .tc main_arg4 : DevRef τ sig) :=
  (opsL4_keep (F := Ideal) (X5 V) main_arg4 (by decide)).trans (X5_arg4 V)
theorem X6_arg5 (V : Valuation τ sig (Elt Ideal)) : X6 V (Proc.devRef .tc main_arg5 : DevRef τ sig) = V (Proc.devRef .tc main_arg5 : DevRef τ sig) :=
  (opsL4_keep (F := Ideal) (X5 V) main_arg5 (by decide)).trans (X5_arg5 V)
theorem X6_arg6 (V : Valuation τ sig (Elt Ideal)) : X6 V (Proc.devRef .tc main_arg6 : DevRef τ sig) = V (Proc.devRef .tc main_arg6 : DevRef τ sig) :=
  (opsL4_keep (F := Ideal) (X5 V) main_arg6 (by decide)).trans (X5_arg6 V)
theorem X6_arg7 (V : Valuation τ sig (Elt Ideal)) : X6 V (Proc.devRef .tc main_arg7 : DevRef τ sig) = V (Proc.devRef .tc main_arg7 : DevRef τ sig) :=
  (opsL4_keep (F := Ideal) (X5 V) main_arg7 (by decide)).trans (X5_arg7 V)
theorem X6_arg8 (V : Valuation τ sig (Elt Ideal)) : X6 V (Proc.devRef .tc main_arg8 : DevRef τ sig) = V (Proc.devRef .tc main_arg8 : DevRef τ sig) :=
  (opsL4_keep (F := Ideal) (X5 V) main_arg8 (by decide)).trans (X5_arg8 V)
theorem X6_arg9 (V : Valuation τ sig (Elt Ideal)) : X6 V (Proc.devRef .tc main_arg9 : DevRef τ sig) = V (Proc.devRef .tc main_arg9 : DevRef τ sig) :=
  (opsL4_keep (F := Ideal) (X5 V) main_arg9 (by decide)).trans (X5_arg9 V)
theorem X6_arg10 (V : Valuation τ sig (Elt Ideal)) : X6 V (Proc.devRef .tc main_arg10 : DevRef τ sig) = V (Proc.devRef .tc main_arg10 : DevRef τ sig) :=
  (opsL4_keep (F := Ideal) (X5 V) main_arg10 (by decide)).trans (X5_arg10 V)
theorem X6_arg11 (V : Valuation τ sig (Elt Ideal)) : X6 V (Proc.devRef .tc main_arg11 : DevRef τ sig) = V (Proc.devRef .tc main_arg11 : DevRef τ sig) :=
  (opsL4_keep (F := Ideal) (X5 V) main_arg11 (by decide)).trans (X5_arg11 V)
theorem X6_arg12 (V : Valuation τ sig (Elt Ideal)) : X6 V (Proc.devRef .tc main_arg12 : DevRef τ sig) = V (Proc.devRef .tc main_arg12 : DevRef τ sig) :=
  (opsL4_keep (F := Ideal) (X5 V) main_arg12 (by decide)).trans (X5_arg12 V)
theorem X7_arg0 (V : Valuation τ sig (Elt Ideal)) : X7 V (Proc.devRef .tc main_arg0 : DevRef τ sig) = V (Proc.devRef .tc main_arg0 : DevRef τ sig) :=
  (opsH_keep (F := Ideal) (X6 V) main_arg0 (by decide) (by decide)).trans (X6_arg0 V)
theorem X7_arg1 (V : Valuation τ sig (Elt Ideal)) : X7 V (Proc.devRef .tc main_arg1 : DevRef τ sig) = V (Proc.devRef .tc main_arg1 : DevRef τ sig) :=
  (opsH_keep (F := Ideal) (X6 V) main_arg1 (by decide) (by decide)).trans (X6_arg1 V)
theorem X7_arg2 (V : Valuation τ sig (Elt Ideal)) : X7 V (Proc.devRef .tc main_arg2 : DevRef τ sig) = V (Proc.devRef .tc main_arg2 : DevRef τ sig) :=
  (opsH_keep (F := Ideal) (X6 V) main_arg2 (by decide) (by decide)).trans (X6_arg2 V)
theorem X7_arg3 (V : Valuation τ sig (Elt Ideal)) : X7 V (Proc.devRef .tc main_arg3 : DevRef τ sig) = V (Proc.devRef .tc main_arg3 : DevRef τ sig) :=
  (opsH_keep (F := Ideal) (X6 V) main_arg3 (by decide) (by decide)).trans (X6_arg3 V)
theorem X7_arg4 (V : Valuation τ sig (Elt Ideal)) : X7 V (Proc.devRef .tc main_arg4 : DevRef τ sig) = V (Proc.devRef .tc main_arg4 : DevRef τ sig) :=
  (opsH_keep (F := Ideal) (X6 V) main_arg4 (by decide) (by decide)).trans (X6_arg4 V)
theorem X7_arg5 (V : Valuation τ sig (Elt Ideal)) : X7 V (Proc.devRef .tc main_arg5 : DevRef τ sig) = V (Proc.devRef .tc main_arg5 : DevRef τ sig) :=
  (opsH_keep (F := Ideal) (X6 V) main_arg5 (by decide) (by decide)).trans (X6_arg5 V)
theorem X7_arg6 (V : Valuation τ sig (Elt Ideal)) : X7 V (Proc.devRef .tc main_arg6 : DevRef τ sig) = V (Proc.devRef .tc main_arg6 : DevRef τ sig) :=
  (opsH_keep (F := Ideal) (X6 V) main_arg6 (by decide) (by decide)).trans (X6_arg6 V)
theorem X7_arg7 (V : Valuation τ sig (Elt Ideal)) : X7 V (Proc.devRef .tc main_arg7 : DevRef τ sig) = V (Proc.devRef .tc main_arg7 : DevRef τ sig) :=
  (opsH_keep (F := Ideal) (X6 V) main_arg7 (by decide) (by decide)).trans (X6_arg7 V)
theorem X7_arg8 (V : Valuation τ sig (Elt Ideal)) : X7 V (Proc.devRef .tc main_arg8 : DevRef τ sig) = V (Proc.devRef .tc main_arg8 : DevRef τ sig) :=
  (opsH_keep (F := Ideal) (X6 V) main_arg8 (by decide) (by decide)).trans (X6_arg8 V)
theorem X7_arg9 (V : Valuation τ sig (Elt Ideal)) : X7 V (Proc.devRef .tc main_arg9 : DevRef τ sig) = V (Proc.devRef .tc main_arg9 : DevRef τ sig) :=
  (opsH_keep (F := Ideal) (X6 V) main_arg9 (by decide) (by decide)).trans (X6_arg9 V)
theorem X7_arg10 (V : Valuation τ sig (Elt Ideal)) : X7 V (Proc.devRef .tc main_arg10 : DevRef τ sig) = V (Proc.devRef .tc main_arg10 : DevRef τ sig) :=
  (opsH_keep (F := Ideal) (X6 V) main_arg10 (by decide) (by decide)).trans (X6_arg10 V)
theorem X7_arg11 (V : Valuation τ sig (Elt Ideal)) : X7 V (Proc.devRef .tc main_arg11 : DevRef τ sig) = V (Proc.devRef .tc main_arg11 : DevRef τ sig) :=
  (opsH_keep (F := Ideal) (X6 V) main_arg11 (by decide) (by decide)).trans (X6_arg11 V)
theorem X7_arg12 (V : Valuation τ sig (Elt Ideal)) : X7 V (Proc.devRef .tc main_arg12 : DevRef τ sig) = V (Proc.devRef .tc main_arg12 : DevRef τ sig) :=
  (opsH_keep (F := Ideal) (X6 V) main_arg12 (by decide) (by decide)).trans (X6_arg12 V)

/-! ## The two rows of the edge list stay where they were put -/

theorem X1_src (V : Valuation τ sig (Elt Ideal)) : X1 V (Proc.devRef .tc main_v1 : DevRef τ sig) = RefSpec.edgeRow 0 (V (Proc.devRef .tc main_arg1 : DevRef τ sig)) := opsP_src V
theorem X2_src (V : Valuation τ sig (Elt Ideal)) : X2 V (Proc.devRef .tc main_v1 : DevRef τ sig) = RefSpec.edgeRow 0 (V (Proc.devRef .tc main_arg1 : DevRef τ sig)) :=
  (opsL0_keep (F := Ideal) (X1 V) main_v1 (by decide) (by decide)).trans (X1_src V)
theorem X3_src (V : Valuation τ sig (Elt Ideal)) : X3 V (Proc.devRef .tc main_v1 : DevRef τ sig) = RefSpec.edgeRow 0 (V (Proc.devRef .tc main_arg1 : DevRef τ sig)) :=
  (opsL1_keep (F := Ideal) (X2 V) main_v1 (by decide) (by decide)).trans (X2_src V)
theorem X4_src (V : Valuation τ sig (Elt Ideal)) : X4 V (Proc.devRef .tc main_v1 : DevRef τ sig) = RefSpec.edgeRow 0 (V (Proc.devRef .tc main_arg1 : DevRef τ sig)) :=
  (opsL2_keep (F := Ideal) (X3 V) main_v1 (by decide) (by decide)).trans (X3_src V)
theorem X5_src (V : Valuation τ sig (Elt Ideal)) : X5 V (Proc.devRef .tc main_v1 : DevRef τ sig) = RefSpec.edgeRow 0 (V (Proc.devRef .tc main_arg1 : DevRef τ sig)) :=
  (opsL3_keep (F := Ideal) (X4 V) main_v1 (by decide)).trans (X4_src V)
theorem X6_src (V : Valuation τ sig (Elt Ideal)) : X6 V (Proc.devRef .tc main_v1 : DevRef τ sig) = RefSpec.edgeRow 0 (V (Proc.devRef .tc main_arg1 : DevRef τ sig)) :=
  (opsL4_keep (F := Ideal) (X5 V) main_v1 (by decide)).trans (X5_src V)
theorem X1_dst (V : Valuation τ sig (Elt Ideal)) : X1 V (Proc.devRef .tc main_v3 : DevRef τ sig) = RefSpec.edgeRow 1 (V (Proc.devRef .tc main_arg1 : DevRef τ sig)) := opsP_dst V
theorem X2_dst (V : Valuation τ sig (Elt Ideal)) : X2 V (Proc.devRef .tc main_v3 : DevRef τ sig) = RefSpec.edgeRow 1 (V (Proc.devRef .tc main_arg1 : DevRef τ sig)) :=
  (opsL0_keep (F := Ideal) (X1 V) main_v3 (by decide) (by decide)).trans (X1_dst V)
theorem X3_dst (V : Valuation τ sig (Elt Ideal)) : X3 V (Proc.devRef .tc main_v3 : DevRef τ sig) = RefSpec.edgeRow 1 (V (Proc.devRef .tc main_arg1 : DevRef τ sig)) :=
  (opsL1_keep (F := Ideal) (X2 V) main_v3 (by decide) (by decide)).trans (X2_dst V)
theorem X4_dst (V : Valuation τ sig (Elt Ideal)) : X4 V (Proc.devRef .tc main_v3 : DevRef τ sig) = RefSpec.edgeRow 1 (V (Proc.devRef .tc main_arg1 : DevRef τ sig)) :=
  (opsL2_keep (F := Ideal) (X3 V) main_v3 (by decide) (by decide)).trans (X3_dst V)
theorem X5_dst (V : Valuation τ sig (Elt Ideal)) : X5 V (Proc.devRef .tc main_v3 : DevRef τ sig) = RefSpec.edgeRow 1 (V (Proc.devRef .tc main_arg1 : DevRef τ sig)) :=
  (opsL3_keep (F := Ideal) (X4 V) main_v3 (by decide)).trans (X4_dst V)
theorem X6_dst (V : Valuation τ sig (Elt Ideal)) : X6 V (Proc.devRef .tc main_v3 : DevRef τ sig) = RefSpec.edgeRow 1 (V (Proc.devRef .tc main_arg1 : DevRef τ sig)) :=
  (opsL4_keep (F := Ideal) (X5 V) main_v3 (by decide)).trans (X5_dst V)

/-! ## The node features after each layer -/

/-- The node features the network starts from. -/
def Y0 (V : Valuation τ sig (Elt Ideal)) : RefSpec.FA S100000x128 := V (Proc.devRef .tc main_arg0 : DevRef τ sig)
/-- The node features after layer 0. -/
def Y1 (V : Valuation τ sig (Elt Ideal)) : RefSpec.FA S100000x128 :=
  RefSpec.layerAt 0 (V (Proc.devRef .tc main_arg1 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (Y0 V)
/-- The node features after layer 1. -/
def Y2 (V : Valuation τ sig (Elt Ideal)) : RefSpec.FA S100000x128 :=
  RefSpec.layerAt 1 (V (Proc.devRef .tc main_arg1 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (Y1 V)
/-- The node features after layer 2. -/
def Y3 (V : Valuation τ sig (Elt Ideal)) : RefSpec.FA S100000x128 :=
  RefSpec.layerAt 2 (V (Proc.devRef .tc main_arg1 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (Y2 V)
/-- The node features after layer 3. -/
def Y4 (V : Valuation τ sig (Elt Ideal)) : RefSpec.FA S100000x128 :=
  RefSpec.layerAt 3 (V (Proc.devRef .tc main_arg1 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (Y3 V)
/-- The node features after layer 4. -/
def Y5 (V : Valuation τ sig (Elt Ideal)) : RefSpec.FA S100000x128 :=
  RefSpec.layerAt 4 (V (Proc.devRef .tc main_arg1 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (Y4 V)

/-- Layer 0 leaves the specification's layer 0 of the features before it in its output buffer. -/
theorem X2_out (V : Valuation τ sig (Elt Ideal)) : X2 V (Proc.devRef .tc main_v55 : DevRef τ sig) = Y1 V := by
  unfold X2
  rw [opsL0_out, X1_arg0, X1_src, X1_dst, X1_arg3, X1_arg4, X1_arg5, X1_arg6, X1_arg7, X1_arg8]
  rfl

/-- Layer 1 leaves the specification's layer 1 of the features before it in its output buffer. -/
theorem X3_out (V : Valuation τ sig (Elt Ideal)) : X3 V (Proc.devRef .tc main_v107 : DevRef τ sig) = Y2 V := by
  unfold X3
  rw [opsL1_out, X2_out, X2_src, X2_dst, X2_arg3, X2_arg4, X2_arg5, X2_arg6, X2_arg7, X2_arg8]
  rfl

/-- Layer 2 leaves the specification's layer 2 of the features before it in its output buffer. -/
theorem X4_out (V : Valuation τ sig (Elt Ideal)) : X4 V (Proc.devRef .tc main_v159 : DevRef τ sig) = Y3 V := by
  unfold X4
  rw [opsL2_out, X3_out, X3_src, X3_dst, X3_arg3, X3_arg4, X3_arg5, X3_arg6, X3_arg7, X3_arg8]
  rfl

/-- Layer 3 leaves the specification's layer 3 of the features before it in its output buffer. -/
theorem X5_out (V : Valuation τ sig (Elt Ideal)) : X5 V (Proc.devRef .tc main_v211 : DevRef τ sig) = Y4 V := by
  unfold X5
  rw [opsL3_out, X4_out, X4_src, X4_dst, X4_arg3, X4_arg4, X4_arg5, X4_arg6, X4_arg7, X4_arg8]
  rfl

/-- Layer 4 leaves the specification's layer 4 of the features before it in its output buffer. -/
theorem X6_out (V : Valuation τ sig (Elt Ideal)) : X6 V (Proc.devRef .tc main_v263 : DevRef τ sig) = Y5 V := by
  unfold X6
  rw [opsL4_out, X5_out, X5_src, X5_dst, X5_arg3, X5_arg4, X5_arg5, X5_arg6, X5_arg7, X5_arg8]
  rfl

/-- The result buffer after the whole program is the specification's network of the argument arrays. -/
theorem X7_out (V : Valuation τ sig (Elt Ideal)) :
    X7 V (Proc.devRef .tc main_v275 : DevRef τ sig) = RefSpec.refOut (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  unfold X7
  rw [opsH_out, X6_out, X6_arg2, X6_arg9, X6_arg10, X6_arg11, X6_arg12]
  rfl

/-- On every device, from any memory with zero counters: every weakly fair execution of the reference terminates
    without a fault, with its result the specification's network of the argument arrays as the memory held them at the
    start, and the thirteen argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v275) = RefSpec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v275).trans (by rw [after_ops]; exact X7_out (launchContents m c)),
      (h c main_arg0).trans (by rw [after_ops]; exact X7_arg0 (launchContents m c)),
      (h c main_arg1).trans (by rw [after_ops]; exact X7_arg1 (launchContents m c)),
      (h c main_arg2).trans (by rw [after_ops]; exact X7_arg2 (launchContents m c)),
      (h c main_arg3).trans (by rw [after_ops]; exact X7_arg3 (launchContents m c)),
      (h c main_arg4).trans (by rw [after_ops]; exact X7_arg4 (launchContents m c)),
      (h c main_arg5).trans (by rw [after_ops]; exact X7_arg5 (launchContents m c)),
      (h c main_arg6).trans (by rw [after_ops]; exact X7_arg6 (launchContents m c)),
      (h c main_arg7).trans (by rw [after_ops]; exact X7_arg7 (launchContents m c)),
      (h c main_arg8).trans (by rw [after_ops]; exact X7_arg8 (launchContents m c)),
      (h c main_arg9).trans (by rw [after_ops]; exact X7_arg9 (launchContents m c)),
      (h c main_arg10).trans (by rw [after_ops]; exact X7_arg10 (launchContents m c)),
      (h c main_arg11).trans (by rw [after_ops]; exact X7_arg11 (launchContents m c)),
      (h c main_arg12).trans (by rw [after_ops]; exact X7_arg12 (launchContents m c))⟩)
    (run_seq scopedRefs_eq scopedSems_eq defs main (fun _ => ops) main_eq (fun _ => ops_sub) m ρ (fun _ => ops_fresh))

/-- The same run with the result forgotten: the reference terminates without a fault and leaves its thirteen argument
    arrays unchanged. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.ReferenceIdeal.RefRun

end
-- ==== Proof.RefRunFrame.lean ====
/-
  The frame of the reference, as the certificate states it: under the precondition on the inputs (which this program
  does not need) it terminates without a fault and its argument arrays end unchanged.
-/
import proofs.«164329_j2903397892177_1_alg».proof.Defs
import proofs.«164329_j2903397892177_1_alg».proof.Proof.RefRun

noncomputable section

namespace Cert.ReferenceIdeal.RefRun

open Cert.ReferenceIdeal Idealize.ShloMosaic Idealize.ShloMosaic.TcCoe Idealize.SL.Sem Idealize.ShloMosaic.StableHlo

-- the side conditions the printed program states of its shapes (slices, broadcasts, reductions), cited by name
variable [Facts]
open Facts₀ Facts

/-- The reference runs and leaves its arguments unchanged, from any memory — in particular from one with finite
    inputs. -/
theorem frame [Cert.Pre_finite_inputs.Facts] : Cert.frame_ReferenceIdeal :=
  fun m g _ => frame_run m g

end Cert.ReferenceIdeal.RefRun

end
-- ==== Proof.KernelRunVHost.lean ====
/-
  The host operations between the regions, each chain named as one function of the buffers it reads. A GIN layer's
  neighbour sum gathers the feature rows at every edge's source node and adds them into the row of the edge's
  destination node; batch normalisation's mean and variance come from the column sums s and ss of the layer's first
  linear map as s / 100000 and ss / 100000 - (s / 100000)^2; a layer's weights are one slice of a stacked array; the
  pooling adds every node's feature row into the row of its graph. Each body is the printed operations, in order.
-/
import proofs.«164329_j2903397892177_1_alg».proof.Proof.Gen.KernelIdeal.Frame

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every edge's source node: row 0 of the 2 x 1600000 edge table, as a vector of length 1600000. -/
def edgeSrc (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Every edge's destination node: row 1 of the edge table, as a vector of length 1600000. -/
def edgeDst (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The neighbour sum of the features `x`: a negative source index is first shifted up by 100000 (the wrap-around of
    indexing from the end), the row of `x` at every edge's source is gathered, and the gathered rows are added, edge by
    edge, into a zero array at the row of the edge's destination. -/
def nbrSum (x : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The column mean from the column sum `s` over the 100000 rows: s / 100000, the divisor the literal 100000.0. -/
def meanOf (s : (⟨S1x128, .f32⟩ : BufTy).Contents (Elt F)) : (⟨S1x128, .f32⟩ : BufTy).Contents (Elt F) :=
  Host.divf s (broadcastInDim S1x128 ![] bcast_S_S1x128 (constant S_ .f32 0x47C35000#32))

/-- The column variance from the column sum `s` and the column sum of squares `ss`: ss / 100000 - (s / 100000)^2. -/
def varOf (s ss : (⟨S1x128, .f32⟩ : BufTy).Contents (Elt F)) : (⟨S1x128, .f32⟩ : BufTy).Contents (Elt F) :=
  subf (Host.divf ss (broadcastInDim S1x128 ![] bcast_S_S1x128 (constant S_ .f32 0x47C35000#32))) (mulf (meanOf s) (meanOf s))

/-- One layer's 128 x 128 matrix out of the stack of five: the slice at `off`, with the unit axis dropped. -/
def layerMat (off : Fin 3 → Nat) (h : S5x128x128.Slices off S1x128x128) (w : (⟨S5x128x128, .f32⟩ : BufTy).Contents (Elt F)) : (⟨S128x128, .f32⟩ : BufTy).Contents (Elt F) :=
  shapeCast S128x128 (extractStridedSlice S1x128x128 off w h) shapeCasts_S1x128x128_S128x128

/-- One layer's vector of length 128 out of the stack of five: the slice at `off`, with the unit axis dropped. -/
def layerVec (off : Fin 2 → Nat) (h : S5x128.Slices off S1x128) (b : (⟨S5x128, .f32⟩ : BufTy).Contents (Elt F)) : (⟨S128, .f32⟩ : BufTy).Contents (Elt F) :=
  shapeCast S128 (extractStridedSlice S1x128 off b h) shapeCasts_S1x128_S128

/-- The pooled features: every node's feature row added into a zero 512 x 128 array at the row of the node's graph. -/
def pooledOf (x : (⟨S100000x128, .f32⟩ : BufTy).Contents (Elt F)) (batch : (⟨S100000, .i32⟩ : BufTy).Contents (Elt F)) : (⟨S512x128, .f32⟩ : BufTy).Contents (Elt F) :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch) x

end Cert.KernelIdeal.RunV

end
-- ==== Proof.KernelRunVS0.lean ====
/-
  The first layer's first region is entered after the first stretch of host operations, run from the launch memory.
  Its four input arrays then hold: the node features as launched; the neighbour sum of the launched features along the
  launched edge table; the first layer's slice of the first stacked weight matrix and of the first stacked bias.
  The edge table's two rows, which every later layer's neighbour sum reads again, are also named here.
-/
import proofs.«164329_j2903397892177_1_alg».proof.Proof.Gen.KernelIdeal.Frame
import proofs.«164329_j2903397892177_1_alg».proof.Proof.KernelRunVHost

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 0, the node-feature array (input window 0) holds the launched features: no host operation writes it. -/
theorem s0_x (c : Dev nD) :
    (V1 m ρ c main_arg0 : (⟨S100000x128, .f32⟩ : BufTy).Contents (Elt F)) = m ((c : Thread nD τ).loc main_arg0) := by
  show StableHlo.after hostOps0 (W0 m ρ c) (Proc.devRef .tc main_arg0) = _
  after_results <;> rfl

/-- Entering region 0, the source-index vector holds row 0 of the launched edge table. -/
theorem s0_src (c : Dev nD) :
    (W1 m ρ c (Proc.devRef .tc main_v1) : (⟨S1600000, .i32⟩ : BufTy).Contents (Elt F)) = edgeSrc (m ((c : Thread nD τ).loc main_arg1)) := by
  unfold edgeSrc
  show StableHlo.after hostOps0 (W0 m ρ c) (Proc.devRef .tc main_v1) = _
  after_results <;> rfl

/-- Entering region 0, the destination-index vector holds row 1 of the launched edge table. -/
theorem s0_dst (c : Dev nD) :
    (W1 m ρ c (Proc.devRef .tc main_v3) : (⟨S1600000, .i32⟩ : BufTy).Contents (Elt F)) = edgeDst (m ((c : Thread nD τ).loc main_arg1)) := by
  unfold edgeDst
  show StableHlo.after hostOps0 (W0 m ρ c) (Proc.devRef .tc main_v3) = _
  after_results <;> rfl

/-- Entering region 0, the neighbour-sum array (input window 1) holds the neighbour sum of the launched features along
    the launched edge table. -/
theorem s0_agg (c : Dev nD) :
    (V1 m ρ c main_v13 : (⟨S100000x128, .f32⟩ : BufTy).Contents (Elt F))
      = nbrSum (m ((c : Thread nD τ).loc main_arg0)) (edgeSrc (m ((c : Thread nD τ).loc main_arg1))) (edgeDst (m ((c : Thread nD τ).loc main_arg1))) := by
  unfold nbrSum edgeSrc edgeDst
  show StableHlo.after hostOps0 (W0 m ρ c) (Proc.devRef .tc main_v13) = _
  after_results_simp <;> rfl

/-- Entering region 0, the weight array (input window 2) holds layer 0's matrix of the first stacked weights. -/
theorem s0_w (c : Dev nD) :
    (V1 m ρ c main_v15 : (⟨S128x128, .f32⟩ : BufTy).Contents (Elt F))
      = layerMat ![0, 0, 0] slices_S5x128x128_S1x128x128_0_0_0 (m ((c : Thread nD τ).loc main_arg3)) := by
  unfold layerMat
  show StableHlo.after hostOps0 (W0 m ρ c) (Proc.devRef .tc main_v15) = _
  after_results <;> rfl

/-- Entering region 0, the bias array (input window 3) holds layer 0's vector of the first stacked biases. -/
theorem s0_b (c : Dev nD) :
    (V1 m ρ c main_v17 : (⟨S128, .f32⟩ : BufTy).Contents (Elt F))
      = layerVec ![0, 0] slices_S5x128_S1x128_0_0 (m ((c : Thread nD τ).loc main_arg4)) := by
  unfold layerVec
  show StableHlo.after hostOps0 (W0 m ρ c) (Proc.devRef .tc main_v17) = _
  after_results <;> rfl

end Cert.KernelIdeal.RunV

end
-- ==== Proof.KernelRunVWalk0.lean ====
/-
  Region 0 and the host operations before it write none of the argument arrays that later stretches read (the graph
  index of every node, and the stacked weights, biases, scales and shifts): at region 0's exit each of them holds what it
  held at launch.
-/
import proofs.«164329_j2903397892177_1_alg».proof.Proof.Gen.KernelIdeal.Frame

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- At region 0's exit `main_arg2` holds its launched contents: region 0 has no window on it and no host operation
    before the region writes it. -/
theorem w2_main_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

/-- At region 0's exit `main_arg3` holds its launched contents: region 0 has no window on it and no host operation
    before the region writes it. -/
theorem w2_main_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

/-- At region 0's exit `main_arg4` holds its launched contents: region 0 has no window on it and no host operation
    before the region writes it. -/
theorem w2_main_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)

/-- At region 0's exit `main_arg5` holds its launched contents: region 0 has no window on it and no host operation
    before the region writes it. -/
theorem w2_main_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)

/-- At region 0's exit `main_arg6` holds its launched contents: region 0 has no window on it and no host operation
    before the region writes it. -/
theorem w2_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

/-- At region 0's exit `main_arg7` holds its launched contents: region 0 has no window on it and no host operation
    before the region writes it. -/
theorem w2_main_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

/-- At region 0's exit `main_arg8` holds its launched contents: region 0 has no window on it and no host operation
    before the region writes it. -/
theorem w2_main_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

end Cert.KernelIdeal.RunV

end
-- ==== Proof.KernelRunVS1.lean ====
/-
  The first layer's second region is entered after the second stretch of host operations, run from region 0's exit.
  Its seven input arrays then hold: the first linear map's output h, as region 0 left it; the column mean and variance
  of h, from the column sums s and ss that region 0 left (s / 100000 and ss / 100000 - (s / 100000)^2); and layer 0's
  slices of the stacked scale, shift, second weight matrix and second bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalk0

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 1, input window 0 holds the first linear map's output as region 0's write-backs left it (region 0's
    output window 4): no operation of the stretch writes it. -/
theorem s1_h (c : Dev nD) :
    (V3 m ρ c main_v18_0 : (⟨S100000x128, .f32⟩ : BufTy).Contents (Elt F)) = (dat0 (V1 m ρ) c).arrAt 4 cfg0.N := by
  have h4 : W2 m ρ c (Proc.devRef .tc main_v18_0) = (dat0 (V1 m ρ) c).arrAt 4 cfg0.N := W2_arr m ρ c 4
  rw [← h4]
  show StableHlo.after hostOps1 (W2 m ρ c) (Proc.devRef .tc main_v18_0) = _
  after_results <;> rfl

/-- Entering region 1, input window 1 holds the column mean: region 0's column sum (its output window 5) over 100000. -/
theorem s1_mean (c : Dev nD) :
    (V3 m ρ c main_v20 : (⟨S1x128, .f32⟩ : BufTy).Contents (Elt F)) = meanOf ((dat0 (V1 m ρ) c).arrAt 5 cfg0.N) := by
  have h5 : W2 m ρ c (Proc.devRef .tc main_v18_1) = (dat0 (V1 m ρ) c).arrAt 5 cfg0.N := W2_arr m ρ c 5
  rw [← h5]
  unfold meanOf
  show StableHlo.after hostOps1 (W2 m ρ c) (Proc.devRef .tc main_v20) = _
  after_results <;> rfl

/-- Entering region 1, input window 2 holds the column variance: region 0's column sum of squares (its output window 6)
    over 100000, less the square of the column mean. -/
theorem s1_var (c : Dev nD) :
    (V3 m ρ c main_v24 : (⟨S1x128, .f32⟩ : BufTy).Contents (Elt F))
      = varOf ((dat0 (V1 m ρ) c).arrAt 5 cfg0.N) ((dat0 (V1 m ρ) c).arrAt 6 cfg0.N) := by
  have h5 : W2 m ρ c (Proc.devRef .tc main_v18_1) = (dat0 (V1 m ρ) c).arrAt 5 cfg0.N := W2_arr m ρ c 5
  have h6 : W2 m ρ c (Proc.devRef .tc main_v18_2) = (dat0 (V1 m ρ) c).arrAt 6 cfg0.N := W2_arr m ρ c 6
  rw [← h5, ← h6]
  unfold varOf meanOf
  show StableHlo.after hostOps1 (W2 m ρ c) (Proc.devRef .tc main_v24) = _
  after_results <;> rfl

/-- Entering region 1, input window 3 holds layer 0's slice of the stacked scale, as launched. -/
theorem s1_gamma (c : Dev nD) :
    (V3 m ρ c main_v26 : (⟨S128, .f32⟩ : BufTy).Contents (Elt F)) = layerVec ![0, 0] slices_S5x128_S1x128_0_0 (m ((c : Thread nD τ).loc main_arg5)) := by
  rw [← w2_main_arg5 m ρ c]
  unfold layerVec
  show StableHlo.after hostOps1 (W2 m ρ c) (Proc.devRef .tc main_v26) = _
  after_results <;> rfl

/-- Entering region 1, input window 4 holds layer 0's slice of the stacked shift, as launched. -/
theorem s1_beta (c : Dev nD) :
    (V3 m ρ c main_v28 : (⟨S128, .f32⟩ : BufTy).Contents (Elt F)) = layerVec ![0, 0] slices_S5x128_S1x128_0_0 (m ((c : Thread nD τ).loc main_arg6)) := by
  rw [← w2_main_arg6 m ρ c]
  unfold layerVec
  show StableHlo.after hostOps1 (W2 m ρ c) (Proc.devRef .tc main_v28) = _
  after_results <;> rfl

/-- Entering region 1, input window 5 holds layer 0's slice of the stacked second weight matrix, as launched. -/
theorem s1_w2 (c : Dev nD) :
    (V3 m ρ c main_v30 : (⟨S128x128, .f32⟩ : BufTy).Contents (Elt F)) = layerMat ![0, 0, 0] slices_S5x128x128_S1x128x128_0_0_0 (m ((c : Thread nD τ).loc main_arg7)) := by
  rw [← w2_main_arg7 m ρ c]
  unfold layerMat
  show StableHlo.after hostOps1 (W2 m ρ c) (Proc.devRef .tc main_v30) = _
  after_results <;> rfl

/-- Entering region 1, input window 6 holds layer 0's slice of the stacked second bias, as launched. -/
theorem s1_b2 (c : Dev nD) :
    (V3 m ρ c main_v32 : (⟨S128, .f32⟩ : BufTy).Contents (Elt F)) = layerVec ![0, 0] slices_S5x128_S1x128_0_0 (m ((c : Thread nD τ).loc main_arg8)) := by
  rw [← w2_main_arg8 m ρ c]
  unfold layerVec
  show StableHlo.after hostOps1 (W2 m ρ c) (Proc.devRef .tc main_v32) = _
  after_results <;> rfl

end Cert.KernelIdeal.RunV

end
-- ==== Proof.Layer1V0Pieces.lean ====
/-
  What one run of the first dense map's body leaves in its three output tiles.

  The body writes the tile of h once, and each of the two running rows once (at the first grid point twice: the zero
  row first, then the updated row, which reads the zero row back).  Each tile therefore ends holding the value of its
  last store: the tile of h; the running row plus the tile's column sums, where at the first point the running row is
  the zero row just stored and at a later point it is what the tile held before the body ran.
-/
import proofs.«164329_j2903397892177_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Layer1V.R0

open Cert.KernelIdeal Cert.KernelIdeal.Gen Idealize.ShloMosaic.ValueIdx

variable {F : FTy → Type} [FloatOps F]

/-- Zero offsets on two axes, as the stores spell them. -/
theorem hz2 : (![0, 0] : Fin 2 → Nat) = fun _ => 0 := funext fun a => by fin_cases a <;> rfl
/-- Zero offset on one axis. -/
theorem hz1 : (![0] : Fin 1 → Nat) = fun _ => 0 := funext fun a => by fin_cases a; rfl

/-- First point: the h tile ends at the body's h of the four input tiles. -/
theorem out_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 : Vec F S5000x128 .f32) (x1 : Vec F S5000x128 .f32) (x2 : Vec F S128x128 .f32) (x3 : Vec F S128 .f32) :
    out0_A_4 c i arg1 harg1 arg2 harg2 arg3 harg3 arg4 harg4 arg5 harg5 arg6 harg6 arg7 harg7 hc0 x0 x1 x2 x3 = k0_pay3 x0 x1 x2 x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum ends at the zero row plus the tile's column sums of h. -/
theorem out_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 : Vec F S5000x128 .f32) (x1 : Vec F S5000x128 .f32) (x2 : Vec F S128x128 .f32) (x3 : Vec F S128 .f32) :
    out0_A_5 c i arg1 harg1 arg2 harg2 arg3 harg3 arg4 harg4 arg5 harg5 arg6 harg6 arg7 harg7 hc0 x0 x1 x2 x3 = k0_pay4 x0 x1 x2 x3 k0_pay1 := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum of squares ends at the zero row plus the tile's column sums of h·h. -/
theorem out_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond0_0 i)
    (x0 : Vec F S5000x128 .f32) (x1 : Vec F S5000x128 .f32) (x2 : Vec F S128x128 .f32) (x3 : Vec F S128 .f32) :
    out0_A_6 c i arg1 harg1 arg2 harg2 arg3 harg3 arg4 harg4 arg5 harg5 arg6 harg6 arg7 harg7 hc0 x0 x1 x2 x3 = k0_pay5 x0 x1 x2 x3 k0_pay2 := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the h tile ends at the body's h of the four input tiles. -/
theorem out_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 : Vec F S5000x128 .f32) (x1 : Vec F S5000x128 .f32) (x2 : Vec F S128x128 .f32) (x3 : Vec F S128 .f32) (xo5 : Vec F S1x128 .f32) (xo6 : Vec F S1x128 .f32) :
    out0_B_4 c i arg1 harg1 arg2 harg2 arg3 harg3 arg4 harg4 arg5 harg5 arg6 harg6 arg7 harg7 hc0 x0 x1 x2 x3 xo5 xo6 = k0_pay3 x0 x1 x2 x3 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum ends at what it held plus the tile's column sums of h. -/
theorem out_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 : Vec F S5000x128 .f32) (x1 : Vec F S5000x128 .f32) (x2 : Vec F S128x128 .f32) (x3 : Vec F S128 .f32) (xo5 : Vec F S1x128 .f32) (xo6 : Vec F S1x128 .f32) :
    out0_B_5 c i arg1 harg1 arg2 harg2 arg3 harg3 arg4 harg4 arg5 harg5 arg6 harg6 arg7 harg7 hc0 x0 x1 x2 x3 xo5 xo6 = k0_pay4 x0 x1 x2 x3 xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum of squares ends at what it held plus the tile's column sums of h·h. -/
theorem out_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond0_0 i)
    (x0 : Vec F S5000x128 .f32) (x1 : Vec F S5000x128 .f32) (x2 : Vec F S128x128 .f32) (x3 : Vec F S128 .f32) (xo5 : Vec F S1x128 .f32) (xo6 : Vec F S1x128 .f32) :
    out0_B_6 c i arg1 harg1 arg2 harg2 arg3 harg3 arg4 harg4 arg5 harg5 arg6 harg6 arg7 harg7 hc0 x0 x1 x2 x3 xo5 xo6 = k0_pay5 x0 x1 x2 x3 xo6 := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

end Cert.KernelIdeal.Layer1V.R0

end
-- ==== Proof.Layer1V0Outs.lean ====
/-
  The three output tiles after each grid point of the first dense map, as values of the body's arithmetic.

  After the first point the tiles hold h of the point's input tiles, and the two running rows hold the zero row plus
  that tile's column sums.  After a later point they hold h of that point's input tiles, and the running rows hold
  what the point before left plus that tile's column sums.
-/
import proofs.«164329_j2903397892177_1_alg».proof.Proof.Layer1V0Pieces
import Idealize.ShloMosaic.Lib.ValueIdx

noncomputable section

open Idealize.ShloMosaic Idealize.ShloMosaic.TcCoe Idealize.SL.Sem
open Idealize.ShloMosaic.Pipeline (Dat)

namespace Cert.KernelIdeal.Layer1V.R0

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- After the first point: h of its tiles, and the zero rows plus the tile's column sums. -/
theorem outs_A (t : Fin cfg0.N) (h0 : t.val % 20 = 0) :
    outsAt0 V c t.val t.isLt
      = (k0_pay3 (iblk0 V c 0 t) (iblk0 V c 1 t) (iblk0 V c 2 t) (iblk0 V c 3 t),
         k0_pay4 (iblk0 V c 0 t) (iblk0 V c 1 t) (iblk0 V c 2 t) (iblk0 V c 3 t) k0_pay1,
         k0_pay5 (iblk0 V c 0 t) (iblk0 V c 1 t) (iblk0 V c 2 t) (iblk0 V c 3 t) k0_pay2) :=
  (outsAt0_A V c t h0).trans
    (congrArg₂ Prod.mk
      (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
      (congrArg₂ Prod.mk
        (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
        (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))))

/-- After a later point: h of its tiles, and what the point before left plus the tile's column sums. -/
theorem outs_B (t : Fin cfg0.N) (h0 : ¬t.val % 20 = 0) :
    outsAt0 V c t.val t.isLt
      = (k0_pay3 (iblk0 V c 0 t) (iblk0 V c 1 t) (iblk0 V c 2 t) (iblk0 V c 3 t),
         k0_pay4 (iblk0 V c 0 t) (iblk0 V c 1 t) (iblk0 V c 2 t) (iblk0 V c 3 t) (outsAt0 V c (t.val - 1) (Nat.lt_of_le_of_lt (Nat.sub_le _ _) t.isLt)).2.1,
         k0_pay5 (iblk0 V c 0 t) (iblk0 V c 1 t) (iblk0 V c 2 t) (iblk0 V c 3 t) (outsAt0 V c (t.val - 1) (Nat.lt_of_le_of_lt (Nat.sub_le _ _) t.isLt)).2.2) :=
  (outsAt0_B V c t h0).trans
    (congrArg₂ Prod.mk
      (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
      (congrArg₂ Prod.mk
        (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
        (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)))

/-- The h tile after any point is h of that point's input tiles. -/
theorem outs_h (t : Fin cfg0.N) : (outsAt0 V c t.val t.isLt).1 = k0_pay3 (iblk0 V c 0 t) (iblk0 V c 1 t) (iblk0 V c 2 t) (iblk0 V c 3 t) := by
  by_cases h0 : t.val % 20 = 0
  · rw [outs_A V c t h0]
  · rw [outs_B V c t h0]

end Cert.KernelIdeal.Layer1V.R0

end
-- ==== Proof.Layer1V0Blocks.lean ====
/-
  The input tiles of the first dense map as rows of the arrays they are cut from.

  At grid point t the row tiles of x and of the neighbour sums hold rows 5000·t … 5000·t + 4999 of their arrays, all
  128 lanes; the weight tile is the whole 128 × 128 weight matrix and the bias tile the whole bias vector at every
  point.  The output tile of h sits at the same rows; the two running rows are their whole 1 × 128 arrays.
-/
import proofs.«164329_j2903397892177_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Layer1V.R0

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- Where each window's tile sits at grid point t: the row windows at block row t, every other coordinate at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The grid has 20 points. -/
theorem lt20 (t : Fin cfg0.N) : t.val < 20 := lt_of_lt_of_eq t.isLt (show cfg0.N = 20 from N_0)

/-- The x tile at point t, entry (p, j), is x at row 5000·t + p, lane j. -/
theorem iblk_x (t : Fin cfg0.N) (p : Fin 5000) (j : Fin 128) (r : Fin 100000) (hr : r.val = 5000 * t.val + p.val) :
    (iblk0 V c 0 t : Vec F S5000x128 .f32) (ix2 p j)
      = (V c (Pipeline.arrRef spec0 0) : S100000x128.Idx → Elt F .f32) (ix2 r j) := by
  obtain ⟨e0, e1, -⟩ := idx_facts t
  unfold iblk0
  rw [View.read_apply]
  refine congrArg (V c (Pipeline.arrRef spec0 0) : S100000x128.Idx → Elt F .f32) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * j.val = j.val; rw [e1]; omega

/-- The neighbour-sum tile at point t, entry (p, j), is the neighbour sums at row 5000·t + p, lane j. -/
theorem iblk_a (t : Fin cfg0.N) (p : Fin 5000) (j : Fin 128) (r : Fin 100000) (hr : r.val = 5000 * t.val + p.val) :
    (iblk0 V c 1 t : Vec F S5000x128 .f32) (ix2 p j)
      = (V c (Pipeline.arrRef spec0 1) : S100000x128.Idx → Elt F .f32) (ix2 r j) := by
  obtain ⟨-, -, e0, e1, -⟩ := idx_facts t
  unfold iblk0
  rw [View.read_apply]
  refine congrArg (V c (Pipeline.arrRef spec0 1) : S100000x128.Idx → Elt F .f32) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * j.val = j.val; rw [e1]; omega

/-- The weight tile at any point is the weight matrix. -/
theorem iblk_w (t : Fin cfg0.N) (j q : Fin 128) :
    (iblk0 V c 2 t : Vec F S128x128 .f32) (ix2 j q)
      = (V c (Pipeline.arrRef spec0 2) : S128x128.Idx → Elt F .f32) (ix2 j q) := by
  obtain ⟨-, -, -, -, e0, e1, -⟩ := idx_facts t
  unfold iblk0
  rw [View.read_apply]
  refine congrArg (V c (Pipeline.arrRef spec0 2) : S128x128.Idx → Elt F .f32) (funext fun a => Fin.ext ?_)
  match a with
  | ⟨0, _⟩ => show win0_2.index t (0 : Fin 2) * 128 + 1 * j.val = j.val; rw [e0]; omega
  | ⟨1, _⟩ => show win0_2.index t (1 : Fin 2) * 128 + 1 * q.val = q.val; rw [e1]; omega

/-- The bias tile at any point is the bias vector. -/
theorem iblk_b (t : Fin cfg0.N) (q : Fin 128) :
    (iblk0 V c 3 t : Vec F S128 .f32) (ix1 q)
      = (V c (Pipeline.arrRef spec0 3) : S128.Idx → Elt F .f32) (ix1 q) := by
  obtain ⟨-, -, -, -, -, -, e0, -⟩ := idx_facts t
  unfold iblk0
  rw [View.read_apply]
  refine congrArg (V c (Pipeline.arrRef spec0 3) : S128.Idx → Elt F .f32) (funext fun a => Fin.ext ?_)
  match a with
  | ⟨0, _⟩ => show win0_3.index t (0 : Fin 1) * 128 + 1 * q.val = q.val; rw [e0]; omega

end Cert.KernelIdeal.Layer1V.R0

end
-- ==== Proof.Layer1VMatmul.lean ====
/-
  A matrix product read entry by entry.

  A product of an m × k matrix by a k × n matrix that accumulates into zero holds, at row a and column b, the sum
  over the contracted coordinate c of the products A(a, c) · B(c, b).  Over the extended reals this is the definition
  of the product read through its dimension numbers: the left operand is indexed by the result's row and the
  contracted coordinate, the right operand by the contracted coordinate and the result's column.
-/
import Idealize.ShloMosaic.PureOps.Ideal.Laws
import Idealize.ShloMosaic.Lib.ValueIdx

namespace Cert.KernelIdeal.Layer1V

open Idealize.ShloMosaic Idealize.ShloMosaic.ValueIdx

/-- Rows times columns into a zero accumulator: entry (a, b) is the sum over c of A(a, c) · B(c, b). -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.Layer1V
-- ==== Proof.Layer1VOps.lean ====
/-
  Two reductions and one layout step of a dense layer, read entry by entry on the extended reals.

  • The sum of a matrix over its rows, taken lane by lane: entry q of the result is the sum over the rows r of the
    matrix at (r, q).
  • A bias vector of extent b, viewed as a 1 × b row and repeated over a rows: entry (p, q) is the vector at q,
    whatever the row p.
-/
import Idealize.ShloMosaic.PureOps.Ideal.Laws
import Idealize.ShloMosaic.Lib.ValueIdx
import Idealize.ShloMosaic.Lib.ValueLayout

namespace Cert.KernelIdeal.Layer1V

open Idealize.ShloMosaic Idealize.ShloMosaic.ValueIdx

/-- A sum over the row axis of an a × b matrix, from the zero word: at lane q it is the sum over the rows r of the
    matrix at (r, q). -/
theorem colsum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ r : Fin a, src (ix2 r q) := by
  refine (Ideal.multiReduction_add_single src 0x00000000#32 h hφ hacc (ix1 q)).trans ?_
  refine Finset.sum_congr rfl fun r _ => congrArg src ?_
  funext c
  apply Fin.ext
  match c with
  | ⟨0, _⟩ => rfl
  | ⟨1, _⟩ => rfl

/-- A vector of extent b viewed as a 1 × b row and repeated over a rows reads, at (p, q), the vector at q. -/
theorem row_repeat_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) :=
  (broadcastTo_1b_ab_apply _ h2 p q).trans (shapeCast_a_1a_apply x h1 0 q)

end Cert.KernelIdeal.Layer1V
-- ==== Proof.Layer1V0Pay.lean ====
/-
  The first dense map's body, read entry by entry on the extended reals.

  On one tile of 5000 rows the body forms h = (x + a)·W + b and adds the tile's column sums of h and of h·h onto two
  running rows.  Entry by entry: h at (p, q) is the sum over j of (x(p, j) + a(p, j)) · W(j, q), plus b(q): a change
  of float format is the identity on the extended reals, the product accumulates into zero, and the bias row is the
  same in every row.  The running sum at lane q grows by the sum over the tile's rows p of h(p, q), the running sum
  of squares by the sum of h(p, q) · h(p, q).  The two rows a first tile starts from are zero.
-/
import proofs.«164329_j2903397892177_1_alg».proof.Proof.Gen.KernelIdeal.Skeleton
import proofs.«164329_j2903397892177_1_alg».proof.Proof.Layer1VMatmul
import proofs.«164329_j2903397892177_1_alg».proof.Proof.Layer1VOps
import Idealize.ShloMosaic.Lib.Pipeline.Value

noncomputable section

namespace Cert.KernelIdeal.Layer1V.R0

open Cert.KernelIdeal Cert.KernelIdeal.Gen Idealize.ShloMosaic Idealize.ShloMosaic.ValueIdx

/-- The tile of h at row p and lane q: the sum over j of (x(p, j) + a(p, j)) · W(j, q), plus b(q). -/
theorem pay3_apply (x0 x1 : FVec Ideal S5000x128 .f32) (x2 : FVec Ideal S128x128 .f32) (x3 : FVec Ideal S128 .f32)
    (p : Fin 5000) (q : Fin 128) :
    k0_pay3 x0 x1 x2 x3 (ix2 p q)
      = (∑ j : Fin 128, (x0 (ix2 p j) + x1 (ix2 p j)) * x2 (ix2 j q)) + x3 (ix1 q) := by
  unfold k0_pay3
  refine congrArg₂ (· + ·) ?_ ?_
  · refine (matmul_rows_cols_apply _ none _ _ p q).trans ?_
    refine Finset.sum_congr rfl fun j _ => ?_
    rw [shapeCast_self, shapeCast_self]
    rfl
  · refine (row_repeat_apply _ _ _ p q).trans ?_
    rw [shapeCast_self]

/-- The running column sum after a tile, at lane q: what it held plus the sum over the tile's rows of h. -/
theorem pay4_apply (x0 x1 : FVec Ideal S5000x128 .f32) (x2 : FVec Ideal S128x128 .f32) (x3 : FVec Ideal S128 .f32)
    (s : FVec Ideal S1x128 .f32) (u : Fin 1) (q : Fin 128) :
    k0_pay4 x0 x1 x2 x3 s (ix2 u q) = s (ix2 u q) + ∑ p : Fin 5000, k0_pay3 x0 x1 x2 x3 (ix2 p q) := by
  unfold k0_pay4
  refine congrArg₂ (· + ·) ?_ ?_
  · rw [shapeCast_self]
  · refine (shapeCast_a_1a_apply _ _ u q).trans ?_
    exact colsum_apply _ _ _ _ q

/-- The running column sum of squares after a tile, at lane q: what it held plus the sum over the tile's rows of h·h. -/
theorem pay5_apply (x0 x1 : FVec Ideal S5000x128 .f32) (x2 : FVec Ideal S128x128 .f32) (x3 : FVec Ideal S128 .f32)
    (s : FVec Ideal S1x128 .f32) (u : Fin 1) (q : Fin 128) :
    k0_pay5 x0 x1 x2 x3 s (ix2 u q)
      = s (ix2 u q) + ∑ p : Fin 5000, k0_pay3 x0 x1 x2 x3 (ix2 p q) * k0_pay3 x0 x1 x2 x3 (ix2 p q) := by
  unfold k0_pay5
  refine congrArg₂ (· + ·) ?_ ?_
  · rw [shapeCast_self]
  · refine (shapeCast_a_1a_apply _ _ u q).trans ?_
    exact colsum_apply _ _ _ _ q

/-- The row the running column sum starts from is zero. -/
theorem pay1_apply (u : Fin 1) (q : Fin 128) : k0_pay1 (F := Ideal) (ix2 u q) = 0 :=
  Ideal.ofBits_zero_f32

/-- The row the running column sum of squares starts from is zero. -/
theorem pay2_apply (u : Fin 1) (q : Fin 128) : k0_pay2 (F := Ideal) (ix2 u q) = 0 :=
  Ideal.ofBits_zero_f32

end Cert.KernelIdeal.Layer1V.R0

end
-- ==== Proof.LayerFns.lean ====
/-
  The network's three dense maps, entry by entry, on the extended reals.

  h1Fn: a node's first hidden row, (x + a)·W + b, where a is the node's neighbour sum.
  layer2Fn: batch normalisation with given column means m and variances v — γ·(h − m)·rsqrt(v + ε) + β —, a max with 0,
  the second linear map, and a max with 0.  ε is the single-precision word nearest 10⁻⁵, kept as a word: both programs
  carry the same one.
  headFn: max(p·W1 + b1, 0)·W2 + b2 on the pooled rows.
-/
import Idealize.ShloMosaic.PureOps.Ideal

noncomputable section

namespace LayerFns

open Idealize.ShloMosaic

/-- The batch-normalisation epsilon, as both programs carry it. -/
def eps : EReal := Ideal.ofBits .f32 0x3727C5AC#32

/-- (x + a)·W + b at row r, column k. -/
def h1Fn (X A : Fin 100000 → Fin 128 → EReal) (W : Fin 128 → Fin 128 → EReal) (B : Fin 128 → EReal)
    (r : Fin 100000) (k : Fin 128) : EReal :=
  (∑ j : Fin 128, (X r j + A r j) * W j k) + B k

/-- The normalised, scaled and shifted hidden entry, before the max with 0. -/
def normFn (H : Fin 100000 → Fin 128 → EReal) (M Vr G Bt : Fin 128 → EReal) (r : Fin 100000) (j : Fin 128) : EReal :=
  G j * (H r j - M j) * Ideal.rsqrt (Vr j + eps) + Bt j

/-- max(max(norm, 0)·W + b, 0) at row r, column k. -/
def layer2Fn (H : Fin 100000 → Fin 128 → EReal) (M Vr G Bt : Fin 128 → EReal) (W : Fin 128 → Fin 128 → EReal)
    (B : Fin 128 → EReal) (r : Fin 100000) (k : Fin 128) : EReal :=
  max ((∑ j : Fin 128, max (normFn H M Vr G Bt r j) 0 * W j k) + B k) 0

/-- max(p·W1 + b1, 0)·W2 + b2 at graph g, class k. -/
def headFn (P : Fin 512 → Fin 128 → EReal) (W1 : Fin 128 → Fin 128 → EReal) (b1 : Fin 128 → EReal)
    (W2 : Fin 128 → Fin 10 → EReal) (b2 : Fin 10 → EReal) (g : Fin 512) (k : Fin 10) : EReal :=
  (∑ j : Fin 128, max ((∑ i : Fin 128, P g i * W1 i j) + b1 j) 0 * W2 j k) + b2 k

end LayerFns

end
-- ==== Proof.Layer1V0H1.lean ====
/-
  The array of h after the first dense map's grid has run.

  Each grid point writes its 5000-row tile of h back to the rows it was computed from, and the twenty tiles cover the
  100000 rows.  Entry (r, k) of the array is therefore (x + a)·W + b at row r and lane k, of the four arrays the
  map found when it started.
-/
import proofs.«164329_j2903397892177_1_alg».proof.Proof.Layer1V0Outs
import proofs.«164329_j2903397892177_1_alg».proof.Proof.Layer1V0Blocks
import proofs.«164329_j2903397892177_1_alg».proof.Proof.Layer1V0Pay
import proofs.«164329_j2903397892177_1_alg».proof.Proof.LayerFns
import Idealize.ShloMosaic.Lib.ValueIdx

noncomputable section

open Idealize.ShloMosaic Idealize.ShloMosaic.TcCoe Idealize.SL.Sem
open Idealize.ShloMosaic.Pipeline (Dat)

namespace Cert.KernelIdeal.Layer1V.R0

open Cert.KernelIdeal Cert.KernelIdeal.Gen Idealize.ShloMosaic.ValueIdx

variable (V : (c : Dev nD) → (b : Ref sig .tc) → Buf (Elt Ideal) ((c : Thread nD τ).loc b)) (c : Dev nD)

/-- The array x as the map finds it, by row and lane. -/
abbrev inX : Fin 100000 → Fin 128 → EReal := fun r j => (V c (Pipeline.arrRef spec0 0) : S100000x128.Idx → EReal) (ix2 r j)
/-- The neighbour sums as the map finds them, by row and lane. -/
abbrev inA : Fin 100000 → Fin 128 → EReal := fun r j => (V c (Pipeline.arrRef spec0 1) : S100000x128.Idx → EReal) (ix2 r j)
/-- The weight matrix as the map finds it, by row and column. -/
abbrev inW : Fin 128 → Fin 128 → EReal := fun j k => (V c (Pipeline.arrRef spec0 2) : S128x128.Idx → EReal) (ix2 j k)
/-- The bias vector as the map finds it. -/
abbrev inB : Fin 128 → EReal := fun k => (V c (Pipeline.arrRef spec0 3) : S128.Idx → EReal) (ix1 k)

/-- h of point t's tiles at (p, q) is (x + a)·W + b at row 5000·t + p and lane q. -/
theorem pay3_block (t : Fin cfg0.N) (p : Fin 5000) (q : Fin 128) (r : Fin 100000) (hr : r.val = 5000 * t.val + p.val) :
    k0_pay3 (iblk0 V c 0 t) (iblk0 V c 1 t) (iblk0 V c 2 t) (iblk0 V c 3 t) (ix2 p q) = LayerFns.h1Fn (inX V c) (inA V c) (inW V c) (inB V c) r q := by
  refine (pay3_apply (iblk0 V c 0 t) (iblk0 V c 1 t) (iblk0 V c 2 t) (iblk0 V c 3 t) p q).trans ?_
  unfold LayerFns.h1Fn
  refine congrArg₂ (· + ·) (Finset.sum_congr rfl fun j _ => ?_) (iblk_b V c t q)
  exact congrArg₂ (· * ·) (congrArg₂ (· + ·) (iblk_x V c t p j r hr) (iblk_a V c t p j r hr)) (iblk_w V c t j q)

/-- The whole array of h, entry by entry. -/
def hArr : S100000x128.Idx → EReal := fun i => LayerFns.h1Fn (inX V c) (inA V c) (inW V c) (inB V c) (i 0) (i 1)

/-- What point t writes back is its tile of the whole array of h. -/
theorem flushed_h (t : Fin cfg0.N) (hf : (cfg0.win 4).flush t = true) :
    (dat0 V c).flushed 4 t = ((cfg0.win 4).blk t).view.read (Elt Ideal) (hArr V c) := by
  show (cfg0.win 4).cut (grid0.coords t) ((dat0 V c).after 4 t) = _
  rw [after0_4, outs_h]
  funext y
  obtain ⟨p, q, rfl⟩ : ∃ (p : Fin 5000) (q : Fin 128), y = ix2 p q := ⟨y 0, y 1, eq_ix2 y⟩
  rw [View.read_apply]
  obtain ⟨-, -, -, -, -, -, -, e0, e1, -⟩ := idx_facts t
  have ht := lt20 t
  have hr : 5000 * t.val + p.val < 100000 := by have := p.isLt; omega
  have c0 : (((cfg0.win 4).blk t).view.emb (ix2 p q)) 0 = (⟨5000 * t.val + p.val, hr⟩ : Fin 100000) :=
    Fin.ext (by show win0_4.index t (0 : Fin 2) * 5000 + 1 * p.val = 5000 * t.val + p.val; rw [e0]; omega)
  have c1 : (((cfg0.win 4).blk t).view.emb (ix2 p q)) 1 = q :=
    Fin.ext (by show win0_4.index t (1 : Fin 2) * 128 + 1 * q.val = q.val; rw [e1]; omega)
  exact (pay3_block V c t p q ⟨5000 * t.val + p.val, hr⟩ rfl).trans
    (congrArg₂ (LayerFns.h1Fn (inX V c) (inA V c) (inW V c) (inB V c)) c0.symm c1.symm)

/-- Every row lies in the tile of the point that its quotient by 5000 names. -/
theorem cover_h (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, e0, e1, -⟩ := idx_facts t
  refine ⟨t, flush0_4 t, ?_⟩
  have he : ((cfg0.win 4).blk t).view.emb (ix2 (⟨(i 0).val % 5000, Nat.mod_lt _ (by decide)⟩ : Fin 5000) (⟨(i 1).val, hi1⟩ : Fin 128)) = i := by
    funext a
    apply Fin.ext
    match a with
    | ⟨0, _⟩ =>
      show win0_4.index t (0 : Fin 2) * 5000 + 1 * ((i 0).val % 5000) = (i 0).val
      rw [e0]; show (i 0).val / 5000 * 5000 + 1 * ((i 0).val % 5000) = (i 0).val; omega
    | ⟨1, _⟩ =>
      show win0_4.index t (1 : Fin 2) * 128 + 1 * (i 1).val = (i 1).val
      rw [e1]; omega
  rw [← he]
  exact ((cfg0.win 4).blk t).view.emb_mem_set _

/-- The array of h after the grid: (x + a)·W + b, entry by entry. -/
theorem arr_h : (dat0 V c).arrAt 4 cfg0.N = hArr V c :=
  (dat0 V c).arrAt_eq_of_cover 4 (hArr V c) (flushed_h V c) (cover_h)

/-- Entry (r, k) of the array of h after the grid. -/
theorem arr_h_apply (r : Fin 100000) (k : Fin 128) :
    ((dat0 V c).arrAt 4 cfg0.N : S100000x128.Idx → EReal) (ix2 r k) = LayerFns.h1Fn (inX V c) (inA V c) (inW V c) (inB V c) r k := by
  rw [arr_h]; rfl

end Cert.KernelIdeal.Layer1V.R0

end
-- ==== Proof.LibBlockSum.lean ====
/-
  Sums over an index set cut into equal blocks, and two-dimensional arrays read at natural-number coordinates.

  • A sum over the naturals below a·b, of a function of the natural index, is the sum over the a blocks of the sums over the b
    places within a block (index b·r + p): the index set is cut into consecutive blocks. Stated in any commutative
    additive monoid, so it holds of the extended reals, where sums need no finiteness.
  • `at2 X i j` reads a two-dimensional array of extended reals at natural-number coordinates (zero outside the array),
    so that a sum over blocks can be written without carrying bound proofs through the summation.
-/
import Mathlib.Algebra.BigOperators.Fin
import Mathlib.Algebra.BigOperators.Intervals
import Idealize.ShloMosaic.Lib.ValueIdx
import Mathlib.Data.EReal.Basic

namespace Cert.BlockSum

open Idealize.ShloMosaic Idealize.ShloMosaic.ValueIdx

variable {M : Type*} [AddCommMonoid M]

/-- A sum over the `a` blocks of `b` consecutive indices each is the sum over all `a * b` indices. -/
theorem sum_range_mul (a b : ℕ) (f : ℕ → M) :
    ∑ r ∈ Finset.range a, ∑ p ∈ Finset.range b, f (b * r + p) = ∑ i ∈ Finset.range (a * b), f i := by
  induction a with
  | zero => simp
  | succ a ih =>
    rw [Finset.sum_range_succ, ih, Nat.succ_mul, Finset.sum_range_add]
    rw [Nat.mul_comm a b]

/-- The same with the places within a block and the whole index set as `Fin` types. -/
theorem sum_range_blocks (a b : ℕ) {n : ℕ} (f : ℕ → M) (h : a * b = n) :
    ∑ r ∈ Finset.range a, ∑ p : Fin b, f (b * r + p.val) = ∑ i : Fin n, f i.val := by
  subst h
  rw [Finset.sum_range (fun i => f i) |>.symm]
  rw [← sum_range_mul a b f]
  exact Finset.sum_congr rfl fun r _ => (Finset.sum_range (fun p => f (b * r + p))).symm

/-- An array of extended reals as the function of its index that it is: a way to say at which type its entries are read. -/
abbrev asFn (s : Shape) (X : s.Idx → EReal) : s.Idx → EReal := X

/-- A two-dimensional array read at natural-number coordinates; zero outside the array. -/
noncomputable def at2 {a b : ℕ} (X : (⟨2, ![a, b]⟩ : Shape).Idx → EReal) (i j : ℕ) : EReal :=
  if h : i < a ∧ j < b then X (ix2 ⟨i, h.1⟩ ⟨j, h.2⟩) else 0

theorem at2_of_lt {a b : ℕ} (X : (⟨2, ![a, b]⟩ : Shape).Idx → EReal) {i j : ℕ} (hi : i < a) (hj : j < b) :
    at2 X i j = X (ix2 ⟨i, hi⟩ ⟨j, hj⟩) := dif_pos ⟨hi, hj⟩

theorem at2_ix2 {a b : ℕ} (X : (⟨2, ![a, b]⟩ : Shape).Idx → EReal) (i : Fin a) (j : Fin b) :
    at2 X i.val j.val = X (ix2 i j) := at2_of_lt X i.isLt j.isLt

end Cert.BlockSum
-- ==== Proof.LibBlockAccumulate.lean ====
/-
  A sum accumulated block by block.

  A kernel that walks the contraction axis of a matrix product in a blocks of b places keeps a running total: it starts
  the total at zero and at step k adds the partial sum over the k-th block.  After the last step the total is the sum over
  all a·b places — the whole contraction a single product would make.  Stated in any commutative additive monoid: on the
  extended reals a regrouping of a sum needs no finiteness.
-/
import proofs.«164329_j2903397892177_1_alg».proof.Proof.LibBlockSum

namespace Cert.BlockSum

variable {M : Type*} [AddCommMonoid M]

/-- A total that starts at zero and at step k adds the sum of f over the k-th block of b consecutive places holds,
    after a steps, the sum of f over all a·b places. -/
theorem accumulate_blocks (b : ℕ) (f : ℕ → M) (acc : ℕ → M) (h0 : acc 0 = 0)
    (hstep : ∀ k, acc (k + 1) = acc k + ∑ p ∈ Finset.range b, f (b * k + p)) (a : ℕ) :
    acc a = ∑ i ∈ Finset.range (a * b), f i := by
  have partial_sums : ∀ a, acc a = ∑ r ∈ Finset.range a, ∑ p ∈ Finset.range b, f (b * r + p) := by
    intro a
    induction a with
    | zero => simpa using h0
    | succ a ih => rw [hstep, ih, Finset.sum_range_succ]
  rw [partial_sums a, sum_range_mul]

/-- The same total read one step before the end: what the last step adds the last block to. -/
theorem accumulate_blocks_last (b : ℕ) (f : ℕ → M) (acc : ℕ → M) (h0 : acc 0 = 0)
    (hstep : ∀ k, acc (k + 1) = acc k + ∑ p ∈ Finset.range b, f (b * k + p)) (a : ℕ) :
    acc a + ∑ p ∈ Finset.range b, f (b * a + p) = ∑ i ∈ Finset.range ((a + 1) * b), f i := by
  rw [← hstep a, accumulate_blocks b f acc h0 hstep (a + 1)]

end Cert.BlockSum
-- ==== Proof.Layer1V0Sum.lean ====
/-
  The column sums of h after the first dense map's grid has run.

  The running row starts at zero at the first grid point and each point adds its tile's column sums of h.  After the
  twentieth point it holds, at lane k, the sum over all 100000 rows r of h(r, k): a sum taken tile by tile is the sum
  over all rows, in any commutative additive monoid, so the extended reals need no finiteness here.  The row is
  written back once, after the last point, and is the whole 1 × 128 array.
-/
import proofs.«164329_j2903397892177_1_alg».proof.Proof.Layer1V0H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R0

open Cert.KernelIdeal Cert.KernelIdeal.Gen Idealize.ShloMosaic.ValueIdx

variable (V : (c : Dev nD) → (b : Ref sig .tc) → Buf (Elt Ideal) ((c : Thread nD τ).loc b)) (c : Dev nD)

/-- h at row i and lane q, by the row's number; zero past the last row. -/
def sumFn (q : Fin 128) (i : ℕ) : EReal := if h : i < 100000 then LayerFns.h1Fn (inX V c) (inA V c) (inW V c) (inB V c) ⟨i, h⟩ q else 0

/-- The running sum at lane q before point k: zero, then one tile's column sum of h more per point. -/
def sumAcc (q : Fin 128) : ℕ → EReal
  | 0 => 0
  | k + 1 => sumAcc q k + ∑ p ∈ Finset.range 5000, sumFn V c q (5000 * k + p)

/-- Point t's column sum of h at lane q is the sum of h over rows 5000·t … 5000·t + 4999. -/
theorem sum_tile (t : Fin cfg0.N) (q : Fin 128) :
    ∑ p : Fin 5000, k0_pay3 (iblk0 V c 0 t) (iblk0 V c 1 t) (iblk0 V c 2 t) (iblk0 V c 3 t) (ix2 p q) = ∑ p ∈ Finset.range 5000, sumFn V c q (5000 * t.val + p) := by
  rw [Finset.sum_range]
  refine Finset.sum_congr rfl fun p _ => ?_
  have ht := lt20 t
  have hr : 5000 * t.val + p.val < 100000 := by have := p.isLt; omega
  unfold sumFn
  rw [dif_pos hr, pay3_block V c t p q ⟨5000 * t.val + p.val, hr⟩ rfl]

/-- After point n the running row holds, at lane q, the running sum before point n + 1. -/
theorem sum_inv : ∀ (n : ℕ) (h : n < cfg0.N) (u : Fin 1) (q : Fin 128),
    (outsAt0 V c n h).2.1 (ix2 u q) = sumAcc V c q (n + 1)
  | 0, h, u, q => by
    refine (congrFun (congrArg (fun x => x.2.1) (outs_A V c ⟨0, h⟩ rfl)) (ix2 u q)).trans ?_
    refine (pay4_apply (iblk0 V c 0 ⟨0, h⟩) (iblk0 V c 1 ⟨0, h⟩) (iblk0 V c 2 ⟨0, h⟩) (iblk0 V c 3 ⟨0, h⟩) k0_pay1 u q).trans ?_
    show _ = (0 : EReal) + ∑ p ∈ Finset.range 5000, sumFn V c q (5000 * 0 + p)
    exact congrArg₂ (· + ·) (pay1_apply u q) (sum_tile V c ⟨0, h⟩ q)
  | n + 1, h, u, q => by
    have hN : cfg0.N = 20 := N_0
    have hB : ¬(⟨n + 1, h⟩ : Fin cfg0.N).val % 20 = 0 := by dsimp only; omega
    refine (congrFun (congrArg (fun x => x.2.1) (outs_B V c ⟨n + 1, h⟩ hB)) (ix2 u q)).trans ?_
    refine (pay4_apply (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).2.1 u q).trans ?_
    show _ = sumAcc V c q (n + 1) + ∑ p ∈ Finset.range 5000, sumFn V c q (5000 * (n + 1) + p)
    exact congrArg₂ (· + ·) (sum_inv n (Nat.lt_of_succ_lt h) u q) (sum_tile V c ⟨n + 1, h⟩ q)

/-- After twenty tiles the running sum is the sum of h over all rows. -/
theorem sum_total (q : Fin 128) : sumAcc V c q 20 = ∑ r : Fin 100000, LayerFns.h1Fn (inX V c) (inA V c) (inW V c) (inB V c) r q := by
  rw [Cert.BlockSum.accumulate_blocks 5000 (sumFn V c q) (sumAcc V c q) rfl (fun k => rfl) 20, Finset.sum_range]
  refine Finset.sum_congr rfl fun r _ => ?_
  unfold sumFn
  rw [dif_pos r.isLt]

/-- The row of column sums of h, entry by entry. -/
def sumArr : S1x128.Idx → EReal := fun i => ∑ r : Fin 100000, LayerFns.h1Fn (inX V c) (inA V c) (inW V c) (inB V c) r (i 1)

/-- The one write-back, after the last point, writes the row of column sums of h. -/
theorem sum_flushed (t : Fin cfg0.N) (hf : (cfg0.win 5).flush t = true) :
    (dat0 V c).flushed 5 t = ((cfg0.win 5).blk t).view.read (Elt Ideal) (sumArr V c) := by
  have hN : cfg0.N = 20 := N_0
  have h19 : t.val = 19 := by have := (flush0_5 t).mp hf; have := lt20 t; omega
  show (cfg0.win 5).cut (grid0.coords t) ((dat0 V c).after 5 t) = _
  rw [after0_5]
  funext y
  obtain ⟨u, q, rfl⟩ : ∃ (u : Fin 1) (q : Fin 128), y = ix2 u q := ⟨y 0, y 1, eq_ix2 y⟩
  rw [View.read_apply]
  obtain ⟨-, -, -, -, -, -, -, -, -, e0, e1, -⟩ := idx_facts t
  have c1 : (((cfg0.win 5).blk t).view.emb (ix2 u q)) 1 = q :=
    Fin.ext (by show win0_5.index t (1 : Fin 2) * 128 + 1 * q.val = q.val; rw [e1]; omega)
  have key : ∀ i : S1x128.Idx, i 1 = q → sumArr V c i = ∑ r : Fin 100000, LayerFns.h1Fn (inX V c) (inA V c) (inW V c) (inB V c) r q := fun i hi => by
    unfold sumArr; rw [hi]
  have e20 : sumAcc V c q (t.val + 1) = sumAcc V c q 20 := by rw [h19]
  have k1 := key (((cfg0.win 5).blk t).view.emb (ix2 u q)) c1
  generalize sumArr V c (((cfg0.win 5).blk t).view.emb (ix2 u q)) = S at k1 ⊢
  show (outsAt0 V c t.val t.isLt).2.1 (ix2 u q) = S
  exact (sum_inv V c t.val t.isLt u q).trans (e20.trans ((sum_total V c q).trans k1.symm))

/-- The last point's tile is the whole row. -/
theorem sum_cover (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 20 := N_0
  let t : Fin cfg0.N := ⟨19, by rw [hN]; decide⟩
  obtain ⟨-, -, -, -, -, -, -, -, -, e0, e1, -⟩ := idx_facts t
  refine ⟨t, (flush0_5 t).mpr rfl, ?_⟩
  have he : ((cfg0.win 5).blk t).view.emb (ix2 (⟨(i 0).val, hi0⟩ : Fin 1) (⟨(i 1).val, hi1⟩ : Fin 128)) = i := by
    funext a
    apply Fin.ext
    match a with
    | ⟨0, _⟩ =>
      show win0_5.index t (0 : Fin 2) * 1 + 1 * (i 0).val = (i 0).val
      rw [e0]; omega
    | ⟨1, _⟩ =>
      show win0_5.index t (1 : Fin 2) * 128 + 1 * (i 1).val = (i 1).val
      rw [e1]; omega
  rw [← he]
  exact ((cfg0.win 5).blk t).view.emb_mem_set _

/-- The array of column sums of h after the grid. -/
theorem sum_arr : (dat0 V c).arrAt 5 cfg0.N = sumArr V c :=
  (dat0 V c).arrAt_eq_of_cover 5 (sumArr V c) (sum_flushed V c) (sum_cover)

/-- Lane k of the column sums of h after the grid. -/
theorem sum_arr_apply (k : Fin 128) :
    ((dat0 V c).arrAt 5 cfg0.N : S1x128.Idx → EReal) (ix2 0 k) = ∑ r : Fin 100000, LayerFns.h1Fn (inX V c) (inA V c) (inW V c) (inB V c) r k := by
  rw [sum_arr]; rfl

end Cert.KernelIdeal.Layer1V.R0

end
-- ==== Proof.Layer1V0SumSq.lean ====
/-
  The column sums of h·h after the first dense map's grid has run.

  The running row starts at zero at the first grid point and each point adds its tile's column sums of h·h.  After the
  twentieth point it holds, at lane k, the sum over all 100000 rows r of h(r, k)·h(r, k): a sum taken tile by tile is
  the sum over all rows, in any commutative additive monoid, so the extended reals need no finiteness here.  The row
  is written back once, after the last point, and is the whole 1 × 128 array.
-/
import proofs.«164329_j2903397892177_1_alg».proof.Proof.Layer1V0H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R0

open Cert.KernelIdeal Cert.KernelIdeal.Gen Idealize.ShloMosaic.ValueIdx

variable (V : (c : Dev nD) → (b : Ref sig .tc) → Buf (Elt Ideal) ((c : Thread nD τ).loc b)) (c : Dev nD)

/-- h·h at row i and lane q, by the row's number; zero past the last row. -/
def sumsqFn (q : Fin 128) (i : ℕ) : EReal := if h : i < 100000 then LayerFns.h1Fn (inX V c) (inA V c) (inW V c) (inB V c) ⟨i, h⟩ q * LayerFns.h1Fn (inX V c) (inA V c) (inW V c) (inB V c) ⟨i, h⟩ q else 0

/-- The running sum of squares at lane q before point k: zero, then one tile's column sum of h·h more per point. -/
def sumsqAcc (q : Fin 128) : ℕ → EReal
  | 0 => 0
  | k + 1 => sumsqAcc q k + ∑ p ∈ Finset.range 5000, sumsqFn V c q (5000 * k + p)

/-- Point t's column sum of h·h at lane q is the sum of h·h over rows 5000·t … 5000·t + 4999. -/
theorem sumsq_tile (t : Fin cfg0.N) (q : Fin 128) :
    ∑ p : Fin 5000, k0_pay3 (iblk0 V c 0 t) (iblk0 V c 1 t) (iblk0 V c 2 t) (iblk0 V c 3 t) (ix2 p q) * k0_pay3 (iblk0 V c 0 t) (iblk0 V c 1 t) (iblk0 V c 2 t) (iblk0 V c 3 t) (ix2 p q) = ∑ p ∈ Finset.range 5000, sumsqFn V c q (5000 * t.val + p) := by
  rw [Finset.sum_range]
  refine Finset.sum_congr rfl fun p _ => ?_
  have ht := lt20 t
  have hr : 5000 * t.val + p.val < 100000 := by have := p.isLt; omega
  unfold sumsqFn
  rw [dif_pos hr, pay3_block V c t p q ⟨5000 * t.val + p.val, hr⟩ rfl]

/-- After point n the running row of squares holds, at lane q, the running sum of squares before point n + 1. -/
theorem sumsq_inv : ∀ (n : ℕ) (h : n < cfg0.N) (u : Fin 1) (q : Fin 128),
    (outsAt0 V c n h).2.2 (ix2 u q) = sumsqAcc V c q (n + 1)
  | 0, h, u, q => by
    refine (congrFun (congrArg (fun x => x.2.2) (outs_A V c ⟨0, h⟩ rfl)) (ix2 u q)).trans ?_
    refine (pay5_apply (iblk0 V c 0 ⟨0, h⟩) (iblk0 V c 1 ⟨0, h⟩) (iblk0 V c 2 ⟨0, h⟩) (iblk0 V c 3 ⟨0, h⟩) k0_pay2 u q).trans ?_
    show _ = (0 : EReal) + ∑ p ∈ Finset.range 5000, sumsqFn V c q (5000 * 0 + p)
    exact congrArg₂ (· + ·) (pay2_apply u q) (sumsq_tile V c ⟨0, h⟩ q)
  | n + 1, h, u, q => by
    have hN : cfg0.N = 20 := N_0
    have hB : ¬(⟨n + 1, h⟩ : Fin cfg0.N).val % 20 = 0 := by dsimp only; omega
    refine (congrFun (congrArg (fun x => x.2.2) (outs_B V c ⟨n + 1, h⟩ hB)) (ix2 u q)).trans ?_
    refine (pay5_apply (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).2.2 u q).trans ?_
    show _ = sumsqAcc V c q (n + 1) + ∑ p ∈ Finset.range 5000, sumsqFn V c q (5000 * (n + 1) + p)
    exact congrArg₂ (· + ·) (sumsq_inv n (Nat.lt_of_succ_lt h) u q) (sumsq_tile V c ⟨n + 1, h⟩ q)

/-- After twenty tiles the running sum of squares is the sum of h·h over all rows. -/
theorem sumsq_total (q : Fin 128) : sumsqAcc V c q 20 = ∑ r : Fin 100000, LayerFns.h1Fn (inX V c) (inA V c) (inW V c) (inB V c) r q * LayerFns.h1Fn (inX V c) (inA V c) (inW V c) (inB V c) r q := by
  rw [Cert.BlockSum.accumulate_blocks 5000 (sumsqFn V c q) (sumsqAcc V c q) rfl (fun k => rfl) 20, Finset.sum_range]
  refine Finset.sum_congr rfl fun r _ => ?_
  unfold sumsqFn
  rw [dif_pos r.isLt]

/-- The row of column sums of h·h, entry by entry. -/
def sumsqArr : S1x128.Idx → EReal := fun i => ∑ r : Fin 100000, LayerFns.h1Fn (inX V c) (inA V c) (inW V c) (inB V c) r (i 1) * LayerFns.h1Fn (inX V c) (inA V c) (inW V c) (inB V c) r (i 1)

/-- The one write-back, after the last point, writes the row of column sums of h·h. -/
theorem sumsq_flushed (t : Fin cfg0.N) (hf : (cfg0.win 6).flush t = true) :
    (dat0 V c).flushed 6 t = ((cfg0.win 6).blk t).view.read (Elt Ideal) (sumsqArr V c) := by
  have hN : cfg0.N = 20 := N_0
  have h19 : t.val = 19 := by have := (flush0_6 t).mp hf; have := lt20 t; omega
  show (cfg0.win 6).cut (grid0.coords t) ((dat0 V c).after 6 t) = _
  rw [after0_6]
  funext y
  obtain ⟨u, q, rfl⟩ : ∃ (u : Fin 1) (q : Fin 128), y = ix2 u q := ⟨y 0, y 1, eq_ix2 y⟩
  rw [View.read_apply]
  obtain ⟨-, -, -, -, -, -, -, -, -, -, -, e0, e1⟩ := idx_facts t
  have c1 : (((cfg0.win 6).blk t).view.emb (ix2 u q)) 1 = q :=
    Fin.ext (by show win0_6.index t (1 : Fin 2) * 128 + 1 * q.val = q.val; rw [e1]; omega)
  have key : ∀ i : S1x128.Idx, i 1 = q → sumsqArr V c i = ∑ r : Fin 100000, LayerFns.h1Fn (inX V c) (inA V c) (inW V c) (inB V c) r q * LayerFns.h1Fn (inX V c) (inA V c) (inW V c) (inB V c) r q := fun i hi => by
    unfold sumsqArr; rw [hi]
  have e20 : sumsqAcc V c q (t.val + 1) = sumsqAcc V c q 20 := by rw [h19]
  have k1 := key (((cfg0.win 6).blk t).view.emb (ix2 u q)) c1
  generalize sumsqArr V c (((cfg0.win 6).blk t).view.emb (ix2 u q)) = S at k1 ⊢
  show (outsAt0 V c t.val t.isLt).2.2 (ix2 u q) = S
  exact (sumsq_inv V c t.val t.isLt u q).trans (e20.trans ((sumsq_total V c q).trans k1.symm))

/-- The last point's tile is the whole row. -/
theorem sumsq_cover (i : S1x128.Idx) :
    ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 20 := N_0
  let t : Fin cfg0.N := ⟨19, by rw [hN]; decide⟩
  obtain ⟨-, -, -, -, -, -, -, -, -, -, -, e0, e1⟩ := idx_facts t
  refine ⟨t, (flush0_6 t).mpr rfl, ?_⟩
  have he : ((cfg0.win 6).blk t).view.emb (ix2 (⟨(i 0).val, hi0⟩ : Fin 1) (⟨(i 1).val, hi1⟩ : Fin 128)) = i := by
    funext a
    apply Fin.ext
    match a with
    | ⟨0, _⟩ =>
      show win0_6.index t (0 : Fin 2) * 1 + 1 * (i 0).val = (i 0).val
      rw [e0]; omega
    | ⟨1, _⟩ =>
      show win0_6.index t (1 : Fin 2) * 128 + 1 * (i 1).val = (i 1).val
      rw [e1]; omega
  rw [← he]
  exact ((cfg0.win 6).blk t).view.emb_mem_set _

/-- The array of column sums of h·h after the grid. -/
theorem sumsq_arr : (dat0 V c).arrAt 6 cfg0.N = sumsqArr V c :=
  (dat0 V c).arrAt_eq_of_cover 6 (sumsqArr V c) (sumsq_flushed V c) (sumsq_cover)

/-- Lane k of the column sums of h·h after the grid. -/
theorem sumsq_arr_apply (k : Fin 128) :
    ((dat0 V c).arrAt 6 cfg0.N : S1x128.Idx → EReal) (ix2 0 k) = ∑ r : Fin 100000, LayerFns.h1Fn (inX V c) (inA V c) (inW V c) (inB V c) r k * LayerFns.h1Fn (inX V c) (inA V c) (inW V c) (inB V c) r k := by
  rw [sumsq_arr]; rfl

end Cert.KernelIdeal.Layer1V.R0

end
-- ==== Proof.LibMatmulEntry.lean ====
/-
  A plain matrix product read at an entry.

  The matrix unit's product of an m × k matrix by a k × n matrix, accumulated into zeros, contracts the left
  operand's second axis against the right operand's first. On the extended reals nothing is rounded and no order of
  summation is left, so the entry at row a and column b is the sum over the k contracted positions c of the left
  entry (a, c) times the right entry (c, b). The lemma says this for any extents and any two operand formats, with
  the dimension numbers written out as the lists a program states.
-/
import Idealize.ShloMosaic.PureOps.Ideal.Laws
import Idealize.ShloMosaic.Lib.ValueIdx

namespace PlainMatmul

open Idealize.ShloMosaic Idealize.ShloMosaic.ValueIdx

/-- The product of an m × k by a k × n matrix into a zero accumulator, at the entry (a, b), is
    ∑ c, A (a, c) · B (c, b). -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) _ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end PlainMatmul
-- ==== Proof.LibRowOfVector.lean ====
/-
  A vector laid along the lanes and repeated over the rows, read at an entry.

  A bias, a scale or a per-column statistic of extent b meets an a × b matrix through two layout steps: the vector
  is viewed as a 1 × b row, and the row is repeated over the a rows. Neither step moves a value: the repeated row at
  (p, q) is the row at (0, q), which is the vector at q, whatever the row p. The lemmas below compose the library's
  reading of the two steps, at indices written by coordinates, for any extents.
-/
import Idealize.ShloMosaic.Lib.ValueLayout
import Idealize.ShloMosaic.Lib.ValueIdx

namespace RowOfVector

open Idealize.ShloMosaic Idealize.ShloMosaic.ValueIdx

variable {α : Type}

/-- A vector of extent b viewed as a 1 × b row and repeated over a rows reads, at (p, q), the vector at q. -/
theorem vecRow_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) :=
  (broadcastTo_1b_ab_apply _ h2 p q).trans (shapeCast_a_1a_apply x h1 0 q)

/-- The same when the vector first passes through a cast to its own shape, which is the identity. -/
theorem vecSelfRow_apply {a b : ℕ} (x : (⟨1, ![b]⟩ : Shape).Idx → α)
    (h0 : (⟨1, ![b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ x h0) h1) h2 (ix2 p q) = x (ix1 q) :=
  (vecRow_apply _ h1 h2 p q).trans (congrFun (shapeCast_self x h0) (ix1 q))

/-- A 1 × b row, cast to its own shape and repeated over a rows, reads at (p, q) the row at (0, q). -/
theorem rowSelfRow_apply {a b : ℕ} (x : (⟨2, ![1, b]⟩ : Shape).Idx → α)
    (h0 : (⟨2, ![1, b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h0) h2 (ix2 p q) = x (ix2 (0 : Fin 1) q) :=
  (broadcastTo_1b_ab_apply _ h2 p q).trans (congrFun (shapeCast_self x h0) (ix2 (0 : Fin 1) q))

end RowOfVector
-- ==== Proof.Layer2V1Payload.lean ====
/-
  The second half of a layer, on one tile of 5000 rows: what the body stores, entry by entry.

  The body reads the tile h of the hidden rows, the column means m and variances v (each a 1 × 128 row), the scale γ,
  the shift β, the weight matrix W and the bias b. It normalises each entry, γ·(h − m)·rsqrt(v + ε) + β, takes the
  maximum with 0, multiplies the 5000 × 128 result by W on the matrix unit into a zero accumulator, adds b and takes
  the maximum with 0 again. Every step but the product is entrywise, and the row statistics, scale, shift and bias
  reach the tile by being repeated over its rows; so the stored entry at row p, column q depends on row p of the tile
  only: it is max(∑ j, max(γ j·(h p j − m j)·rsqrt(v j + ε) + β j, 0)·W j q + b q, 0).
-/
import proofs.«164329_j2903397892177_1_alg».proof.Proof.Gen.KernelIdeal.Skeleton
import proofs.«164329_j2903397892177_1_alg».proof.Proof.LayerFns
import proofs.«164329_j2903397892177_1_alg».proof.Proof.LibMatmulEntry
import proofs.«164329_j2903397892177_1_alg».proof.Proof.LibRowOfVector
import Idealize.ShloMosaic.Lib.ValueIdx

noncomputable section

namespace Cert.KernelIdeal.Layer2V

open Cert.KernelIdeal Cert.KernelIdeal.Gen Idealize.ShloMosaic Idealize.ShloMosaic.ValueIdx

/-- The stored entry at row p, column q of the tile: the normalised, scaled and shifted row p, cut at 0, times column
    q of the weights, plus the bias at q, cut at 0. The format changes in front of the product are the identity on
    the extended reals, and the product into zeros is the plain sum over the 128 contracted positions. -/
theorem k1_pay1_apply (vr : FVec Ideal S1x128 .f32) (g : FVec Ideal S128 .f32) (h : FVec Ideal S5000x128 .f32)
    (mn : FVec Ideal S1x128 .f32) (bt : FVec Ideal S128 .f32) (w : FVec Ideal S128x128 .f32) (b2 : FVec Ideal S128 .f32)
    (p : Fin 5000) (q : Fin 128) :
    k1_pay1 (F := Ideal) vr g h mn bt w b2 (ix2 p q)
      = max ((∑ j : Fin 128,
            max (g (ix1 j) * (h (ix2 p j) - mn (ix2 (0 : Fin 1) j)) * Ideal.rsqrt (vr (ix2 (0 : Fin 1) j) + LayerFns.eps)
              + bt (ix1 j)) 0 * w (ix2 j q)) + b2 (ix1 q)) 0 := by
  unfold k1_pay1
  refine (maximumf_apply _ _ (ix2 p q)).trans ?_
  refine congrArg₂ max ?_ Ideal.ofBits_zero_f32
  refine (addf_apply _ _ (ix2 p q)).trans ?_
  refine congrArg₂ (· + ·) ?_ (RowOfVector.vecSelfRow_apply b2 _ _ _ p q)
  refine (PlainMatmul.matmul_zero_apply Facts₀.dot_S5000x128_S128x128_S5000x128_1_0_0_1_n_n_wf none _ _ p q).trans ?_
  refine Finset.sum_congr rfl fun j _ => ?_
  refine congrArg₂ (· * ·) ?_ (congrFun (shapeCast_self w _) (ix2 j q))
  refine congrArg₂ max ?_ Ideal.ofBits_zero_f32
  refine congrArg₂ (· + ·) ?_ (RowOfVector.vecSelfRow_apply bt _ _ _ p j)
  refine congrArg₂ (· * ·)
    (congrArg₂ (· * ·) (RowOfVector.vecSelfRow_apply g _ _ _ p j)
      (congrArg₂ (· - ·) (congrFun (shapeCast_self h _) (ix2 p j)) (RowOfVector.rowSelfRow_apply mn _ _ p j))) ?_
  refine (broadcastTo_1b_ab_apply _ _ p j).trans ?_
  exact congrArg (fun t => Ideal.rsqrt (t + LayerFns.eps)) (congrFun (shapeCast_self vr _) (ix2 (0 : Fin 1) j))

end Cert.KernelIdeal.Layer2V

end
-- ==== Proof.Layer2V1Blocks.lean ====
/-
  The second half of a layer, over the whole array: from the tiles to the 100000 × 128 result.

  The region runs the body at 20 grid points. At point t the tile of hidden rows is rows 5000·t … 5000·t + 4999 of
  the array it reads, the six small operands (column means and variances, scale, shift, weights, bias) are whole
  arrays at every point, and the tile written back is rows 5000·t … 5000·t + 4999 of the result. The body's entry at
  row p of the tile depends on row p of its tile only, so what point t writes back is rows 5000·t … of ONE function of
  the arrays, the layer's second half entry by entry; the 20 tiles cover all 100000 rows (row r lies in tile
  r / 5000), so that function is the whole result.
-/
import proofs.«164329_j2903397892177_1_alg».proof.Proof.Gen.KernelIdeal.Frame
import proofs.«164329_j2903397892177_1_alg».proof.Proof.Layer2V1Payload
import Idealize.ShloMosaic.Lib.Pipeline.Value

set_option maxRecDepth 16384

noncomputable section

namespace Cert.KernelIdeal.Layer2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The region's result as one function of the arrays it reads, entry by entry: the layer's second half at row
    `i 0` and column `i 1`, of the hidden rows (window 0), the column means and variances (windows 1 and 2, each one
    row), the scale and the shift (windows 3 and 4), the weights (window 5) and the bias (window 6). -/
def result1 : S100000x128.Idx → EReal := fun i =>
  LayerFns.layer2Fn
    (fun r j => (V c (Pipeline.arrRef spec1 0) : S100000x128.Idx → EReal) (ix2 r j))
    (fun j => (V c (Pipeline.arrRef spec1 1) : S1x128.Idx → EReal) (ix2 (0 : Fin 1) j))
    (fun j => (V c (Pipeline.arrRef spec1 2) : S1x128.Idx → EReal) (ix2 (0 : Fin 1) j))
    (fun j => (V c (Pipeline.arrRef spec1 3) : S128.Idx → EReal) (ix1 j))
    (fun j => (V c (Pipeline.arrRef spec1 4) : S128.Idx → EReal) (ix1 j))
    (fun j k => (V c (Pipeline.arrRef spec1 5) : S128x128.Idx → EReal) (ix2 j k))
    (fun k => (V c (Pipeline.arrRef spec1 6) : S128.Idx → EReal) (ix1 k))
    ⟨(i 0).val, idx2_lt0 i⟩ ⟨(i 1).val, idx2_lt1 i⟩

/-- The zero offsets of a whole rank-2 buffer, as a constant function. -/
private theorem zeroPair : (![0, 0] : Fin 2 → Nat) = fun _ => 0 := funext fun a => by fin_cases a <;> rfl
/-- The zero offset of a whole rank-1 buffer, as a constant function. -/
private theorem zeroSingle : (![0] : Fin 1 → Nat) = fun _ => 0 := funext fun a => by fin_cases a <;> rfl

/-- The index maps over the grid: the tile read and the tile written move with the point along the rows, and the six
    small operands stay at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-! ## The blocks the body reads, as entries of the arrays -/

/-- Row p of the tile read at point t is row 5000·t + p of the array of hidden rows. -/
theorem read1_0 (t : Fin cfg1.N) (p : Fin 5000) (j : Fin 128) (r : Fin 100000) (hr : r.val = 5000 * t.val + p.val) :
    iblk1 V c 0 t (ix2 p j) = V c (Pipeline.arrRef spec1 0) (ix2 r j) := by
  obtain ⟨e0, e1, -⟩ := idx_facts1 t
  show V c (Pipeline.arrRef spec1 0) (((cfg1.win 0).blk t).view.emb (ix2 p j)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

/-- The row of column means is read whole at every point. -/
theorem read1_1 (t : Fin cfg1.N) (j : Fin 128) :
    iblk1 V c 1 t (ix2 (0 : Fin 1) j) = V c (Pipeline.arrRef spec1 1) (ix2 (0 : Fin 1) j) := by
  obtain ⟨-, -, e0, e1, -⟩ := idx_facts1 t
  show V c (Pipeline.arrRef spec1 1) (((cfg1.win 1).blk t).view.emb (ix2 (0 : Fin 1) j)) = _
  refine congrArg _ (funext fun a => Fin.ext ?_)
  match a with
  | ⟨0, _⟩ => show win1_1.index t (0 : Fin 2) * 1 + 1 * 0 = 0; rw [e0]
  | ⟨1, _⟩ => show win1_1.index t (1 : Fin 2) * 128 + 1 * j.val = j.val; rw [e1]; omega

/-- The row of column variances is read whole at every point. -/
theorem read1_2 (t : Fin cfg1.N) (j : Fin 128) :
    iblk1 V c 2 t (ix2 (0 : Fin 1) j) = V c (Pipeline.arrRef spec1 2) (ix2 (0 : Fin 1) j) := by
  obtain ⟨-, -, -, -, e0, e1, -⟩ := idx_facts1 t
  show V c (Pipeline.arrRef spec1 2) (((cfg1.win 2).blk t).view.emb (ix2 (0 : Fin 1) j)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

/-- The scale is read whole at every point. -/
theorem read1_3 (t : Fin cfg1.N) (j : Fin 128) :
    iblk1 V c 3 t (ix1 j) = V c (Pipeline.arrRef spec1 3) (ix1 j) := by
  obtain ⟨-, -, -, -, -, -, e0, -⟩ := idx_facts1 t
  show V c (Pipeline.arrRef spec1 3) (((cfg1.win 3).blk t).view.emb (ix1 j)) = _
  refine congrArg _ (funext fun a => Fin.ext ?_)
  match a with
  | ⟨0, _⟩ => show win1_3.index t (0 : Fin 1) * 128 + 1 * j.val = j.val; rw [e0]; omega

/-- The shift is read whole at every point. -/
theorem read1_4 (t : Fin cfg1.N) (j : Fin 128) :
    iblk1 V c 4 t (ix1 j) = V c (Pipeline.arrRef spec1 4) (ix1 j) := by
  obtain ⟨-, -, -, -, -, -, -, e0, -⟩ := idx_facts1 t
  show V c (Pipeline.arrRef spec1 4) (((cfg1.win 4).blk t).view.emb (ix1 j)) = _
  refine congrArg _ (funext fun a => Fin.ext ?_)
  match a with
  | ⟨0, _⟩ => show win1_4.index t (0 : Fin 1) * 128 + 1 * j.val = j.val; rw [e0]; omega

/-- The weights are read whole at every point. -/
theorem read1_5 (t : Fin cfg1.N) (j k : Fin 128) :
    iblk1 V c 5 t (ix2 j k) = V c (Pipeline.arrRef spec1 5) (ix2 j k) := by
  obtain ⟨-, -, -, -, -, -, -, -, e0, e1, -⟩ := idx_facts1 t
  show V c (Pipeline.arrRef spec1 5) (((cfg1.win 5).blk t).view.emb (ix2 j k)) = _
  refine congrArg _ (funext fun a => Fin.ext ?_)
  match a with
  | ⟨0, _⟩ => show win1_5.index t (0 : Fin 2) * 128 + 1 * j.val = j.val; rw [e0]; omega
  | ⟨1, _⟩ => show win1_5.index t (1 : Fin 2) * 128 + 1 * k.val = k.val; rw [e1]; omega

/-- The bias is read whole at every point. -/
theorem read1_6 (t : Fin cfg1.N) (k : Fin 128) :
    iblk1 V c 6 t (ix1 k) = V c (Pipeline.arrRef spec1 6) (ix1 k) := by
  obtain ⟨-, -, -, -, -, -, -, -, -, -, e0, -⟩ := idx_facts1 t
  show V c (Pipeline.arrRef spec1 6) (((cfg1.win 6).blk t).view.emb (ix1 k)) = _
  refine congrArg _ (funext fun a => Fin.ext ?_)
  match a with
  | ⟨0, _⟩ => show win1_6.index t (0 : Fin 1) * 128 + 1 * k.val = k.val; rw [e0]; omega

/-- Row p of the tile written at point t is row 5000·t + p of the result. -/
theorem emb1_7 (t : Fin cfg1.N) (p : Fin 5000) (q : Fin 128) (r : Fin 100000) (hr : r.val = 5000 * t.val + p.val) :
    ((cfg1.win 7).blk t).view.emb (ix2 p q) = ix2 r q := by
  obtain ⟨-, -, -, -, -, -, -, -, -, -, -, e0, e1⟩ := idx_facts1 t
  refine funext fun a => Fin.ext ?_
  match a with
  | ⟨0, _⟩ => show win1_7.index t (0 : Fin 2) * 5000 + 1 * p.val = r.val; rw [e0, hr]; omega
  | ⟨1, _⟩ => show win1_7.index t (1 : Fin 2) * 128 + 1 * q.val = q.val; rw [e1]; omega

/-! ## What a point writes back -/

/-- What point t writes back is rows 5000·t … 5000·t + 4999 of `result1`: the body's entry at row p of its tile is
    the layer's second half of row p of the tile read, which is row 5000·t + p of the array. -/
theorem flushed1_7_eq (t : Fin cfg1.N) :
    (dat1 V c).flushed 7 t = ((cfg1.win 7).blk t).view.read (Elt Ideal) (result1 V c) := by
  show (cfg1.win 7).cut (grid1.coords t) ((dat1 V c).after 7 t) = _
  rw [after1_7]
  unfold out1_7
  rw [View.canon_unit_zero zeroPair]
  simp only [View.ld_unit_zero (S := S5000x128) zeroPair, View.ld_unit_zero (S := S1x128) zeroPair,
    View.ld_unit_zero (S := S128x128) zeroPair, View.ld_unit_zero (S := S128) zeroSingle]
  funext y
  obtain ⟨p, q, rfl⟩ : ∃ (p : Fin 5000) (q : Fin 128), y = ix2 p q := ⟨y 0, y 1, eq_ix2 (n0 := 5000) (n1 := 128) y⟩
  have hN : cfg1.N = 20 := N_1
  have htl : t.val < 20 := hN ▸ t.isLt
  obtain ⟨r, hr⟩ : ∃ r : Fin 100000, r.val = 5000 * t.val + p.val := ⟨⟨5000 * t.val + p.val, by have := p.isLt; omega⟩, rfl⟩
  show k1_pay1 (F := Ideal) (iblk1 V c 2 t) (iblk1 V c 3 t) (iblk1 V c 0 t) (iblk1 V c 1 t) (iblk1 V c 4 t) (iblk1 V c 5 t) (iblk1 V c 6 t) (ix2 p q)
      = result1 V c (((cfg1.win 7).blk t).view.emb (ix2 p q))
  refine (k1_pay1_apply (iblk1 V c 2 t) (iblk1 V c 3 t) (iblk1 V c 0 t) (iblk1 V c 1 t) (iblk1 V c 4 t) (iblk1 V c 5 t) (iblk1 V c 6 t) p q).trans ?_
  refine Eq.trans ?_ (congrArg (result1 V c) (emb1_7 t p q r hr)).symm
  show _ = LayerFns.layer2Fn _ _ _ _ _ _ _ r q
  unfold LayerFns.layer2Fn LayerFns.normFn
  refine congrArg₂ max (congrArg₂ (· + ·) (Finset.sum_congr rfl fun j _ => ?_) (read1_6 V c t q)) rfl
  refine congrArg₂ (· * ·) (congrArg₂ max (congrArg₂ (· + ·) (congrArg₂ (· * ·) (congrArg₂ (· * ·) (read1_3 V c t j)
    (congrArg₂ (· - ·) (read1_0 V c t p j r hr) (read1_1 V c t j)))
    (congrArg (fun x => Ideal.rsqrt (x + LayerFns.eps)) (read1_2 V c t j))) (read1_4 V c t j)) rfl) (read1_5 V c t j q)

/-! ## The 20 tiles cover the result -/

/-- An index of the result is in point t's tile iff each coordinate is in the tile's range on its axis. -/
theorem mem_blk1_7 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole (Pipeline.arrRef spec1 7)).slice (win1_7.rect t)).set ↔ _
  rw [View.set_slice_whole, Rect.mem_set_unit]
  exact Iff.rfl

/-- Row r of the result lies in the tile of point r / 5000, and every point writes its tile back. -/
theorem cover1_7_arr (i : S100000x128.Idx) :
    ∃ t : Fin cfg1.N, (cfg1.win 7).flush t = true ∧ i ∈ ((cfg1.win 7).blk t).view.set := by
  have hN : cfg1.N = 20 := N_1
  have hi0 : (i 0).val < 100000 := idx2_lt0 i
  have hi1 : (i 1).val < 128 := idx2_lt1 i
  obtain ⟨t, ht⟩ : ∃ t : Fin cfg1.N, t.val = (i 0).val / 5000 := ⟨⟨(i 0).val / 5000, by rw [hN]; omega⟩, rfl⟩
  obtain ⟨-, -, -, -, -, -, -, -, -, -, -, e0, e1⟩ := idx_facts1 t
  refine ⟨t, flush1_7 t, ?_⟩
  rw [mem_blk1_7]
  intro a
  match a with
  | ⟨0, _⟩ =>
    show win1_7.index t (0 : Fin 2) * 5000 ≤ (i 0).val ∧ (i 0).val < win1_7.index t (0 : Fin 2) * 5000 + 5000
    rw [e0]; omega
  | ⟨1, _⟩ =>
    show win1_7.index t (1 : Fin 2) * 128 ≤ (i 1).val ∧ (i 1).val < win1_7.index t (1 : Fin 2) * 128 + 128
    rw [e1]; omega

/-! ## The result -/

/-- THE ARRAY the region leaves in its result window is `result1` of the arrays it reads. -/
theorem arr1_7_eq : (dat1 V c).arrAt 7 cfg1.N = result1 V c :=
  (dat1 V c).arrAt_eq_of_cover 7 (result1 V c) (fun t _ => flushed1_7_eq V c t) (cover1_7_arr)

/-- Entry by entry: row r, column k of the result is the layer's second half of row r of the hidden rows. -/
theorem arr1_7_apply (r : Fin 100000) (k : Fin 128) :
    (dat1 V c).arrAt 7 cfg1.N (ix2 r k)
      = LayerFns.layer2Fn
          (fun r j => (V c (Pipeline.arrRef spec1 0) : S100000x128.Idx → EReal) (ix2 r j))
          (fun j => (V c (Pipeline.arrRef spec1 1) : S1x128.Idx → EReal) (ix2 (0 : Fin 1) j))
          (fun j => (V c (Pipeline.arrRef spec1 2) : S1x128.Idx → EReal) (ix2 (0 : Fin 1) j))
          (fun j => (V c (Pipeline.arrRef spec1 3) : S128.Idx → EReal) (ix1 j))
          (fun j => (V c (Pipeline.arrRef spec1 4) : S128.Idx → EReal) (ix1 j))
          (fun j k => (V c (Pipeline.arrRef spec1 5) : S128x128.Idx → EReal) (ix2 j k))
          (fun k => (V c (Pipeline.arrRef spec1 6) : S128.Idx → EReal) (ix1 k)) r k :=
  congrFun (arr1_7_eq V c) (ix2 r k)

end Cert.KernelIdeal.Layer2V

end
-- ==== Proof.LibRowGatherScatter.lean ====
/-
  Rows taken and rows added, read at coordinates.

  `x[idx]` of a flat array `[N]` and of a matrix `[N, D]` at a column `[M, 1]` of integer row numbers (a gather that
  collapses axis 0): element `e` (row `e`) of the result is the operand's element (row) whose number is the word
  `idx[e, 0]` read signed and clamped into `[0, N − 1]`.
  A scatter-add of `M` rows of width `D` into the rows of an `[N, D]` array at row numbers `idx : [M, 1]`: update
  element `(e, d')` lands on `(n, d)` only if the word `idx[e, 0]`, read signed and NOT clamped, is `n`, and `d' = d`.
  Hence: on a row that an update lands on, taking row `idx[e, 0]` (after the usual "add N to a negative number"
  normalisation) of any array gives row `n` of it.
  All at any extents; the dimension numbers' conditions are a hypothesis, decided on a program's literal shapes.
-/
import Idealize.ShloMosaic.Lib.ValueIdx
import Idealize.ShloMosaic.PureOps.ShapeOps

noncomputable section

open Idealize.ShloMosaic Idealize.ShloMosaic.ValueIdx

namespace Cert.Lib.RowGatherScatter

variable {α : Type}

/-! ## Taking elements of a flat array -/

/-- The dimension numbers of `x[idx]` for `x : [N]`, `idx : [M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Element `e` of `x[idx]` is `x` at the word `idx[e, 0]` read signed and clamped into `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0 + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Taking rows of a matrix -/

/-- The dimension numbers of `x[idx]` for `x : [N, D]`, `idx : [M, 1]`, result `[M, D]`. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, d)` of `x[idx]` is `x` at row `idx[e, 0]` (read signed, clamped into `[0, N − 1]`), column `d`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (rowDims N D M wf) x idx (ix2 e d)
      = x (ix2 ⟨min (idx (ix2 e (0 : Fin 1))).toInt.toNat (N - 1), by omega⟩ d) := by
  unfold Host.gather
  congr 1
  funext a
  refine Fin.ext ?_
  match a with
  | ⟨0, _⟩ =>
    show (rowDims N D M wf).start (ix2 e d) idx 0 + (rowDims N D M wf).batchCoord (ix2 e d) 0
      + (rowDims N D M wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e d) ⟨List.idxOf (0 : Fin 2) (rowDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D M wf).start (ix2 e d) idx 1 + (rowDims N D M wf).batchCoord (ix2 e d) 1
      + (rowDims N D M wf).offCoord (ix2 e d) 1 = d.val
    have h1 : (rowDims N D M wf).start (ix2 e d) idx 1 = 0 := by
      unfold GatherDims.start; exact dif_neg (show (1 : Fin 2) ∉ ([0] : List (Fin 2)) from by decide)
    have h3 : (rowDims N D M wf).offCoord (ix2 e d) 1 = d.val := rfl
    rw [h1, GatherDims.batchCoord_eq_zero _ _ _ List.not_mem_nil, h3]
    omega

/-! ## Adding rows into a matrix -/

/-- The dimension numbers of `x.at[idx].add(u)` (a row-wise segment sum) for `x : [N, D]`, `idx : [M, 1]`, `u : [M, D]`. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- An update entry `(e, d')` lands on `(n, d)` only if the row number `idx[e, 0]`, read signed, is `n`, and `d' = d`. -/
theorem scatter_rows_hit {N D M w : Nat} (wf : ScatterDims.WF ⟨2, ![N, D]⟩ ⟨2, ![M, 1]⟩ ⟨2, ![M, D]⟩ [1] [0] [0] 1)
    (idx : IVec ⟨2, ![M, 1]⟩ w) (e : Fin M) (d' : Fin D) (n : Fin N) (d : Fin D)
    (h : (rowAddDims N D M wf).resultIdx? (ix2 e d') idx = some (ix2 n d)) :
    (idx (ix2 e (0 : Fin 1))).toInt = (n.val : Int) ∧ d' = d := by
  unfold ScatterDims.resultIdx? at h
  split at h
  · rename_i hin
    have hf := Option.some.inj h
    have h0 : ((rowAddDims N D M wf).start (ix2 e d') idx 0 + ((rowAddDims N D M wf).window (ix2 e d') 0 : Int)).toNat = n.val :=
      congrArg (fun f => (f 0).val) hf
    have h1 : ((rowAddDims N D M wf).start (ix2 e d') idx 1 + ((rowAddDims N D M wf).window (ix2 e d') 1 : Int)).toNat = d.val :=
      congrArg (fun f => (f 1).val) hf
    have g0 := (hin 0).1
    have hs0 : (rowAddDims N D M wf).start (ix2 e d') idx 0 = (idx (ix2 e (0 : Fin 1))).toInt := by
      unfold ScatterDims.start
      rw [dif_pos (show (0 : Fin 2) ∈ (rowAddDims N D M wf).scatterDimsToOperandDims from List.mem_singleton.mpr rfl)]
      have hsi : (rowAddDims N D M wf).siIdx (ix2 e d') ⟨List.idxOf (0 : Fin 2) (rowAddDims N D M wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowAddDims N D M wf).window (ix2 e d') 0 = 0 := rfl
    have hs1 : (rowAddDims N D M wf).start (ix2 e d') idx 1 = 0 := by
      unfold ScatterDims.start; exact dif_neg (show (1 : Fin 2) ∉ ([0] : List (Fin 2)) from by decide)
    have hw1 : (rowAddDims N D M wf).window (ix2 e d') 1 = d'.val := rfl
    rw [hs0, hw0] at h0 g0
    rw [hs1, hw1] at h1
    refine ⟨by omega, Fin.ext (by omega)⟩
  · exact absurd h (by simp)

/-! ## A row number that a scatter accepts is taken unchanged by a gather -/

/-- A 32-bit row number that reads signed as `n < N` (so it is not negative) is left alone by the normalisation
    "if negative add `N`", and the gather's clamp gives `n`. -/
theorem normalised_row {N : Nat} (c : BitVec 32) (Nw : BitVec 32) (n : Fin N) (hc : c.toInt = (n.val : Int)) :
    min (Scalar.select (IntOp.cmpi .slt c 0#32) (IntOp.addi c Nw) c).toInt.toNat (N - 1) = n.val := by
  have hslt : IntOp.cmpi .slt c 0#32 = 0#1 := by
    have : c.slt 0#32 = false := by
      rw [BitVec.slt_eq_decide]
      simp only [BitVec.toInt_zero, decide_eq_false_iff_not, not_lt]
      omega
    simp [IntOp.cmpi, this]
  rw [hslt, select_zero, hc]
  have := n.isLt
  omega

end Cert.Lib.RowGatherScatter

end
-- ==== Proof.LibSegmentSum.lean ====
/-
  A segment sum read as a sum over the edges that end at a node.

  A scatter-add of `M` update rows of width `D` into an `[N, D]` array of zeros at row numbers `idx : [M, 1]` (jax's
  `segment_sum` of rows), and a scatter-add of `M` numbers into a flat `[N]` array of zeros at the same row numbers
  (`segment_sum` of a vector). An update lands on a cell exactly when its result coordinates — start (the row number
  read signed, not clamped) plus window coordinate, axis by axis — are the cell's (`resultIdx?_eq_some_iff`, any
  dimension numbers). For the row-wise scatter that is: the row number of update row `e` is `n` and the column is kept
  (`rows_land_iff`); for the flat one: the row number of `e` is `n` (`flat_land_iff`). So on the extended reals both
  are sums over the SAME finite set of update rows, `{e | idx[e, 0] = n}`:
    `rows_scatterAdd_apply`:  result (n, d) = Σ_{e : idx[e,0] = n} u (e, d)
    `flat_scatterAdd_apply`:  result n      = Σ_{e : idx[e,0] = n} u e
  All at any extents.
-/
import Idealize.ShloMosaic.Lib.ValueIdx
import Idealize.ShloMosaic.PureOps.ShapeOps
import Idealize.ShloMosaic.PureOps.Ideal
import proofs.«164329_j2903397892177_1_alg».proof.Proof.LibRowGatherScatter

noncomputable section

open Idealize.ShloMosaic Idealize.ShloMosaic.ValueIdx

namespace Cert.Lib.SegmentSum

open Cert.Lib.RowGatherScatter

/-- An update index lands on the cell `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hin
      have hf := Option.some.inj h
      intro a
      have h1 : (d.start j idx a + (d.window j a : Int)).toNat = (i a).val := congrArg (fun f => (f a).val) hf
      have h2 := (hin a).1
      omega
    · exact absurd h (by simp)
  · intro h
    have hin : ∀ a, 0 ≤ d.start j idx a + d.window j a ∧ d.start j idx a + d.window j a < s.size a := fun a => by
      have h1 := h a
      have h2 := (i a).isLt
      omega
    rw [dif_pos hin]
    refine congrArg some (funext fun a => Fin.ext ?_)
    show (d.start j idx a + (d.window j a : Int)).toNat = (i a).val
    have h1 := h a
    omega

/-! ## Rows added into a matrix -/

section Rows

variable {N D M w : Nat} (wf : ScatterDims.WF ⟨2, ![N, D]⟩ ⟨2, ![M, 1]⟩ ⟨2, ![M, D]⟩ [1] [0] [0] 1)

theorem rows_start0 (idx : IVec ⟨2, ![M, 1]⟩ w) (e : Fin M) (d' : Fin D) :
    (rowAddDims N D M wf).start (ix2 e d') idx 0 = (idx (ix2 e (0 : Fin 1))).toInt := by
  unfold ScatterDims.start
  rw [dif_pos (show (0 : Fin 2) ∈ (rowAddDims N D M wf).scatterDimsToOperandDims from List.mem_singleton.mpr rfl)]
  have hsi : (rowAddDims N D M wf).siIdx (ix2 e d') ⟨List.idxOf (0 : Fin 2) (rowAddDims N D M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rows_start1 (idx : IVec ⟨2, ![M, 1]⟩ w) (e : Fin M) (d' : Fin D) :
    (rowAddDims N D M wf).start (ix2 e d') idx 1 = 0 := by
  unfold ScatterDims.start; exact dif_neg (show (1 : Fin 2) ∉ ([0] : List (Fin 2)) from by decide)

theorem rows_window0 (e : Fin M) (d' : Fin D) : (rowAddDims N D M wf).window (ix2 e d') 0 = 0 := rfl
theorem rows_window1 (e : Fin M) (d' : Fin D) : (rowAddDims N D M wf).window (ix2 e d') 1 = d'.val := rfl

/-- Update entry `(e, d')` lands on `(n, d)` exactly when row number `idx[e, 0]`, read signed, is `n`, and `d' = d`. -/
theorem rows_land_iff (idx : IVec ⟨2, ![M, 1]⟩ w) (e : Fin M) (d' : Fin D) (n : Fin N) (d : Fin D) :
    (rowAddDims N D M wf).resultIdx? (ix2 e d') idx = some (ix2 n d)
      ↔ (idx (ix2 e (0 : Fin 1))).toInt = (n.val : Int) ∧ d' = d := by
  rw [resultIdx?_eq_some_iff]
  constructor
  · intro h
    have h0 := h 0
    have h1 := h 1
    rw [rows_start0, rows_window0] at h0
    rw [rows_start1, rows_window1] at h1
    have e0 : ((ix2 n d : (⟨2, ![N, D]⟩ : Shape).Idx) 0).val = n.val := rfl
    have e1 : ((ix2 n d : (⟨2, ![N, D]⟩ : Shape).Idx) 1).val = d.val := rfl
    rw [e0] at h0
    rw [e1] at h1
    exact ⟨by omega, Fin.ext (by omega)⟩
  · rintro ⟨h0, rfl⟩ a
    match a with
    | ⟨0, _⟩ =>
      show (rowAddDims N D M wf).start (ix2 e d') idx 0 + ((rowAddDims N D M wf).window (ix2 e d') 0 : Int) = (n.val : Int)
      rw [rows_start0, rows_window0, h0]; simp
    | ⟨1, _⟩ =>
      show (rowAddDims N D M wf).start (ix2 e d') idx 1 + ((rowAddDims N D M wf).window (ix2 e d') 1 : Int) = (d'.val : Int)
      rw [rows_start1, rows_window1]; simp

/-- Rows scatter-added into zeros: entry `(n, d)` is the sum of `u (e, d)` over the update rows `e` whose row number is `n`. -/
theorem rows_scatterAdd_apply (z : (⟨2, ![N, D]⟩ : Shape).Idx → EReal) (hz : ∀ i, z i = 0) (idx : IVec ⟨2, ![M, 1]⟩ w)
    (u : (⟨2, ![M, D]⟩ : Shape).Idx → EReal) (n : Fin N) (d : Fin D) :
    Ideal.hostScatterAdd (rowAddDims N D M wf) z idx u (ix2 n d)
      = ∑ e ∈ Finset.univ.filter (fun e : Fin M => (idx (ix2 e (0 : Fin 1))).toInt = (n.val : Int)), u (ix2 e d) := by
  unfold Ideal.hostScatterAdd
  rw [hz, zero_add]
  refine Finset.sum_bij' (fun j _ => (j 0 : Fin M)) (fun e _ => (ix2 e d : (⟨2, ![M, D]⟩ : Shape).Idx)) ?_ ?_ ?_ ?_ ?_
  · intro j hj
    have hj' := (Finset.mem_filter.mp hj).2
    rw [eq_ix2 j] at hj'
    exact Finset.mem_filter.mpr ⟨Finset.mem_univ _, ((rows_land_iff wf idx _ _ n d).mp hj').1⟩
  · intro e he
    exact Finset.mem_filter.mpr ⟨Finset.mem_univ _, (rows_land_iff wf idx e d n d).mpr ⟨(Finset.mem_filter.mp he).2, rfl⟩⟩
  · intro j hj
    have hj' := (Finset.mem_filter.mp hj).2
    rw [eq_ix2 j] at hj'
    have hd := ((rows_land_iff wf idx _ _ n d).mp hj').2
    show ix2 (j 0) d = j
    rw [← hd]; exact (eq_ix2 j).symm
  · intro e he
    rfl
  · intro j hj
    have hj' := (Finset.mem_filter.mp hj).2
    rw [eq_ix2 j] at hj'
    have hd := ((rows_land_iff wf idx _ _ n d).mp hj').2
    show u j = u (ix2 (j 0) d)
    rw [← hd]; exact congrArg u (eq_ix2 j)

end Rows

/-! ## Numbers added into a flat array -/

section Flat

/-- The dimension numbers of `x.at[idx].add(u)` for `x : [N]`, `idx : [M, 1]`, `u : [M]` (a segment sum of a vector). -/
abbrev flatAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

theorem flat_start0 (idx : IVec ⟨2, ![M, 1]⟩ w) (e : Fin M) :
    (flatAddDims N M wf).start (ix1 e) idx 0 = (idx (ix2 e (0 : Fin 1))).toInt := by
  unfold ScatterDims.start
  rw [dif_pos (show (0 : Fin 1) ∈ (flatAddDims N M wf).scatterDimsToOperandDims from List.mem_singleton.mpr rfl)]
  have hsi : (flatAddDims N M wf).siIdx (ix1 e) ⟨List.idxOf (0 : Fin 1) (flatAddDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flat_window0 (e : Fin M) : (flatAddDims N M wf).window (ix1 e) 0 = 0 := rfl

/-- Update `e` lands on element `n` exactly when its row number `idx[e, 0]`, read signed, is `n`. -/
theorem flat_land_iff (idx : IVec ⟨2, ![M, 1]⟩ w) (e : Fin M) (n : Fin N) :
    (flatAddDims N M wf).resultIdx? (ix1 e) idx = some (ix1 n) ↔ (idx (ix2 e (0 : Fin 1))).toInt = (n.val : Int) := by
  rw [resultIdx?_eq_some_iff]
  constructor
  · intro h
    have h0 := h 0
    rw [flat_start0, flat_window0] at h0
    have e0 : ((ix1 n : (⟨1, ![N]⟩ : Shape).Idx) 0).val = n.val := rfl
    rw [e0] at h0
    omega
  · intro h0 a
    obtain rfl : a = 0 := Subsingleton.elim _ _
    show (flatAddDims N M wf).start (ix1 e) idx 0 + ((flatAddDims N M wf).window (ix1 e) 0 : Int) = (n.val : Int)
    rw [flat_start0, flat_window0, h0]; simp

/-- Numbers scatter-added into zeros: element `n` is the sum of `u e` over the updates `e` whose row number is `n`. -/
theorem flat_scatterAdd_apply (z : (⟨1, ![N]⟩ : Shape).Idx → EReal) (hz : ∀ i, z i = 0) (idx : IVec ⟨2, ![M, 1]⟩ w)
    (u : (⟨1, ![M]⟩ : Shape).Idx → EReal) (n : Fin N) :
    Ideal.hostScatterAdd (flatAddDims N M wf) z idx u (ix1 n)
      = ∑ e ∈ Finset.univ.filter (fun e : Fin M => (idx (ix2 e (0 : Fin 1))).toInt = (n.val : Int)), u (ix1 e) := by
  unfold Ideal.hostScatterAdd
  rw [hz, zero_add]
  refine Finset.sum_bij' (fun j _ => (j 0 : Fin M)) (fun e _ => (ix1 e : (⟨1, ![M]⟩ : Shape).Idx)) ?_ ?_ ?_ ?_ ?_
  · intro j hj
    have hj' := (Finset.mem_filter.mp hj).2
    rw [eq_ix1 j] at hj'
    exact Finset.mem_filter.mpr ⟨Finset.mem_univ _, (flat_land_iff wf idx _ n).mp hj'⟩
  · intro e he
    exact Finset.mem_filter.mpr ⟨Finset.mem_univ _, (flat_land_iff wf idx e n).mpr (Finset.mem_filter.mp he).2⟩
  · intro j hj
    exact (eq_ix1 j).symm
  · intro e he
    rfl
  · intro j hj
    exact congrArg u (eq_ix1 j)

end Flat

end Cert.Lib.SegmentSum

end
-- ==== Proof.LibPairNorm.lean ====
/-
  PairNorm in affine form, on the extended reals.

  PairNorm of a matrix x (rows r, columns c, n rows) subtracts each column's mean m c = (Σ r, x r c) / n and scales by
  s = (ε + (Σ r c, (x r c)² − n · Σ c, (m c)²) / n)^(−1/2).  One program applies it as (x r c − m c) · s, another folds the
  mean into the offset and applies x r c · s + (−(m c) · s).  Over the reals these agree by distributivity; on the extended
  reals distributivity fails at the infinities, so the law is stated for real operands, and the scale is shown to BE
  real: the quantity under the root is ε plus a mean of squared deviations, hence positive.
-/
import Mathlib.Data.EReal.Basic
import Mathlib.Data.EReal.Operations
import Mathlib.Algebra.BigOperators.Field
import Mathlib.Analysis.SpecialFunctions.Sqrt
import Mathlib.Tactic
import Idealize.ShloMosaic.PureOps.Ideal

noncomputable section

namespace PairNorm

open Idealize.ShloMosaic

/-- For real h, μ, s the folded form h·s + (−μ)·s is the centred form (h − μ)·s, as extended reals. -/
theorem affine_eq_centred (h μ s : ℝ) :
    (h : EReal) * (s : EReal) + (-(μ : EReal)) * (s : EReal) = ((h : EReal) - (μ : EReal)) * (s : EReal) := by
  rw [← EReal.coe_neg, ← EReal.coe_mul, ← EReal.coe_mul, ← EReal.coe_add, ← EReal.coe_sub, ← EReal.coe_mul]
  congr 1
  ring

/-- A finite sum of reals, read as an extended real, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One column: the sum of squares less n times the squared mean is the sum of squared deviations from the mean
    (n the number of rows, as a real). -/
theorem sum_sq_sub_mul_mean_sq {ι : Type*} [Fintype ι] (x : ι → ℝ) (n : ℝ) (hcard : (Fintype.card ι : ℝ) = n)
    (hn : n ≠ 0) :
    ∑ r, x r ^ 2 - n * ((∑ r, x r) / n) ^ 2 = ∑ r, (x r - (∑ r, x r) / n) ^ 2 := by
  set S := ∑ r, x r with hS
  have expand : ∑ r, (x r - S / n) ^ 2 = ∑ r, x r ^ 2 - 2 * (S / n) * S + n * (S / n) ^ 2 := by
    have : ∀ r, (x r - S / n) ^ 2 = x r ^ 2 - 2 * (S / n) * x r + (S / n) ^ 2 := fun r => by ring
    simp only [this, Finset.sum_add_distrib, Finset.sum_sub_distrib, ← Finset.mul_sum, Finset.sum_const,
      Finset.card_univ, nsmul_eq_mul, hcard, ← hS]
  rw [expand]
  field_simp
  ring

/-- The sum of squares of a matrix less n times the sum of its squared column means is nonnegative. -/
theorem total_sq_nonneg {ι κ : Type*} [Fintype ι] [Fintype κ] (x : ι → κ → ℝ) (n : ℝ)
    (hcard : (Fintype.card ι : ℝ) = n) (hn : n ≠ 0) :
    0 ≤ (∑ c, ∑ r, x r c ^ 2) - n * ∑ c, ((∑ r, x r c) / n) ^ 2 := by
  have : (∑ c, ∑ r, x r c ^ 2) - n * ∑ c, ((∑ r, x r c) / n) ^ 2
      = ∑ c, ∑ r, (x r c - (∑ r, x r c) / n) ^ 2 := by
    rw [Finset.mul_sum, ← Finset.sum_sub_distrib]
    exact Finset.sum_congr rfl fun c _ => sum_sq_sub_mul_mean_sq (fun r => x r c) n hcard hn
  rw [this]
  exact Finset.sum_nonneg fun c _ => Finset.sum_nonneg fun r _ => sq_nonneg _

/-- The quantity under PairNorm's root is positive: ε > 0 plus a mean of squared deviations. -/
theorem radicand_pos {ι κ : Type*} [Fintype ι] [Fintype κ] (x : ι → κ → ℝ) (n ε : ℝ)
    (hcard : (Fintype.card ι : ℝ) = n) (hn : 0 < n) (hε : 0 < ε) :
    0 < ε + ((∑ c, ∑ r, x r c ^ 2) - n * ∑ c, ((∑ r, x r c) / n) ^ 2) / n :=
  add_pos_of_pos_of_nonneg hε (div_nonneg (total_sq_nonneg x n hcard hn.ne') hn.le)

/-- The reciprocal square root of a positive real is a real, at the exact instance. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- Division of a real by a nonzero real, at the exact instance, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The statistics of a REAL matrix are real.  Given the column sums and the sum of squares of x as extended reals
    (in whatever order a program added them up), the column means computed by exact division are the real means, and
    the scale — the reciprocal root of ε plus the mean squared deviation — is a real number. -/
theorem stats_real {ι κ : Type*} [Fintype ι] [Fintype κ] (x : ι → κ → ℝ) (n ε : ℝ)
    (hcard : (Fintype.card ι : ℝ) = n) (hn : 0 < n) (hε : 0 < ε)
    (colsum : κ → EReal) (hcs : ∀ c, colsum c = ((∑ r, x r c : ℝ) : EReal))
    (sumsq : EReal) (hss : sumsq = ((∑ c, ∑ r, x r c ^ 2 : ℝ) : EReal)) :
    (∀ c, Ideal.div (colsum c) (n : EReal) = (((∑ r, x r c) / n : ℝ) : EReal))
    ∧ ∃ s : ℝ, Ideal.rsqrt ((ε : EReal) + Ideal.div
        (sumsq - (n : EReal) * ∑ c, Ideal.div (colsum c) (n : EReal) * Ideal.div (colsum c) (n : EReal)) (n : EReal))
        = (s : EReal) := by
  have hmean : ∀ c, Ideal.div (colsum c) (n : EReal) = (((∑ r, x r c) / n : ℝ) : EReal) := fun c => by
    rw [hcs c, div_coe_coe _ hn.ne']
  refine ⟨hmean, ?_⟩
  have hsq : (∑ c, Ideal.div (colsum c) (n : EReal) * Ideal.div (colsum c) (n : EReal))
      = ((∑ c, ((∑ r, x r c) / n) ^ 2 : ℝ) : EReal) := by
    rw [coe_sum]
    exact Finset.sum_congr rfl fun c _ => by rw [hmean c, ← EReal.coe_mul, sq]
  rw [hsq, hss, ← EReal.coe_mul, ← EReal.coe_sub, div_coe_coe _ hn.ne', ← EReal.coe_add]
  exact ⟨_, rsqrt_coe_of_pos (radicand_pos x n ε hcard hn hε)⟩

/-- PairNorm's two forms agree at every entry of a real matrix: with the mean and the scale as the programs compute
    them on the extended reals, x r c · s + (−(m c) · s) = (x r c − m c) · s. -/
theorem affine_eq_centred_of_real (a μ : ℝ) {m s : EReal} (hm : m = (μ : EReal)) (hs : ∃ t : ℝ, s = (t : EReal)) :
    (a : EReal) * s + (-m) * s = ((a : EReal) - m) * s := by
  obtain ⟨t, rfl⟩ := hs
  rw [hm]
  exact affine_eq_centred a μ t

end PairNorm

end
-- ==== Proof.NeighbourReal.lean ====
/-
  The neighbour sum of real features is real.

  Row n of the neighbour sum adds, starting from zero, row src(e) of the features for every edge e whose destination
  is n.  A gathered entry is an entry of the feature array (at a row number clamped into range), hence real when the
  features are; a finite sum of reals is real.  So no infinity can enter a layer through its neighbour sum, which is
  what the variance identity of the next step needs.
-/
import proofs.«164329_j2903397892177_1_alg».proof.Proof.RefLayer
import proofs.«164329_j2903397892177_1_alg».proof.Proof.LibSegmentSum
import proofs.«164329_j2903397892177_1_alg».proof.Proof.LibPairNorm
import Idealize.ShloMosaic.Lib.IdealHost
import Idealize.ShloMosaic.PureOps.Ideal.Laws

noncomputable section

namespace Cert.ReferenceIdeal.RefSpec

open Idealize.ShloMosaic Idealize.ShloMosaic.ValueIdx Cert.ReferenceIdeal Cert.Lib.RowGatherScatter Cert.Lib.SegmentSum

variable [Facts]
open Facts₀ Facts

/-- Every entry of a float array is a real number. -/
def AllReal {s : Shape} (x : FA s) : Prop := ∀ i : s.Idx, ∃ r : ℝ, x i = (r : EReal)

/-- A finite sum of real extended reals is real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by simp only [hg]; exact (PairNorm.coe_sum s g).symm⟩

/-- The host's scatter-add at the exact instance is the exact sum of the updates landing on each cell. -/
theorem host_scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The neighbour sum of real features is real at every node and column. -/
theorem neighbourSum_real (x : FA S100000x128) (hx : AllReal x) (src dst : IA S1600000) (n : Fin 100000) (d : Fin 128) :
    ∃ r : ℝ, neighbourSum x src dst (ix2 n d) = (r : EReal) := by
  unfold neighbourSum
  rw [host_scatterAdd_eq, show scatter_S100000x128_S1600000x1_S1600000x128_1_0_0_1
      = rowAddDims 100000 128 1600000 scatter_S100000x128_S1600000x1_S1600000x128_1_0_0_1_wf from rfl,
    rows_scatterAdd_apply _ _ (fun i => by rw [broadcastInDim_scalar_apply, constant_apply, Ideal.ofBits_zero_f32])]
  refine sum_real _ _ fun e => ?_
  rw [show gather_S100000x128_S1600000x1_S1600000x128_1_0_n_n_0_1_1128
      = rowDims 100000 128 1600000 gather_S100000x128_S1600000x1_S1600000x128_1_0_n_n_0_1_1128_wf from rfl,
    gather_rows_apply (by norm_num)]
  exact hx _

end Cert.ReferenceIdeal.RefSpec

end
-- ==== Proof.BatchStats.lean ====
/-
  Batch statistics of a real column, on the extended reals.

  A column x of n real entries has mean μ = (Σ x) / n.  One program computes its variance as the mean of the squares
  less the squared mean, (Σ x²) / n − μ·μ; another as the mean of the squared deviations, (Σ (x − μ)·(x − μ)) / n.
  Over the reals the two agree (expand the square; Σ (x − μ) = 0).  On the extended reals subtraction and
  distributivity misbehave at the infinities, so the identity is stated for REAL entries: every quantity is then the
  reading of a real number, the common value is nonnegative, and for ε > 0 the reciprocal root of variance + ε is
  again a real number.
-/
import proofs.«164329_j2903397892177_1_alg».proof.Proof.LibPairNorm

noncomputable section

namespace BatchStats

open Idealize.ShloMosaic

variable {ι : Type*} [Fintype ι]

/-- The real variance of a column: the mean of its squared deviations from the mean. -/
def variance (x : ι → ℝ) (n : ℝ) : ℝ := (∑ r, (x r - (∑ r, x r) / n) ^ 2) / n

theorem variance_nonneg (x : ι → ℝ) {n : ℝ} (hn : 0 < n) : 0 ≤ variance x n :=
  div_nonneg (Finset.sum_nonneg fun r _ => sq_nonneg _) hn.le

/-- The sum of the readings of real entries is the reading of their sum. -/
theorem sum_coe (x : ι → ℝ) : (∑ r, (x r : EReal)) = ((∑ r, x r : ℝ) : EReal) :=
  (PairNorm.coe_sum Finset.univ x).symm

/-- The mean of a real column, by exact division, is the real mean. -/
theorem mean_coe (x : ι → ℝ) {n : ℝ} (hn : n ≠ 0) :
    Ideal.div (∑ r, (x r : EReal)) (n : EReal) = (((∑ r, x r) / n : ℝ) : EReal) := by
  rw [sum_coe, PairNorm.div_coe_coe _ hn]

/-- The variance as the mean of squared deviations, each deviation taken from the computed mean. -/
theorem var_centred (x : ι → ℝ) {n : ℝ} (hn : n ≠ 0) :
    Ideal.div (∑ r, ((x r : EReal) - Ideal.div (∑ r, (x r : EReal)) (n : EReal))
        * ((x r : EReal) - Ideal.div (∑ r, (x r : EReal)) (n : EReal))) (n : EReal)
      = ((variance x n : ℝ) : EReal) := by
  rw [mean_coe x hn]
  have h : ∀ r, ((x r : EReal) - (((∑ r, x r) / n : ℝ) : EReal)) * ((x r : EReal) - (((∑ r, x r) / n : ℝ) : EReal))
      = (((x r - (∑ r, x r) / n) ^ 2 : ℝ) : EReal) := fun r => by
    rw [← EReal.coe_sub, ← EReal.coe_mul, sq]
  simp only [h]
  rw [sum_coe, PairNorm.div_coe_coe _ hn]
  rfl

/-- The variance as the mean of the squares less the squared mean. -/
theorem var_sumsq (x : ι → ℝ) {n : ℝ} (hcard : (Fintype.card ι : ℝ) = n) (hn : n ≠ 0) :
    Ideal.div (∑ r, (x r : EReal) * (x r : EReal)) (n : EReal)
        - Ideal.div (∑ r, (x r : EReal)) (n : EReal) * Ideal.div (∑ r, (x r : EReal)) (n : EReal)
      = ((variance x n : ℝ) : EReal) := by
  rw [mean_coe x hn]
  have h : ∀ r, (x r : EReal) * (x r : EReal) = ((x r ^ 2 : ℝ) : EReal) := fun r => by rw [← EReal.coe_mul, sq]
  simp only [h]
  rw [sum_coe, PairNorm.div_coe_coe _ hn, ← EReal.coe_mul, ← EReal.coe_sub]
  congr 1
  unfold variance
  rw [← PairNorm.sum_sq_sub_mul_mean_sq x n hcard hn]
  field_simp

/-- The two programs' variances of a real column are the same extended real. -/
theorem var_sumsq_eq_centred (x : ι → ℝ) {n : ℝ} (hcard : (Fintype.card ι : ℝ) = n) (hn : n ≠ 0) :
    Ideal.div (∑ r, (x r : EReal) * (x r : EReal)) (n : EReal)
        - Ideal.div (∑ r, (x r : EReal)) (n : EReal) * Ideal.div (∑ r, (x r : EReal)) (n : EReal)
      = Ideal.div (∑ r, ((x r : EReal) - Ideal.div (∑ r, (x r : EReal)) (n : EReal))
        * ((x r : EReal) - Ideal.div (∑ r, (x r : EReal)) (n : EReal))) (n : EReal) :=
  (var_sumsq x hcard hn).trans (var_centred x hn).symm

/-- The normalising scale of a real column is a real number: variance + ε is positive for ε > 0. -/
theorem rsqrt_var_add_eps_real (x : ι → ℝ) {n ε : ℝ} (hn : 0 < n) (hε : 0 < ε) :
    Ideal.rsqrt (((variance x n : ℝ) : EReal) + (ε : EReal))
      = (((Real.sqrt (variance x n + ε))⁻¹ : ℝ) : EReal) := by
  rw [← EReal.coe_add]
  exact PairNorm.rsqrt_coe_of_pos (add_pos_of_nonneg_of_pos (variance_nonneg x hn) hε)

end BatchStats

end
-- ==== Proof.Consts.lean ====
/-
  The float words the two programs spell, as the extended reals they denote.

  0x47C35000 is 100000 (the number of nodes, the divisor of both programs' means): exponent field 143, significand
  2²³ + 4411392 = 12800000, so 12800000 · 2⁻⁷ = 100000.  0x3727C5AC is the single-precision number nearest 10⁻⁵, the
  batch-normalisation epsilon: 10995116 · 2⁻⁴⁰, a positive real (its exact value is never needed, only its sign).
  0x7FC00000 is a quiet NaN, which the exact instance reads as ⊥; it sits in a branch that is never taken.
-/
import Idealize.ShloMosaic.PureOps.Ideal
import Idealize.ShloMosaic.PureOps.Ideal.Laws

noncomputable section

namespace Cert.Consts

open Idealize.ShloMosaic

/-- The word of 100000.0 denotes the real 100000. -/
theorem ofBits_100000 : Ideal.ofBits .f32 0x47C35000#32 = ((100000 : ℝ) : EReal) := by
  simp [Ideal.ofBits, Ideal.ieee, -EReal.coe_mul]; norm_num

/-- The epsilon's word denotes a positive real. -/
theorem ofBits_eps : ∃ ε : ℝ, 0 < ε ∧ Ideal.ofBits .f32 0x3727C5AC#32 = (ε : EReal) := by
  refine ⟨(10995116 : ℝ) * (2 : ℝ) ^ (-40 : Int), by positivity, ?_⟩
  simp [Ideal.ofBits, Ideal.ieee, -EReal.coe_mul]

end Cert.Consts

end
-- ==== Proof.LayerBridge.lean ====
/-
  The dense maps of the network on REAL arrays: every entry is the reading of a real number, and the two ways of
  computing a column's variance give the same extended real.

  Why realness matters: the variance identity (mean of squares less squared mean = mean of squared deviations) uses
  distributivity and cancellation, which fail at the infinities of the extended reals.  So the proof carries, layer by
  layer, that the features are real: a finite sum of products of reals is real; the variance is a nonnegative real, so
  variance + ε is positive and its reciprocal root is real; a max with 0 of a real is real.
-/
import proofs.«164329_j2903397892177_1_alg».proof.Proof.LayerFns
import proofs.«164329_j2903397892177_1_alg».proof.Proof.BatchStats
import proofs.«164329_j2903397892177_1_alg».proof.Proof.Consts

noncomputable section

namespace LayerBridge

open Idealize.ShloMosaic LayerFns BatchStats

/-- The reading of a real array of coordinates. -/
abbrev rd2 {α β : Type} (f : α → β → ℝ) : α → β → EReal := fun a b => (f a b : EReal)
abbrev rd1 {α : Type} (f : α → ℝ) : α → EReal := fun a => (f a : EReal)

/-- A finite sum of readings is the reading of the sum. -/
theorem sum_rd {ι : Type*} [Fintype ι] (f : ι → ℝ) : (∑ i, (f i : EReal)) = ((∑ i, f i : ℝ) : EReal) :=
  (PairNorm.coe_sum Finset.univ f).symm

/-- The first hidden row of real features, real neighbour sums and real weights is real. -/
theorem h1Fn_rd (X A : Fin 100000 → Fin 128 → ℝ) (W : Fin 128 → Fin 128 → ℝ) (B : Fin 128 → ℝ) (r : Fin 100000)
    (k : Fin 128) :
    h1Fn (rd2 X) (rd2 A) (rd2 W) (rd1 B) r k = (((∑ j, (X r j + A r j) * W j k) + B k : ℝ) : EReal) := by
  unfold h1Fn rd2 rd1
  simp only [← EReal.coe_add, ← EReal.coe_mul]
  rw [sum_rd, ← EReal.coe_add]

/-- The real first hidden array. -/
def h1R (X A : Fin 100000 → Fin 128 → ℝ) (W : Fin 128 → Fin 128 → ℝ) (B : Fin 128 → ℝ) (r : Fin 100000) (k : Fin 128) : ℝ :=
  (∑ j, (X r j + A r j) * W j k) + B k

theorem card_rows : (Fintype.card (Fin 100000) : ℝ) = 100000 := by simp

/-- Column j's mean, as both programs compute it from the column's sum. -/
def meanE (H : Fin 100000 → Fin 128 → EReal) (j : Fin 128) : EReal :=
  Ideal.div (∑ r, H r j) ((100000 : ℝ) : EReal)

/-- Column j's variance as the mean of squares less the squared mean. -/
def varSq (H : Fin 100000 → Fin 128 → EReal) (j : Fin 128) : EReal :=
  Ideal.div (∑ r, H r j * H r j) ((100000 : ℝ) : EReal) - meanE H j * meanE H j

/-- Column j's variance as the mean of squared deviations. -/
def varDev (H : Fin 100000 → Fin 128 → EReal) (j : Fin 128) : EReal :=
  Ideal.div (∑ r, (H r j - meanE H j) * (H r j - meanE H j)) ((100000 : ℝ) : EReal)

/-- On a real array the two variances are the same extended real, the reading of the column's real variance. -/
theorem varSq_eq_varDev (h : Fin 100000 → Fin 128 → ℝ) (j : Fin 128) : varSq (rd2 h) j = varDev (rd2 h) j :=
  var_sumsq_eq_centred (fun r => h r j) card_rows (by norm_num)

theorem meanE_rd (h : Fin 100000 → Fin 128 → ℝ) (j : Fin 128) :
    meanE (rd2 h) j = (((∑ r, h r j) / 100000 : ℝ) : EReal) :=
  mean_coe (fun r => h r j) (by norm_num)

theorem varDev_rd (h : Fin 100000 → Fin 128 → ℝ) (j : Fin 128) :
    varDev (rd2 h) j = ((variance (fun r => h r j) 100000 : ℝ) : EReal) :=
  var_centred (fun r => h r j) (by norm_num)

/-- The normalised entry of a real array is real. -/
theorem normFn_rd (h : Fin 100000 → Fin 128 → ℝ) (G Bt : Fin 128 → ℝ) (r : Fin 100000) (j : Fin 128) :
    ∃ y : ℝ, normFn (rd2 h) (meanE (rd2 h)) (varDev (rd2 h)) (rd1 G) (rd1 Bt) r j = (y : EReal) := by
  obtain ⟨ε, hε, he⟩ := Cert.Consts.ofBits_eps
  unfold normFn eps rd1
  rw [meanE_rd, varDev_rd, he, rsqrt_var_add_eps_real (fun r => h r j) (by norm_num : (0 : ℝ) < 100000) hε]
  unfold rd2
  rw [← EReal.coe_sub, ← EReal.coe_mul, ← EReal.coe_mul, ← EReal.coe_add]
  exact ⟨_, rfl⟩

/-- A max with 0 of a real is real. -/
theorem max_zero_rd (y : ℝ) : max (y : EReal) 0 = ((max y 0 : ℝ) : EReal) := by
  rw [← EReal.coe_zero]
  exact (EReal.coe_strictMono.monotone.map_max).symm

/-- The second dense map of a real array with real weights is real. -/
theorem layer2Fn_rd (h : Fin 100000 → Fin 128 → ℝ) (G Bt : Fin 128 → ℝ) (W : Fin 128 → Fin 128 → ℝ) (B : Fin 128 → ℝ)
    (r : Fin 100000) (k : Fin 128) :
    ∃ y : ℝ, layer2Fn (rd2 h) (meanE (rd2 h)) (varDev (rd2 h)) (rd1 G) (rd1 Bt) (rd2 W) (rd1 B) r k = (y : EReal) := by
  choose y hy using fun j => normFn_rd h G Bt r j
  unfold layer2Fn
  simp only [hy, max_zero_rd]
  unfold rd2 rd1
  simp only [← EReal.coe_mul]
  rw [sum_rd, ← EReal.coe_add, max_zero_rd]
  exact ⟨_, rfl⟩

end LayerBridge

end
-- ==== Proof.RefLayerRead.lean ====
/-
  One layer of the reference, read entry by entry.

  Each host operation reads, at an index, one or a few entries of its operands: a sum reads a column, a product with
  a matrix reads a row and a column, a broadcast of a vector down the rows reads the vector's entry of that column, a
  scalar broadcast reads the scalar.  Composing these readings, the layer's result at node r and column k is the
  dense map `layer2Fn` of the first hidden array h = (x + neighbour sum)·W1 + b1, of h's column means, and of h's column
  variances taken as means of squared deviations.  The variance function's guard compares 100000 − 0 with 0 and is
  true, so the NaN branch is never read.
-/
import proofs.«164329_j2903397892177_1_alg».proof.Proof.RefLayer
import proofs.«164329_j2903397892177_1_alg».proof.Proof.LayerBridge
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefSpec

open Idealize.ShloMosaic Idealize.ShloMosaic.ValueIdx Cert.ReferenceIdeal LayerFns LayerBridge

variable [Facts]
open Facts₀ Facts

/-- A host product of an m × k by a k × n matrix: entry (a, b) is the sum over c of A(a, c) · B(c, b). -/
theorem hostDot_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A vector repeated down the rows reads, at (r, j), the vector's entry j. -/
theorem rows128_apply (v : FA S128) (r : Fin 100000) (j : Fin 128) : rows128 v (ix2 r j) = v (ix1 j) := by
  unfold rows128
  rw [broadcastInDim_apply _ _ _ (ix2 r j) (ix2 (0 : Fin 1) j)
      (fun a => by match a with | ⟨0, _⟩ => rfl | ⟨1, _⟩ => rfl),
    broadcastInDim_apply _ _ _ (ix2 (0 : Fin 1) j) (ix1 j) (fun a => by match a with | ⟨0, _⟩ => rfl)]

/-- The zero array reads 0. -/
theorem zeros_apply (s : Shape) (h : S_.BroadcastsInDim s ![]) (i : s.Idx) : zeros s h i = 0 := by
  unfold zeros
  rw [broadcastInDim_scalar_apply, constant_apply, Ideal.ofBits_zero_f32]

/-- The first linear map at (r, k), over the coordinates of its operands. -/
theorem linear1_apply (x : FA S100000x128) (src dst : IA S1600000) (W1 : FA S128x128) (b1 : FA S128)
    (r : Fin 100000) (k : Fin 128) :
    linear1 x src dst W1 b1 (ix2 r k)
      = h1Fn (fun r j => x (ix2 r j)) (fun r j => neighbourSum x src dst (ix2 r j)) (fun j k => W1 (ix2 j k))
          (fun k => b1 (ix1 k)) r k := by
  unfold linear1 h1Fn
  rw [addf_apply, rows128_apply]
  refine congrArg (· + b1 (ix1 k)) ?_
  refine (hostDot_apply _ none _ _ r k).trans ?_
  simp only [addf_apply]

/-- The column sum the host takes: zero plus the sum down the rows. -/
theorem colSum_apply (h : FA S100000x128) (j : Fin 128) :
    Host.reduceAdd h (constant (F := Ideal) S_ .f32 0x00000000#32) reducesTo_S100000x128_S128_d0 h_S_ (ix1 j)
      = ∑ r : Fin 100000, h (ix2 r j) := by
  rw [hostReduceAdd_apply, Ideal.hostReduceAdd_single _ (by decide : S100000x128.Reduces [0] S128), constant_apply,
    Ideal.ofBits_zero_f32, zero_add]
  refine Finset.sum_congr rfl fun r _ => congrArg h ?_
  funext a; apply Fin.ext
  match a with
  | ⟨0, _⟩ => rfl
  | ⟨1, _⟩ => rfl

/-- The column mean at j. -/
theorem colMean_apply (h : FA S100000x128) (j : Fin 128) :
    colMean h (ix1 j) = meanE (fun r j => h (ix2 r j)) j := by
  unfold colMean meanE
  rw [hostDivf_apply, colSum_apply, broadcastInDim_scalar_apply, constant_apply, Cert.Consts.ofBits_100000]

/-- The column variance at j: the guard is true, and what it keeps is the mean of squared deviations. -/
theorem colVar_apply (h : FA S100000x128) (j : Fin 128) :
    colVar h (ix1 j) = varDev (fun r j => h (ix2 r j)) j := by
  unfold colVar varDev meanE
  have hcnt : (subf (constant (F := Ideal) S_ .f32 0x47C35000#32) (sitofp .f32 (constantI S_ 32 0#32 : IA S_)) : FA S_) ix0
      = ((100000 : ℝ) : EReal) := by
    rw [subf_apply, constant_apply, Cert.Consts.ofBits_100000, sitofp_apply]
    show ((100000 : ℝ) : EReal) - ((((constantI S_ 32 0#32 : IA S_) ix0).toInt : ℝ) : EReal) = _
    simp [constantI]
  dsimp only
  rw [select_apply, broadcastInDim_scalar_apply, cmpf_apply, hcnt, constant_apply, Ideal.ofBits_zero_f32]
  have hgt : FloatOps.cmpf (F := Ideal) (φ := .f32) .ogt ((100000 : ℝ) : EReal) 0 = 1#1 := by
    rw [Ideal.cmpf_def]
    simp [Ideal.cmp]
  rw [hgt, select_one, hostDivf_apply, broadcastInDim_scalar_apply, hcnt, colSum_apply]
  refine congrArg (fun s => Ideal.div s ((100000 : ℝ) : EReal)) (Finset.sum_congr rfl fun r _ => ?_)
  have hdev : ∀ r, (subf h (broadcastInDim S100000x128 ![0, 1] bcast_S1x128_S100000x128_0_1
      (Host.divf (broadcastInDim S1x128 ![1] bcast_S128_S1x128_1
        (Host.reduceAdd h (constant (F := Ideal) S_ .f32 0x00000000#32) reducesTo_S100000x128_S128_d0 h_S_))
        (broadcastInDim S1x128 ![] bcast_S_S1x128 (constant (F := Ideal) S_ .f32 0x47C35000#32))))) (ix2 r j)
      = h (ix2 r j) - Ideal.div (∑ r : Fin 100000, h (ix2 r j)) ((100000 : ℝ) : EReal) := fun r => by
    rw [subf_apply, broadcastInDim_apply _ _ _ (ix2 r j) (ix2 (0 : Fin 1) j)
        (fun a => by match a with | ⟨0, _⟩ => rfl | ⟨1, _⟩ => rfl),
      hostDivf_apply, broadcastInDim_apply _ _ _ (ix2 (0 : Fin 1) j) (ix1 j) (fun a => by match a with | ⟨0, _⟩ => rfl),
      colSum_apply, broadcastInDim_scalar_apply, constant_apply, Cert.Consts.ofBits_100000]
  rw [mulf_apply, hdev]

/-- One layer of the reference at node r, column k. -/
theorem refLayer_apply (x : FA S100000x128) (src dst : IA S1600000) (W1 : FA S128x128) (b1 g be : FA S128)
    (W2 : FA S128x128) (b2 : FA S128) (r : Fin 100000) (k : Fin 128) :
    refLayer x src dst W1 b1 g be W2 b2 (ix2 r k)
      = layer2Fn (fun r j => linear1 x src dst W1 b1 (ix2 r j))
          (meanE (fun r j => linear1 x src dst W1 b1 (ix2 r j)))
          (varDev (fun r j => linear1 x src dst W1 b1 (ix2 r j)))
          (fun j => g (ix1 j)) (fun j => be (ix1 j)) (fun j k => W2 (ix2 j k)) (fun k => b2 (ix1 k)) r k := by
  unfold refLayer normAndLinear2 layer2Fn normFn eps
  dsimp only
  rw [maximumf_apply, zeros_apply, addf_apply, rows128_apply]
  refine congrArg (fun s => max (s + b2 (ix1 k)) 0) ?_
  refine (hostDot_apply _ none _ _ r k).trans (Finset.sum_congr rfl fun j _ => ?_)
  rw [maximumf_apply, zeros_apply, addf_apply, mulf_apply, mulf_apply, subf_apply, rows128_apply, rows128_apply,
    rows128_apply, rows128_apply, colMean_apply]
  show max (g (ix1 j) * (_ - _) * (Host.rsqrt _ : FA S128) (ix1 j) + _) 0 * _ = _
  rw [show ∀ v : FA S128, (Host.rsqrt v : FA S128) (ix1 j) = Ideal.rsqrt (v (ix1 j)) from fun v => rfl, addf_apply,
    colVar_apply, broadcastInDim_scalar_apply, constant_apply]

end Cert.ReferenceIdeal.RefSpec

end
-- ==== Proof.KernelLayerStats.lean ====
/-
  One layer of the network, from what the kernel's two regions compute to the reference's layer.

  The kernel's first region leaves the hidden rows H = (x + a)·W1 + b1, entry by entry, and its two accumulators leave
  the column sums Σ H and Σ H·H; between the regions the mean is taken as Σ H / 100000 and the variance as
  Σ H·H / 100000 − mean²; the second region computes max(max(γ·(H − mean)·rsqrt(var + ε) + β, 0)·W2 + b2, 0).  The
  reference computes the same H, the same mean, but the variance as Σ (H − mean)² / 100000.  When the node features,
  the neighbour sums and the weights are real numbers, H is a real array, and on a real array the two variances are the
  same number; so the kernel's entry is the reference's entry, and that entry is again a real number.
-/
import proofs.«164329_j2903397892177_1_alg».proof.Proof.RefLayerRead

noncomputable section

namespace Cert.KernelIdeal.LayerV

open Idealize.ShloMosaic Idealize.ShloMosaic.ValueIdx Cert.ReferenceIdeal Cert.ReferenceIdeal.RefSpec LayerFns LayerBridge

variable [Facts]

/-- An entry of a layer as the two regions compute it is the reference's layer at that entry, and is real.  The hidden
    rows `H` are (x + a)·W1 + b1 of real operands; `M` is Σ H / 100000 and `Vr` is Σ H·H / 100000 − M², column by
    column; `G`, `Bt`, `W2f`, `B2f` read the scale, the shift, the second weights and the second bias. -/
theorem layer_core (x : FA S100000x128) (src dst : IA S1600000) (W1 : FA S128x128) (b1 g be : FA S128)
    (W2 : FA S128x128) (b2 : FA S128)
    (hx : ∀ r j, ∃ v : ℝ, x (ix2 r j) = (v : EReal))
    (ha : ∀ r j, ∃ v : ℝ, neighbourSum x src dst (ix2 r j) = (v : EReal))
    (hW1 : ∀ j k, ∃ v : ℝ, W1 (ix2 j k) = (v : EReal)) (hb1 : ∀ k, ∃ v : ℝ, b1 (ix1 k) = (v : EReal))
    (hg : ∀ j, ∃ v : ℝ, g (ix1 j) = (v : EReal)) (hbe : ∀ j, ∃ v : ℝ, be (ix1 j) = (v : EReal))
    (hW2 : ∀ j k, ∃ v : ℝ, W2 (ix2 j k) = (v : EReal)) (hb2 : ∀ k, ∃ v : ℝ, b2 (ix1 k) = (v : EReal))
    (H : Fin 100000 → Fin 128 → EReal) (M Vr G Bt : Fin 128 → EReal) (W2f : Fin 128 → Fin 128 → EReal)
    (B2f : Fin 128 → EReal)
    (hH : ∀ r j, H r j = h1Fn (fun r j => x (ix2 r j)) (fun r j => neighbourSum x src dst (ix2 r j))
      (fun j k => W1 (ix2 j k)) (fun k => b1 (ix1 k)) r j)
    (hM : ∀ j, M j = Ideal.div (∑ r, H r j) ((100000 : ℝ) : EReal))
    (hV : ∀ j, Vr j = Ideal.div (∑ r, H r j * H r j) ((100000 : ℝ) : EReal) - M j * M j)
    (hG : ∀ j, G j = g (ix1 j)) (hBt : ∀ j, Bt j = be (ix1 j)) (hW2f : ∀ j k, W2f j k = W2 (ix2 j k))
    (hB2f : ∀ k, B2f k = b2 (ix1 k)) (r : Fin 100000) (k : Fin 128) :
    layer2Fn H M Vr G Bt W2f B2f r k = refLayer x src dst W1 b1 g be W2 b2 (ix2 r k)
      ∧ ∃ y : ℝ, refLayer x src dst W1 b1 g be W2 b2 (ix2 r k) = (y : EReal) := by
  choose X hX using hx
  choose A hA using ha
  choose Wr hWr using hW1
  choose Br hBr using hb1
  choose Gr hGr using hg
  choose Ber hBer using hbe
  choose W2r hW2r using hW2
  choose B2r hB2r using hb2
  have eX : (fun r j => x (ix2 r j)) = rd2 X := funext fun r => funext fun j => hX r j
  have eA : (fun r j => neighbourSum x src dst (ix2 r j)) = rd2 A := funext fun r => funext fun j => hA r j
  have eW : (fun j k => W1 (ix2 j k)) = rd2 Wr := funext fun j => funext fun k => hWr j k
  have eB : (fun k => b1 (ix1 k)) = rd1 Br := funext fun k => hBr k
  have eg : (fun j => g (ix1 j)) = rd1 Gr := funext fun j => hGr j
  have ebe : (fun j => be (ix1 j)) = rd1 Ber := funext fun j => hBer j
  have eW2 : (fun j k => W2 (ix2 j k)) = rd2 W2r := funext fun j => funext fun k => hW2r j k
  have eb2 : (fun k => b2 (ix1 k)) = rd1 B2r := funext fun k => hB2r k
  -- the hidden rows are the reading of a real array, on both sides
  have eLin : (fun r j => linear1 x src dst W1 b1 (ix2 r j)) = rd2 (h1R X A Wr Br) :=
    funext fun r => funext fun j => by
      rw [linear1_apply, eX, eA, eW, eB]; exact h1Fn_rd X A Wr Br r j
  have eH : H = rd2 (h1R X A Wr Br) := funext fun r => funext fun j => by
    rw [hH, eX, eA, eW, eB]; exact h1Fn_rd X A Wr Br r j
  -- so the kernel's mean is the mean, and its variance, a mean of squares less a squared mean, is the variance
  have eM : M = meanE (rd2 (h1R X A Wr Br)) := funext fun j => by rw [hM, eH]; rfl
  have eV : Vr = varDev (rd2 (h1R X A Wr Br)) := funext fun j => by
    rw [hV, eM, eH]; exact varSq_eq_varDev (h1R X A Wr Br) j
  have eG : G = rd1 Gr := funext fun j => (hG j).trans (hGr j)
  have eBt : Bt = rd1 Ber := funext fun j => (hBt j).trans (hBer j)
  have eW2f : W2f = rd2 W2r := funext fun j => funext fun k => (hW2f j k).trans (hW2r j k)
  have eB2f : B2f = rd1 B2r := funext fun k => (hB2f k).trans (hB2r k)
  have hRef : refLayer x src dst W1 b1 g be W2 b2 (ix2 r k)
      = layer2Fn (rd2 (h1R X A Wr Br)) (meanE (rd2 (h1R X A Wr Br))) (varDev (rd2 (h1R X A Wr Br)))
          (rd1 Gr) (rd1 Ber) (rd2 W2r) (rd1 B2r) r k := by
    rw [refLayer_apply, eLin, eg, ebe, eW2, eb2]
  have hKer : layer2Fn H M Vr G Bt W2f B2f r k
      = layer2Fn (rd2 (h1R X A Wr Br)) (meanE (rd2 (h1R X A Wr Br))) (varDev (rd2 (h1R X A Wr Br)))
          (rd1 Gr) (rd1 Ber) (rd2 W2r) (rd1 B2r) r k := by
    rw [eH, eM, eV, eG, eBt, eW2f, eB2f]
  obtain ⟨y, hy⟩ := layer2Fn_rd (h1R X A Wr Br) Gr Ber W2r B2r r k
  exact ⟨hKer.trans hRef.symm, y, hRef.trans hy⟩

end Cert.KernelIdeal.LayerV

end
-- ==== Proof.KernelLayerHost.lean ====
/-
  The host operations between the kernel's regions are the reference's own.

  Both programs cut the edge table into its two rows, gather the source rows of the features and add them into the
  destination rows, and take one layer's slice of each stacked weight, with the same operations over the same shapes:
  the kernel's chains and the reference's are the same functions.  The kernel takes the column mean as s / 100000 and
  the column variance as ss / 100000 − (s / 100000)² of the column sums s and ss it is handed; read at a column these
  are the quotients and the difference of the entries.  A slice of a real array is real: its entries are entries of
  the array.
-/
import proofs.«164329_j2903397892177_1_alg».proof.Proof.KernelRunVHost
import proofs.«164329_j2903397892177_1_alg».proof.Proof.RefLayer
import proofs.«164329_j2903397892177_1_alg».proof.Proof.Consts
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.LayerV

open Idealize.ShloMosaic Idealize.ShloMosaic.ValueIdx Cert.KernelIdeal Cert.KernelIdeal.Gen

variable [Cert.ReferenceIdeal.Facts]

/-- The kernel's source row of the edge table is the reference's. -/
theorem edgeSrc_eq (e : (⟨S2x1600000, .i32⟩ : BufTy).Contents (Elt Ideal)) :
    RunV.edgeSrc (F := Ideal) e = Cert.ReferenceIdeal.RefSpec.edgeRow 0 e := rfl

/-- The kernel's destination row of the edge table is the reference's. -/
theorem edgeDst_eq (e : (⟨S2x1600000, .i32⟩ : BufTy).Contents (Elt Ideal)) :
    RunV.edgeDst (F := Ideal) e = Cert.ReferenceIdeal.RefSpec.edgeRow 1 e := rfl

/-- The kernel's neighbour sum along the edge table is the reference's. -/
theorem nbrSum_eq (x : (⟨S100000x128, .f32⟩ : BufTy).Contents (Elt Ideal)) (e : (⟨S2x1600000, .i32⟩ : BufTy).Contents (Elt Ideal)) :
    RunV.nbrSum (F := Ideal) x (RunV.edgeSrc e) (RunV.edgeDst e)
      = Cert.ReferenceIdeal.RefSpec.neighbourSum x (Cert.ReferenceIdeal.RefSpec.edgeRow 0 e) (Cert.ReferenceIdeal.RefSpec.edgeRow 1 e) := rfl

/-- Layer 0's matrix of a stack of five, as the kernel slices it, is the reference's. -/
theorem layerMat_eq0 (h : S5x128x128.Slices ![0, 0, 0] S1x128x128) (W : (⟨S5x128x128, .f32⟩ : BufTy).Contents (Elt Ideal)) :
    RunV.layerMat (F := Ideal) ![0, 0, 0] h W = Cert.ReferenceIdeal.RefSpec.mat 0 W := rfl

/-- Layer 0's vector of a stack of five, as the kernel slices it, is the reference's. -/
theorem layerVec_eq0 (h : S5x128.Slices ![0, 0] S1x128) (b : (⟨S5x128, .f32⟩ : BufTy).Contents (Elt Ideal)) :
    RunV.layerVec (F := Ideal) ![0, 0] h b = Cert.ReferenceIdeal.RefSpec.vec 0 b := rfl

/-- Layer 1's matrix of a stack of five, as the kernel slices it, is the reference's. -/
theorem layerMat_eq1 (h : S5x128x128.Slices ![1, 0, 0] S1x128x128) (W : (⟨S5x128x128, .f32⟩ : BufTy).Contents (Elt Ideal)) :
    RunV.layerMat (F := Ideal) ![1, 0, 0] h W = Cert.ReferenceIdeal.RefSpec.mat 1 W := rfl

/-- Layer 1's vector of a stack of five, as the kernel slices it, is the reference's. -/
theorem layerVec_eq1 (h : S5x128.Slices ![1, 0] S1x128) (b : (⟨S5x128, .f32⟩ : BufTy).Contents (Elt Ideal)) :
    RunV.layerVec (F := Ideal) ![1, 0] h b = Cert.ReferenceIdeal.RefSpec.vec 1 b := rfl

/-- Layer 2's matrix of a stack of five, as the kernel slices it, is the reference's. -/
theorem layerMat_eq2 (h : S5x128x128.Slices ![2, 0, 0] S1x128x128) (W : (⟨S5x128x128, .f32⟩ : BufTy).Contents (Elt Ideal)) :
    RunV.layerMat (F := Ideal) ![2, 0, 0] h W = Cert.ReferenceIdeal.RefSpec.mat 2 W := rfl

/-- Layer 2's vector of a stack of five, as the kernel slices it, is the reference's. -/
theorem layerVec_eq2 (h : S5x128.Slices ![2, 0] S1x128) (b : (⟨S5x128, .f32⟩ : BufTy).Contents (Elt Ideal)) :
    RunV.layerVec (F := Ideal) ![2, 0] h b = Cert.ReferenceIdeal.RefSpec.vec 2 b := rfl

/-- Layer 3's matrix of a stack of five, as the kernel slices it, is the reference's. -/
theorem layerMat_eq3 (h : S5x128x128.Slices ![3, 0, 0] S1x128x128) (W : (⟨S5x128x128, .f32⟩ : BufTy).Contents (Elt Ideal)) :
    RunV.layerMat (F := Ideal) ![3, 0, 0] h W = Cert.ReferenceIdeal.RefSpec.mat 3 W := rfl

/-- Layer 3's vector of a stack of five, as the kernel slices it, is the reference's. -/
theorem layerVec_eq3 (h : S5x128.Slices ![3, 0] S1x128) (b : (⟨S5x128, .f32⟩ : BufTy).Contents (Elt Ideal)) :
    RunV.layerVec (F := Ideal) ![3, 0] h b = Cert.ReferenceIdeal.RefSpec.vec 3 b := rfl

/-- Layer 4's matrix of a stack of five, as the kernel slices it, is the reference's. -/
theorem layerMat_eq4 (h : S5x128x128.Slices ![4, 0, 0] S1x128x128) (W : (⟨S5x128x128, .f32⟩ : BufTy).Contents (Elt Ideal)) :
    RunV.layerMat (F := Ideal) ![4, 0, 0] h W = Cert.ReferenceIdeal.RefSpec.mat 4 W := rfl

/-- Layer 4's vector of a stack of five, as the kernel slices it, is the reference's. -/
theorem layerVec_eq4 (h : S5x128.Slices ![4, 0] S1x128) (b : (⟨S5x128, .f32⟩ : BufTy).Contents (Elt Ideal)) :
    RunV.layerVec (F := Ideal) ![4, 0] h b = Cert.ReferenceIdeal.RefSpec.vec 4 b := rfl

/-- The kernel's column mean at column j: the column sum's entry over 100000. -/
theorem meanOf_apply (s : (⟨S1x128, .f32⟩ : BufTy).Contents (Elt Ideal)) (j : Fin 128) :
    RunV.meanOf (F := Ideal) s (ix2 (0 : Fin 1) j) = Ideal.div (s (ix2 (0 : Fin 1) j)) ((100000 : ℝ) : EReal) := by
  unfold RunV.meanOf
  rw [hostDivf_apply, broadcastInDim_scalar_apply, constant_apply, Cert.Consts.ofBits_100000]

/-- The kernel's column variance at column j: the sum of squares' entry over 100000, less the squared mean. -/
theorem varOf_apply (s ss : (⟨S1x128, .f32⟩ : BufTy).Contents (Elt Ideal)) (j : Fin 128) :
    RunV.varOf (F := Ideal) s ss (ix2 (0 : Fin 1) j)
      = Ideal.div (ss (ix2 (0 : Fin 1) j)) ((100000 : ℝ) : EReal)
        - Ideal.div (s (ix2 (0 : Fin 1) j)) ((100000 : ℝ) : EReal) * Ideal.div (s (ix2 (0 : Fin 1) j)) ((100000 : ℝ) : EReal) := by
  unfold RunV.varOf
  rw [subf_apply, mulf_apply, meanOf_apply, hostDivf_apply, broadcastInDim_scalar_apply, constant_apply,
    Cert.Consts.ofBits_100000]

/-- Every entry of a layer's matrix is an entry of the stack: real when the stack is. -/
theorem mat_real (l : Fin 5) (W : Cert.ReferenceIdeal.RefSpec.FA Cert.ReferenceIdeal.S5x128x128)
    (h : ∀ i, ∃ v : ℝ, W i = (v : EReal)) (i : Cert.ReferenceIdeal.S128x128.Idx) :
    ∃ v : ℝ, Cert.ReferenceIdeal.RefSpec.mat l W i = (v : EReal) :=
  match l with
  | 0 => h _
  | 1 => h _
  | 2 => h _
  | 3 => h _
  | 4 => h _

/-- Every entry of a layer's vector is an entry of the stack: real when the stack is. -/
theorem vec_real (l : Fin 5) (b : Cert.ReferenceIdeal.RefSpec.FA Cert.ReferenceIdeal.S5x128)
    (h : ∀ i, ∃ v : ℝ, b i = (v : EReal)) (i : Cert.ReferenceIdeal.S128.Idx) :
    ∃ v : ℝ, Cert.ReferenceIdeal.RefSpec.vec l b i = (v : EReal) :=
  match l with
  | 0 => h _
  | 1 => h _
  | 2 => h _
  | 3 => h _
  | 4 => h _

end Cert.KernelIdeal.LayerV

end
-- ==== Proof.KernelLayer0.lean ====
/-
  Layer 0 of the network as the kernel's regions 0 and 1 compute it is the reference's layer 0.

  Region 0 finds the node features, their neighbour sums and the layer's first weights and bias, and leaves the hidden
  rows H = (x + a)·W1 + b1 and the column sums of H and of H·H.  Between the regions the host takes the column mean and
  the column variance from those sums.  Region 1 finds H, the mean, the variance and the layer's scale, shift, second
  weights and bias, and leaves max(max(γ·(H − mean)·rsqrt(var + ε) + β, 0)·W2 + b2, 0).  With real features and real
  weights this is, entry by entry, the reference's layer of the same arrays, and it is real again.
-/
import proofs.«164329_j2903397892177_1_alg».proof.Proof.KernelRunVS0
import proofs.«164329_j2903397892177_1_alg».proof.Proof.KernelRunVS1
import proofs.«164329_j2903397892177_1_alg».proof.Proof.Layer1V0Sum
import proofs.«164329_j2903397892177_1_alg».proof.Proof.Layer1V0SumSq
import proofs.«164329_j2903397892177_1_alg».proof.Proof.Layer2V1Blocks
import proofs.«164329_j2903397892177_1_alg».proof.Proof.NeighbourReal
import proofs.«164329_j2903397892177_1_alg».proof.Proof.KernelLayerStats
import proofs.«164329_j2903397892177_1_alg».proof.Proof.KernelLayerHost

set_option maxRecDepth 16384

noncomputable section

namespace Cert.KernelIdeal.LayerV

open Idealize.ShloMosaic Idealize.ShloMosaic.TcCoe Idealize.ShloMosaic.ValueIdx Idealize.SL.Sem
open Idealize.ShloMosaic.Pipeline (Dat)
open Cert.KernelIdeal Cert.KernelIdeal.Gen LayerFns LayerBridge Cert.ReferenceIdeal.RefSpec

variable [Cert.ReferenceIdeal.Facts]

set_option maxHeartbeats 8000000 in
/-- Regions 0 and 1 over any contents: if region 0 finds real features `x`, their neighbour sum and the real weights
    `W1`, `b1`, and region 1 finds region 0's hidden rows, the host's mean and variance of its column sums, and the real
    `g`, `be`, `W2`, `b2`, then region 1 leaves the reference's layer of those arrays, a real array. -/
theorem layer0_regions (Va Vb : (c : Dev nD) → (b : Ref sig .tc) → Buf (Elt Ideal) ((c : Thread nD τ).loc b)) (c : Dev nD)
    (x : FA Cert.ReferenceIdeal.S100000x128) (src dst : IA Cert.ReferenceIdeal.S1600000) (W1 : FA Cert.ReferenceIdeal.S128x128) (b1 g be : FA Cert.ReferenceIdeal.S128)
    (W2 : FA Cert.ReferenceIdeal.S128x128) (b2 : FA Cert.ReferenceIdeal.S128)
    (hx : AllReal x) (hW1 : AllReal W1) (hb1 : AllReal b1) (hg : AllReal g) (hbe : AllReal be) (hW2 : AllReal W2)
    (hb2 : AllReal b2)
    (sx : (Va c (Pipeline.arrRef spec0 0) : S100000x128.Idx → EReal) = x)
    (sa : (Va c (Pipeline.arrRef spec0 1) : S100000x128.Idx → EReal) = neighbourSum x src dst)
    (sw : (Va c (Pipeline.arrRef spec0 2) : S128x128.Idx → EReal) = W1)
    (sb : (Va c (Pipeline.arrRef spec0 3) : S128.Idx → EReal) = b1)
    (sh : (Vb c (Pipeline.arrRef spec1 0) : S100000x128.Idx → EReal) = (dat0 Va c).arrAt 4 cfg0.N)
    (sm : (Vb c (Pipeline.arrRef spec1 1) : S1x128.Idx → EReal) = RunV.meanOf ((dat0 Va c).arrAt 5 cfg0.N))
    (sv : (Vb c (Pipeline.arrRef spec1 2) : S1x128.Idx → EReal) = RunV.varOf ((dat0 Va c).arrAt 5 cfg0.N) ((dat0 Va c).arrAt 6 cfg0.N))
    (sg : (Vb c (Pipeline.arrRef spec1 3) : S128.Idx → EReal) = g)
    (sbe : (Vb c (Pipeline.arrRef spec1 4) : S128.Idx → EReal) = be)
    (sw2 : (Vb c (Pipeline.arrRef spec1 5) : S128x128.Idx → EReal) = W2)
    (sb2 : (Vb c (Pipeline.arrRef spec1 6) : S128.Idx → EReal) = b2) :
    ((dat1 Vb c).arrAt 7 cfg1.N : S100000x128.Idx → EReal) = refLayer x src dst W1 b1 g be W2 b2
      ∧ AllReal (refLayer x src dst W1 b1 g be W2 b2) := by
  -- what region 0 found, by row and column
  have eX : Layer1V.R0.inX Va c = fun r j => x (ix2 r j) := funext fun r => funext fun j => congrFun sx (ix2 r j)
  have eA : Layer1V.R0.inA Va c = fun r j => neighbourSum x src dst (ix2 r j) :=
    funext fun r => funext fun j => congrFun sa (ix2 r j)
  have eW : Layer1V.R0.inW Va c = fun j k => W1 (ix2 j k) := funext fun j => funext fun k => congrFun sw (ix2 j k)
  have eB : Layer1V.R0.inB Va c = fun k => b1 (ix1 k) := funext fun k => congrFun sb (ix1 k)
  -- the hidden rows, the mean and the variance region 1 finds, in terms of region 0's inputs
  have hHk : ∀ r j, (Vb c (Pipeline.arrRef spec1 0) : S100000x128.Idx → EReal) (ix2 r j) = h1Fn (Layer1V.R0.inX Va c) (Layer1V.R0.inA Va c) (Layer1V.R0.inW Va c) (Layer1V.R0.inB Va c) r j :=
    fun r j => (congrFun sh (ix2 r j)).trans (Layer1V.R0.arr_h_apply Va c r j)
  have hMk : ∀ j, (Vb c (Pipeline.arrRef spec1 1) : S1x128.Idx → EReal) (ix2 (0 : Fin 1) j)
      = Ideal.div (∑ r, h1Fn (Layer1V.R0.inX Va c) (Layer1V.R0.inA Va c) (Layer1V.R0.inW Va c) (Layer1V.R0.inB Va c) r j) ((100000 : ℝ) : EReal) := fun j => by
    rw [sm, meanOf_apply, Layer1V.R0.sum_arr_apply Va c j]
  have hVk : ∀ j, (Vb c (Pipeline.arrRef spec1 2) : S1x128.Idx → EReal) (ix2 (0 : Fin 1) j)
      = Ideal.div (∑ r, h1Fn (Layer1V.R0.inX Va c) (Layer1V.R0.inA Va c) (Layer1V.R0.inW Va c) (Layer1V.R0.inB Va c) r j * h1Fn (Layer1V.R0.inX Va c) (Layer1V.R0.inA Va c) (Layer1V.R0.inW Va c) (Layer1V.R0.inB Va c) r j) ((100000 : ℝ) : EReal)
        - Ideal.div (∑ r, h1Fn (Layer1V.R0.inX Va c) (Layer1V.R0.inA Va c) (Layer1V.R0.inW Va c) (Layer1V.R0.inB Va c) r j) ((100000 : ℝ) : EReal) * Ideal.div (∑ r, h1Fn (Layer1V.R0.inX Va c) (Layer1V.R0.inA Va c) (Layer1V.R0.inW Va c) (Layer1V.R0.inB Va c) r j) ((100000 : ℝ) : EReal) := fun j => by
    rw [sv, varOf_apply, Layer1V.R0.sumsq_arr_apply Va c j, Layer1V.R0.sum_arr_apply Va c j]
  have key : ∀ (r : Fin 100000) (k : Fin 128),
      ((dat1 Vb c).arrAt 7 cfg1.N : S100000x128.Idx → EReal) (ix2 r k) = refLayer x src dst W1 b1 g be W2 b2 (ix2 r k)
        ∧ ∃ y : ℝ, refLayer x src dst W1 b1 g be W2 b2 (ix2 r k) = (y : EReal) := fun r k => by
    have hcore := layer_core x src dst W1 b1 g be W2 b2 (fun r j => hx (ix2 r j))
      (fun r j => neighbourSum_real x hx src dst r j) (fun j k => hW1 (ix2 j k)) (fun k => hb1 (ix1 k))
      (fun j => hg (ix1 j)) (fun j => hbe (ix1 j)) (fun j k => hW2 (ix2 j k)) (fun k => hb2 (ix1 k))
      (fun r j => (Vb c (Pipeline.arrRef spec1 0) : S100000x128.Idx → EReal) (ix2 r j))
      (fun j => (Vb c (Pipeline.arrRef spec1 1) : S1x128.Idx → EReal) (ix2 (0 : Fin 1) j))
      (fun j => (Vb c (Pipeline.arrRef spec1 2) : S1x128.Idx → EReal) (ix2 (0 : Fin 1) j))
      (fun j => (Vb c (Pipeline.arrRef spec1 3) : S128.Idx → EReal) (ix1 j))
      (fun j => (Vb c (Pipeline.arrRef spec1 4) : S128.Idx → EReal) (ix1 j))
      (fun j k => (Vb c (Pipeline.arrRef spec1 5) : S128x128.Idx → EReal) (ix2 j k))
      (fun k => (Vb c (Pipeline.arrRef spec1 6) : S128.Idx → EReal) (ix1 k))
      (fun r j => by dsimp only; rw [hHk r j, eX, eA, eW, eB])
      (fun j => by dsimp only; rw [hMk j]; simp only [hHk])
      (fun j => by dsimp only; rw [hVk j, hMk j]; simp only [hHk])
      (fun j => congrFun sg (ix1 j)) (fun j => congrFun sbe (ix1 j)) (fun j k => congrFun sw2 (ix2 j k))
      (fun k => congrFun sb2 (ix1 k)) r k
    exact ⟨(Layer2V.arr1_7_apply Vb c r k).trans hcore.1, hcore.2⟩
  refine ⟨funext fun i => ?_, fun i => ?_⟩
  · obtain ⟨r, k, rfl⟩ : ∃ (r : Fin 100000) (k : Fin 128), i = ix2 r k := ⟨i 0, i 1, eq_ix2 i⟩
    exact (key r k).1
  · obtain ⟨r, k, rfl⟩ : ∃ (r : Fin 100000) (k : Fin 128), i = ix2 r k := ⟨i 0, i 1, eq_ix2 i⟩
    exact (key r k).2

set_option maxHeartbeats 8000000 in
/-- Layer 0 on the launched arrays: with real features and real weights, region 1 leaves the reference's layer 0 of the
    launched features, edge table and stacked weights — a real array. -/
theorem layer0_out (m : (ℓ : Loc nD τ sig) → Buf (Elt Ideal) ℓ) (ρ : Dev nD → PrngReg) (c : Dev nD)
    (hx : AllReal (s := Cert.ReferenceIdeal.S100000x128) (m ((c : Thread nD τ).loc main_arg0)))
    (h3 : AllReal (s := Cert.ReferenceIdeal.S5x128x128) (m ((c : Thread nD τ).loc main_arg3))) (h4 : AllReal (s := Cert.ReferenceIdeal.S5x128) (m ((c : Thread nD τ).loc main_arg4)))
    (h5 : AllReal (s := Cert.ReferenceIdeal.S5x128) (m ((c : Thread nD τ).loc main_arg5))) (h6 : AllReal (s := Cert.ReferenceIdeal.S5x128) (m ((c : Thread nD τ).loc main_arg6)))
    (h7 : AllReal (s := Cert.ReferenceIdeal.S5x128x128) (m ((c : Thread nD τ).loc main_arg7))) (h8 : AllReal (s := Cert.ReferenceIdeal.S5x128) (m ((c : Thread nD τ).loc main_arg8))) :
    ((dat1 (V3 m ρ) c).arrAt 7 cfg1.N : S100000x128.Idx → EReal)
        = layerAt 0 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg0))
      ∧ AllReal (s := Cert.ReferenceIdeal.S100000x128) ((dat1 (V3 m ρ) c).arrAt 7 cfg1.N) := by
  have h := layer0_regions (V1 m ρ) (V3 m ρ) c (m ((c : Thread nD τ).loc main_arg0)) (edgeRow 0 (m ((c : Thread nD τ).loc main_arg1))) (edgeRow 1 (m ((c : Thread nD τ).loc main_arg1)))
    (mat 0 (m ((c : Thread nD τ).loc main_arg3))) (vec 0 (m ((c : Thread nD τ).loc main_arg4))) (vec 0 (m ((c : Thread nD τ).loc main_arg5))) (vec 0 (m ((c : Thread nD τ).loc main_arg6))) (mat 0 (m ((c : Thread nD τ).loc main_arg7))) (vec 0 (m ((c : Thread nD τ).loc main_arg8)))
    hx (fun i => mat_real 0 _ h3 i) (fun i => vec_real 0 _ h4 i) (fun i => vec_real 0 _ h5 i)
    (fun i => vec_real 0 _ h6 i) (fun i => mat_real 0 _ h7 i) (fun i => vec_real 0 _ h8 i)
    (RunV.s0_x m ρ c)
    ((RunV.s0_agg m ρ c).trans (nbrSum_eq _ _))
    ((RunV.s0_w m ρ c).trans (layerMat_eq0 _ _))
    ((RunV.s0_b m ρ c).trans (layerVec_eq0 _ _))
    (RunV.s1_h m ρ c) (RunV.s1_mean m ρ c) (RunV.s1_var m ρ c)
    ((RunV.s1_gamma m ρ c).trans (layerVec_eq0 _ _))
    ((RunV.s1_beta m ρ c).trans (layerVec_eq0 _ _))
    ((RunV.s1_w2 m ρ c).trans (layerMat_eq0 _ _))
    ((RunV.s1_b2 m ρ c).trans (layerVec_eq0 _ _))
  exact ⟨h.1, h.1 ▸ h.2⟩

end Cert.KernelIdeal.LayerV

end
-- ==== Proof.KernelRunVWalkA.lean ====
/-
  The argument arrays that later stretches read, and the two rows of the edge table, are written by no region and by no
  host operation after the first stretch: read at the exit of regions 0 to 4, each still holds what it held at launch
  (the arguments) or what the first stretch computed from the launched edge table (the two rows). One step per region:
  the region has no window on the array, and the stretch before the region does not write it.
-/
import proofs.«164329_j2903397892177_1_alg».proof.Proof.Gen.KernelIdeal.Frame
import proofs.«164329_j2903397892177_1_alg».proof.Proof.KernelRunVHost
import proofs.«164329_j2903397892177_1_alg».proof.Proof.KernelRunVWalk0
import proofs.«164329_j2903397892177_1_alg».proof.Proof.KernelRunVS0

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- At region 0's exit the source-index vector holds row 0 of the launched edge table: region 0 has no window on it. -/
theorem w2_main_v1 (c : Dev nD) : W2 m ρ c (Proc.devRef .tc main_v1) = edgeSrc (m ((c : Thread nD τ).loc main_arg1)) :=
  (W2_of_ne m ρ c main_v1 (by decide)).trans (s0_src m ρ c)

/-- At region 0's exit the destination-index vector holds row 1 of the launched edge table: region 0 has no window on it. -/
theorem w2_main_v3 (c : Dev nD) : W2 m ρ c (Proc.devRef .tc main_v3) = edgeDst (m ((c : Thread nD τ).loc main_arg1)) :=
  (W2_of_ne m ρ c main_v3 (by decide)).trans (s0_dst m ρ c)

/-- At region 1's exit `main_arg2` holds its launched contents: region 1 has no window on it and no host operation of the stretch before
    the region writes it, so it holds what it held at region 0's exit. -/
theorem w4_main_arg2 (c : Dev nD) : W4 m ρ c (Proc.devRef .tc main_arg2) = m ((c : Thread nD τ).loc main_arg2) :=
  (W4_of_ne m ρ c main_arg2 (by decide)).trans ((by
    show StableHlo.after hostOps1 (W2 m ρ c) (Proc.devRef .tc main_arg2) = W2 m ρ c (Proc.devRef .tc main_arg2)
    after_results <;> rfl : W3 m ρ c (Proc.devRef .tc main_arg2) = W2 m ρ c (Proc.devRef .tc main_arg2)).trans (w2_main_arg2 m ρ c))

/-- At region 1's exit `main_arg3` holds its launched contents: region 1 has no window on it and no host operation of the stretch before
    the region writes it, so it holds what it held at region 0's exit. -/
theorem w4_main_arg3 (c : Dev nD) : W4 m ρ c (Proc.devRef .tc main_arg3) = m ((c : Thread nD τ).loc main_arg3) :=
  (W4_of_ne m ρ c main_arg3 (by decide)).trans ((by
    show StableHlo.after hostOps1 (W2 m ρ c) (Proc.devRef .tc main_arg3) = W2 m ρ c (Proc.devRef .tc main_arg3)
    after_results <;> rfl : W3 m ρ c (Proc.devRef .tc main_arg3) = W2 m ρ c (Proc.devRef .tc main_arg3)).trans (w2_main_arg3 m ρ c))

/-- At region 1's exit `main_arg4` holds its launched contents: region 1 has no window on it and no host operation of the stretch before
    the region writes it, so it holds what it held at region 0's exit. -/
theorem w4_main_arg4 (c : Dev nD) : W4 m ρ c (Proc.devRef .tc main_arg4) = m ((c : Thread nD τ).loc main_arg4) :=
  (W4_of_ne m ρ c main_arg4 (by decide)).trans ((by
    show StableHlo.after hostOps1 (W2 m ρ c) (Proc.devRef .tc main_arg4) = W2 m ρ c (Proc.devRef .tc main_arg4)
    after_results <;> rfl : W3 m ρ c (Proc.devRef .tc main_arg4) = W2 m ρ c (Proc.devRef .tc main_arg4)).trans (w2_main_arg4 m ρ c))

/-- At region 1's exit `main_arg5` holds its launched contents: region 1 has no window on it and no host operation of the stretch before
    the region writes it, so it holds what it held at region 0's exit. -/
theorem w4_main_arg5 (c : Dev nD) : W4 m ρ c (Proc.devRef .tc main_arg5) = m ((c : Thread nD τ).loc main_arg5) :=
  (W4_of_ne m ρ c main_arg5 (by decide)).trans ((by
    show StableHlo.after hostOps1 (W2 m ρ c) (Proc.devRef .tc main_arg5) = W2 m ρ c (Proc.devRef .tc main_arg5)
    after_results <;> rfl : W3 m ρ c (Proc.devRef .tc main_arg5) = W2 m ρ c (Proc.devRef .tc main_arg5)).trans (w2_main_arg5 m ρ c))

/-- At region 1's exit `main_arg6` holds its launched contents: region 1 has no window on it and no host operation of the stretch before
    the region writes it, so it holds what it held at region 0's exit. -/
theorem w4_main_arg6 (c : Dev nD) : W4 m ρ c (Proc.devRef .tc main_arg6) = m ((c : Thread nD τ).loc main_arg6) :=
  (W4_of_ne m ρ c main_arg6 (by decide)).trans ((by
    show StableHlo.after hostOps1 (W2 m ρ c) (Proc.devRef .tc main_arg6) = W2 m ρ c (Proc.devRef .tc main_arg6)
    after_results <;> rfl : W3 m ρ c (Proc.devRef .tc main_arg6) = W2 m ρ c (Proc.devRef .tc main_arg6)).trans (w2_main_arg6 m ρ c))

/-- At region 1's exit `main_arg7` holds its launched contents: region 1 has no window on it and no host operation of the stretch before
    the region writes it, so it holds what it held at region 0's exit. -/
theorem w4_main_arg7 (c : Dev nD) : W4 m ρ c (Proc.devRef .tc main_arg7) = m ((c : Thread nD τ).loc main_arg7) :=
  (W4_of_ne m ρ c main_arg7 (by decide)).trans ((by
    show StableHlo.after hostOps1 (W2 m ρ c) (Proc.devRef .tc main_arg7) = W2 m ρ c (Proc.devRef .tc main_arg7)
    after_results <;> rfl : W3 m ρ c (Proc.devRef .tc main_arg7) = W2 m ρ c (Proc.devRef .tc main_arg7)).trans (w2_main_arg7 m ρ c))

/-- At region 1's exit `main_arg8` holds its launched contents: region 1 has no window on it and no host operation of the stretch before
    the region writes it, so it holds what it held at region 0's exit. -/
theorem w4_main_arg8 (c : Dev nD) : W4 m ρ c (Proc.devRef .tc main_arg8) = m ((c : Thread nD τ).loc main_arg8) :=
  (W4_of_ne m ρ c main_arg8 (by decide)).trans ((by
    show StableHlo.after hostOps1 (W2 m ρ c) (Proc.devRef .tc main_arg8) = W2 m ρ c (Proc.devRef .tc main_arg8)
    after_results <;> rfl : W3 m ρ c (Proc.devRef .tc main_arg8) = W2 m ρ c (Proc.devRef .tc main_arg8)).trans (w2_main_arg8 m ρ c))

/-- At region 1's exit the source-index vector holds row 0 of the launched edge table: region 1 has no window on it and no host operation of the stretch before
    the region writes it, so it holds what it held at region 0's exit. -/
theorem w4_main_v1 (c : Dev nD) : W4 m ρ c (Proc.devRef .tc main_v1) = edgeSrc (m ((c : Thread nD τ).loc main_arg1)) :=
  (W4_of_ne m ρ c main_v1 (by decide)).trans ((by
    show StableHlo.after hostOps1 (W2 m ρ c) (Proc.devRef .tc main_v1) = W2 m ρ c (Proc.devRef .tc main_v1)
    after_results <;> rfl : W3 m ρ c (Proc.devRef .tc main_v1) = W2 m ρ c (Proc.devRef .tc main_v1)).trans (w2_main_v1 m ρ c))

/-- At region 1's exit the destination-index vector holds row 1 of the launched edge table: region 1 has no window on it and no host operation of the stretch before
    the region writes it, so it holds what it held at region 0's exit. -/
theorem w4_main_v3 (c : Dev nD) : W4 m ρ c (Proc.devRef .tc main_v3) = edgeDst (m ((c : Thread nD τ).loc main_arg1)) :=
  (W4_of_ne m ρ c main_v3 (by decide)).trans ((by
    show StableHlo.after hostOps1 (W2 m ρ c) (Proc.devRef .tc main_v3) = W2 m ρ c (Proc.devRef .tc main_v3)
    after_results <;> rfl : W3 m ρ c (Proc.devRef .tc main_v3) = W2 m ρ c (Proc.devRef .tc main_v3)).trans (w2_main_v3 m ρ c))

/-- At region 2's exit `main_arg2` holds its launched contents: region 2 has no window on it and no host operation of the stretch before
    the region writes it, so it holds what it held at region 1's exit. -/
theorem w6_main_arg2 (c : Dev nD) : W6 m ρ c (Proc.devRef .tc main_arg2) = m ((c : Thread nD τ).loc main_arg2) :=
  (W6_of_ne m ρ c main_arg2 (by decide)).trans ((by
    show StableHlo.after hostOps2 (W4 m ρ c) (Proc.devRef .tc main_arg2) = W4 m ρ c (Proc.devRef .tc main_arg2)
    after_results <;> rfl : W5 m ρ c (Proc.devRef .tc main_arg2) = W4 m ρ c (Proc.devRef .tc main_arg2)).trans (w4_main_arg2 m ρ c))

/-- At region 2's exit `main_arg3` holds its launched contents: region 2 has no window on it and no host operation of the stretch before
    the region writes it, so it holds what it held at region 1's exit. -/
theorem w6_main_arg3 (c : Dev nD) : W6 m ρ c (Proc.devRef .tc main_arg3) = m ((c : Thread nD τ).loc main_arg3) :=
  (W6_of_ne m ρ c main_arg3 (by decide)).trans ((by
    show StableHlo.after hostOps2 (W4 m ρ c) (Proc.devRef .tc main_arg3) = W4 m ρ c (Proc.devRef .tc main_arg3)
    after_results <;> rfl : W5 m ρ c (Proc.devRef .tc main_arg3) = W4 m ρ c (Proc.devRef .tc main_arg3)).trans (w4_main_arg3 m ρ c))

/-- At region 2's exit `main_arg4` holds its launched contents: region 2 has no window on it and no host operation of the stretch before
    the region writes it, so it holds what it held at region 1's exit. -/
theorem w6_main_arg4 (c : Dev nD) : W6 m ρ c (Proc.devRef .tc main_arg4) = m ((c : Thread nD τ).loc main_arg4) :=
  (W6_of_ne m ρ c main_arg4 (by decide)).trans ((by
    show StableHlo.after hostOps2 (W4 m ρ c) (Proc.devRef .tc main_arg4) = W4 m ρ c (Proc.devRef .tc main_arg4)
    after_results <;> rfl : W5 m ρ c (Proc.devRef .tc main_arg4) = W4 m ρ c (Proc.devRef .tc main_arg4)).trans (w4_main_arg4 m ρ c))

/-- At region 2's exit `main_arg5` holds its launched contents: region 2 has no window on it and no host operation of the stretch before
    the region writes it, so it holds what it held at region 1's exit. -/
theorem w6_main_arg5 (c : Dev nD) : W6 m ρ c (Proc.devRef .tc main_arg5) = m ((c : Thread nD τ).loc main_arg5) :=
  (W6_of_ne m ρ c main_arg5 (by decide)).trans ((by
    show StableHlo.after hostOps2 (W4 m ρ c) (Proc.devRef .tc main_arg5) = W4 m ρ c (Proc.devRef .tc main_arg5)
    after_results <;> rfl : W5 m ρ c (Proc.devRef .tc main_arg5) = W4 m ρ c (Proc.devRef .tc main_arg5)).trans (w4_main_arg5 m ρ c))

/-- At region 2's exit `main_arg6` holds its launched contents: region 2 has no window on it and no host operation of the stretch before
    the region writes it, so it holds what it held at region 1's exit. -/
theorem w6_main_arg6 (c : Dev nD) : W6 m ρ c (Proc.devRef .tc main_arg6) = m ((c : Thread nD τ).loc main_arg6) :=
  (W6_of_ne m ρ c main_arg6 (by decide)).trans ((by
    show StableHlo.after hostOps2 (W4 m ρ c) (Proc.devRef .tc main_arg6) = W4 m ρ c (Proc.devRef .tc main_arg6)
    after_results <;> rfl : W5 m ρ c (Proc.devRef .tc main_arg6) = W4 m ρ c (Proc.devRef .tc main_arg6)).trans (w4_main_arg6 m ρ c))

/-- At region 2's exit `main_arg7` holds its launched contents: region 2 has no window on it and no host operation of the stretch before
    the region writes it, so it holds what it held at region 1's exit. -/
theorem w6_main_arg7 (c : Dev nD) : W6 m ρ c (Proc.devRef .tc main_arg7) = m ((c : Thread nD τ).loc main_arg7) :=
  (W6_of_ne m ρ c main_arg7 (by decide)).trans ((by
    show StableHlo.after hostOps2 (W4 m ρ c) (Proc.devRef .tc main_arg7) = W4 m ρ c (Proc.devRef .tc main_arg7)
    after_results <;> rfl : W5 m ρ c (Proc.devRef .tc main_arg7) = W4 m ρ c (Proc.devRef .tc main_arg7)).trans (w4_main_arg7 m ρ c))

/-- At region 2's exit `main_arg8` holds its launched contents: region 2 has no window on it and no host operation of the stretch before
    the region writes it, so it holds what it held at region 1's exit. -/
theorem w6_main_arg8 (c : Dev nD) : W6 m ρ c (Proc.devRef .tc main_arg8) = m ((c : Thread nD τ).loc main_arg8) :=
  (W6_of_ne m ρ c main_arg8 (by decide)).trans ((by
    show StableHlo.after hostOps2 (W4 m ρ c) (Proc.devRef .tc main_arg8) = W4 m ρ c (Proc.devRef .tc main_arg8)
    after_results <;> rfl : W5 m ρ c (Proc.devRef .tc main_arg8) = W4 m ρ c (Proc.devRef .tc main_arg8)).trans (w4_main_arg8 m ρ c))

/-- At region 2's exit the source-index vector holds row 0 of the launched edge table: region 2 has no window on it and no host operation of the stretch before
    the region writes it, so it holds what it held at region 1's exit. -/
theorem w6_main_v1 (c : Dev nD) : W6 m ρ c (Proc.devRef .tc main_v1) = edgeSrc (m ((c : Thread nD τ).loc main_arg1)) :=
  (W6_of_ne m ρ c main_v1 (by decide)).trans ((by
    show StableHlo.after hostOps2 (W4 m ρ c) (Proc.devRef .tc main_v1) = W4 m ρ c (Proc.devRef .tc main_v1)
    after_results <;> rfl : W5 m ρ c (Proc.devRef .tc main_v1) = W4 m ρ c (Proc.devRef .tc main_v1)).trans (w4_main_v1 m ρ c))

/-- At region 2's exit the destination-index vector holds row 1 of the launched edge table: region 2 has no window on it and no host operation of the stretch before
    the region writes it, so it holds what it held at region 1's exit. -/
theorem w6_main_v3 (c : Dev nD) : W6 m ρ c (Proc.devRef .tc main_v3) = edgeDst (m ((c : Thread nD τ).loc main_arg1)) :=
  (W6_of_ne m ρ c main_v3 (by decide)).trans ((by
    show StableHlo.after hostOps2 (W4 m ρ c) (Proc.devRef .tc main_v3) = W4 m ρ c (Proc.devRef .tc main_v3)
    after_results <;> rfl : W5 m ρ c (Proc.devRef .tc main_v3) = W4 m ρ c (Proc.devRef .tc main_v3)).trans (w4_main_v3 m ρ c))

/-- At region 3's exit `main_arg2` holds its launched contents: region 3 has no window on it and no host operation of the stretch before
    the region writes it, so it holds what it held at region 2's exit. -/
theorem w8_main_arg2 (c : Dev nD) : W8 m ρ c (Proc.devRef .tc main_arg2) = m ((c : Thread nD τ).loc main_arg2) :=
  (W8_of_ne m ρ c main_arg2 (by decide)).trans ((by
    show StableHlo.after hostOps3 (W6 m ρ c) (Proc.devRef .tc main_arg2) = W6 m ρ c (Proc.devRef .tc main_arg2)
    after_results <;> rfl : W7 m ρ c (Proc.devRef .tc main_arg2) = W6 m ρ c (Proc.devRef .tc main_arg2)).trans (w6_main_arg2 m ρ c))

/-- At region 3's exit `main_arg3` holds its launched contents: region 3 has no window on it and no host operation of the stretch before
    the region writes it, so it holds what it held at region 2's exit. -/
theorem w8_main_arg3 (c : Dev nD) : W8 m ρ c (Proc.devRef .tc main_arg3) = m ((c : Thread nD τ).loc main_arg3) :=
  (W8_of_ne m ρ c main_arg3 (by decide)).trans ((by
    show StableHlo.after hostOps3 (W6 m ρ c) (Proc.devRef .tc main_arg3) = W6 m ρ c (Proc.devRef .tc main_arg3)
    after_results <;> rfl : W7 m ρ c (Proc.devRef .tc main_arg3) = W6 m ρ c (Proc.devRef .tc main_arg3)).trans (w6_main_arg3 m ρ c))

/-- At region 3's exit `main_arg4` holds its launched contents: region 3 has no window on it and no host operation of the stretch before
    the region writes it, so it holds what it held at region 2's exit. -/
theorem w8_main_arg4 (c : Dev nD) : W8 m ρ c (Proc.devRef .tc main_arg4) = m ((c : Thread nD τ).loc main_arg4) :=
  (W8_of_ne m ρ c main_arg4 (by decide)).trans ((by
    show StableHlo.after hostOps3 (W6 m ρ c) (Proc.devRef .tc main_arg4) = W6 m ρ c (Proc.devRef .tc main_arg4)
    after_results <;> rfl : W7 m ρ c (Proc.devRef .tc main_arg4) = W6 m ρ c (Proc.devRef .tc main_arg4)).trans (w6_main_arg4 m ρ c))

/-- At region 3's exit `main_arg5` holds its launched contents: region 3 has no window on it and no host operation of the stretch before
    the region writes it, so it holds what it held at region 2's exit. -/
theorem w8_main_arg5 (c : Dev nD) : W8 m ρ c (Proc.devRef .tc main_arg5) = m ((c : Thread nD τ).loc main_arg5) :=
  (W8_of_ne m ρ c main_arg5 (by decide)).trans ((by
    show StableHlo.after hostOps3 (W6 m ρ c) (Proc.devRef .tc main_arg5) = W6 m ρ c (Proc.devRef .tc main_arg5)
    after_results <;> rfl : W7 m ρ c (Proc.devRef .tc main_arg5) = W6 m ρ c (Proc.devRef .tc main_arg5)).trans (w6_main_arg5 m ρ c))

/-- At region 3's exit `main_arg6` holds its launched contents: region 3 has no window on it and no host operation of the stretch before
    the region writes it, so it holds what it held at region 2's exit. -/
theorem w8_main_arg6 (c : Dev nD) : W8 m ρ c (Proc.devRef .tc main_arg6) = m ((c : Thread nD τ).loc main_arg6) :=
  (W8_of_ne m ρ c main_arg6 (by decide)).trans ((by
    show StableHlo.after hostOps3 (W6 m ρ c) (Proc.devRef .tc main_arg6) = W6 m ρ c (Proc.devRef .tc main_arg6)
    after_results <;> rfl : W7 m ρ c (Proc.devRef .tc main_arg6) = W6 m ρ c (Proc.devRef .tc main_arg6)).trans (w6_main_arg6 m ρ c))

/-- At region 3's exit `main_arg7` holds its launched contents: region 3 has no window on it and no host operation of the stretch before
    the region writes it, so it holds what it held at region 2's exit. -/
theorem w8_main_arg7 (c : Dev nD) : W8 m ρ c (Proc.devRef .tc main_arg7) = m ((c : Thread nD τ).loc main_arg7) :=
  (W8_of_ne m ρ c main_arg7 (by decide)).trans ((by
    show StableHlo.after hostOps3 (W6 m ρ c) (Proc.devRef .tc main_arg7) = W6 m ρ c (Proc.devRef .tc main_arg7)
    after_results <;> rfl : W7 m ρ c (Proc.devRef .tc main_arg7) = W6 m ρ c (Proc.devRef .tc main_arg7)).trans (w6_main_arg7 m ρ c))

/-- At region 3's exit `main_arg8` holds its launched contents: region 3 has no window on it and no host operation of the stretch before
    the region writes it, so it holds what it held at region 2's exit. -/
theorem w8_main_arg8 (c : Dev nD) : W8 m ρ c (Proc.devRef .tc main_arg8) = m ((c : Thread nD τ).loc main_arg8) :=
  (W8_of_ne m ρ c main_arg8 (by decide)).trans ((by
    show StableHlo.after hostOps3 (W6 m ρ c) (Proc.devRef .tc main_arg8) = W6 m ρ c (Proc.devRef .tc main_arg8)
    after_results <;> rfl : W7 m ρ c (Proc.devRef .tc main_arg8) = W6 m ρ c (Proc.devRef .tc main_arg8)).trans (w6_main_arg8 m ρ c))

/-- At region 3's exit the source-index vector holds row 0 of the launched edge table: region 3 has no window on it and no host operation of the stretch before
    the region writes it, so it holds what it held at region 2's exit. -/
theorem w8_main_v1 (c : Dev nD) : W8 m ρ c (Proc.devRef .tc main_v1) = edgeSrc (m ((c : Thread nD τ).loc main_arg1)) :=
  (W8_of_ne m ρ c main_v1 (by decide)).trans ((by
    show StableHlo.after hostOps3 (W6 m ρ c) (Proc.devRef .tc main_v1) = W6 m ρ c (Proc.devRef .tc main_v1)
    after_results <;> rfl : W7 m ρ c (Proc.devRef .tc main_v1) = W6 m ρ c (Proc.devRef .tc main_v1)).trans (w6_main_v1 m ρ c))

/-- At region 3's exit the destination-index vector holds row 1 of the launched edge table: region 3 has no window on it and no host operation of the stretch before
    the region writes it, so it holds what it held at region 2's exit. -/
theorem w8_main_v3 (c : Dev nD) : W8 m ρ c (Proc.devRef .tc main_v3) = edgeDst (m ((c : Thread nD τ).loc main_arg1)) :=
  (W8_of_ne m ρ c main_v3 (by decide)).trans ((by
    show StableHlo.after hostOps3 (W6 m ρ c) (Proc.devRef .tc main_v3) = W6 m ρ c (Proc.devRef .tc main_v3)
    after_results <;> rfl : W7 m ρ c (Proc.devRef .tc main_v3) = W6 m ρ c (Proc.devRef .tc main_v3)).trans (w6_main_v3 m ρ c))

/-- At region 4's exit `main_arg2` holds its launched contents: region 4 has no window on it and no host operation of the stretch before
    the region writes it, so it holds what it held at region 3's exit. -/
theorem w10_main_arg2 (c : Dev nD) : W10 m ρ c (Proc.devRef .tc main_arg2) = m ((c : Thread nD τ).loc main_arg2) :=
  (W10_of_ne m ρ c main_arg2 (by decide)).trans ((by
    show StableHlo.after hostOps4 (W8 m ρ c) (Proc.devRef .tc main_arg2) = W8 m ρ c (Proc.devRef .tc main_arg2)
    after_results <;> rfl : W9 m ρ c (Proc.devRef .tc main_arg2) = W8 m ρ c (Proc.devRef .tc main_arg2)).trans (w8_main_arg2 m ρ c))

/-- At region 4's exit `main_arg3` holds its launched contents: region 4 has no window on it and no host operation of the stretch before
    the region writes it, so it holds what it held at region 3's exit. -/
theorem w10_main_arg3 (c : Dev nD) : W10 m ρ c (Proc.devRef .tc main_arg3) = m ((c : Thread nD τ).loc main_arg3) :=
  (W10_of_ne m ρ c main_arg3 (by decide)).trans ((by
    show StableHlo.after hostOps4 (W8 m ρ c) (Proc.devRef .tc main_arg3) = W8 m ρ c (Proc.devRef .tc main_arg3)
    after_results <;> rfl : W9 m ρ c (Proc.devRef .tc main_arg3) = W8 m ρ c (Proc.devRef .tc main_arg3)).trans (w8_main_arg3 m ρ c))

/-- At region 4's exit `main_arg4` holds its launched contents: region 4 has no window on it and no host operation of the stretch before
    the region writes it, so it holds what it held at region 3's exit. -/
theorem w10_main_arg4 (c : Dev nD) : W10 m ρ c (Proc.devRef .tc main_arg4) = m ((c : Thread nD τ).loc main_arg4) :=
  (W10_of_ne m ρ c main_arg4 (by decide)).trans ((by
    show StableHlo.after hostOps4 (W8 m ρ c) (Proc.devRef .tc main_arg4) = W8 m ρ c (Proc.devRef .tc main_arg4)
    after_results <;> rfl : W9 m ρ c (Proc.devRef .tc main_arg4) = W8 m ρ c (Proc.devRef .tc main_arg4)).trans (w8_main_arg4 m ρ c))

/-- At region 4's exit `main_arg5` holds its launched contents: region 4 has no window on it and no host operation of the stretch before
    the region writes it, so it holds what it held at region 3's exit. -/
theorem w10_main_arg5 (c : Dev nD) : W10 m ρ c (Proc.devRef .tc main_arg5) = m ((c : Thread nD τ).loc main_arg5) :=
  (W10_of_ne m ρ c main_arg5 (by decide)).trans ((by
    show StableHlo.after hostOps4 (W8 m ρ c) (Proc.devRef .tc main_arg5) = W8 m ρ c (Proc.devRef .tc main_arg5)
    after_results <;> rfl : W9 m ρ c (Proc.devRef .tc main_arg5) = W8 m ρ c (Proc.devRef .tc main_arg5)).trans (w8_main_arg5 m ρ c))

/-- At region 4's exit `main_arg6` holds its launched contents: region 4 has no window on it and no host operation of the stretch before
    the region writes it, so it holds what it held at region 3's exit. -/
theorem w10_main_arg6 (c : Dev nD) : W10 m ρ c (Proc.devRef .tc main_arg6) = m ((c : Thread nD τ).loc main_arg6) :=
  (W10_of_ne m ρ c main_arg6 (by decide)).trans ((by
    show StableHlo.after hostOps4 (W8 m ρ c) (Proc.devRef .tc main_arg6) = W8 m ρ c (Proc.devRef .tc main_arg6)
    after_results <;> rfl : W9 m ρ c (Proc.devRef .tc main_arg6) = W8 m ρ c (Proc.devRef .tc main_arg6)).trans (w8_main_arg6 m ρ c))

/-- At region 4's exit `main_arg7` holds its launched contents: region 4 has no window on it and no host operation of the stretch before
    the region writes it, so it holds what it held at region 3's exit. -/
theorem w10_main_arg7 (c : Dev nD) : W10 m ρ c (Proc.devRef .tc main_arg7) = m ((c : Thread nD τ).loc main_arg7) :=
  (W10_of_ne m ρ c main_arg7 (by decide)).trans ((by
    show StableHlo.after hostOps4 (W8 m ρ c) (Proc.devRef .tc main_arg7) = W8 m ρ c (Proc.devRef .tc main_arg7)
    after_results <;> rfl : W9 m ρ c (Proc.devRef .tc main_arg7) = W8 m ρ c (Proc.devRef .tc main_arg7)).trans (w8_main_arg7 m ρ c))

/-- At region 4's exit `main_arg8` holds its launched contents: region 4 has no window on it and no host operation of the stretch before
    the region writes it, so it holds what it held at region 3's exit. -/
theorem w10_main_arg8 (c : Dev nD) : W10 m ρ c (Proc.devRef .tc main_arg8) = m ((c : Thread nD τ).loc main_arg8) :=
  (W10_of_ne m ρ c main_arg8 (by decide)).trans ((by
    show StableHlo.after hostOps4 (W8 m ρ c) (Proc.devRef .tc main_arg8) = W8 m ρ c (Proc.devRef .tc main_arg8)
    after_results <;> rfl : W9 m ρ c (Proc.devRef .tc main_arg8) = W8 m ρ c (Proc.devRef .tc main_arg8)).trans (w8_main_arg8 m ρ c))

/-- At region 4's exit the source-index vector holds row 0 of the launched edge table: region 4 has no window on it and no host operation of the stretch before
    the region writes it, so it holds what it held at region 3's exit. -/
theorem w10_main_v1 (c : Dev nD) : W10 m ρ c (Proc.devRef .tc main_v1) = edgeSrc (m ((c : Thread nD τ).loc main_arg1)) :=
  (W10_of_ne m ρ c main_v1 (by decide)).trans ((by
    show StableHlo.after hostOps4 (W8 m ρ c) (Proc.devRef .tc main_v1) = W8 m ρ c (Proc.devRef .tc main_v1)
    after_results <;> rfl : W9 m ρ c (Proc.devRef .tc main_v1) = W8 m ρ c (Proc.devRef .tc main_v1)).trans (w8_main_v1 m ρ c))

/-- At region 4's exit the destination-index vector holds row 1 of the launched edge table: region 4 has no window on it and no host operation of the stretch before
    the region writes it, so it holds what it held at region 3's exit. -/
theorem w10_main_v3 (c : Dev nD) : W10 m ρ c (Proc.devRef .tc main_v3) = edgeDst (m ((c : Thread nD τ).loc main_arg1)) :=
  (W10_of_ne m ρ c main_v3 (by decide)).trans ((by
    show StableHlo.after hostOps4 (W8 m ρ c) (Proc.devRef .tc main_v3) = W8 m ρ c (Proc.devRef .tc main_v3)
    after_results <;> rfl : W9 m ρ c (Proc.devRef .tc main_v3) = W8 m ρ c (Proc.devRef .tc main_v3)).trans (w8_main_v3 m ρ c))

end Cert.KernelIdeal.RunV

end
-- ==== Proof.KernelRunVS2.lean ====
/-
  Layer 1's first region (region 2) is entered after a stretch of host operations run from region 1's exit. Its four
  input arrays then hold: the features x that layer 0's second region left; the neighbour sum of x along the launched
  edge table; layer 1's slice of the first stacked weight matrix and of the first stacked bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkA

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 2, input window 0 holds the features as region 1's write-backs left them (its output window 7):
    no operation of the stretch writes that array. -/
theorem s2_x (c : Dev nD) :
    (V5 m ρ c main_v33 : (⟨S100000x128, .f32⟩ : BufTy).Contents (Elt F)) = (dat1 (V3 m ρ) c).arrAt 7 cfg1.N := by
  have h7 : W4 m ρ c (Proc.devRef .tc main_v33) = (dat1 (V3 m ρ) c).arrAt 7 cfg1.N := W4_arr m ρ c 7
  rw [← h7]
  show StableHlo.after hostOps2 (W4 m ρ c) (Proc.devRef .tc main_v33) = _
  after_results <;> rfl

/-- Entering region 2, input window 1 holds the neighbour sum of the features region 1 left, along the launched edge
    table (its two rows as the first stretch read them off). -/
theorem s2_agg (c : Dev nD) :
    (V5 m ρ c main_v43 : (⟨S100000x128, .f32⟩ : BufTy).Contents (Elt F))
      = nbrSum ((dat1 (V3 m ρ) c).arrAt 7 cfg1.N) (edgeSrc (m ((c : Thread nD τ).loc main_arg1))) (edgeDst (m ((c : Thread nD τ).loc main_arg1))) := by
  have h7 : W4 m ρ c (Proc.devRef .tc main_v33) = (dat1 (V3 m ρ) c).arrAt 7 cfg1.N := W4_arr m ρ c 7
  rw [← h7, ← w4_main_v1 m ρ c, ← w4_main_v3 m ρ c]
  unfold nbrSum
  show StableHlo.after hostOps2 (W4 m ρ c) (Proc.devRef .tc main_v43) = _
  after_results_simp <;> rfl

/-- Entering region 2, input window 2 holds layer 1's matrix of the first stacked weights, as launched. -/
theorem s2_w (c : Dev nD) :
    (V5 m ρ c main_v45 : (⟨S128x128, .f32⟩ : BufTy).Contents (Elt F))
      = layerMat ![1, 0, 0] slices_S5x128x128_S1x128x128_1_0_0 (m ((c : Thread nD τ).loc main_arg3)) := by
  rw [← w4_main_arg3 m ρ c]
  unfold layerMat
  show StableHlo.after hostOps2 (W4 m ρ c) (Proc.devRef .tc main_v45) = _
  after_results <;> rfl

/-- Entering region 2, input window 3 holds layer 1's vector of the first stacked biases, as launched. -/
theorem s2_b (c : Dev nD) :
    (V5 m ρ c main_v47 : (⟨S128, .f32⟩ : BufTy).Contents (Elt F))
      = layerVec ![1, 0] slices_S5x128_S1x128_1_0 (m ((c : Thread nD τ).loc main_arg4)) := by
  rw [← w4_main_arg4 m ρ c]
  unfold layerVec
  show StableHlo.after hostOps2 (W4 m ρ c) (Proc.devRef .tc main_v47) = _
  after_results <;> rfl

end Cert.KernelIdeal.RunV

end
-- ==== Proof.KernelRunVS3.lean ====
/-
  Layer 1's second region (region 3) is entered after a stretch of host operations run from region 2's exit. Its
  seven input arrays then hold: the first linear map's output h as region 2 left it; the column mean and variance of
  h from the column sums s and ss region 2 left (s / 100000 and ss / 100000 - (s / 100000)^2); layer 1's slices of the
  stacked scale, shift, second weight matrix and second bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkA

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 3, input window 0 holds the first linear map's output as region 2's write-backs left it (its
    output window 4): no operation of the stretch writes that array. -/
theorem s3_h (c : Dev nD) :
    (V7 m ρ c main_v48_0 : (⟨S100000x128, .f32⟩ : BufTy).Contents (Elt F)) = (dat2 (V5 m ρ) c).arrAt 4 cfg2.N := by
  have h4 : W6 m ρ c (Proc.devRef .tc main_v48_0) = (dat2 (V5 m ρ) c).arrAt 4 cfg2.N := W6_arr m ρ c 4
  rw [← h4]
  show StableHlo.after hostOps3 (W6 m ρ c) (Proc.devRef .tc main_v48_0) = _
  after_results <;> rfl

/-- Entering region 3, input window 1 holds the column mean: region 2's column sum (its output window 5) over 100000. -/
theorem s3_mean (c : Dev nD) :
    (V7 m ρ c main_v50 : (⟨S1x128, .f32⟩ : BufTy).Contents (Elt F)) = meanOf ((dat2 (V5 m ρ) c).arrAt 5 cfg2.N) := by
  have h5 : W6 m ρ c (Proc.devRef .tc main_v48_1) = (dat2 (V5 m ρ) c).arrAt 5 cfg2.N := W6_arr m ρ c 5
  rw [← h5]
  unfold meanOf
  show StableHlo.after hostOps3 (W6 m ρ c) (Proc.devRef .tc main_v50) = _
  after_results <;> rfl

/-- Entering region 3, input window 2 holds the column variance: region 2's column sum of squares (its output window 6)
    over 100000, less the square of the column mean. -/
theorem s3_var (c : Dev nD) :
    (V7 m ρ c main_v54 : (⟨S1x128, .f32⟩ : BufTy).Contents (Elt F))
      = varOf ((dat2 (V5 m ρ) c).arrAt 5 cfg2.N) ((dat2 (V5 m ρ) c).arrAt 6 cfg2.N) := by
  have h5 : W6 m ρ c (Proc.devRef .tc main_v48_1) = (dat2 (V5 m ρ) c).arrAt 5 cfg2.N := W6_arr m ρ c 5
  have h6 : W6 m ρ c (Proc.devRef .tc main_v48_2) = (dat2 (V5 m ρ) c).arrAt 6 cfg2.N := W6_arr m ρ c 6
  rw [← h5, ← h6]
  unfold varOf meanOf
  show StableHlo.after hostOps3 (W6 m ρ c) (Proc.devRef .tc main_v54) = _
  after_results <;> rfl

/-- Entering region 3, input window 3 holds layer 1's slice of the stacked scale, as launched. -/
theorem s3_gamma (c : Dev nD) :
    (V7 m ρ c main_v56 : (⟨S128, .f32⟩ : BufTy).Contents (Elt F)) = layerVec ![1, 0] slices_S5x128_S1x128_1_0 (m ((c : Thread nD τ).loc main_arg5)) := by
  rw [← w6_main_arg5 m ρ c]
  unfold layerVec
  show StableHlo.after hostOps3 (W6 m ρ c) (Proc.devRef .tc main_v56) = _
  after_results <;> rfl

/-- Entering region 3, input window 4 holds layer 1's slice of the stacked shift, as launched. -/
theorem s3_beta (c : Dev nD) :
    (V7 m ρ c main_v58 : (⟨S128, .f32⟩ : BufTy).Contents (Elt F)) = layerVec ![1, 0] slices_S5x128_S1x128_1_0 (m ((c : Thread nD τ).loc main_arg6)) := by
  rw [← w6_main_arg6 m ρ c]
  unfold layerVec
  show StableHlo.after hostOps3 (W6 m ρ c) (Proc.devRef .tc main_v58) = _
  after_results <;> rfl

/-- Entering region 3, input window 5 holds layer 1's slice of the stacked second weight matrix, as launched. -/
theorem s3_w2 (c : Dev nD) :
    (V7 m ρ c main_v60 : (⟨S128x128, .f32⟩ : BufTy).Contents (Elt F)) = layerMat ![1, 0, 0] slices_S5x128x128_S1x128x128_1_0_0 (m ((c : Thread nD τ).loc main_arg7)) := by
  rw [← w6_main_arg7 m ρ c]
  unfold layerMat
  show StableHlo.after hostOps3 (W6 m ρ c) (Proc.devRef .tc main_v60) = _
  after_results <;> rfl

/-- Entering region 3, input window 6 holds layer 1's slice of the stacked second bias, as launched. -/
theorem s3_b2 (c : Dev nD) :
    (V7 m ρ c main_v62 : (⟨S128, .f32⟩ : BufTy).Contents (Elt F)) = layerVec ![1, 0] slices_S5x128_S1x128_1_0 (m ((c : Thread nD τ).loc main_arg8)) := by
  rw [← w6_main_arg8 m ρ c]
  unfold layerVec
  show StableHlo.after hostOps3 (W6 m ρ c) (Proc.devRef .tc main_v62) = _
  after_results <;> rfl

end Cert.KernelIdeal.RunV

end
-- ==== Proof.Layer1V2Pieces.lean ====
/-
  What one run of the first dense map's body leaves in its three output tiles.

  The body writes the tile of h once, and each of the two running rows once (at the first grid point twice: the zero
  row first, then the updated row, which reads the zero row back).  Each tile therefore ends holding the value of its
  last store: the tile of h; the running row plus the tile's column sums, where at the first point the running row is
  the zero row just stored and at a later point it is what the tile held before the body ran.
-/
import proofs.«164329_j2903397892177_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Layer1V.R2

open Cert.KernelIdeal Cert.KernelIdeal.Gen Idealize.ShloMosaic.ValueIdx

variable {F : FTy → Type} [FloatOps F]

/-- Zero offsets on two axes, as the stores spell them. -/
theorem hz2 : (![0, 0] : Fin 2 → Nat) = fun _ => 0 := funext fun a => by fin_cases a <;> rfl
/-- Zero offset on one axis. -/
theorem hz1 : (![0] : Fin 1 → Nat) = fun _ => 0 := funext fun a => by fin_cases a; rfl

/-- First point: the h tile ends at the body's h of the four input tiles. -/
theorem out_A_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond2_0 i)
    (x0 : Vec F S5000x128 .f32) (x1 : Vec F S5000x128 .f32) (x2 : Vec F S128x128 .f32) (x3 : Vec F S128 .f32) :
    out2_A_4 c i arg1 harg1 arg2 harg2 arg3 harg3 arg4 harg4 arg5 harg5 arg6 harg6 arg7 harg7 hc0 x0 x1 x2 x3 = k2_pay3 x0 x1 x2 x3 := by
  unfold out2_A_4
  rw [View.read_writes_eq_canon _ _ _ (cover2_A_4 c i arg1 harg1 arg2 harg2 arg3 harg3 arg4 harg4 arg5 harg5 arg6 harg6 arg7 harg7 hc0 x0 x1 x2 x3)]
  unfold kernelRun2_A
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum ends at the zero row plus the tile's column sums of h. -/
theorem out_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond2_0 i)
    (x0 : Vec F S5000x128 .f32) (x1 : Vec F S5000x128 .f32) (x2 : Vec F S128x128 .f32) (x3 : Vec F S128 .f32) :
    out2_A_5 c i arg1 harg1 arg2 harg2 arg3 harg3 arg4 harg4 arg5 harg5 arg6 harg6 arg7 harg7 hc0 x0 x1 x2 x3 = k2_pay4 x0 x1 x2 x3 k2_pay1 := by
  unfold out2_A_5
  rw [View.read_writes_eq_canon _ _ _ (cover2_A_5 c i arg1 harg1 arg2 harg2 arg3 harg3 arg4 harg4 arg5 harg5 arg6 harg6 arg7 harg7 hc0 x0 x1 x2 x3)]
  unfold kernelRun2_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum of squares ends at the zero row plus the tile's column sums of h·h. -/
theorem out_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond2_0 i)
    (x0 : Vec F S5000x128 .f32) (x1 : Vec F S5000x128 .f32) (x2 : Vec F S128x128 .f32) (x3 : Vec F S128 .f32) :
    out2_A_6 c i arg1 harg1 arg2 harg2 arg3 harg3 arg4 harg4 arg5 harg5 arg6 harg6 arg7 harg7 hc0 x0 x1 x2 x3 = k2_pay5 x0 x1 x2 x3 k2_pay2 := by
  unfold out2_A_6
  rw [View.read_writes_eq_canon _ _ _ (cover2_A_6 c i arg1 harg1 arg2 harg2 arg3 harg3 arg4 harg4 arg5 harg5 arg6 harg6 arg7 harg7 hc0 x0 x1 x2 x3)]
  unfold kernelRun2_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the h tile ends at the body's h of the four input tiles. -/
theorem out_B_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i)
    (x0 : Vec F S5000x128 .f32) (x1 : Vec F S5000x128 .f32) (x2 : Vec F S128x128 .f32) (x3 : Vec F S128 .f32) (xo5 : Vec F S1x128 .f32) (xo6 : Vec F S1x128 .f32) :
    out2_B_4 c i arg1 harg1 arg2 harg2 arg3 harg3 arg4 harg4 arg5 harg5 arg6 harg6 arg7 harg7 hc0 x0 x1 x2 x3 xo5 xo6 = k2_pay3 x0 x1 x2 x3 := by
  unfold out2_B_4
  rw [View.read_writes_eq_canon _ _ _ (cover2_B_4 c i arg1 harg1 arg2 harg2 arg3 harg3 arg4 harg4 arg5 harg5 arg6 harg6 arg7 harg7 hc0 x0 x1 x2 x3 xo5 xo6)]
  unfold kernelRun2_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum ends at what it held plus the tile's column sums of h. -/
theorem out_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i)
    (x0 : Vec F S5000x128 .f32) (x1 : Vec F S5000x128 .f32) (x2 : Vec F S128x128 .f32) (x3 : Vec F S128 .f32) (xo5 : Vec F S1x128 .f32) (xo6 : Vec F S1x128 .f32) :
    out2_B_5 c i arg1 harg1 arg2 harg2 arg3 harg3 arg4 harg4 arg5 harg5 arg6 harg6 arg7 harg7 hc0 x0 x1 x2 x3 xo5 xo6 = k2_pay4 x0 x1 x2 x3 xo5 := by
  unfold out2_B_5
  rw [View.read_writes_eq_canon _ _ _ (cover2_B_5 c i arg1 harg1 arg2 harg2 arg3 harg3 arg4 harg4 arg5 harg5 arg6 harg6 arg7 harg7 hc0 x0 x1 x2 x3 xo5 xo6)]
  unfold kernelRun2_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum of squares ends at what it held plus the tile's column sums of h·h. -/
theorem out_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond2_0 i)
    (x0 : Vec F S5000x128 .f32) (x1 : Vec F S5000x128 .f32) (x2 : Vec F S128x128 .f32) (x3 : Vec F S128 .f32) (xo5 : Vec F S1x128 .f32) (xo6 : Vec F S1x128 .f32) :
    out2_B_6 c i arg1 harg1 arg2 harg2 arg3 harg3 arg4 harg4 arg5 harg5 arg6 harg6 arg7 harg7 hc0 x0 x1 x2 x3 xo5 xo6 = k2_pay5 x0 x1 x2 x3 xo6 := by
  unfold out2_B_6
  rw [View.read_writes_eq_canon _ _ _ (cover2_B_6 c i arg1 harg1 arg2 harg2 arg3 harg3 arg4 harg4 arg5 harg5 arg6 harg6 arg7 harg7 hc0 x0 x1 x2 x3 xo5 xo6)]
  unfold kernelRun2_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

end Cert.KernelIdeal.Layer1V.R2

end
-- ==== Proof.Layer1V2Outs.lean ====
/-
  The three output tiles after each grid point of the first dense map, as values of the body's arithmetic.

  After the first point the tiles hold h of the point's input tiles, and the two running rows hold the zero row plus
  that tile's column sums.  After a later point they hold h of that point's input tiles, and the running rows hold
  what the point before left plus that tile's column sums.
-/
import proofs.«164329_j2903397892177_1_alg».proof.Proof.Layer1V2Pieces
import Idealize.ShloMosaic.Lib.ValueIdx

noncomputable section

open Idealize.ShloMosaic Idealize.ShloMosaic.TcCoe Idealize.SL.Sem
open Idealize.ShloMosaic.Pipeline (Dat)

namespace Cert.KernelIdeal.Layer1V.R2

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- After the first point: h of its tiles, and the zero rows plus the tile's column sums. -/
theorem outs_A (t : Fin cfg2.N) (h0 : t.val % 20 = 0) :
    outsAt2 V c t.val t.isLt
      = (k2_pay3 (iblk2 V c 0 t) (iblk2 V c 1 t) (iblk2 V c 2 t) (iblk2 V c 3 t),
         k2_pay4 (iblk2 V c 0 t) (iblk2 V c 1 t) (iblk2 V c 2 t) (iblk2 V c 3 t) k2_pay1,
         k2_pay5 (iblk2 V c 0 t) (iblk2 V c 1 t) (iblk2 V c 2 t) (iblk2 V c 3 t) k2_pay2) :=
  (outsAt2_A V c t h0).trans
    (congrArg₂ Prod.mk
      (out_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
      (congrArg₂ Prod.mk
        (out_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
        (out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))))

/-- After a later point: h of its tiles, and what the point before left plus the tile's column sums. -/
theorem outs_B (t : Fin cfg2.N) (h0 : ¬t.val % 20 = 0) :
    outsAt2 V c t.val t.isLt
      = (k2_pay3 (iblk2 V c 0 t) (iblk2 V c 1 t) (iblk2 V c 2 t) (iblk2 V c 3 t),
         k2_pay4 (iblk2 V c 0 t) (iblk2 V c 1 t) (iblk2 V c 2 t) (iblk2 V c 3 t) (outsAt2 V c (t.val - 1) (Nat.lt_of_le_of_lt (Nat.sub_le _ _) t.isLt)).2.1,
         k2_pay5 (iblk2 V c 0 t) (iblk2 V c 1 t) (iblk2 V c 2 t) (iblk2 V c 3 t) (outsAt2 V c (t.val - 1) (Nat.lt_of_le_of_lt (Nat.sub_le _ _) t.isLt)).2.2) :=
  (outsAt2_B V c t h0).trans
    (congrArg₂ Prod.mk
      (out_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
      (congrArg₂ Prod.mk
        (out_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
        (out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)))

/-- The h tile after any point is h of that point's input tiles. -/
theorem outs_h (t : Fin cfg2.N) : (outsAt2 V c t.val t.isLt).1 = k2_pay3 (iblk2 V c 0 t) (iblk2 V c 1 t) (iblk2 V c 2 t) (iblk2 V c 3 t) := by
  by_cases h0 : t.val % 20 = 0
  · rw [outs_A V c t h0]
  · rw [outs_B V c t h0]

end Cert.KernelIdeal.Layer1V.R2

end
-- ==== Proof.Layer1V2Blocks.lean ====
/-
  The input tiles of the first dense map as rows of the arrays they are cut from.

  At grid point t the row tiles of x and of the neighbour sums hold rows 5000·t … 5000·t + 4999 of their arrays, all
  128 lanes; the weight tile is the whole 128 × 128 weight matrix and the bias tile the whole bias vector at every
  point.  The output tile of h sits at the same rows; the two running rows are their whole 1 × 128 arrays.
-/
import proofs.«164329_j2903397892177_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Layer1V.R2

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- Where each window's tile sits at grid point t: the row windows at block row t, every other coordinate at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The grid has 20 points. -/
theorem lt20 (t : Fin cfg2.N) : t.val < 20 := lt_of_lt_of_eq t.isLt (show cfg2.N = 20 from N_2)

/-- The x tile at point t, entry (p, j), is x at row 5000·t + p, lane j. -/
theorem iblk_x (t : Fin cfg2.N) (p : Fin 5000) (j : Fin 128) (r : Fin 100000) (hr : r.val = 5000 * t.val + p.val) :
    (iblk2 V c 0 t : Vec F S5000x128 .f32) (ix2 p j)
      = (V c (Pipeline.arrRef spec2 0) : S100000x128.Idx → Elt F .f32) (ix2 r j) := by
  obtain ⟨e0, e1, -⟩ := idx_facts t
  unfold iblk2
  rw [View.read_apply]
  refine congrArg (V c (Pipeline.arrRef spec2 0) : S100000x128.Idx → Elt F .f32) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * j.val = j.val; rw [e1]; omega

/-- The neighbour-sum tile at point t, entry (p, j), is the neighbour sums at row 5000·t + p, lane j. -/
theorem iblk_a (t : Fin cfg2.N) (p : Fin 5000) (j : Fin 128) (r : Fin 100000) (hr : r.val = 5000 * t.val + p.val) :
    (iblk2 V c 1 t : Vec F S5000x128 .f32) (ix2 p j)
      = (V c (Pipeline.arrRef spec2 1) : S100000x128.Idx → Elt F .f32) (ix2 r j) := by
  obtain ⟨-, -, e0, e1, -⟩ := idx_facts t
  unfold iblk2
  rw [View.read_apply]
  refine congrArg (V c (Pipeline.arrRef spec2 1) : S100000x128.Idx → Elt F .f32) (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * j.val = j.val; rw [e1]; omega

/-- The weight tile at any point is the weight matrix. -/
theorem iblk_w (t : Fin cfg2.N) (j q : Fin 128) :
    (iblk2 V c 2 t : Vec F S128x128 .f32) (ix2 j q)
      = (V c (Pipeline.arrRef spec2 2) : S128x128.Idx → Elt F .f32) (ix2 j q) := by
  obtain ⟨-, -, -, -, e0, e1, -⟩ := idx_facts t
  unfold iblk2
  rw [View.read_apply]
  refine congrArg (V c (Pipeline.arrRef spec2 2) : S128x128.Idx → Elt F .f32) (funext fun a => Fin.ext ?_)
  match a with
  | ⟨0, _⟩ => show win2_2.index t (0 : Fin 2) * 128 + 1 * j.val = j.val; rw [e0]; omega
  | ⟨1, _⟩ => show win2_2.index t (1 : Fin 2) * 128 + 1 * q.val = q.val; rw [e1]; omega

/-- The bias tile at any point is the bias vector. -/
theorem iblk_b (t : Fin cfg2.N) (q : Fin 128) :
    (iblk2 V c 3 t : Vec F S128 .f32) (ix1 q)
      = (V c (Pipeline.arrRef spec2 3) : S128.Idx → Elt F .f32) (ix1 q) := by
  obtain ⟨-, -, -, -, -, -, e0, -⟩ := idx_facts t
  unfold iblk2
  rw [View.read_apply]
  refine congrArg (V c (Pipeline.arrRef spec2 3) : S128.Idx → Elt F .f32) (funext fun a => Fin.ext ?_)
  match a with
  | ⟨0, _⟩ => show win2_3.index t (0 : Fin 1) * 128 + 1 * q.val = q.val; rw [e0]; omega

end Cert.KernelIdeal.Layer1V.R2

end
-- ==== Proof.Layer1V2Pay.lean ====
/-
  The first dense map's body, read entry by entry on the extended reals.

  On one tile of 5000 rows the body forms h = (x + a)·W + b and adds the tile's column sums of h and of h·h onto two
  running rows.  Entry by entry: h at (p, q) is the sum over j of (x(p, j) + a(p, j)) · W(j, q), plus b(q): a change
  of float format is the identity on the extended reals, the product accumulates into zero, and the bias row is the
  same in every row.  The running sum at lane q grows by the sum over the tile's rows p of h(p, q), the running sum
  of squares by the sum of h(p, q) · h(p, q).  The two rows a first tile starts from are zero.
-/
import proofs.«164329_j2903397892177_1_alg».proof.Proof.Gen.KernelIdeal.Skeleton
import proofs.«164329_j2903397892177_1_alg».proof.Proof.Layer1VMatmul
import proofs.«164329_j2903397892177_1_alg».proof.Proof.Layer1VOps
import Idealize.ShloMosaic.Lib.Pipeline.Value

noncomputable section

namespace Cert.KernelIdeal.Layer1V.R2

open Cert.KernelIdeal Cert.KernelIdeal.Gen Idealize.ShloMosaic Idealize.ShloMosaic.ValueIdx

/-- The tile of h at row p and lane q: the sum over j of (x(p, j) + a(p, j)) · W(j, q), plus b(q). -/
theorem pay3_apply (x0 x1 : FVec Ideal S5000x128 .f32) (x2 : FVec Ideal S128x128 .f32) (x3 : FVec Ideal S128 .f32)
    (p : Fin 5000) (q : Fin 128) :
    k2_pay3 x0 x1 x2 x3 (ix2 p q)
      = (∑ j : Fin 128, (x0 (ix2 p j) + x1 (ix2 p j)) * x2 (ix2 j q)) + x3 (ix1 q) := by
  unfold k2_pay3
  refine congrArg₂ (· + ·) ?_ ?_
  · refine (matmul_rows_cols_apply _ none _ _ p q).trans ?_
    refine Finset.sum_congr rfl fun j _ => ?_
    rw [shapeCast_self, shapeCast_self, shapeCast_self]
    rfl
  · refine (row_repeat_apply _ _ _ p q).trans ?_
    rw [shapeCast_self]

/-- The running column sum after a tile, at lane q: what it held plus the sum over the tile's rows of h. -/
theorem pay4_apply (x0 x1 : FVec Ideal S5000x128 .f32) (x2 : FVec Ideal S128x128 .f32) (x3 : FVec Ideal S128 .f32)
    (s : FVec Ideal S1x128 .f32) (u : Fin 1) (q : Fin 128) :
    k2_pay4 x0 x1 x2 x3 s (ix2 u q) = s (ix2 u q) + ∑ p : Fin 5000, k2_pay3 x0 x1 x2 x3 (ix2 p q) := by
  unfold k2_pay4
  refine congrArg₂ (· + ·) ?_ ?_
  · rw [shapeCast_self]
  · refine (shapeCast_a_1a_apply _ _ u q).trans ?_
    exact colsum_apply _ _ _ _ q

/-- The running column sum of squares after a tile, at lane q: what it held plus the sum over the tile's rows of h·h. -/
theorem pay5_apply (x0 x1 : FVec Ideal S5000x128 .f32) (x2 : FVec Ideal S128x128 .f32) (x3 : FVec Ideal S128 .f32)
    (s : FVec Ideal S1x128 .f32) (u : Fin 1) (q : Fin 128) :
    k2_pay5 x0 x1 x2 x3 s (ix2 u q)
      = s (ix2 u q) + ∑ p : Fin 5000, k2_pay3 x0 x1 x2 x3 (ix2 p q) * k2_pay3 x0 x1 x2 x3 (ix2 p q) := by
  unfold k2_pay5
  refine congrArg₂ (· + ·) ?_ ?_
  · rw [shapeCast_self]
  · refine (shapeCast_a_1a_apply _ _ u q).trans ?_
    exact colsum_apply _ _ _ _ q

/-- The row the running column sum starts from is zero. -/
theorem pay1_apply (u : Fin 1) (q : Fin 128) : k2_pay1 (F := Ideal) (ix2 u q) = 0 :=
  Ideal.ofBits_zero_f32

/-- The row the running column sum of squares starts from is zero. -/
theorem pay2_apply (u : Fin 1) (q : Fin 128) : k2_pay2 (F := Ideal) (ix2 u q) = 0 :=
  Ideal.ofBits_zero_f32

end Cert.KernelIdeal.Layer1V.R2

end
-- ==== Proof.Layer1V2H1.lean ====
/-
  The array of h after the first dense map's grid has run.

  Each grid point writes its 5000-row tile of h back to the rows it was computed from, and the twenty tiles cover the
  100000 rows.  Entry (r, k) of the array is therefore (x + a)·W + b at row r and lane k, of the four arrays the
  map found when it started.
-/
import proofs.«164329_j2903397892177_1_alg».proof.Proof.Layer1V2Outs
import proofs.«164329_j2903397892177_1_alg».proof.Proof.Layer1V2Blocks
import proofs.«164329_j2903397892177_1_alg».proof.Proof.Layer1V2Pay
import proofs.«164329_j2903397892177_1_alg».proof.Proof.LayerFns
import Idealize.ShloMosaic.Lib.ValueIdx

noncomputable section

open Idealize.ShloMosaic Idealize.ShloMosaic.TcCoe Idealize.SL.Sem
open Idealize.ShloMosaic.Pipeline (Dat)

namespace Cert.KernelIdeal.Layer1V.R2

open Cert.KernelIdeal Cert.KernelIdeal.Gen Idealize.ShloMosaic.ValueIdx

variable (V : (c : Dev nD) → (b : Ref sig .tc) → Buf (Elt Ideal) ((c : Thread nD τ).loc b)) (c : Dev nD)

/-- The array x as the map finds it, by row and lane. -/
abbrev inX : Fin 100000 → Fin 128 → EReal := fun r j => (V c (Pipeline.arrRef spec2 0) : S100000x128.Idx → EReal) (ix2 r j)
/-- The neighbour sums as the map finds them, by row and lane. -/
abbrev inA : Fin 100000 → Fin 128 → EReal := fun r j => (V c (Pipeline.arrRef spec2 1) : S100000x128.Idx → EReal) (ix2 r j)
/-- The weight matrix as the map finds it, by row and column. -/
abbrev inW : Fin 128 → Fin 128 → EReal := fun j k => (V c (Pipeline.arrRef spec2 2) : S128x128.Idx → EReal) (ix2 j k)
/-- The bias vector as the map finds it. -/
abbrev inB : Fin 128 → EReal := fun k => (V c (Pipeline.arrRef spec2 3) : S128.Idx → EReal) (ix1 k)

/-- h of point t's tiles at (p, q) is (x + a)·W + b at row 5000·t + p and lane q. -/
theorem pay3_block (t : Fin cfg2.N) (p : Fin 5000) (q : Fin 128) (r : Fin 100000) (hr : r.val = 5000 * t.val + p.val) :
    k2_pay3 (iblk2 V c 0 t) (iblk2 V c 1 t) (iblk2 V c 2 t) (iblk2 V c 3 t) (ix2 p q) = LayerFns.h1Fn (inX V c) (inA V c) (inW V c) (inB V c) r q := by
  refine (pay3_apply (iblk2 V c 0 t) (iblk2 V c 1 t) (iblk2 V c 2 t) (iblk2 V c 3 t) p q).trans ?_
  unfold LayerFns.h1Fn
  refine congrArg₂ (· + ·) (Finset.sum_congr rfl fun j _ => ?_) (iblk_b V c t q)
  exact congrArg₂ (· * ·) (congrArg₂ (· + ·) (iblk_x V c t p j r hr) (iblk_a V c t p j r hr)) (iblk_w V c t j q)

/-- The whole array of h, entry by entry. -/
def hArr : S100000x128.Idx → EReal := fun i => LayerFns.h1Fn (inX V c) (inA V c) (inW V c) (inB V c) (i 0) (i 1)

/-- What point t writes back is its tile of the whole array of h. -/
theorem flushed_h (t : Fin cfg2.N) (hf : (cfg2.win 4).flush t = true) :
    (dat2 V c).flushed 4 t = ((cfg2.win 4).blk t).view.read (Elt Ideal) (hArr V c) := by
  show (cfg2.win 4).cut (grid2.coords t) ((dat2 V c).after 4 t) = _
  rw [after2_4, outs_h]
  funext y
  obtain ⟨p, q, rfl⟩ : ∃ (p : Fin 5000) (q : Fin 128), y = ix2 p q := ⟨y 0, y 1, eq_ix2 y⟩
  rw [View.read_apply]
  obtain ⟨-, -, -, -, -, -, -, e0, e1, -⟩ := idx_facts t
  have ht := lt20 t
  have hr : 5000 * t.val + p.val < 100000 := by have := p.isLt; omega
  have c0 : (((cfg2.win 4).blk t).view.emb (ix2 p q)) 0 = (⟨5000 * t.val + p.val, hr⟩ : Fin 100000) :=
    Fin.ext (by show win2_4.index t (0 : Fin 2) * 5000 + 1 * p.val = 5000 * t.val + p.val; rw [e0]; omega)
  have c1 : (((cfg2.win 4).blk t).view.emb (ix2 p q)) 1 = q :=
    Fin.ext (by show win2_4.index t (1 : Fin 2) * 128 + 1 * q.val = q.val; rw [e1]; omega)
  exact (pay3_block V c t p q ⟨5000 * t.val + p.val, hr⟩ rfl).trans
    (congrArg₂ (LayerFns.h1Fn (inX V c) (inA V c) (inW V c) (inB V c)) c0.symm c1.symm)

/-- Every row lies in the tile of the point that its quotient by 5000 names. -/
theorem cover_h (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, e0, e1, -⟩ := idx_facts t
  refine ⟨t, flush2_4 t, ?_⟩
  have he : ((cfg2.win 4).blk t).view.emb (ix2 (⟨(i 0).val % 5000, Nat.mod_lt _ (by decide)⟩ : Fin 5000) (⟨(i 1).val, hi1⟩ : Fin 128)) = i := by
    funext a
    apply Fin.ext
    match a with
    | ⟨0, _⟩ =>
      show win2_4.index t (0 : Fin 2) * 5000 + 1 * ((i 0).val % 5000) = (i 0).val
      rw [e0]; show (i 0).val / 5000 * 5000 + 1 * ((i 0).val % 5000) = (i 0).val; omega
    | ⟨1, _⟩ =>
      show win2_4.index t (1 : Fin 2) * 128 + 1 * (i 1).val = (i 1).val
      rw [e1]; omega
  rw [← he]
  exact ((cfg2.win 4).blk t).view.emb_mem_set _

/-- The array of h after the grid: (x + a)·W + b, entry by entry. -/
theorem arr_h : (dat2 V c).arrAt 4 cfg2.N = hArr V c :=
  (dat2 V c).arrAt_eq_of_cover 4 (hArr V c) (flushed_h V c) (cover_h)

/-- Entry (r, k) of the array of h after the grid. -/
theorem arr_h_apply (r : Fin 100000) (k : Fin 128) :
    ((dat2 V c).arrAt 4 cfg2.N : S100000x128.Idx → EReal) (ix2 r k) = LayerFns.h1Fn (inX V c) (inA V c) (inW V c) (inB V c) r k := by
  rw [arr_h]; rfl

end Cert.KernelIdeal.Layer1V.R2

end
-- ==== Proof.Layer1V2Sum.lean ====
/-
  The column sums of h after the first dense map's grid has run.

  The running row starts at zero at the first grid point and each point adds its tile's column sums of h.  After the
  twentieth point it holds, at lane k, the sum over all 100000 rows r of h(r, k): a sum taken tile by tile is the sum
  over all rows, in any commutative additive monoid, so the extended reals need no finiteness here.  The row is
  written back once, after the last point, and is the whole 1 × 128 array.
-/
import proofs.«164329_j2903397892177_1_alg».proof.Proof.Layer1V2H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R2

open Cert.KernelIdeal Cert.KernelIdeal.Gen Idealize.ShloMosaic.ValueIdx

variable (V : (c : Dev nD) → (b : Ref sig .tc) → Buf (Elt Ideal) ((c : Thread nD τ).loc b)) (c : Dev nD)

/-- h at row i and lane q, by the row's number; zero past the last row. -/
def sumFn (q : Fin 128) (i : ℕ) : EReal := if h : i < 100000 then LayerFns.h1Fn (inX V c) (inA V c) (inW V c) (inB V c) ⟨i, h⟩ q else 0

/-- The running sum at lane q before point k: zero, then one tile's column sum of h more per point. -/
def sumAcc (q : Fin 128) : ℕ → EReal
  | 0 => 0
  | k + 1 => sumAcc q k + ∑ p ∈ Finset.range 5000, sumFn V c q (5000 * k + p)

/-- Point t's column sum of h at lane q is the sum of h over rows 5000·t … 5000·t + 4999. -/
theorem sum_tile (t : Fin cfg2.N) (q : Fin 128) :
    ∑ p : Fin 5000, k2_pay3 (iblk2 V c 0 t) (iblk2 V c 1 t) (iblk2 V c 2 t) (iblk2 V c 3 t) (ix2 p q) = ∑ p ∈ Finset.range 5000, sumFn V c q (5000 * t.val + p) := by
  rw [Finset.sum_range]
  refine Finset.sum_congr rfl fun p _ => ?_
  have ht := lt20 t
  have hr : 5000 * t.val + p.val < 100000 := by have := p.isLt; omega
  unfold sumFn
  rw [dif_pos hr, pay3_block V c t p q ⟨5000 * t.val + p.val, hr⟩ rfl]

/-- After point n the running row holds, at lane q, the running sum before point n + 1. -/
theorem sum_inv : ∀ (n : ℕ) (h : n < cfg2.N) (u : Fin 1) (q : Fin 128),
    (outsAt2 V c n h).2.1 (ix2 u q) = sumAcc V c q (n + 1)
  | 0, h, u, q => by
    refine (congrFun (congrArg (fun x => x.2.1) (outs_A V c ⟨0, h⟩ rfl)) (ix2 u q)).trans ?_
    refine (pay4_apply (iblk2 V c 0 ⟨0, h⟩) (iblk2 V c 1 ⟨0, h⟩) (iblk2 V c 2 ⟨0, h⟩) (iblk2 V c 3 ⟨0, h⟩) k2_pay1 u q).trans ?_
    show _ = (0 : EReal) + ∑ p ∈ Finset.range 5000, sumFn V c q (5000 * 0 + p)
    exact congrArg₂ (· + ·) (pay1_apply u q) (sum_tile V c ⟨0, h⟩ q)
  | n + 1, h, u, q => by
    have hN : cfg2.N = 20 := N_2
    have hB : ¬(⟨n + 1, h⟩ : Fin cfg2.N).val % 20 = 0 := by dsimp only; omega
    refine (congrFun (congrArg (fun x => x.2.1) (outs_B V c ⟨n + 1, h⟩ hB)) (ix2 u q)).trans ?_
    refine (pay4_apply (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 u q).trans ?_
    show _ = sumAcc V c q (n + 1) + ∑ p ∈ Finset.range 5000, sumFn V c q (5000 * (n + 1) + p)
    exact congrArg₂ (· + ·) (sum_inv n (Nat.lt_of_succ_lt h) u q) (sum_tile V c ⟨n + 1, h⟩ q)

/-- After twenty tiles the running sum is the sum of h over all rows. -/
theorem sum_total (q : Fin 128) : sumAcc V c q 20 = ∑ r : Fin 100000, LayerFns.h1Fn (inX V c) (inA V c) (inW V c) (inB V c) r q := by
  rw [Cert.BlockSum.accumulate_blocks 5000 (sumFn V c q) (sumAcc V c q) rfl (fun k => rfl) 20, Finset.sum_range]
  refine Finset.sum_congr rfl fun r _ => ?_
  unfold sumFn
  rw [dif_pos r.isLt]

/-- The row of column sums of h, entry by entry. -/
def sumArr : S1x128.Idx → EReal := fun i => ∑ r : Fin 100000, LayerFns.h1Fn (inX V c) (inA V c) (inW V c) (inB V c) r (i 1)

/-- The one write-back, after the last point, writes the row of column sums of h. -/
theorem sum_flushed (t : Fin cfg2.N) (hf : (cfg2.win 5).flush t = true) :
    (dat2 V c).flushed 5 t = ((cfg2.win 5).blk t).view.read (Elt Ideal) (sumArr V c) := by
  have hN : cfg2.N = 20 := N_2
  have h19 : t.val = 19 := by have := (flush2_5 t).mp hf; have := lt20 t; omega
  show (cfg2.win 5).cut (grid2.coords t) ((dat2 V c).after 5 t) = _
  rw [after2_5]
  funext y
  obtain ⟨u, q, rfl⟩ : ∃ (u : Fin 1) (q : Fin 128), y = ix2 u q := ⟨y 0, y 1, eq_ix2 y⟩
  rw [View.read_apply]
  obtain ⟨-, -, -, -, -, -, -, -, -, e0, e1, -⟩ := idx_facts t
  have c1 : (((cfg2.win 5).blk t).view.emb (ix2 u q)) 1 = q :=
    Fin.ext (by show win2_5.index t (1 : Fin 2) * 128 + 1 * q.val = q.val; rw [e1]; omega)
  have key : ∀ i : S1x128.Idx, i 1 = q → sumArr V c i = ∑ r : Fin 100000, LayerFns.h1Fn (inX V c) (inA V c) (inW V c) (inB V c) r q := fun i hi => by
    unfold sumArr; rw [hi]
  have e20 : sumAcc V c q (t.val + 1) = sumAcc V c q 20 := by rw [h19]
  have k1 := key (((cfg2.win 5).blk t).view.emb (ix2 u q)) c1
  generalize sumArr V c (((cfg2.win 5).blk t).view.emb (ix2 u q)) = S at k1 ⊢
  show (outsAt2 V c t.val t.isLt).2.1 (ix2 u q) = S
  exact (sum_inv V c t.val t.isLt u q).trans (e20.trans ((sum_total V c q).trans k1.symm))

/-- The last point's tile is the whole row. -/
theorem sum_cover (i : S1x128.Idx) :
    ∃ t : Fin cfg2.N, (cfg2.win 5).flush t = true ∧ i ∈ ((cfg2.win 5).blk t).view.set := by
  have hi0 : (i 0).val < 1 := (i 0).isLt
  have hi1 : (i 1).val < 128 := (i 1).isLt
  have hN : cfg2.N = 20 := N_2
  let t : Fin cfg2.N := ⟨19, by rw [hN]; decide⟩
  obtain ⟨-, -, -, -, -, -, -, -, -, e0, e1, -⟩ := idx_facts t
  refine ⟨t, (flush2_5 t).mpr rfl, ?_⟩
  have he : ((cfg2.win 5).blk t).view.emb (ix2 (⟨(i 0).val, hi0⟩ : Fin 1) (⟨(i 1).val, hi1⟩ : Fin 128)) = i := by
    funext a
    apply Fin.ext
    match a with
    | ⟨0, _⟩ =>
      show win2_5.index t (0 : Fin 2) * 1 + 1 * (i 0).val = (i 0).val
      rw [e0]; omega
    | ⟨1, _⟩ =>
      show win2_5.index t (1 : Fin 2) * 128 + 1 * (i 1).val = (i 1).val
      rw [e1]; omega
  rw [← he]
  exact ((cfg2.win 5).blk t).view.emb_mem_set _

/-- The array of column sums of h after the grid. -/
theorem sum_arr : (dat2 V c).arrAt 5 cfg2.N = sumArr V c :=
  (dat2 V c).arrAt_eq_of_cover 5 (sumArr V c) (sum_flushed V c) (sum_cover)

/-- Lane k of the column sums of h after the grid. -/
theorem sum_arr_apply (k : Fin 128) :
    ((dat2 V c).arrAt 5 cfg2.N : S1x128.Idx → EReal) (ix2 0 k) = ∑ r : Fin 100000, LayerFns.h1Fn (inX V c) (inA V c) (inW V c) (inB V c) r k := by
  rw [sum_arr]; rfl

end Cert.KernelIdeal.Layer1V.R2

end
-- ==== Proof.Layer1V2SumSq.lean ====
/-
  The column sums of h·h after the first dense map's grid has run.

  The running row starts at zero at the first grid point and each point adds its tile's column sums of h·h.  After the
  twentieth point it holds, at lane k, the sum over all 100000 rows r of h(r, k)·h(r, k): a sum taken tile by tile is
  the sum over all rows, in any commutative additive monoid, so the extended reals need no finiteness here.  The row
  is written back once, after the last point, and is the whole 1 × 128 array.
-/
import proofs.«164329_j2903397892177_1_alg».proof.Proof.Layer1V2H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R2

open Cert.KernelIdeal Cert.KernelIdeal.Gen Idealize.ShloMosaic.ValueIdx

variable (V : (c : Dev nD) → (b : Ref sig .tc) → Buf (Elt Ideal) ((c : Thread nD τ).loc b)) (c : Dev nD)

/-- h·h at row i and lane q, by the row's number; zero past the last row. -/
def sumsqFn (q : Fin 128) (i : ℕ) : EReal := if h : i < 100000 then LayerFns.h1Fn (inX V c) (inA V c) (inW V c) (inB V c) ⟨i, h⟩ q * LayerFns.h1Fn (inX V c) (inA V c) (inW V c) (inB V c) ⟨i, h⟩ q else 0

/-- The running sum of squares at lane q before point k: zero, then one tile's column sum of h·h more per point. -/
def sumsqAcc (q : Fin 128) : ℕ → EReal
  | 0 => 0
  | k + 1 => sumsqAcc q k + ∑ p ∈ Finset.range 5000, sumsqFn V c q (5000 * k + p)

/-- Point t's column sum of h·h at lane q is the sum of h·h over rows 5000·t … 5000·t + 4999. -/
theorem sumsq_tile (t : Fin cfg2.N) (q : Fin 128) :
    ∑ p : Fin 5000, k2_pay3 (iblk2 V c 0 t) (iblk2 V c 1 t) (iblk2 V c 2 t) (iblk2 V c 3 t) (ix2 p q) * k2_pay3 (iblk2 V c 0 t) (iblk2 V c 1 t) (iblk2 V c 2 t) (iblk2 V c 3 t) (ix2 p q) = ∑ p ∈ Finset.range 5000, sumsqFn V c q (5000 * t.val + p) := by
  rw [Finset.sum_range]
  refine Finset.sum_congr rfl fun p _ => ?_
  have ht := lt20 t
  have hr : 5000 * t.val + p.val < 100000 := by have := p.isLt; omega
  unfold sumsqFn
  rw [dif_pos hr, pay3_block V c t p q ⟨5000 * t.val + p.val, hr⟩ rfl]

/-- After point n the running row of squares holds, at lane q, the running sum of squares before point n + 1. -/
theorem sumsq_inv : ∀ (n : ℕ) (h : n < cfg2.N) (u : Fin 1) (q : Fin 128),
    (outsAt2 V c n h).2.2 (ix2 u q) = sumsqAcc V c q (n + 1)
  | 0, h, u, q => by
    refine (congrFun (congrArg (fun x => x.2.2) (outs_A V c ⟨0, h⟩ rfl)) (ix2 u q)).trans ?_
    refine (pay5_apply (iblk2 V c 0 ⟨0, h⟩) (iblk2 V c 1 ⟨0, h⟩) (iblk2 V c 2 ⟨0, h⟩) (iblk2 V c 3 ⟨0, h⟩) k2_pay2 u q).trans ?_
    show _ = (0 : EReal) + ∑ p ∈ Finset.range 5000, sumsqFn V c q (5000 * 0 + p)
    exact congrArg₂ (· + ·) (pay2_apply u q) (sumsq_tile V c ⟨0, h⟩ q)
  | n + 1, h, u, q => by
    have hN : cfg2.N = 20 := N_2
    have hB : ¬(⟨n + 1, h⟩ : Fin cfg2.N).val % 20 = 0 := by dsimp only; omega
    refine (congrFun (congrArg (fun x => x.2.2) (outs_B V c ⟨n + 1, h⟩ hB)) (ix2 u q)).trans ?_
    refine (pay5_apply (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.2 u q).trans ?_
    show _ = sumsqAcc V c q (n + 1) + ∑ p ∈ Finset.range 5000, sumsqFn V c q (5000 * (n + 1) + p)
    exact congrArg₂ (· + ·) (sumsq_inv n (Nat.lt_of_succ_lt h) u q) (sumsq_tile V c ⟨n + 1, h⟩ q)

/-- After twenty tiles the running sum of squares is the sum of h·h over all rows. -/
theorem sumsq_total (q : Fin 128) : sumsqAcc V c q 20 = ∑ r : Fin 100000, LayerFns.h1Fn (inX V c) (inA V c) (inW V c) (inB V c) r q * LayerFns.h1Fn (inX V c) (inA V c) (inW V c) (inB V c) r q := by
  rw [Cert.BlockSum.accumulate_blocks 5000 (sumsqFn V c q) (sumsqAcc V c q) rfl (fun k => rfl) 20, Finset.sum_range]
  refine Finset.sum_congr rfl fun r _ => ?_
  unfold sumsqFn
  rw [dif_pos r.isLt]

/-- The row of column sums of h·h, entry by entry. -/
def sumsqArr : S1x128.Idx → EReal := fun i => ∑ r : Fin 100000, LayerFns.h1Fn (inX V c) (inA V c) (inW V c) (inB V c) r (i 1) * LayerFns.h1Fn (inX V c) (inA V c) (inW V c) (inB V c) r (i 1)

/-- The one write-back, after the last point, writes the row of column sums of h·h. -/
theorem sumsq_flushed (t : Fin cfg2.N) (hf : (cfg2.win 6).flush t = true) :
    (dat2 V c).flushed 6 t = ((cfg2.win 6).blk t).view.read (Elt Ideal) (sumsqArr V c) := by
  have hN : cfg2.N = 20 := N_2
  have h19 : t.val = 19 := by have := (flush2_6 t).mp hf; have := lt20 t; omega
  show (cfg2.win 6).cut (grid2.coords t) ((dat2 V c).after 6 t) = _
  rw [after2_6]
  funext y
  obtain ⟨u, q, rfl⟩ : ∃ (u : Fin 1) (q : Fin 128), y = ix2 u q := ⟨y 0, y 1, eq_ix2 y⟩
  rw [View.read_apply]
  obtain ⟨-, -, -, -, -, -, -, -, -, -, -, e0, e1⟩ := idx_facts t
  have c1 : (((cfg2.win 6).blk t).view.emb (ix2 u q)) 1 = q :=
    Fin.ext (by show win2_6.index t (1 : Fin 2) * 128 + 1 * q.val = q.val; rw [e1]; omega)
  have key : ∀ i : S1x128.Idx, i 1 = q → sumsqArr V c i = ∑ r : Fin 100000, LayerFns.h1Fn (inX V c) (inA V c) (inW V c) (inB V c) r q * LayerFns.h1Fn (inX V c) (inA V c) (inW V c) (inB V c) r q := fun i hi => by
    unfold sumsqArr; rw [hi]
  have e20 : sumsqAcc V c q (t.val + 1) = sumsqAcc V c q 20 := by rw [h19]
  have k1 := key (((cfg2.win 6).blk t).view.emb (ix2 u q)) c1
  generalize sumsqArr V c (((cfg2.win 6).blk t).view.emb (ix2 u q)) = S at k1 ⊢
  show (outsAt2 V c t.val t.isLt).2.2 (ix2 u q) = S
  exact (sumsq_inv V c t.val t.isLt u q).trans (e20.trans ((sumsq_total V c q).trans k1.symm))

/-- The last point's tile is the whole row. -/
theorem sumsq_cover (i : S1x128.Idx) :
    ∃ t : Fin cfg2.N, (cfg2.win 6).flush t = true ∧ i ∈ ((cfg2.win 6).blk t).view.set := by
  have hi0 : (i 0).val < 1 := (i 0).isLt
  have hi1 : (i 1).val < 128 := (i 1).isLt
  have hN : cfg2.N = 20 := N_2
  let t : Fin cfg2.N := ⟨19, by rw [hN]; decide⟩
  obtain ⟨-, -, -, -, -, -, -, -, -, -, -, e0, e1⟩ := idx_facts t
  refine ⟨t, (flush2_6 t).mpr rfl, ?_⟩
  have he : ((cfg2.win 6).blk t).view.emb (ix2 (⟨(i 0).val, hi0⟩ : Fin 1) (⟨(i 1).val, hi1⟩ : Fin 128)) = i := by
    funext a
    apply Fin.ext
    match a with
    | ⟨0, _⟩ =>
      show win2_6.index t (0 : Fin 2) * 1 + 1 * (i 0).val = (i 0).val
      rw [e0]; omega
    | ⟨1, _⟩ =>
      show win2_6.index t (1 : Fin 2) * 128 + 1 * (i 1).val = (i 1).val
      rw [e1]; omega
  rw [← he]
  exact ((cfg2.win 6).blk t).view.emb_mem_set _

/-- The array of column sums of h·h after the grid. -/
theorem sumsq_arr : (dat2 V c).arrAt 6 cfg2.N = sumsqArr V c :=
  (dat2 V c).arrAt_eq_of_cover 6 (sumsqArr V c) (sumsq_flushed V c) (sumsq_cover)

/-- Lane k of the column sums of h·h after the grid. -/
theorem sumsq_arr_apply (k : Fin 128) :
    ((dat2 V c).arrAt 6 cfg2.N : S1x128.Idx → EReal) (ix2 0 k) = ∑ r : Fin 100000, LayerFns.h1Fn (inX V c) (inA V c) (inW V c) (inB V c) r k * LayerFns.h1Fn (inX V c) (inA V c) (inW V c) (inB V c) r k := by
  rw [sumsq_arr]; rfl

end Cert.KernelIdeal.Layer1V.R2

end
-- ==== Proof.Layer2V3Payload.lean ====
/-
  The second half of a layer, on one tile of 5000 rows: what the body stores, entry by entry.

  The body reads the tile h of the hidden rows, the column means m and variances v (each a 1 × 128 row), the scale γ,
  the shift β, the weight matrix W and the bias b. It normalises each entry, γ·(h − m)·rsqrt(v + ε) + β, takes the
  maximum with 0, multiplies the 5000 × 128 result by W on the matrix unit into a zero accumulator, adds b and takes
  the maximum with 0 again. Every step but the product is entrywise, and the row statistics, scale, shift and bias
  reach the tile by being repeated over its rows; so the stored entry at row p, column q depends on row p of the tile
  only: it is max(∑ j, max(γ j·(h p j − m j)·rsqrt(v j + ε) + β j, 0)·W j q + b q, 0).
-/
import proofs.«164329_j2903397892177_1_alg».proof.Proof.Gen.KernelIdeal.Skeleton
import proofs.«164329_j2903397892177_1_alg».proof.Proof.LayerFns
import proofs.«164329_j2903397892177_1_alg».proof.Proof.LibMatmulEntry
import proofs.«164329_j2903397892177_1_alg».proof.Proof.LibRowOfVector
import Idealize.ShloMosaic.Lib.ValueIdx

noncomputable section

namespace Cert.KernelIdeal.Layer2V

open Cert.KernelIdeal Cert.KernelIdeal.Gen Idealize.ShloMosaic Idealize.ShloMosaic.ValueIdx

/-- The stored entry at row p, column q of the tile: the normalised, scaled and shifted row p, cut at 0, times column
    q of the weights, plus the bias at q, cut at 0. The format changes in front of the product are the identity on
    the extended reals, and the product into zeros is the plain sum over the 128 contracted positions. -/
theorem k3_pay1_apply (vr : FVec Ideal S1x128 .f32) (g : FVec Ideal S128 .f32) (h : FVec Ideal S5000x128 .f32)
    (mn : FVec Ideal S1x128 .f32) (bt : FVec Ideal S128 .f32) (w : FVec Ideal S128x128 .f32) (b2 : FVec Ideal S128 .f32)
    (p : Fin 5000) (q : Fin 128) :
    k3_pay1 (F := Ideal) vr g h mn bt w b2 (ix2 p q)
      = max ((∑ j : Fin 128,
            max (g (ix1 j) * (h (ix2 p j) - mn (ix2 (0 : Fin 1) j)) * Ideal.rsqrt (vr (ix2 (0 : Fin 1) j) + LayerFns.eps)
              + bt (ix1 j)) 0 * w (ix2 j q)) + b2 (ix1 q)) 0 := by
  unfold k3_pay1
  refine (maximumf_apply _ _ (ix2 p q)).trans ?_
  refine congrArg₂ max ?_ Ideal.ofBits_zero_f32
  refine (addf_apply _ _ (ix2 p q)).trans ?_
  refine congrArg₂ (· + ·) ?_ (RowOfVector.vecSelfRow_apply b2 _ _ _ p q)
  refine (PlainMatmul.matmul_zero_apply Facts₀.dot_S5000x128_S128x128_S5000x128_1_0_0_1_n_n_wf none _ _ p q).trans ?_
  refine Finset.sum_congr rfl fun j _ => ?_
  refine congrArg₂ (· * ·) ?_ (congrFun (shapeCast_self w _) (ix2 j q))
  refine congrArg₂ max ?_ Ideal.ofBits_zero_f32
  refine congrArg₂ (· + ·) ?_ (RowOfVector.vecSelfRow_apply bt _ _ _ p j)
  refine congrArg₂ (· * ·)
    (congrArg₂ (· * ·) (RowOfVector.vecSelfRow_apply g _ _ _ p j)
      (congrArg₂ (· - ·) (congrFun (shapeCast_self h _) (ix2 p j)) (RowOfVector.rowSelfRow_apply mn _ _ p j))) ?_
  refine (broadcastTo_1b_ab_apply _ _ p j).trans ?_
  exact congrArg (fun t => Ideal.rsqrt (t + LayerFns.eps)) (congrFun (shapeCast_self vr _) (ix2 (0 : Fin 1) j))

end Cert.KernelIdeal.Layer2V

end
-- ==== Proof.Layer2V3Blocks.lean ====
/-
  The second half of a layer, over the whole array: from the tiles to the 100000 × 128 result.

  The region runs the body at 20 grid points. At point t the tile of hidden rows is rows 5000·t … 5000·t + 4999 of
  the array it reads, the six small operands (column means and variances, scale, shift, weights, bias) are whole
  arrays at every point, and the tile written back is rows 5000·t … 5000·t + 4999 of the result. The body's entry at
  row p of the tile depends on row p of its tile only, so what point t writes back is rows 5000·t … of ONE function of
  the arrays, the layer's second half entry by entry; the 20 tiles cover all 100000 rows (row r lies in tile
  r / 5000), so that function is the whole result.
-/
import proofs.«164329_j2903397892177_1_alg».proof.Proof.Gen.KernelIdeal.Frame
import proofs.«164329_j2903397892177_1_alg».proof.Proof.Layer2V3Payload
import Idealize.ShloMosaic.Lib.Pipeline.Value

set_option maxRecDepth 16384

noncomputable section

namespace Cert.KernelIdeal.Layer2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The region's result as one function of the arrays it reads, entry by entry: the layer's second half at row
    `i 0` and column `i 1`, of the hidden rows (window 0), the column means and variances (windows 1 and 2, each one
    row), the scale and the shift (windows 3 and 4), the weights (window 5) and the bias (window 6). -/
def result3 : S100000x128.Idx → EReal := fun i =>
  LayerFns.layer2Fn
    (fun r j => (V c (Pipeline.arrRef spec3 0) : S100000x128.Idx → EReal) (ix2 r j))
    (fun j => (V c (Pipeline.arrRef spec3 1) : S1x128.Idx → EReal) (ix2 (0 : Fin 1) j))
    (fun j => (V c (Pipeline.arrRef spec3 2) : S1x128.Idx → EReal) (ix2 (0 : Fin 1) j))
    (fun j => (V c (Pipeline.arrRef spec3 3) : S128.Idx → EReal) (ix1 j))
    (fun j => (V c (Pipeline.arrRef spec3 4) : S128.Idx → EReal) (ix1 j))
    (fun j k => (V c (Pipeline.arrRef spec3 5) : S128x128.Idx → EReal) (ix2 j k))
    (fun k => (V c (Pipeline.arrRef spec3 6) : S128.Idx → EReal) (ix1 k))
    ⟨(i 0).val, idx2_lt0 i⟩ ⟨(i 1).val, idx2_lt1 i⟩

/-- The zero offsets of a whole rank-2 buffer, as a constant function. -/
private theorem zeroPair : (![0, 0] : Fin 2 → Nat) = fun _ => 0 := funext fun a => by fin_cases a <;> rfl
/-- The zero offset of a whole rank-1 buffer, as a constant function. -/
private theorem zeroSingle : (![0] : Fin 1 → Nat) = fun _ => 0 := funext fun a => by fin_cases a <;> rfl

/-- The index maps over the grid: the tile read and the tile written move with the point along the rows, and the six
    small operands stay at block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 1) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-! ## The blocks the body reads, as entries of the arrays -/

/-- Row p of the tile read at point t is row 5000·t + p of the array of hidden rows. -/
theorem read3_0 (t : Fin cfg3.N) (p : Fin 5000) (j : Fin 128) (r : Fin 100000) (hr : r.val = 5000 * t.val + p.val) :
    iblk3 V c 0 t (ix2 p j) = V c (Pipeline.arrRef spec3 0) (ix2 r j) := by
  obtain ⟨e0, e1, -⟩ := idx_facts3 t
  show V c (Pipeline.arrRef spec3 0) (((cfg3.win 0).blk t).view.emb (ix2 p j)) = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * j.val = j.val; rw [e1]; omega

/-- The row of column means is read whole at every point. -/
theorem read3_1 (t : Fin cfg3.N) (j : Fin 128) :
    iblk3 V c 1 t (ix2 (0 : Fin 1) j) = V c (Pipeline.arrRef spec3 1) (ix2 (0 : Fin 1) j) := by
  obtain ⟨-, -, e0, e1, -⟩ := idx_facts3 t
  show V c (Pipeline.arrRef spec3 1) (((cfg3.win 1).blk t).view.emb (ix2 (0 : Fin 1) j)) = _
  refine congrArg _ (funext fun a => Fin.ext ?_)
  match a with
  | ⟨0, _⟩ => show win3_1.index t (0 : Fin 2) * 1 + 1 * 0 = 0; rw [e0]
  | ⟨1, _⟩ => show win3_1.index t (1 : Fin 2) * 128 + 1 * j.val = j.val; rw [e1]; omega

/-- The row of column variances is read whole at every point. -/
theorem read3_2 (t : Fin cfg3.N) (j : Fin 128) :
    iblk3 V c 2 t (ix2 (0 : Fin 1) j) = V c (Pipeline.arrRef spec3 2) (ix2 (0 : Fin 1) j) := by
  obtain ⟨-, -, -, -, e0, e1, -⟩ := idx_facts3 t
  show V c (Pipeline.arrRef spec3 2) (((cfg3.win 2).blk t).view.emb (ix2 (0 : Fin 1) j)) = _
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * j.val = j.val; rw [e1]; omega

/-- The scale is read whole at every point. -/
theorem read3_3 (t : Fin cfg3.N) (j : Fin 128) :
    iblk3 V c 3 t (ix1 j) = V c (Pipeline.arrRef spec3 3) (ix1 j) := by
  obtain ⟨-, -, -, -, -, -, e0, -⟩ := idx_facts3 t
  show V c (Pipeline.arrRef spec3 3) (((cfg3.win 3).blk t).view.emb (ix1 j)) = _
  refine congrArg _ (funext fun a => Fin.ext ?_)
  match a with
  | ⟨0, _⟩ => show win3_3.index t (0 : Fin 1) * 128 + 1 * j.val = j.val; rw [e0]; omega

/-- The shift is read whole at every point. -/
theorem read3_4 (t : Fin cfg3.N) (j : Fin 128) :
    iblk3 V c 4 t (ix1 j) = V c (Pipeline.arrRef spec3 4) (ix1 j) := by
  obtain ⟨-, -, -, -, -, -, -, e0, -⟩ := idx_facts3 t
  show V c (Pipeline.arrRef spec3 4) (((cfg3.win 4).blk t).view.emb (ix1 j)) = _
  refine congrArg _ (funext fun a => Fin.ext ?_)
  match a with
  | ⟨0, _⟩ => show win3_4.index t (0 : Fin 1) * 128 + 1 * j.val = j.val; rw [e0]; omega

/-- The weights are read whole at every point. -/
theorem read3_5 (t : Fin cfg3.N) (j k : Fin 128) :
    iblk3 V c 5 t (ix2 j k) = V c (Pipeline.arrRef spec3 5) (ix2 j k) := by
  obtain ⟨-, -, -, -, -, -, -, -, e0, e1, -⟩ := idx_facts3 t
  show V c (Pipeline.arrRef spec3 5) (((cfg3.win 5).blk t).view.emb (ix2 j k)) = _
  refine congrArg _ (funext fun a => Fin.ext ?_)
  match a with
  | ⟨0, _⟩ => show win3_5.index t (0 : Fin 2) * 128 + 1 * j.val = j.val; rw [e0]; omega
  | ⟨1, _⟩ => show win3_5.index t (1 : Fin 2) * 128 + 1 * k.val = k.val; rw [e1]; omega

/-- The bias is read whole at every point. -/
theorem read3_6 (t : Fin cfg3.N) (k : Fin 128) :
    iblk3 V c 6 t (ix1 k) = V c (Pipeline.arrRef spec3 6) (ix1 k) := by
  obtain ⟨-, -, -, -, -, -, -, -, -, -, e0, -⟩ := idx_facts3 t
  show V c (Pipeline.arrRef spec3 6) (((cfg3.win 6).blk t).view.emb (ix1 k)) = _
  refine congrArg _ (funext fun a => Fin.ext ?_)
  match a with
  | ⟨0, _⟩ => show win3_6.index t (0 : Fin 1) * 128 + 1 * k.val = k.val; rw [e0]; omega

/-- Row p of the tile written at point t is row 5000·t + p of the result. -/
theorem emb3_7 (t : Fin cfg3.N) (p : Fin 5000) (q : Fin 128) (r : Fin 100000) (hr : r.val = 5000 * t.val + p.val) :
    ((cfg3.win 7).blk t).view.emb (ix2 p q) = ix2 r q := by
  obtain ⟨-, -, -, -, -, -, -, -, -, -, -, e0, e1⟩ := idx_facts3 t
  refine funext fun a => Fin.ext ?_
  match a with
  | ⟨0, _⟩ => show win3_7.index t (0 : Fin 2) * 5000 + 1 * p.val = r.val; rw [e0, hr]; omega
  | ⟨1, _⟩ => show win3_7.index t (1 : Fin 2) * 128 + 1 * q.val = q.val; rw [e1]; omega

/-! ## What a point writes back -/

/-- What point t writes back is rows 5000·t … 5000·t + 4999 of `result3`: the body's entry at row p of its tile is
    the layer's second half of row p of the tile read, which is row 5000·t + p of the array. -/
theorem flushed3_7_eq (t : Fin cfg3.N) :
    (dat3 V c).flushed 7 t = ((cfg3.win 7).blk t).view.read (Elt Ideal) (result3 V c) := by
  show (cfg3.win 7).cut (grid3.coords t) ((dat3 V c).after 7 t) = _
  rw [after3_7]
  unfold out3_7
  rw [View.canon_unit_zero zeroPair]
  simp only [View.ld_unit_zero (S := S5000x128) zeroPair, View.ld_unit_zero (S := S1x128) zeroPair,
    View.ld_unit_zero (S := S128x128) zeroPair, View.ld_unit_zero (S := S128) zeroSingle]
  funext y
  obtain ⟨p, q, rfl⟩ : ∃ (p : Fin 5000) (q : Fin 128), y = ix2 p q := ⟨y 0, y 1, eq_ix2 (n0 := 5000) (n1 := 128) y⟩
  have hN : cfg3.N = 20 := N_3
  have htl : t.val < 20 := hN ▸ t.isLt
  obtain ⟨r, hr⟩ : ∃ r : Fin 100000, r.val = 5000 * t.val + p.val := ⟨⟨5000 * t.val + p.val, by have := p.isLt; omega⟩, rfl⟩
  show k3_pay1 (F := Ideal) (iblk3 V c 2 t) (iblk3 V c 3 t) (iblk3 V c 0 t) (iblk3 V c 1 t) (iblk3 V c 4 t) (iblk3 V c 5 t) (iblk3 V c 6 t) (ix2 p q)
      = result3 V c (((cfg3.win 7).blk t).view.emb (ix2 p q))
  refine (k3_pay1_apply (iblk3 V c 2 t) (iblk3 V c 3 t) (iblk3 V c 0 t) (iblk3 V c 1 t) (iblk3 V c 4 t) (iblk3 V c 5 t) (iblk3 V c 6 t) p q).trans ?_
  refine Eq.trans ?_ (congrArg (result3 V c) (emb3_7 t p q r hr)).symm
  show _ = LayerFns.layer2Fn _ _ _ _ _ _ _ r q
  unfold LayerFns.layer2Fn LayerFns.normFn
  refine congrArg₂ max (congrArg₂ (· + ·) (Finset.sum_congr rfl fun j _ => ?_) (read3_6 V c t q)) rfl
  refine congrArg₂ (· * ·) (congrArg₂ max (congrArg₂ (· + ·) (congrArg₂ (· * ·) (congrArg₂ (· * ·) (read3_3 V c t j)
    (congrArg₂ (· - ·) (read3_0 V c t p j r hr) (read3_1 V c t j)))
    (congrArg (fun x => Ideal.rsqrt (x + LayerFns.eps)) (read3_2 V c t j))) (read3_4 V c t j)) rfl) (read3_5 V c t j q)

/-! ## The 20 tiles cover the result -/

/-- An index of the result is in point t's tile iff each coordinate is in the tile's range on its axis. -/
theorem mem_blk3_7 (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole (Pipeline.arrRef spec3 7)).slice (win3_7.rect t)).set ↔ _
  rw [View.set_slice_whole, Rect.mem_set_unit]
  exact Iff.rfl

/-- Row r of the result lies in the tile of point r / 5000, and every point writes its tile back. -/
theorem cover3_7_arr (i : S100000x128.Idx) :
    ∃ t : Fin cfg3.N, (cfg3.win 7).flush t = true ∧ i ∈ ((cfg3.win 7).blk t).view.set := by
  have hN : cfg3.N = 20 := N_3
  have hi0 : (i 0).val < 100000 := idx2_lt0 i
  have hi1 : (i 1).val < 128 := idx2_lt1 i
  obtain ⟨t, ht⟩ : ∃ t : Fin cfg3.N, t.val = (i 0).val / 5000 := ⟨⟨(i 0).val / 5000, by rw [hN]; omega⟩, rfl⟩
  obtain ⟨-, -, -, -, -, -, -, -, -, -, -, e0, e1⟩ := idx_facts3 t
  refine ⟨t, flush3_7 t, ?_⟩
  rw [mem_blk3_7]
  intro a
  match a with
  | ⟨0, _⟩ =>
    show win3_7.index t (0 : Fin 2) * 5000 ≤ (i 0).val ∧ (i 0).val < win3_7.index t (0 : Fin 2) * 5000 + 5000
    rw [e0]; omega
  | ⟨1, _⟩ =>
    show win3_7.index t (1 : Fin 2) * 128 ≤ (i 1).val ∧ (i 1).val < win3_7.index t (1 : Fin 2) * 128 + 128
    rw [e1]; omega

/-! ## The result -/

/-- THE ARRAY the region leaves in its result window is `result3` of the arrays it reads. -/
theorem arr3_7_eq : (dat3 V c).arrAt 7 cfg3.N = result3 V c :=
  (dat3 V c).arrAt_eq_of_cover 7 (result3 V c) (fun t _ => flushed3_7_eq V c t) (cover3_7_arr)

/-- Entry by entry: row r, column k of the result is the layer's second half of row r of the hidden rows. -/
theorem arr3_7_apply (r : Fin 100000) (k : Fin 128) :
    (dat3 V c).arrAt 7 cfg3.N (ix2 r k)
      = LayerFns.layer2Fn
          (fun r j => (V c (Pipeline.arrRef spec3 0) : S100000x128.Idx → EReal) (ix2 r j))
          (fun j => (V c (Pipeline.arrRef spec3 1) : S1x128.Idx → EReal) (ix2 (0 : Fin 1) j))
          (fun j => (V c (Pipeline.arrRef spec3 2) : S1x128.Idx → EReal) (ix2 (0 : Fin 1) j))
          (fun j => (V c (Pipeline.arrRef spec3 3) : S128.Idx → EReal) (ix1 j))
          (fun j => (V c (Pipeline.arrRef spec3 4) : S128.Idx → EReal) (ix1 j))
          (fun j k => (V c (Pipeline.arrRef spec3 5) : S128x128.Idx → EReal) (ix2 j k))
          (fun k => (V c (Pipeline.arrRef spec3 6) : S128.Idx → EReal) (ix1 k)) r k :=
  congrFun (arr3_7_eq V c) (ix2 r k)

end Cert.KernelIdeal.Layer2V

end
-- ==== Proof.KernelLayer1.lean ====
/-
  Layer 1 of the network as the kernel's regions 2 and 3 compute it is the reference's layer 1.

  Region 2 finds the node features, their neighbour sums and the layer's first weights and bias, and leaves the hidden
  rows H = (x + a)·W1 + b1 and the column sums of H and of H·H.  Between the regions the host takes the column mean and
  the column variance from those sums.  Region 3 finds H, the mean, the variance and the layer's scale, shift, second
  weights and bias, and leaves max(max(γ·(H − mean)·rsqrt(var + ε) + β, 0)·W2 + b2, 0).  With real features and real
  weights this is, entry by entry, the reference's layer of the same arrays, and it is real again.
-/
import proofs.«164329_j2903397892177_1_alg».proof.Proof.KernelRunVS2
import proofs.«164329_j2903397892177_1_alg».proof.Proof.KernelRunVS3
import proofs.«164329_j2903397892177_1_alg».proof.Proof.Layer1V2Sum
import proofs.«164329_j2903397892177_1_alg».proof.Proof.Layer1V2SumSq
import proofs.«164329_j2903397892177_1_alg».proof.Proof.Layer2V3Blocks
import proofs.«164329_j2903397892177_1_alg».proof.Proof.NeighbourReal
import proofs.«164329_j2903397892177_1_alg».proof.Proof.KernelLayerStats
import proofs.«164329_j2903397892177_1_alg».proof.Proof.KernelLayerHost

set_option maxRecDepth 16384

noncomputable section

namespace Cert.KernelIdeal.LayerV

open Idealize.ShloMosaic Idealize.ShloMosaic.TcCoe Idealize.ShloMosaic.ValueIdx Idealize.SL.Sem
open Idealize.ShloMosaic.Pipeline (Dat)
open Cert.KernelIdeal Cert.KernelIdeal.Gen LayerFns LayerBridge Cert.ReferenceIdeal.RefSpec

variable [Cert.ReferenceIdeal.Facts]

set_option maxHeartbeats 8000000 in
/-- Regions 2 and 3 over any contents: if region 2 finds real features `x`, their neighbour sum and the real weights
    `W1`, `b1`, and region 3 finds region 2's hidden rows, the host's mean and variance of its column sums, and the real
    `g`, `be`, `W2`, `b2`, then region 3 leaves the reference's layer of those arrays, a real array. -/
theorem layer1_regions (Va Vb : (c : Dev nD) → (b : Ref sig .tc) → Buf (Elt Ideal) ((c : Thread nD τ).loc b)) (c : Dev nD)
    (x : FA Cert.ReferenceIdeal.S100000x128) (src dst : IA Cert.ReferenceIdeal.S1600000) (W1 : FA Cert.ReferenceIdeal.S128x128) (b1 g be : FA Cert.ReferenceIdeal.S128)
    (W2 : FA Cert.ReferenceIdeal.S128x128) (b2 : FA Cert.ReferenceIdeal.S128)
    (hx : AllReal x) (hW1 : AllReal W1) (hb1 : AllReal b1) (hg : AllReal g) (hbe : AllReal be) (hW2 : AllReal W2)
    (hb2 : AllReal b2)
    (sx : (Va c (Pipeline.arrRef spec2 0) : S100000x128.Idx → EReal) = x)
    (sa : (Va c (Pipeline.arrRef spec2 1) : S100000x128.Idx → EReal) = neighbourSum x src dst)
    (sw : (Va c (Pipeline.arrRef spec2 2) : S128x128.Idx → EReal) = W1)
    (sb : (Va c (Pipeline.arrRef spec2 3) : S128.Idx → EReal) = b1)
    (sh : (Vb c (Pipeline.arrRef spec3 0) : S100000x128.Idx → EReal) = (dat2 Va c).arrAt 4 cfg2.N)
    (sm : (Vb c (Pipeline.arrRef spec3 1) : S1x128.Idx → EReal) = RunV.meanOf ((dat2 Va c).arrAt 5 cfg2.N))
    (sv : (Vb c (Pipeline.arrRef spec3 2) : S1x128.Idx → EReal) = RunV.varOf ((dat2 Va c).arrAt 5 cfg2.N) ((dat2 Va c).arrAt 6 cfg2.N))
    (sg : (Vb c (Pipeline.arrRef spec3 3) : S128.Idx → EReal) = g)
    (sbe : (Vb c (Pipeline.arrRef spec3 4) : S128.Idx → EReal) = be)
    (sw2 : (Vb c (Pipeline.arrRef spec3 5) : S128x128.Idx → EReal) = W2)
    (sb2 : (Vb c (Pipeline.arrRef spec3 6) : S128.Idx → EReal) = b2) :
    ((dat3 Vb c).arrAt 7 cfg3.N : S100000x128.Idx → EReal) = refLayer x src dst W1 b1 g be W2 b2
      ∧ AllReal (refLayer x src dst W1 b1 g be W2 b2) := by
  -- what region 2 found, by row and column
  have eX : Layer1V.R2.inX Va c = fun r j => x (ix2 r j) := funext fun r => funext fun j => congrFun sx (ix2 r j)
  have eA : Layer1V.R2.inA Va c = fun r j => neighbourSum x src dst (ix2 r j) :=
    funext fun r => funext fun j => congrFun sa (ix2 r j)
  have eW : Layer1V.R2.inW Va c = fun j k => W1 (ix2 j k) := funext fun j => funext fun k => congrFun sw (ix2 j k)
  have eB : Layer1V.R2.inB Va c = fun k => b1 (ix1 k) := funext fun k => congrFun sb (ix1 k)
  -- the hidden rows, the mean and the variance region 3 finds, in terms of region 2's inputs
  have hHk : ∀ r j, (Vb c (Pipeline.arrRef spec3 0) : S100000x128.Idx → EReal) (ix2 r j) = h1Fn (Layer1V.R2.inX Va c) (Layer1V.R2.inA Va c) (Layer1V.R2.inW Va c) (Layer1V.R2.inB Va c) r j :=
    fun r j => (congrFun sh (ix2 r j)).trans (Layer1V.R2.arr_h_apply Va c r j)
  have hMk : ∀ j, (Vb c (Pipeline.arrRef spec3 1) : S1x128.Idx → EReal) (ix2 (0 : Fin 1) j)
      = Ideal.div (∑ r, h1Fn (Layer1V.R2.inX Va c) (Layer1V.R2.inA Va c) (Layer1V.R2.inW Va c) (Layer1V.R2.inB Va c) r j) ((100000 : ℝ) : EReal) := fun j => by
    rw [sm, meanOf_apply, Layer1V.R2.sum_arr_apply Va c j]
  have hVk : ∀ j, (Vb c (Pipeline.arrRef spec3 2) : S1x128.Idx → EReal) (ix2 (0 : Fin 1) j)
      = Ideal.div (∑ r, h1Fn (Layer1V.R2.inX Va c) (Layer1V.R2.inA Va c) (Layer1V.R2.inW Va c) (Layer1V.R2.inB Va c) r j * h1Fn (Layer1V.R2.inX Va c) (Layer1V.R2.inA Va c) (Layer1V.R2.inW Va c) (Layer1V.R2.inB Va c) r j) ((100000 : ℝ) : EReal)
        - Ideal.div (∑ r, h1Fn (Layer1V.R2.inX Va c) (Layer1V.R2.inA Va c) (Layer1V.R2.inW Va c) (Layer1V.R2.inB Va c) r j) ((100000 : ℝ) : EReal) * Ideal.div (∑ r, h1Fn (Layer1V.R2.inX Va c) (Layer1V.R2.inA Va c) (Layer1V.R2.inW Va c) (Layer1V.R2.inB Va c) r j) ((100000 : ℝ) : EReal) := fun j => by
    rw [sv, varOf_apply, Layer1V.R2.sumsq_arr_apply Va c j, Layer1V.R2.sum_arr_apply Va c j]
  have key : ∀ (r : Fin 100000) (k : Fin 128),
      ((dat3 Vb c).arrAt 7 cfg3.N : S100000x128.Idx → EReal) (ix2 r k) = refLayer x src dst W1 b1 g be W2 b2 (ix2 r k)
        ∧ ∃ y : ℝ, refLayer x src dst W1 b1 g be W2 b2 (ix2 r k) = (y : EReal) := fun r k => by
    have hcore := layer_core x src dst W1 b1 g be W2 b2 (fun r j => hx (ix2 r j))
      (fun r j => neighbourSum_real x hx src dst r j) (fun j k => hW1 (ix2 j k)) (fun k => hb1 (ix1 k))
      (fun j => hg (ix1 j)) (fun j => hbe (ix1 j)) (fun j k => hW2 (ix2 j k)) (fun k => hb2 (ix1 k))
      (fun r j => (Vb c (Pipeline.arrRef spec3 0) : S100000x128.Idx → EReal) (ix2 r j))
      (fun j => (Vb c (Pipeline.arrRef spec3 1) : S1x128.Idx → EReal) (ix2 (0 : Fin 1) j))
      (fun j => (Vb c (Pipeline.arrRef spec3 2) : S1x128.Idx → EReal) (ix2 (0 : Fin 1) j))
      (fun j => (Vb c (Pipeline.arrRef spec3 3) : S128.Idx → EReal) (ix1 j))
      (fun j => (Vb c (Pipeline.arrRef spec3 4) : S128.Idx → EReal) (ix1 j))
      (fun j k => (Vb c (Pipeline.arrRef spec3 5) : S128x128.Idx → EReal) (ix2 j k))
      (fun k => (Vb c (Pipeline.arrRef spec3 6) : S128.Idx → EReal) (ix1 k))
      (fun r j => by dsimp only; rw [hHk r j, eX, eA, eW, eB])
      (fun j => by dsimp only; rw [hMk j]; simp only [hHk])
      (fun j => by dsimp only; rw [hVk j, hMk j]; simp only [hHk])
      (fun j => congrFun sg (ix1 j)) (fun j => congrFun sbe (ix1 j)) (fun j k => congrFun sw2 (ix2 j k))
      (fun k => congrFun sb2 (ix1 k)) r k
    exact ⟨(Layer2V.arr3_7_apply Vb c r k).trans hcore.1, hcore.2⟩
  refine ⟨funext fun i => ?_, fun i => ?_⟩
  · obtain ⟨r, k, rfl⟩ : ∃ (r : Fin 100000) (k : Fin 128), i = ix2 r k := ⟨i 0, i 1, eq_ix2 i⟩
    exact (key r k).1
  · obtain ⟨r, k, rfl⟩ : ∃ (r : Fin 100000) (k : Fin 128), i = ix2 r k := ⟨i 0, i 1, eq_ix2 i⟩
    exact (key r k).2

set_option maxHeartbeats 8000000 in
/-- Layer 1 on the launched weights: if the features entering the layer — what region 1 left — are a real array `X`,
    then with real weights region 3 leaves the reference's layer 1 of `X`, the launched edge table and stacked weights,
    a real array. -/
theorem layer1_out (m : (ℓ : Loc nD τ sig) → Buf (Elt Ideal) ℓ) (ρ : Dev nD → PrngReg) (c : Dev nD)
    (X : FA Cert.ReferenceIdeal.S100000x128)
    (hX : ((dat1 (V3 m ρ) c).arrAt 7 cfg1.N : S100000x128.Idx → EReal) = X) (hXr : AllReal X)
    (h3 : AllReal (s := Cert.ReferenceIdeal.S5x128x128) (m ((c : Thread nD τ).loc main_arg3))) (h4 : AllReal (s := Cert.ReferenceIdeal.S5x128) (m ((c : Thread nD τ).loc main_arg4)))
    (h5 : AllReal (s := Cert.ReferenceIdeal.S5x128) (m ((c : Thread nD τ).loc main_arg5))) (h6 : AllReal (s := Cert.ReferenceIdeal.S5x128) (m ((c : Thread nD τ).loc main_arg6)))
    (h7 : AllReal (s := Cert.ReferenceIdeal.S5x128x128) (m ((c : Thread nD τ).loc main_arg7))) (h8 : AllReal (s := Cert.ReferenceIdeal.S5x128) (m ((c : Thread nD τ).loc main_arg8))) :
    ((dat3 (V7 m ρ) c).arrAt 7 cfg3.N : S100000x128.Idx → EReal)
        = layerAt 1 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) X
      ∧ AllReal (s := Cert.ReferenceIdeal.S100000x128) ((dat3 (V7 m ρ) c).arrAt 7 cfg3.N) := by
  have h := layer1_regions (V5 m ρ) (V7 m ρ) c X (edgeRow 0 (m ((c : Thread nD τ).loc main_arg1))) (edgeRow 1 (m ((c : Thread nD τ).loc main_arg1)))
    (mat 1 (m ((c : Thread nD τ).loc main_arg3))) (vec 1 (m ((c : Thread nD τ).loc main_arg4))) (vec 1 (m ((c : Thread nD τ).loc main_arg5))) (vec 1 (m ((c : Thread nD τ).loc main_arg6))) (mat 1 (m ((c : Thread nD τ).loc main_arg7))) (vec 1 (m ((c : Thread nD τ).loc main_arg8)))
    hXr (fun i => mat_real 1 _ h3 i) (fun i => vec_real 1 _ h4 i) (fun i => vec_real 1 _ h5 i)
    (fun i => vec_real 1 _ h6 i) (fun i => mat_real 1 _ h7 i) (fun i => vec_real 1 _ h8 i)
    ((RunV.s2_x m ρ c).trans hX)
    ((RunV.s2_agg m ρ c).trans (by rw [hX]; exact nbrSum_eq _ _))
    ((RunV.s2_w m ρ c).trans (layerMat_eq1 _ _))
    ((RunV.s2_b m ρ c).trans (layerVec_eq1 _ _))
    (RunV.s3_h m ρ c) (RunV.s3_mean m ρ c) (RunV.s3_var m ρ c)
    ((RunV.s3_gamma m ρ c).trans (layerVec_eq1 _ _))
    ((RunV.s3_beta m ρ c).trans (layerVec_eq1 _ _))
    ((RunV.s3_w2 m ρ c).trans (layerMat_eq1 _ _))
    ((RunV.s3_b2 m ρ c).trans (layerVec_eq1 _ _))
  exact ⟨h.1, h.1 ▸ h.2⟩

end Cert.KernelIdeal.LayerV

end
-- ==== Proof.KernelRunVS4.lean ====
/-
  Layer 2's first region (region 4) is entered after a stretch of host operations run from region 3's exit. Its four
  input arrays then hold: the features x that layer 1's second region left; the neighbour sum of x along the launched
  edge table; layer 2's slice of the first stacked weight matrix and of the first stacked bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkA

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 4, input window 0 holds the features as region 3's write-backs left them (its output window 7):
    no operation of the stretch writes that array. -/
theorem s4_x (c : Dev nD) :
    (V9 m ρ c main_v63 : (⟨S100000x128, .f32⟩ : BufTy).Contents (Elt F)) = (dat3 (V7 m ρ) c).arrAt 7 cfg3.N := by
  have h7 : W8 m ρ c (Proc.devRef .tc main_v63) = (dat3 (V7 m ρ) c).arrAt 7 cfg3.N := W8_arr m ρ c 7
  rw [← h7]
  show StableHlo.after hostOps4 (W8 m ρ c) (Proc.devRef .tc main_v63) = _
  after_results <;> rfl

/-- Entering region 4, input window 1 holds the neighbour sum of the features region 3 left, along the launched edge
    table (its two rows as the first stretch read them off). -/
theorem s4_agg (c : Dev nD) :
    (V9 m ρ c main_v73 : (⟨S100000x128, .f32⟩ : BufTy).Contents (Elt F))
      = nbrSum ((dat3 (V7 m ρ) c).arrAt 7 cfg3.N) (edgeSrc (m ((c : Thread nD τ).loc main_arg1))) (edgeDst (m ((c : Thread nD τ).loc main_arg1))) := by
  have h7 : W8 m ρ c (Proc.devRef .tc main_v63) = (dat3 (V7 m ρ) c).arrAt 7 cfg3.N := W8_arr m ρ c 7
  rw [← h7, ← w8_main_v1 m ρ c, ← w8_main_v3 m ρ c]
  unfold nbrSum
  show StableHlo.after hostOps4 (W8 m ρ c) (Proc.devRef .tc main_v73) = _
  after_results_simp <;> rfl

/-- Entering region 4, input window 2 holds layer 2's matrix of the first stacked weights, as launched. -/
theorem s4_w (c : Dev nD) :
    (V9 m ρ c main_v75 : (⟨S128x128, .f32⟩ : BufTy).Contents (Elt F))
      = layerMat ![2, 0, 0] slices_S5x128x128_S1x128x128_2_0_0 (m ((c : Thread nD τ).loc main_arg3)) := by
  rw [← w8_main_arg3 m ρ c]
  unfold layerMat
  show StableHlo.after hostOps4 (W8 m ρ c) (Proc.devRef .tc main_v75) = _
  after_results <;> rfl

/-- Entering region 4, input window 3 holds layer 2's vector of the first stacked biases, as launched. -/
theorem s4_b (c : Dev nD) :
    (V9 m ρ c main_v77 : (⟨S128, .f32⟩ : BufTy).Contents (Elt F))
      = layerVec ![2, 0] slices_S5x128_S1x128_2_0 (m ((c : Thread nD τ).loc main_arg4)) := by
  rw [← w8_main_arg4 m ρ c]
  unfold layerVec
  show StableHlo.after hostOps4 (W8 m ρ c) (Proc.devRef .tc main_v77) = _
  after_results <;> rfl

end Cert.KernelIdeal.RunV

end
-- ==== Proof.KernelRunVS5.lean ====
/-
  Layer 2's second region (region 5) is entered after a stretch of host operations run from region 4's exit. Its
  seven input arrays then hold: the first linear map's output h as region 4 left it; the column mean and variance of
  h from the column sums s and ss region 4 left (s / 100000 and ss / 100000 - (s / 100000)^2); layer 2's slices of the
  stacked scale, shift, second weight matrix and second bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkA

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 5, input window 0 holds the first linear map's output as region 4's write-backs left it (its
    output window 4): no operation of the stretch writes that array. -/
theorem s5_h (c : Dev nD) :
    (V11 m ρ c main_v78_0 : (⟨S100000x128, .f32⟩ : BufTy).Contents (Elt F)) = (dat4 (V9 m ρ) c).arrAt 4 cfg4.N := by
  have h4 : W10 m ρ c (Proc.devRef .tc main_v78_0) = (dat4 (V9 m ρ) c).arrAt 4 cfg4.N := W10_arr m ρ c 4
  rw [← h4]
  show StableHlo.after hostOps5 (W10 m ρ c) (Proc.devRef .tc main_v78_0) = _
  after_results <;> rfl

/-- Entering region 5, input window 1 holds the column mean: region 4's column sum (its output window 5) over 100000. -/
theorem s5_mean (c : Dev nD) :
    (V11 m ρ c main_v80 : (⟨S1x128, .f32⟩ : BufTy).Contents (Elt F)) = meanOf ((dat4 (V9 m ρ) c).arrAt 5 cfg4.N) := by
  have h5 : W10 m ρ c (Proc.devRef .tc main_v78_1) = (dat4 (V9 m ρ) c).arrAt 5 cfg4.N := W10_arr m ρ c 5
  rw [← h5]
  unfold meanOf
  show StableHlo.after hostOps5 (W10 m ρ c) (Proc.devRef .tc main_v80) = _
  after_results <;> rfl

/-- Entering region 5, input window 2 holds the column variance: region 4's column sum of squares (its output window 6)
    over 100000, less the square of the column mean. -/
theorem s5_var (c : Dev nD) :
    (V11 m ρ c main_v84 : (⟨S1x128, .f32⟩ : BufTy).Contents (Elt F))
      = varOf ((dat4 (V9 m ρ) c).arrAt 5 cfg4.N) ((dat4 (V9 m ρ) c).arrAt 6 cfg4.N) := by
  have h5 : W10 m ρ c (Proc.devRef .tc main_v78_1) = (dat4 (V9 m ρ) c).arrAt 5 cfg4.N := W10_arr m ρ c 5
  have h6 : W10 m ρ c (Proc.devRef .tc main_v78_2) = (dat4 (V9 m ρ) c).arrAt 6 cfg4.N := W10_arr m ρ c 6
  rw [← h5, ← h6]
  unfold varOf meanOf
  show StableHlo.after hostOps5 (W10 m ρ c) (Proc.devRef .tc main_v84) = _
  after_results <;> rfl

/-- Entering region 5, input window 3 holds layer 2's slice of the stacked scale, as launched. -/
theorem s5_gamma (c : Dev nD) :
    (V11 m ρ c main_v86 : (⟨S128, .f32⟩ : BufTy).Contents (Elt F)) = layerVec ![2, 0] slices_S5x128_S1x128_2_0 (m ((c : Thread nD τ).loc main_arg5)) := by
  rw [← w10_main_arg5 m ρ c]
  unfold layerVec
  show StableHlo.after hostOps5 (W10 m ρ c) (Proc.devRef .tc main_v86) = _
  after_results <;> rfl

/-- Entering region 5, input window 4 holds layer 2's slice of the stacked shift, as launched. -/
theorem s5_beta (c : Dev nD) :
    (V11 m ρ c main_v88 : (⟨S128, .f32⟩ : BufTy).Contents (Elt F)) = layerVec ![2, 0] slices_S5x128_S1x128_2_0 (m ((c : Thread nD τ).loc main_arg6)) := by
  rw [← w10_main_arg6 m ρ c]
  unfold layerVec
  show StableHlo.after hostOps5 (W10 m ρ c) (Proc.devRef .tc main_v88) = _
  after_results <;> rfl

/-- Entering region 5, input window 5 holds layer 2's slice of the stacked second weight matrix, as launched. -/
theorem s5_w2 (c : Dev nD) :
    (V11 m ρ c main_v90 : (⟨S128x128, .f32⟩ : BufTy).Contents (Elt F)) = layerMat ![2, 0, 0] slices_S5x128x128_S1x128x128_2_0_0 (m ((c : Thread nD τ).loc main_arg7)) := by
  rw [← w10_main_arg7 m ρ c]
  unfold layerMat
  show StableHlo.after hostOps5 (W10 m ρ c) (Proc.devRef .tc main_v90) = _
  after_results <;> rfl

/-- Entering region 5, input window 6 holds layer 2's slice of the stacked second bias, as launched. -/
theorem s5_b2 (c : Dev nD) :
    (V11 m ρ c main_v92 : (⟨S128, .f32⟩ : BufTy).Contents (Elt F)) = layerVec ![2, 0] slices_S5x128_S1x128_2_0 (m ((c : Thread nD τ).loc main_arg8)) := by
  rw [← w10_main_arg8 m ρ c]
  unfold layerVec
  show StableHlo.after hostOps5 (W10 m ρ c) (Proc.devRef .tc main_v92) = _
  after_results <;> rfl

end Cert.KernelIdeal.RunV

end
-- ==== Proof.Layer1V4Pieces.lean ====
/-
  What one run of the first dense map's body leaves in its three output tiles.

  The body writes the tile of h once, and each of the two running rows once (at the first grid point twice: the zero
  row first, then the updated row, which reads the zero row back).  Each tile therefore ends holding the value of its
  last store: the tile of h; the running row plus the tile's column sums, where at the first point the running row is
  the zero row just stored and at a later point it is what the tile held before the body ran.
-/
import proofs.«164329_j2903397892177_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Layer1V.R4

open Cert.KernelIdeal Cert.KernelIdeal.Gen Idealize.ShloMosaic.ValueIdx

variable {F : FTy → Type} [FloatOps F]

/-- Zero offsets on two axes, as the stores spell them. -/
theorem hz2 : (![0, 0] : Fin 2 → Nat) = fun _ => 0 := funext fun a => by fin_cases a <;> rfl
/-- Zero offset on one axis. -/
theorem hz1 : (![0] : Fin 1 → Nat) = fun _ => 0 := funext fun a => by fin_cases a; rfl

/-- First point: the h tile ends at the body's h of the four input tiles. -/
theorem out_A_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 : Vec F S5000x128 .f32) (x1 : Vec F S5000x128 .f32) (x2 : Vec F S128x128 .f32) (x3 : Vec F S128 .f32) :
    out4_A_4 c i arg1 harg1 arg2 harg2 arg3 harg3 arg4 harg4 arg5 harg5 arg6 harg6 arg7 harg7 hc0 x0 x1 x2 x3 = k4_pay3 x0 x1 x2 x3 := by
  unfold out4_A_4
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum ends at the zero row plus the tile's column sums of h. -/
theorem out_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 : Vec F S5000x128 .f32) (x1 : Vec F S5000x128 .f32) (x2 : Vec F S128x128 .f32) (x3 : Vec F S128 .f32) :
    out4_A_5 c i arg1 harg1 arg2 harg2 arg3 harg3 arg4 harg4 arg5 harg5 arg6 harg6 arg7 harg7 hc0 x0 x1 x2 x3 = k4_pay4 x0 x1 x2 x3 k4_pay1 := by
  unfold out4_A_5
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum of squares ends at the zero row plus the tile's column sums of h·h. -/
theorem out_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond4_0 i)
    (x0 : Vec F S5000x128 .f32) (x1 : Vec F S5000x128 .f32) (x2 : Vec F S128x128 .f32) (x3 : Vec F S128 .f32) :
    out4_A_6 c i arg1 harg1 arg2 harg2 arg3 harg3 arg4 harg4 arg5 harg5 arg6 harg6 arg7 harg7 hc0 x0 x1 x2 x3 = k4_pay5 x0 x1 x2 x3 k4_pay2 := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the h tile ends at the body's h of the four input tiles. -/
theorem out_B_4 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 : Vec F S5000x128 .f32) (x1 : Vec F S5000x128 .f32) (x2 : Vec F S128x128 .f32) (x3 : Vec F S128 .f32) (xo5 : Vec F S1x128 .f32) (xo6 : Vec F S1x128 .f32) :
    out4_B_4 c i arg1 harg1 arg2 harg2 arg3 harg3 arg4 harg4 arg5 harg5 arg6 harg6 arg7 harg7 hc0 x0 x1 x2 x3 xo5 xo6 = k4_pay3 x0 x1 x2 x3 := by
  unfold out4_B_4
  rw [View.read_writes_eq_canon _ _ _ (cover4_B_4 c i arg1 harg1 arg2 harg2 arg3 harg3 arg4 harg4 arg5 harg5 arg6 harg6 arg7 harg7 hc0 x0 x1 x2 x3 xo5 xo6)]
  unfold kernelRun4_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum ends at what it held plus the tile's column sums of h. -/
theorem out_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 : Vec F S5000x128 .f32) (x1 : Vec F S5000x128 .f32) (x2 : Vec F S128x128 .f32) (x3 : Vec F S128 .f32) (xo5 : Vec F S1x128 .f32) (xo6 : Vec F S1x128 .f32) :
    out4_B_5 c i arg1 harg1 arg2 harg2 arg3 harg3 arg4 harg4 arg5 harg5 arg6 harg6 arg7 harg7 hc0 x0 x1 x2 x3 xo5 xo6 = k4_pay4 x0 x1 x2 x3 xo5 := by
  unfold out4_B_5
  rw [View.read_writes_eq_canon _ _ _ (cover4_B_5 c i arg1 harg1 arg2 harg2 arg3 harg3 arg4 harg4 arg5 harg5 arg6 harg6 arg7 harg7 hc0 x0 x1 x2 x3 xo5 xo6)]
  unfold kernelRun4_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum of squares ends at what it held plus the tile's column sums of h·h. -/
theorem out_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond4_0 i)
    (x0 : Vec F S5000x128 .f32) (x1 : Vec F S5000x128 .f32) (x2 : Vec F S128x128 .f32) (x3 : Vec F S128 .f32) (xo5 : Vec F S1x128 .f32) (xo6 : Vec F S1x128 .f32) :
    out4_B_6 c i arg1 harg1 arg2 harg2 arg3 harg3 arg4 harg4 arg5 harg5 arg6 harg6 arg7 harg7 hc0 x0 x1 x2 x3 xo5 xo6 = k4_pay5 x0 x1 x2 x3 xo6 := by
  unfold out4_B_6
  rw [View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

end Cert.KernelIdeal.Layer1V.R4

end
-- ==== Proof.Layer1V4Outs.lean ====
/-
  The three output tiles after each grid point of the first dense map, as values of the body's arithmetic.

  After the first point the tiles hold h of the point's input tiles, and the two running rows hold the zero row plus
  that tile's column sums.  After a later point they hold h of that point's input tiles, and the running rows hold
  what the point before left plus that tile's column sums.
-/
import proofs.«164329_j2903397892177_1_alg».proof.Proof.Layer1V4Pieces
import Idealize.ShloMosaic.Lib.ValueIdx

noncomputable section

open Idealize.ShloMosaic Idealize.ShloMosaic.TcCoe Idealize.SL.Sem
open Idealize.ShloMosaic.Pipeline (Dat)

namespace Cert.KernelIdeal.Layer1V.R4

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- After the first point: h of its tiles, and the zero rows plus the tile's column sums. -/
theorem outs_A (t : Fin cfg4.N) (h0 : t.val % 20 = 0) :
    outsAt4 V c t.val t.isLt
      = (k4_pay3 (iblk4 V c 0 t) (iblk4 V c 1 t) (iblk4 V c 2 t) (iblk4 V c 3 t),
         k4_pay4 (iblk4 V c 0 t) (iblk4 V c 1 t) (iblk4 V c 2 t) (iblk4 V c 3 t) k4_pay1,
         k4_pay5 (iblk4 V c 0 t) (iblk4 V c 1 t) (iblk4 V c 2 t) (iblk4 V c 3 t) k4_pay2) :=
  (outsAt4_A V c t h0).trans
    (congrArg₂ Prod.mk
      (out_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t))
      (congrArg₂ Prod.mk
        (out_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t))
        (out_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t))))

/-- After a later point: h of its tiles, and what the point before left plus the tile's column sums. -/
theorem outs_B (t : Fin cfg4.N) (h0 : ¬t.val % 20 = 0) :
    outsAt4 V c t.val t.isLt
      = (k4_pay3 (iblk4 V c 0 t) (iblk4 V c 1 t) (iblk4 V c 2 t) (iblk4 V c 3 t),
         k4_pay4 (iblk4 V c 0 t) (iblk4 V c 1 t) (iblk4 V c 2 t) (iblk4 V c 3 t) (outsAt4 V c (t.val - 1) (Nat.lt_of_le_of_lt (Nat.sub_le _ _) t.isLt)).2.1,
         k4_pay5 (iblk4 V c 0 t) (iblk4 V c 1 t) (iblk4 V c 2 t) (iblk4 V c 3 t) (outsAt4 V c (t.val - 1) (Nat.lt_of_le_of_lt (Nat.sub_le _ _) t.isLt)).2.2) :=
  (outsAt4_B V c t h0).trans
    (congrArg₂ Prod.mk
      (out_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2)
      (congrArg₂ Prod.mk
        (out_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2)
        (out_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2)))

/-- The h tile after any point is h of that point's input tiles. -/
theorem outs_h (t : Fin cfg4.N) : (outsAt4 V c t.val t.isLt).1 = k4_pay3 (iblk4 V c 0 t) (iblk4 V c 1 t) (iblk4 V c 2 t) (iblk4 V c 3 t) := by
  by_cases h0 : t.val % 20 = 0
  · rw [outs_A V c t h0]
  · rw [outs_B V c t h0]

end Cert.KernelIdeal.Layer1V.R4

end
-- ==== Proof.Layer1V4Blocks.lean ====
/-
  The input tiles of the first dense map as rows of the arrays they are cut from.

  At grid point t the row tiles of x and of the neighbour sums hold rows 5000·t … 5000·t + 4999 of their arrays, all
  128 lanes; the weight tile is the whole 128 × 128 weight matrix and the bias tile the whole bias vector at every
  point.  The output tile of h sits at the same rows; the two running rows are their whole 1 × 128 arrays.
-/
import proofs.«164329_j2903397892177_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Layer1V.R4

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- Where each window's tile sits at grid point t: the row windows at block row t, every other coordinate at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The grid has 20 points. -/
theorem lt20 (t : Fin cfg4.N) : t.val < 20 := lt_of_lt_of_eq t.isLt (show cfg4.N = 20 from N_4)

/-- The x tile at point t, entry (p, j), is x at row 5000·t + p, lane j. -/
theorem iblk_x (t : Fin cfg4.N) (p : Fin 5000) (j : Fin 128) (r : Fin 100000) (hr : r.val = 5000 * t.val + p.val) :
    (iblk4 V c 0 t : Vec F S5000x128 .f32) (ix2 p j)
      = (V c (Pipeline.arrRef spec4 0) : S100000x128.Idx → Elt F .f32) (ix2 r j) := by
  obtain ⟨e0, e1, -⟩ := idx_facts t
  unfold iblk4
  rw [View.read_apply]
  refine congrArg (V c (Pipeline.arrRef spec4 0) : S100000x128.Idx → Elt F .f32) (funext fun a => Fin.ext ?_)
  match a with
  | ⟨0, _⟩ => show win4_0.index t (0 : Fin 2) * 5000 + 1 * p.val = r.val; rw [e0, hr]; omega
  | ⟨1, _⟩ => show win4_0.index t (1 : Fin 2) * 128 + 1 * j.val = j.val; rw [e1]; omega

/-- The neighbour-sum tile at point t, entry (p, j), is the neighbour sums at row 5000·t + p, lane j. -/
theorem iblk_a (t : Fin cfg4.N) (p : Fin 5000) (j : Fin 128) (r : Fin 100000) (hr : r.val = 5000 * t.val + p.val) :
    (iblk4 V c 1 t : Vec F S5000x128 .f32) (ix2 p j)
      = (V c (Pipeline.arrRef spec4 1) : S100000x128.Idx → Elt F .f32) (ix2 r j) := by
  obtain ⟨-, -, e0, e1, -⟩ := idx_facts t
  unfold iblk4
  rw [View.read_apply]
  refine congrArg (V c (Pipeline.arrRef spec4 1) : S100000x128.Idx → Elt F .f32) (funext fun a => Fin.ext ?_)
  match a with
  | ⟨0, _⟩ => show win4_1.index t (0 : Fin 2) * 5000 + 1 * p.val = r.val; rw [e0, hr]; omega
  | ⟨1, _⟩ => show win4_1.index t (1 : Fin 2) * 128 + 1 * j.val = j.val; rw [e1]; omega

/-- The weight tile at any point is the weight matrix. -/
theorem iblk_w (t : Fin cfg4.N) (j q : Fin 128) :
    (iblk4 V c 2 t : Vec F S128x128 .f32) (ix2 j q)
      = (V c (Pipeline.arrRef spec4 2) : S128x128.Idx → Elt F .f32) (ix2 j q) := by
  obtain ⟨-, -, -, -, e0, e1, -⟩ := idx_facts t
  unfold iblk4
  rw [View.read_apply]
  refine congrArg (V c (Pipeline.arrRef spec4 2) : S128x128.Idx → Elt F .f32) (funext fun a => Fin.ext ?_)
  match a with
  | ⟨0, _⟩ => show win4_2.index t (0 : Fin 2) * 128 + 1 * j.val = j.val; rw [e0]; omega
  | ⟨1, _⟩ => show win4_2.index t (1 : Fin 2) * 128 + 1 * q.val = q.val; rw [e1]; omega

/-- The bias tile at any point is the bias vector. -/
theorem iblk_b (t : Fin cfg4.N) (q : Fin 128) :
    (iblk4 V c 3 t : Vec F S128 .f32) (ix1 q)
      = (V c (Pipeline.arrRef spec4 3) : S128.Idx → Elt F .f32) (ix1 q) := by
  obtain ⟨-, -, -, -, -, -, e0, -⟩ := idx_facts t
  unfold iblk4
  rw [View.read_apply]
  refine congrArg (V c (Pipeline.arrRef spec4 3) : S128.Idx → Elt F .f32) (funext fun a => Fin.ext ?_)
  match a with
  | ⟨0, _⟩ => show win4_3.index t (0 : Fin 1) * 128 + 1 * q.val = q.val; rw [e0]; omega

end Cert.KernelIdeal.Layer1V.R4

end
-- ==== Proof.Layer1V4Pay.lean ====
/-
  The first dense map's body, read entry by entry on the extended reals.

  On one tile of 5000 rows the body forms h = (x + a)·W + b and adds the tile's column sums of h and of h·h onto two
  running rows.  Entry by entry: h at (p, q) is the sum over j of (x(p, j) + a(p, j)) · W(j, q), plus b(q): a change
  of float format is the identity on the extended reals, the product accumulates into zero, and the bias row is the
  same in every row.  The running sum at lane q grows by the sum over the tile's rows p of h(p, q), the running sum
  of squares by the sum of h(p, q) · h(p, q).  The two rows a first tile starts from are zero.
-/
import proofs.«164329_j2903397892177_1_alg».proof.Proof.Gen.KernelIdeal.Skeleton
import proofs.«164329_j2903397892177_1_alg».proof.Proof.Layer1VMatmul
import proofs.«164329_j2903397892177_1_alg».proof.Proof.Layer1VOps
import Idealize.ShloMosaic.Lib.Pipeline.Value

noncomputable section

namespace Cert.KernelIdeal.Layer1V.R4

open Cert.KernelIdeal Cert.KernelIdeal.Gen Idealize.ShloMosaic Idealize.ShloMosaic.ValueIdx

/-- The tile of h at row p and lane q: the sum over j of (x(p, j) + a(p, j)) · W(j, q), plus b(q). -/
theorem pay3_apply (x0 x1 : FVec Ideal S5000x128 .f32) (x2 : FVec Ideal S128x128 .f32) (x3 : FVec Ideal S128 .f32)
    (p : Fin 5000) (q : Fin 128) :
    k4_pay3 x0 x1 x2 x3 (ix2 p q)
      = (∑ j : Fin 128, (x0 (ix2 p j) + x1 (ix2 p j)) * x2 (ix2 j q)) + x3 (ix1 q) := by
  unfold k4_pay3
  refine congrArg₂ (· + ·) ?_ ?_
  · refine (matmul_rows_cols_apply _ none _ _ p q).trans ?_
    refine Finset.sum_congr rfl fun j _ => ?_
    rw [shapeCast_self, shapeCast_self, shapeCast_self]
    rfl
  · refine (row_repeat_apply _ _ _ p q).trans ?_
    rw [shapeCast_self]

/-- The running column sum after a tile, at lane q: what it held plus the sum over the tile's rows of h. -/
theorem pay4_apply (x0 x1 : FVec Ideal S5000x128 .f32) (x2 : FVec Ideal S128x128 .f32) (x3 : FVec Ideal S128 .f32)
    (s : FVec Ideal S1x128 .f32) (u : Fin 1) (q : Fin 128) :
    k4_pay4 x0 x1 x2 x3 s (ix2 u q) = s (ix2 u q) + ∑ p : Fin 5000, k4_pay3 x0 x1 x2 x3 (ix2 p q) := by
  unfold k4_pay4
  refine congrArg₂ (· + ·) ?_ ?_
  · rw [shapeCast_self]
  · refine (shapeCast_a_1a_apply _ _ u q).trans ?_
    exact colsum_apply _ _ _ _ q

/-- The running column sum of squares after a tile, at lane q: what it held plus the sum over the tile's rows of h·h. -/
theorem pay5_apply (x0 x1 : FVec Ideal S5000x128 .f32) (x2 : FVec Ideal S128x128 .f32) (x3 : FVec Ideal S128 .f32)
    (s : FVec Ideal S1x128 .f32) (u : Fin 1) (q : Fin 128) :
    k4_pay5 x0 x1 x2 x3 s (ix2 u q)
      = s (ix2 u q) + ∑ p : Fin 5000, k4_pay3 x0 x1 x2 x3 (ix2 p q) * k4_pay3 x0 x1 x2 x3 (ix2 p q) := by
  unfold k4_pay5
  refine congrArg₂ (· + ·) ?_ ?_
  · rw [shapeCast_self]
  · refine (shapeCast_a_1a_apply _ _ u q).trans ?_
    exact colsum_apply _ _ _ _ q

/-- The row the running column sum starts from is zero. -/
theorem pay1_apply (u : Fin 1) (q : Fin 128) : k4_pay1 (F := Ideal) (ix2 u q) = 0 :=
  Ideal.ofBits_zero_f32

/-- The row the running column sum of squares starts from is zero. -/
theorem pay2_apply (u : Fin 1) (q : Fin 128) : k4_pay2 (F := Ideal) (ix2 u q) = 0 :=
  Ideal.ofBits_zero_f32

end Cert.KernelIdeal.Layer1V.R4

end
-- ==== Proof.Layer1V4H1.lean ====
/-
  The array of h after the first dense map's grid has run.

  Each grid point writes its 5000-row tile of h back to the rows it was computed from, and the twenty tiles cover the
  100000 rows.  Entry (r, k) of the array is therefore (x + a)·W + b at row r and lane k, of the four arrays the
  map found when it started.
-/
import proofs.«164329_j2903397892177_1_alg».proof.Proof.Layer1V4Outs
import proofs.«164329_j2903397892177_1_alg».proof.Proof.Layer1V4Blocks
import proofs.«164329_j2903397892177_1_alg».proof.Proof.Layer1V4Pay
import proofs.«164329_j2903397892177_1_alg».proof.Proof.LayerFns
import Idealize.ShloMosaic.Lib.ValueIdx

noncomputable section

open Idealize.ShloMosaic Idealize.ShloMosaic.TcCoe Idealize.SL.Sem
open Idealize.ShloMosaic.Pipeline (Dat)

namespace Cert.KernelIdeal.Layer1V.R4

open Cert.KernelIdeal Cert.KernelIdeal.Gen Idealize.ShloMosaic.ValueIdx

variable (V : (c : Dev nD) → (b : Ref sig .tc) → Buf (Elt Ideal) ((c : Thread nD τ).loc b)) (c : Dev nD)

/-- The array x as the map finds it, by row and lane. -/
abbrev inX : Fin 100000 → Fin 128 → EReal := fun r j => (V c (Pipeline.arrRef spec4 0) : S100000x128.Idx → EReal) (ix2 r j)
/-- The neighbour sums as the map finds them, by row and lane. -/
abbrev inA : Fin 100000 → Fin 128 → EReal := fun r j => (V c (Pipeline.arrRef spec4 1) : S100000x128.Idx → EReal) (ix2 r j)
/-- The weight matrix as the map finds it, by row and column. -/
abbrev inW : Fin 128 → Fin 128 → EReal := fun j k => (V c (Pipeline.arrRef spec4 2) : S128x128.Idx → EReal) (ix2 j k)
/-- The bias vector as the map finds it. -/
abbrev inB : Fin 128 → EReal := fun k => (V c (Pipeline.arrRef spec4 3) : S128.Idx → EReal) (ix1 k)

/-- h of point t's tiles at (p, q) is (x + a)·W + b at row 5000·t + p and lane q. -/
theorem pay3_block (t : Fin cfg4.N) (p : Fin 5000) (q : Fin 128) (r : Fin 100000) (hr : r.val = 5000 * t.val + p.val) :
    k4_pay3 (iblk4 V c 0 t) (iblk4 V c 1 t) (iblk4 V c 2 t) (iblk4 V c 3 t) (ix2 p q) = LayerFns.h1Fn (inX V c) (inA V c) (inW V c) (inB V c) r q := by
  refine (pay3_apply (iblk4 V c 0 t) (iblk4 V c 1 t) (iblk4 V c 2 t) (iblk4 V c 3 t) p q).trans ?_
  unfold LayerFns.h1Fn
  refine congrArg₂ (· + ·) (Finset.sum_congr rfl fun j _ => ?_) (iblk_b V c t q)
  exact congrArg₂ (· * ·) (congrArg₂ (· + ·) (iblk_x V c t p j r hr) (iblk_a V c t p j r hr)) (iblk_w V c t j q)

/-- The whole array of h, entry by entry. -/
def hArr : S100000x128.Idx → EReal := fun i => LayerFns.h1Fn (inX V c) (inA V c) (inW V c) (inB V c) (i 0) (i 1)

/-- What point t writes back is its tile of the whole array of h. -/
theorem flushed_h (t : Fin cfg4.N) (hf : (cfg4.win 4).flush t = true) :
    (dat4 V c).flushed 4 t = ((cfg4.win 4).blk t).view.read (Elt Ideal) (hArr V c) := by
  show (cfg4.win 4).cut (grid4.coords t) ((dat4 V c).after 4 t) = _
  rw [after4_4, outs_h]
  funext y
  obtain ⟨p, q, rfl⟩ : ∃ (p : Fin 5000) (q : Fin 128), y = ix2 p q := ⟨y 0, y 1, eq_ix2 y⟩
  rw [View.read_apply]
  obtain ⟨-, -, -, -, -, -, -, e0, e1, -⟩ := idx_facts t
  have ht := lt20 t
  have hr : 5000 * t.val + p.val < 100000 := by have := p.isLt; omega
  have c0 : (((cfg4.win 4).blk t).view.emb (ix2 p q)) 0 = (⟨5000 * t.val + p.val, hr⟩ : Fin 100000) :=
    Fin.ext (by show win4_4.index t (0 : Fin 2) * 5000 + 1 * p.val = 5000 * t.val + p.val; rw [e0]; omega)
  have c1 : (((cfg4.win 4).blk t).view.emb (ix2 p q)) 1 = q :=
    Fin.ext (by show win4_4.index t (1 : Fin 2) * 128 + 1 * q.val = q.val; rw [e1]; omega)
  exact (pay3_block V c t p q ⟨5000 * t.val + p.val, hr⟩ rfl).trans
    (congrArg₂ (LayerFns.h1Fn (inX V c) (inA V c) (inW V c) (inB V c)) c0.symm c1.symm)

/-- Every row lies in the tile of the point that its quotient by 5000 names. -/
theorem cover_h (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, -, e0, e1, -⟩ := idx_facts t
  refine ⟨t, flush4_4 t, ?_⟩
  have he : ((cfg4.win 4).blk t).view.emb (ix2 (⟨(i 0).val % 5000, Nat.mod_lt _ (by decide)⟩ : Fin 5000) (⟨(i 1).val, hi1⟩ : Fin 128)) = i := by
    funext a
    apply Fin.ext
    match a with
    | ⟨0, _⟩ =>
      show win4_4.index t (0 : Fin 2) * 5000 + 1 * ((i 0).val % 5000) = (i 0).val
      rw [e0]; show (i 0).val / 5000 * 5000 + 1 * ((i 0).val % 5000) = (i 0).val; omega
    | ⟨1, _⟩ =>
      show win4_4.index t (1 : Fin 2) * 128 + 1 * (i 1).val = (i 1).val
      rw [e1]; omega
  rw [← he]
  exact ((cfg4.win 4).blk t).view.emb_mem_set _

/-- The array of h after the grid: (x + a)·W + b, entry by entry. -/
theorem arr_h : (dat4 V c).arrAt 4 cfg4.N = hArr V c :=
  (dat4 V c).arrAt_eq_of_cover 4 (hArr V c) (flushed_h V c) (cover_h)

/-- Entry (r, k) of the array of h after the grid. -/
theorem arr_h_apply (r : Fin 100000) (k : Fin 128) :
    ((dat4 V c).arrAt 4 cfg4.N : S100000x128.Idx → EReal) (ix2 r k) = LayerFns.h1Fn (inX V c) (inA V c) (inW V c) (inB V c) r k := by
  rw [arr_h]; rfl

end Cert.KernelIdeal.Layer1V.R4

end
-- ==== Proof.Layer1V4Sum.lean ====
/-
  The column sums of h after the first dense map's grid has run.

  The running row starts at zero at the first grid point and each point adds its tile's column sums of h.  After the
  twentieth point it holds, at lane k, the sum over all 100000 rows r of h(r, k): a sum taken tile by tile is the sum
  over all rows, in any commutative additive monoid, so the extended reals need no finiteness here.  The row is
  written back once, after the last point, and is the whole 1 × 128 array.
-/
import proofs.«164329_j2903397892177_1_alg».proof.Proof.Layer1V4H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R4

open Cert.KernelIdeal Cert.KernelIdeal.Gen Idealize.ShloMosaic.ValueIdx

variable (V : (c : Dev nD) → (b : Ref sig .tc) → Buf (Elt Ideal) ((c : Thread nD τ).loc b)) (c : Dev nD)

/-- h at row i and lane q, by the row's number; zero past the last row. -/
def sumFn (q : Fin 128) (i : ℕ) : EReal := if h : i < 100000 then LayerFns.h1Fn (inX V c) (inA V c) (inW V c) (inB V c) ⟨i, h⟩ q else 0

/-- The running sum at lane q before point k: zero, then one tile's column sum of h more per point. -/
def sumAcc (q : Fin 128) : ℕ → EReal
  | 0 => 0
  | k + 1 => sumAcc q k + ∑ p ∈ Finset.range 5000, sumFn V c q (5000 * k + p)

/-- Point t's column sum of h at lane q is the sum of h over rows 5000·t … 5000·t + 4999. -/
theorem sum_tile (t : Fin cfg4.N) (q : Fin 128) :
    ∑ p : Fin 5000, k4_pay3 (iblk4 V c 0 t) (iblk4 V c 1 t) (iblk4 V c 2 t) (iblk4 V c 3 t) (ix2 p q) = ∑ p ∈ Finset.range 5000, sumFn V c q (5000 * t.val + p) := by
  rw [Finset.sum_range]
  refine Finset.sum_congr rfl fun p _ => ?_
  have ht := lt20 t
  have hr : 5000 * t.val + p.val < 100000 := by have := p.isLt; omega
  unfold sumFn
  rw [dif_pos hr, pay3_block V c t p q ⟨5000 * t.val + p.val, hr⟩ rfl]

/-- After point n the running row holds, at lane q, the running sum before point n + 1. -/
theorem sum_inv : ∀ (n : ℕ) (h : n < cfg4.N) (u : Fin 1) (q : Fin 128),
    (outsAt4 V c n h).2.1 (ix2 u q) = sumAcc V c q (n + 1)
  | 0, h, u, q => by
    refine (congrFun (congrArg (fun x => x.2.1) (outs_A V c ⟨0, h⟩ rfl)) (ix2 u q)).trans ?_
    refine (pay4_apply (iblk4 V c 0 ⟨0, h⟩) (iblk4 V c 1 ⟨0, h⟩) (iblk4 V c 2 ⟨0, h⟩) (iblk4 V c 3 ⟨0, h⟩) k4_pay1 u q).trans ?_
    show _ = (0 : EReal) + ∑ p ∈ Finset.range 5000, sumFn V c q (5000 * 0 + p)
    exact congrArg₂ (· + ·) (pay1_apply u q) (sum_tile V c ⟨0, h⟩ q)
  | n + 1, h, u, q => by
    have hN : cfg4.N = 20 := N_4
    have hB : ¬(⟨n + 1, h⟩ : Fin cfg4.N).val % 20 = 0 := by dsimp only; omega
    refine (congrFun (congrArg (fun x => x.2.1) (outs_B V c ⟨n + 1, h⟩ hB)) (ix2 u q)).trans ?_
    refine (pay4_apply (iblk4 V c 0 ⟨n + 1, h⟩) (iblk4 V c 1 ⟨n + 1, h⟩) (iblk4 V c 2 ⟨n + 1, h⟩) (iblk4 V c 3 ⟨n + 1, h⟩) (outsAt4 V c n (Nat.lt_of_succ_lt h)).2.1 u q).trans ?_
    show _ = sumAcc V c q (n + 1) + ∑ p ∈ Finset.range 5000, sumFn V c q (5000 * (n + 1) + p)
    exact congrArg₂ (· + ·) (sum_inv n (Nat.lt_of_succ_lt h) u q) (sum_tile V c ⟨n + 1, h⟩ q)

/-- After twenty tiles the running sum is the sum of h over all rows. -/
theorem sum_total (q : Fin 128) : sumAcc V c q 20 = ∑ r : Fin 100000, LayerFns.h1Fn (inX V c) (inA V c) (inW V c) (inB V c) r q := by
  rw [Cert.BlockSum.accumulate_blocks 5000 (sumFn V c q) (sumAcc V c q) rfl (fun k => rfl) 20, Finset.sum_range]
  refine Finset.sum_congr rfl fun r _ => ?_
  unfold sumFn
  rw [dif_pos r.isLt]

/-- The row of column sums of h, entry by entry. -/
def sumArr : S1x128.Idx → EReal := fun i => ∑ r : Fin 100000, LayerFns.h1Fn (inX V c) (inA V c) (inW V c) (inB V c) r (i 1)

/-- The one write-back, after the last point, writes the row of column sums of h. -/
theorem sum_flushed (t : Fin cfg4.N) (hf : (cfg4.win 5).flush t = true) :
    (dat4 V c).flushed 5 t = ((cfg4.win 5).blk t).view.read (Elt Ideal) (sumArr V c) := by
  have hN : cfg4.N = 20 := N_4
  have h19 : t.val = 19 := by have := (flush4_5 t).mp hf; have := lt20 t; omega
  show (cfg4.win 5).cut (grid4.coords t) ((dat4 V c).after 5 t) = _
  rw [after4_5]
  funext y
  obtain ⟨u, q, rfl⟩ : ∃ (u : Fin 1) (q : Fin 128), y = ix2 u q := ⟨y 0, y 1, eq_ix2 y⟩
  rw [View.read_apply]
  obtain ⟨-, -, -, -, -, -, -, -, -, e0, e1, -⟩ := idx_facts t
  have c1 : (((cfg4.win 5).blk t).view.emb (ix2 u q)) 1 = q :=
    Fin.ext (by show win4_5.index t (1 : Fin 2) * 128 + 1 * q.val = q.val; rw [e1]; omega)
  have key : ∀ i : S1x128.Idx, i 1 = q → sumArr V c i = ∑ r : Fin 100000, LayerFns.h1Fn (inX V c) (inA V c) (inW V c) (inB V c) r q := fun i hi => by
    unfold sumArr; rw [hi]
  have e20 : sumAcc V c q (t.val + 1) = sumAcc V c q 20 := by rw [h19]
  have k1 := key (((cfg4.win 5).blk t).view.emb (ix2 u q)) c1
  generalize sumArr V c (((cfg4.win 5).blk t).view.emb (ix2 u q)) = S at k1 ⊢
  show (outsAt4 V c t.val t.isLt).2.1 (ix2 u q) = S
  exact (sum_inv V c t.val t.isLt u q).trans (e20.trans ((sum_total V c q).trans k1.symm))

/-- The last point's tile is the whole row. -/
theorem sum_cover (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  have hN : cfg4.N = 20 := N_4
  let t : Fin cfg4.N := ⟨19, by rw [hN]; decide⟩
  obtain ⟨-, -, -, -, -, -, -, -, -, e0, e1, -⟩ := idx_facts t
  refine ⟨t, (flush4_5 t).mpr rfl, ?_⟩
  have he : ((cfg4.win 5).blk t).view.emb (ix2 (⟨(i 0).val, hi0⟩ : Fin 1) (⟨(i 1).val, hi1⟩ : Fin 128)) = i := by
    funext a
    apply Fin.ext
    match a with
    | ⟨0, _⟩ =>
      show win4_5.index t (0 : Fin 2) * 1 + 1 * (i 0).val = (i 0).val
      rw [e0]; omega
    | ⟨1, _⟩ =>
      show win4_5.index t (1 : Fin 2) * 128 + 1 * (i 1).val = (i 1).val
      rw [e1]; omega
  rw [← he]
  exact ((cfg4.win 5).blk t).view.emb_mem_set _

/-- The array of column sums of h after the grid. -/
theorem sum_arr : (dat4 V c).arrAt 5 cfg4.N = sumArr V c :=
  (dat4 V c).arrAt_eq_of_cover 5 (sumArr V c) (sum_flushed V c) (sum_cover)

/-- Lane k of the column sums of h after the grid. -/
theorem sum_arr_apply (k : Fin 128) :
    ((dat4 V c).arrAt 5 cfg4.N : S1x128.Idx → EReal) (ix2 0 k) = ∑ r : Fin 100000, LayerFns.h1Fn (inX V c) (inA V c) (inW V c) (inB V c) r k := by
  rw [sum_arr]; rfl

end Cert.KernelIdeal.Layer1V.R4

end
-- ==== Proof.Layer1V4SumSq.lean ====
/-
  The column sums of h·h after the first dense map's grid has run.

  The running row starts at zero at the first grid point and each point adds its tile's column sums of h·h.  After the
  twentieth point it holds, at lane k, the sum over all 100000 rows r of h(r, k)·h(r, k): a sum taken tile by tile is
  the sum over all rows, in any commutative additive monoid, so the extended reals need no finiteness here.  The row
  is written back once, after the last point, and is the whole 1 × 128 array.
-/
import proofs.«164329_j2903397892177_1_alg».proof.Proof.Layer1V4H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R4

open Cert.KernelIdeal Cert.KernelIdeal.Gen Idealize.ShloMosaic.ValueIdx

variable (V : (c : Dev nD) → (b : Ref sig .tc) → Buf (Elt Ideal) ((c : Thread nD τ).loc b)) (c : Dev nD)

/-- h·h at row i and lane q, by the row's number; zero past the last row. -/
def sumsqFn (q : Fin 128) (i : ℕ) : EReal := if h : i < 100000 then LayerFns.h1Fn (inX V c) (inA V c) (inW V c) (inB V c) ⟨i, h⟩ q * LayerFns.h1Fn (inX V c) (inA V c) (inW V c) (inB V c) ⟨i, h⟩ q else 0

/-- The running sum of squares at lane q before point k: zero, then one tile's column sum of h·h more per point. -/
def sumsqAcc (q : Fin 128) : ℕ → EReal
  | 0 => 0
  | k + 1 => sumsqAcc q k + ∑ p ∈ Finset.range 5000, sumsqFn V c q (5000 * k + p)

/-- Point t's column sum of h·h at lane q is the sum of h·h over rows 5000·t … 5000·t + 4999. -/
theorem sumsq_tile (t : Fin cfg4.N) (q : Fin 128) :
    ∑ p : Fin 5000, k4_pay3 (iblk4 V c 0 t) (iblk4 V c 1 t) (iblk4 V c 2 t) (iblk4 V c 3 t) (ix2 p q) * k4_pay3 (iblk4 V c 0 t) (iblk4 V c 1 t) (iblk4 V c 2 t) (iblk4 V c 3 t) (ix2 p q) = ∑ p ∈ Finset.range 5000, sumsqFn V c q (5000 * t.val + p) := by
  rw [Finset.sum_range]
  refine Finset.sum_congr rfl fun p _ => ?_
  have ht := lt20 t
  have hr : 5000 * t.val + p.val < 100000 := by have := p.isLt; omega
  unfold sumsqFn
  rw [dif_pos hr, pay3_block V c t p q ⟨5000 * t.val + p.val, hr⟩ rfl]

/-- After point n the running row of squares holds, at lane q, the running sum of squares before point n + 1. -/
theorem sumsq_inv : ∀ (n : ℕ) (h : n < cfg4.N) (u : Fin 1) (q : Fin 128),
    (outsAt4 V c n h).2.2 (ix2 u q) = sumsqAcc V c q (n + 1)
  | 0, h, u, q => by
    refine (congrFun (congrArg (fun x => x.2.2) (outs_A V c ⟨0, h⟩ rfl)) (ix2 u q)).trans ?_
    refine (pay5_apply (iblk4 V c 0 ⟨0, h⟩) (iblk4 V c 1 ⟨0, h⟩) (iblk4 V c 2 ⟨0, h⟩) (iblk4 V c 3 ⟨0, h⟩) k4_pay2 u q).trans ?_
    show _ = (0 : EReal) + ∑ p ∈ Finset.range 5000, sumsqFn V c q (5000 * 0 + p)
    exact congrArg₂ (· + ·) (pay2_apply u q) (sumsq_tile V c ⟨0, h⟩ q)
  | n + 1, h, u, q => by
    have hN : cfg4.N = 20 := N_4
    have hB : ¬(⟨n + 1, h⟩ : Fin cfg4.N).val % 20 = 0 := by dsimp only; omega
    refine (congrFun (congrArg (fun x => x.2.2) (outs_B V c ⟨n + 1, h⟩ hB)) (ix2 u q)).trans ?_
    refine (pay5_apply (iblk4 V c 0 ⟨n + 1, h⟩) (iblk4 V c 1 ⟨n + 1, h⟩) (iblk4 V c 2 ⟨n + 1, h⟩) (iblk4 V c 3 ⟨n + 1, h⟩) (outsAt4 V c n (Nat.lt_of_succ_lt h)).2.2 u q).trans ?_
    show _ = sumsqAcc V c q (n + 1) + ∑ p ∈ Finset.range 5000, sumsqFn V c q (5000 * (n + 1) + p)
    exact congrArg₂ (· + ·) (sumsq_inv n (Nat.lt_of_succ_lt h) u q) (sumsq_tile V c ⟨n + 1, h⟩ q)

/-- After twenty tiles the running sum of squares is the sum of h·h over all rows. -/
theorem sumsq_total (q : Fin 128) : sumsqAcc V c q 20 = ∑ r : Fin 100000, LayerFns.h1Fn (inX V c) (inA V c) (inW V c) (inB V c) r q * LayerFns.h1Fn (inX V c) (inA V c) (inW V c) (inB V c) r q := by
  rw [Cert.BlockSum.accumulate_blocks 5000 (sumsqFn V c q) (sumsqAcc V c q) rfl (fun k => rfl) 20, Finset.sum_range]
  refine Finset.sum_congr rfl fun r _ => ?_
  unfold sumsqFn
  rw [dif_pos r.isLt]

/-- The row of column sums of h·h, entry by entry. -/
def sumsqArr : S1x128.Idx → EReal := fun i => ∑ r : Fin 100000, LayerFns.h1Fn (inX V c) (inA V c) (inW V c) (inB V c) r (i 1) * LayerFns.h1Fn (inX V c) (inA V c) (inW V c) (inB V c) r (i 1)

/-- The one write-back, after the last point, writes the row of column sums of h·h. -/
theorem sumsq_flushed (t : Fin cfg4.N) (hf : (cfg4.win 6).flush t = true) :
    (dat4 V c).flushed 6 t = ((cfg4.win 6).blk t).view.read (Elt Ideal) (sumsqArr V c) := by
  have hN : cfg4.N = 20 := N_4
  have h19 : t.val = 19 := by have := (flush4_6 t).mp hf; have := lt20 t; omega
  show (cfg4.win 6).cut (grid4.coords t) ((dat4 V c).after 6 t) = _
  rw [after4_6]
  funext y
  obtain ⟨u, q, rfl⟩ : ∃ (u : Fin 1) (q : Fin 128), y = ix2 u q := ⟨y 0, y 1, eq_ix2 y⟩
  rw [View.read_apply]
  obtain ⟨-, -, -, -, -, -, -, -, -, -, -, e0, e1⟩ := idx_facts t
  have c1 : (((cfg4.win 6).blk t).view.emb (ix2 u q)) 1 = q :=
    Fin.ext (by show win4_6.index t (1 : Fin 2) * 128 + 1 * q.val = q.val; rw [e1]; omega)
  have key : ∀ i : S1x128.Idx, i 1 = q → sumsqArr V c i = ∑ r : Fin 100000, LayerFns.h1Fn (inX V c) (inA V c) (inW V c) (inB V c) r q * LayerFns.h1Fn (inX V c) (inA V c) (inW V c) (inB V c) r q := fun i hi => by
    unfold sumsqArr; rw [hi]
  have e20 : sumsqAcc V c q (t.val + 1) = sumsqAcc V c q 20 := by rw [h19]
  have k1 := key (((cfg4.win 6).blk t).view.emb (ix2 u q)) c1
  generalize sumsqArr V c (((cfg4.win 6).blk t).view.emb (ix2 u q)) = S at k1 ⊢
  show (outsAt4 V c t.val t.isLt).2.2 (ix2 u q) = S
  exact (sumsq_inv V c t.val t.isLt u q).trans (e20.trans ((sumsq_total V c q).trans k1.symm))

/-- The last point's tile is the whole row. -/
theorem sumsq_cover (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  have hN : cfg4.N = 20 := N_4
  let t : Fin cfg4.N := ⟨19, by rw [hN]; decide⟩
  obtain ⟨-, -, -, -, -, -, -, -, -, -, -, e0, e1⟩ := idx_facts t
  refine ⟨t, (flush4_6 t).mpr rfl, ?_⟩
  have he : ((cfg4.win 6).blk t).view.emb (ix2 (⟨(i 0).val, hi0⟩ : Fin 1) (⟨(i 1).val, hi1⟩ : Fin 128)) = i := by
    funext a
    apply Fin.ext
    match a with
    | ⟨0, _⟩ =>
      show win4_6.index t (0 : Fin 2) * 1 + 1 * (i 0).val = (i 0).val
      rw [e0]; omega
    | ⟨1, _⟩ =>
      show win4_6.index t (1 : Fin 2) * 128 + 1 * (i 1).val = (i 1).val
      rw [e1]; omega
  rw [← he]
  exact ((cfg4.win 6).blk t).view.emb_mem_set _

/-- The array of column sums of h·h after the grid. -/
theorem sumsq_arr : (dat4 V c).arrAt 6 cfg4.N = sumsqArr V c :=
  (dat4 V c).arrAt_eq_of_cover 6 (sumsqArr V c) (sumsq_flushed V c) (sumsq_cover)

/-- Lane k of the column sums of h·h after the grid. -/
theorem sumsq_arr_apply (k : Fin 128) :
    ((dat4 V c).arrAt 6 cfg4.N : S1x128.Idx → EReal) (ix2 0 k) = ∑ r : Fin 100000, LayerFns.h1Fn (inX V c) (inA V c) (inW V c) (inB V c) r k * LayerFns.h1Fn (inX V c) (inA V c) (inW V c) (inB V c) r k := by
  rw [sumsq_arr]; rfl

end Cert.KernelIdeal.Layer1V.R4

end
-- ==== Proof.Layer2V5Payload.lean ====
/-
  The second half of a layer, on one tile of 5000 rows: what the body stores, entry by entry.

  The body reads the tile h of the hidden rows, the column means m and variances v (each a 1 × 128 row), the scale γ,
  the shift β, the weight matrix W and the bias b. It normalises each entry, γ·(h − m)·rsqrt(v + ε) + β, takes the
  maximum with 0, multiplies the 5000 × 128 result by W on the matrix unit into a zero accumulator, adds b and takes
  the maximum with 0 again. Every step but the product is entrywise, and the row statistics, scale, shift and bias
  reach the tile by being repeated over its rows; so the stored entry at row p, column q depends on row p of the tile
  only: it is max(∑ j, max(γ j·(h p j − m j)·rsqrt(v j + ε) + β j, 0)·W j q + b q, 0).
-/
import proofs.«164329_j2903397892177_1_alg».proof.Proof.Gen.KernelIdeal.Skeleton
import proofs.«164329_j2903397892177_1_alg».proof.Proof.LayerFns
import proofs.«164329_j2903397892177_1_alg».proof.Proof.LibMatmulEntry
import proofs.«164329_j2903397892177_1_alg».proof.Proof.LibRowOfVector
import Idealize.ShloMosaic.Lib.ValueIdx

noncomputable section

namespace Cert.KernelIdeal.Layer2V

open Cert.KernelIdeal Cert.KernelIdeal.Gen Idealize.ShloMosaic Idealize.ShloMosaic.ValueIdx

/-- The stored entry at row p, column q of the tile: the normalised, scaled and shifted row p, cut at 0, times column
    q of the weights, plus the bias at q, cut at 0. The format changes in front of the product are the identity on
    the extended reals, and the product into zeros is the plain sum over the 128 contracted positions. -/
theorem k5_pay1_apply (vr : FVec Ideal S1x128 .f32) (g : FVec Ideal S128 .f32) (h : FVec Ideal S5000x128 .f32)
    (mn : FVec Ideal S1x128 .f32) (bt : FVec Ideal S128 .f32) (w : FVec Ideal S128x128 .f32) (b2 : FVec Ideal S128 .f32)
    (p : Fin 5000) (q : Fin 128) :
    k5_pay1 (F := Ideal) vr g h mn bt w b2 (ix2 p q)
      = max ((∑ j : Fin 128,
            max (g (ix1 j) * (h (ix2 p j) - mn (ix2 (0 : Fin 1) j)) * Ideal.rsqrt (vr (ix2 (0 : Fin 1) j) + LayerFns.eps)
              + bt (ix1 j)) 0 * w (ix2 j q)) + b2 (ix1 q)) 0 := by
  unfold k5_pay1
  refine (maximumf_apply _ _ (ix2 p q)).trans ?_
  refine congrArg₂ max ?_ Ideal.ofBits_zero_f32
  refine (addf_apply _ _ (ix2 p q)).trans ?_
  refine congrArg₂ (· + ·) ?_ (RowOfVector.vecSelfRow_apply b2 _ _ _ p q)
  refine (PlainMatmul.matmul_zero_apply Facts₀.dot_S5000x128_S128x128_S5000x128_1_0_0_1_n_n_wf none _ _ p q).trans ?_
  refine Finset.sum_congr rfl fun j _ => ?_
  refine congrArg₂ (· * ·) ?_ (congrFun (shapeCast_self w _) (ix2 j q))
  refine congrArg₂ max ?_ Ideal.ofBits_zero_f32
  refine congrArg₂ (· + ·) ?_ (RowOfVector.vecSelfRow_apply bt _ _ _ p j)
  refine congrArg₂ (· * ·)
    (congrArg₂ (· * ·) (RowOfVector.vecSelfRow_apply g _ _ _ p j)
      (congrArg₂ (· - ·) (congrFun (shapeCast_self h _) (ix2 p j)) (RowOfVector.rowSelfRow_apply mn _ _ p j))) ?_
  refine (broadcastTo_1b_ab_apply _ _ p j).trans ?_
  exact congrArg (fun t => Ideal.rsqrt (t + LayerFns.eps)) (congrFun (shapeCast_self vr _) (ix2 (0 : Fin 1) j))

end Cert.KernelIdeal.Layer2V

end
-- ==== Proof.Layer2V5Blocks.lean ====
/-
  The second half of a layer, over the whole array: from the tiles to the 100000 × 128 result.

  The region runs the body at 20 grid points. At point t the tile of hidden rows is rows 5000·t … 5000·t + 4999 of
  the array it reads, the six small operands (column means and variances, scale, shift, weights, bias) are whole
  arrays at every point, and the tile written back is rows 5000·t … 5000·t + 4999 of the result. The body's entry at
  row p of the tile depends on row p of its tile only, so what point t writes back is rows 5000·t … of ONE function of
  the arrays, the layer's second half entry by entry; the 20 tiles cover all 100000 rows (row r lies in tile
  r / 5000), so that function is the whole result.
-/
import proofs.«164329_j2903397892177_1_alg».proof.Proof.Gen.KernelIdeal.Frame
import proofs.«164329_j2903397892177_1_alg».proof.Proof.Layer2V5Payload
import Idealize.ShloMosaic.Lib.Pipeline.Value

set_option maxRecDepth 16384

noncomputable section

namespace Cert.KernelIdeal.Layer2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The region's result as one function of the arrays it reads, entry by entry: the layer's second half at row
    `i 0` and column `i 1`, of the hidden rows (window 0), the column means and variances (windows 1 and 2, each one
    row), the scale and the shift (windows 3 and 4), the weights (window 5) and the bias (window 6). -/
def result5 : S100000x128.Idx → EReal := fun i =>
  LayerFns.layer2Fn
    (fun r j => (V c (Pipeline.arrRef spec5 0) : S100000x128.Idx → EReal) (ix2 r j))
    (fun j => (V c (Pipeline.arrRef spec5 1) : S1x128.Idx → EReal) (ix2 (0 : Fin 1) j))
    (fun j => (V c (Pipeline.arrRef spec5 2) : S1x128.Idx → EReal) (ix2 (0 : Fin 1) j))
    (fun j => (V c (Pipeline.arrRef spec5 3) : S128.Idx → EReal) (ix1 j))
    (fun j => (V c (Pipeline.arrRef spec5 4) : S128.Idx → EReal) (ix1 j))
    (fun j k => (V c (Pipeline.arrRef spec5 5) : S128x128.Idx → EReal) (ix2 j k))
    (fun k => (V c (Pipeline.arrRef spec5 6) : S128.Idx → EReal) (ix1 k))
    ⟨(i 0).val, idx2_lt0 i⟩ ⟨(i 1).val, idx2_lt1 i⟩

/-- The zero offsets of a whole rank-2 buffer, as a constant function. -/
private theorem zeroPair : (![0, 0] : Fin 2 → Nat) = fun _ => 0 := funext fun a => by fin_cases a <;> rfl
/-- The zero offset of a whole rank-1 buffer, as a constant function. -/
private theorem zeroSingle : (![0] : Fin 1 → Nat) = fun _ => 0 := funext fun a => by fin_cases a <;> rfl

/-- The index maps over the grid: the tile read and the tile written move with the point along the rows, and the six
    small operands stay at block 0. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 1) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-! ## The blocks the body reads, as entries of the arrays -/

/-- Row p of the tile read at point t is row 5000·t + p of the array of hidden rows. -/
theorem read5_0 (t : Fin cfg5.N) (p : Fin 5000) (j : Fin 128) (r : Fin 100000) (hr : r.val = 5000 * t.val + p.val) :
    iblk5 V c 0 t (ix2 p j) = V c (Pipeline.arrRef spec5 0) (ix2 r j) := by
  obtain ⟨e0, e1, -⟩ := idx_facts5 t
  show V c (Pipeline.arrRef spec5 0) (((cfg5.win 0).blk t).view.emb (ix2 p j)) = _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * j.val = j.val; rw [e1]; omega

/-- The row of column means is read whole at every point. -/
theorem read5_1 (t : Fin cfg5.N) (j : Fin 128) :
    iblk5 V c 1 t (ix2 (0 : Fin 1) j) = V c (Pipeline.arrRef spec5 1) (ix2 (0 : Fin 1) j) := by
  obtain ⟨-, -, e0, e1, -⟩ := idx_facts5 t
  show V c (Pipeline.arrRef spec5 1) (((cfg5.win 1).blk t).view.emb (ix2 (0 : Fin 1) j)) = _
  refine congrArg _ (funext fun a => Fin.ext ?_)
  match a with
  | ⟨0, _⟩ => show win5_1.index t (0 : Fin 2) * 1 + 1 * 0 = 0; rw [e0]
  | ⟨1, _⟩ => show win5_1.index t (1 : Fin 2) * 128 + 1 * j.val = j.val; rw [e1]; omega

/-- The row of column variances is read whole at every point. -/
theorem read5_2 (t : Fin cfg5.N) (j : Fin 128) :
    iblk5 V c 2 t (ix2 (0 : Fin 1) j) = V c (Pipeline.arrRef spec5 2) (ix2 (0 : Fin 1) j) := by
  obtain ⟨-, -, -, -, e0, e1, -⟩ := idx_facts5 t
  show V c (Pipeline.arrRef spec5 2) (((cfg5.win 2).blk t).view.emb (ix2 (0 : Fin 1) j)) = _
  refine congrArg _ (funext fun a => Fin.ext ?_)
  match a with
  | ⟨0, _⟩ => show win5_2.index t (0 : Fin 2) * 1 + 1 * 0 = 0; rw [e0]
  | ⟨1, _⟩ => show win5_2.index t (1 : Fin 2) * 128 + 1 * j.val = j.val; rw [e1]; omega

/-- The scale is read whole at every point. -/
theorem read5_3 (t : Fin cfg5.N) (j : Fin 128) :
    iblk5 V c 3 t (ix1 j) = V c (Pipeline.arrRef spec5 3) (ix1 j) := by
  obtain ⟨-, -, -, -, -, -, e0, -⟩ := idx_facts5 t
  show V c (Pipeline.arrRef spec5 3) (((cfg5.win 3).blk t).view.emb (ix1 j)) = _
  refine congrArg _ (funext fun a => Fin.ext ?_)
  match a with
  | ⟨0, _⟩ => show win5_3.index t (0 : Fin 1) * 128 + 1 * j.val = j.val; rw [e0]; omega

/-- The shift is read whole at every point. -/
theorem read5_4 (t : Fin cfg5.N) (j : Fin 128) :
    iblk5 V c 4 t (ix1 j) = V c (Pipeline.arrRef spec5 4) (ix1 j) := by
  obtain ⟨-, -, -, -, -, -, -, e0, -⟩ := idx_facts5 t
  show V c (Pipeline.arrRef spec5 4) (((cfg5.win 4).blk t).view.emb (ix1 j)) = _
  refine congrArg _ (funext fun a => Fin.ext ?_)
  match a with
  | ⟨0, _⟩ => show win5_4.index t (0 : Fin 1) * 128 + 1 * j.val = j.val; rw [e0]; omega

/-- The weights are read whole at every point. -/
theorem read5_5 (t : Fin cfg5.N) (j k : Fin 128) :
    iblk5 V c 5 t (ix2 j k) = V c (Pipeline.arrRef spec5 5) (ix2 j k) := by
  obtain ⟨-, -, -, -, -, -, -, -, e0, e1, -⟩ := idx_facts5 t
  show V c (Pipeline.arrRef spec5 5) (((cfg5.win 5).blk t).view.emb (ix2 j k)) = _
  refine congrArg _ (funext fun a => Fin.ext ?_)
  match a with
  | ⟨0, _⟩ => show win5_5.index t (0 : Fin 2) * 128 + 1 * j.val = j.val; rw [e0]; omega
  | ⟨1, _⟩ => show win5_5.index t (1 : Fin 2) * 128 + 1 * k.val = k.val; rw [e1]; omega

/-- The bias is read whole at every point. -/
theorem read5_6 (t : Fin cfg5.N) (k : Fin 128) :
    iblk5 V c 6 t (ix1 k) = V c (Pipeline.arrRef spec5 6) (ix1 k) := by
  obtain ⟨-, -, -, -, -, -, -, -, -, -, e0, -⟩ := idx_facts5 t
  show V c (Pipeline.arrRef spec5 6) (((cfg5.win 6).blk t).view.emb (ix1 k)) = _
  refine congrArg _ (funext fun a => Fin.ext ?_)
  match a with
  | ⟨0, _⟩ => show win5_6.index t (0 : Fin 1) * 128 + 1 * k.val = k.val; rw [e0]; omega

/-- Row p of the tile written at point t is row 5000·t + p of the result. -/
theorem emb5_7 (t : Fin cfg5.N) (p : Fin 5000) (q : Fin 128) (r : Fin 100000) (hr : r.val = 5000 * t.val + p.val) :
    ((cfg5.win 7).blk t).view.emb (ix2 p q) = ix2 r q := by
  obtain ⟨-, -, -, -, -, -, -, -, -, -, -, e0, e1⟩ := idx_facts5 t
  refine funext fun a => Fin.ext ?_
  match a with
  | ⟨0, _⟩ => show win5_7.index t (0 : Fin 2) * 5000 + 1 * p.val = r.val; rw [e0, hr]; omega
  | ⟨1, _⟩ => show win5_7.index t (1 : Fin 2) * 128 + 1 * q.val = q.val; rw [e1]; omega

/-! ## What a point writes back -/

/-- What point t writes back is rows 5000·t … 5000·t + 4999 of `result5`: the body's entry at row p of its tile is
    the layer's second half of row p of the tile read, which is row 5000·t + p of the array. -/
theorem flushed5_7_eq (t : Fin cfg5.N) :
    (dat5 V c).flushed 7 t = ((cfg5.win 7).blk t).view.read (Elt Ideal) (result5 V c) := by
  show (cfg5.win 7).cut (grid5.coords t) ((dat5 V c).after 7 t) = _
  rw [after5_7]
  unfold out5_7
  rw [View.canon_unit_zero zeroPair]
  simp only [View.ld_unit_zero (S := S5000x128) zeroPair, View.ld_unit_zero (S := S1x128) zeroPair,
    View.ld_unit_zero (S := S128x128) zeroPair, View.ld_unit_zero (S := S128) zeroSingle]
  funext y
  obtain ⟨p, q, rfl⟩ : ∃ (p : Fin 5000) (q : Fin 128), y = ix2 p q := ⟨y 0, y 1, eq_ix2 (n0 := 5000) (n1 := 128) y⟩
  have hN : cfg5.N = 20 := N_5
  have htl : t.val < 20 := hN ▸ t.isLt
  obtain ⟨r, hr⟩ : ∃ r : Fin 100000, r.val = 5000 * t.val + p.val := ⟨⟨5000 * t.val + p.val, by have := p.isLt; omega⟩, rfl⟩
  show k5_pay1 (F := Ideal) (iblk5 V c 2 t) (iblk5 V c 3 t) (iblk5 V c 0 t) (iblk5 V c 1 t) (iblk5 V c 4 t) (iblk5 V c 5 t) (iblk5 V c 6 t) (ix2 p q)
      = result5 V c (((cfg5.win 7).blk t).view.emb (ix2 p q))
  refine (k5_pay1_apply (iblk5 V c 2 t) (iblk5 V c 3 t) (iblk5 V c 0 t) (iblk5 V c 1 t) (iblk5 V c 4 t) (iblk5 V c 5 t) (iblk5 V c 6 t) p q).trans ?_
  refine Eq.trans ?_ (congrArg (result5 V c) (emb5_7 t p q r hr)).symm
  show _ = LayerFns.layer2Fn _ _ _ _ _ _ _ r q
  unfold LayerFns.layer2Fn LayerFns.normFn
  refine congrArg₂ max (congrArg₂ (· + ·) (Finset.sum_congr rfl fun j _ => ?_) (read5_6 V c t q)) rfl
  refine congrArg₂ (· * ·) (congrArg₂ max (congrArg₂ (· + ·) (congrArg₂ (· * ·) (congrArg₂ (· * ·) (read5_3 V c t j)
    (congrArg₂ (· - ·) (read5_0 V c t p j r hr) (read5_1 V c t j)))
    (congrArg (fun x => Ideal.rsqrt (x + LayerFns.eps)) (read5_2 V c t j))) (read5_4 V c t j)) rfl) (read5_5 V c t j q)

/-! ## The 20 tiles cover the result -/

/-- An index of the result is in point t's tile iff each coordinate is in the tile's range on its axis. -/
theorem mem_blk5_7 (t : Fin cfg5.N) (i : S100000x128.Idx) :
    i ∈ ((cfg5.win 7).blk t).view.set ↔ ∀ a : Fin 2, win5_7.index t a * S5000x128.size a ≤ (i a).val
      ∧ (i a).val < win5_7.index t a * S5000x128.size a + S5000x128.size a := by
  show i ∈ ((View.whole (Pipeline.arrRef spec5 7)).slice (win5_7.rect t)).set ↔ _
  rw [View.set_slice_whole, Rect.mem_set_unit]
  exact Iff.rfl

/-- Row r of the result lies in the tile of point r / 5000, and every point writes its tile back. -/
theorem cover5_7_arr (i : S100000x128.Idx) :
    ∃ t : Fin cfg5.N, (cfg5.win 7).flush t = true ∧ i ∈ ((cfg5.win 7).blk t).view.set := by
  have hN : cfg5.N = 20 := N_5
  have hi0 : (i 0).val < 100000 := idx2_lt0 i
  have hi1 : (i 1).val < 128 := idx2_lt1 i
  obtain ⟨t, ht⟩ : ∃ t : Fin cfg5.N, t.val = (i 0).val / 5000 := ⟨⟨(i 0).val / 5000, by rw [hN]; omega⟩, rfl⟩
  obtain ⟨-, -, -, -, -, -, -, -, -, -, -, e0, e1⟩ := idx_facts5 t
  refine ⟨t, flush5_7 t, ?_⟩
  rw [mem_blk5_7]
  intro a
  match a with
  | ⟨0, _⟩ =>
    show win5_7.index t (0 : Fin 2) * 5000 ≤ (i 0).val ∧ (i 0).val < win5_7.index t (0 : Fin 2) * 5000 + 5000
    rw [e0]; omega
  | ⟨1, _⟩ =>
    show win5_7.index t (1 : Fin 2) * 128 ≤ (i 1).val ∧ (i 1).val < win5_7.index t (1 : Fin 2) * 128 + 128
    rw [e1]; omega

/-! ## The result -/

/-- THE ARRAY the region leaves in its result window is `result5` of the arrays it reads. -/
theorem arr5_7_eq : (dat5 V c).arrAt 7 cfg5.N = result5 V c :=
  (dat5 V c).arrAt_eq_of_cover 7 (result5 V c) (fun t _ => flushed5_7_eq V c t) (cover5_7_arr)

/-- Entry by entry: row r, column k of the result is the layer's second half of row r of the hidden rows. -/
theorem arr5_7_apply (r : Fin 100000) (k : Fin 128) :
    (dat5 V c).arrAt 7 cfg5.N (ix2 r k)
      = LayerFns.layer2Fn
          (fun r j => (V c (Pipeline.arrRef spec5 0) : S100000x128.Idx → EReal) (ix2 r j))
          (fun j => (V c (Pipeline.arrRef spec5 1) : S1x128.Idx → EReal) (ix2 (0 : Fin 1) j))
          (fun j => (V c (Pipeline.arrRef spec5 2) : S1x128.Idx → EReal) (ix2 (0 : Fin 1) j))
          (fun j => (V c (Pipeline.arrRef spec5 3) : S128.Idx → EReal) (ix1 j))
          (fun j => (V c (Pipeline.arrRef spec5 4) : S128.Idx → EReal) (ix1 j))
          (fun j k => (V c (Pipeline.arrRef spec5 5) : S128x128.Idx → EReal) (ix2 j k))
          (fun k => (V c (Pipeline.arrRef spec5 6) : S128.Idx → EReal) (ix1 k)) r k :=
  congrFun (arr5_7_eq V c) (ix2 r k)

end Cert.KernelIdeal.Layer2V

end
-- ==== Proof.KernelLayer2.lean ====
/-
  Layer 2 of the network as the kernel's regions 4 and 5 compute it is the reference's layer 2.

  Region 4 finds the node features, their neighbour sums and the layer's first weights and bias, and leaves the hidden
  rows H = (x + a)·W1 + b1 and the column sums of H and of H·H.  Between the regions the host takes the column mean and
  the column variance from those sums.  Region 5 finds H, the mean, the variance and the layer's scale, shift, second
  weights and bias, and leaves max(max(γ·(H − mean)·rsqrt(var + ε) + β, 0)·W2 + b2, 0).  With real features and real
  weights this is, entry by entry, the reference's layer of the same arrays, and it is real again.
-/
import proofs.«164329_j2903397892177_1_alg».proof.Proof.KernelRunVS4
import proofs.«164329_j2903397892177_1_alg».proof.Proof.KernelRunVS5
import proofs.«164329_j2903397892177_1_alg».proof.Proof.Layer1V4Sum
import proofs.«164329_j2903397892177_1_alg».proof.Proof.Layer1V4SumSq
import proofs.«164329_j2903397892177_1_alg».proof.Proof.Layer2V5Blocks
import proofs.«164329_j2903397892177_1_alg».proof.Proof.NeighbourReal
import proofs.«164329_j2903397892177_1_alg».proof.Proof.KernelLayerStats
import proofs.«164329_j2903397892177_1_alg».proof.Proof.KernelLayerHost

set_option maxRecDepth 16384

noncomputable section

namespace Cert.KernelIdeal.LayerV

open Idealize.ShloMosaic Idealize.ShloMosaic.TcCoe Idealize.ShloMosaic.ValueIdx Idealize.SL.Sem
open Idealize.ShloMosaic.Pipeline (Dat)
open Cert.KernelIdeal Cert.KernelIdeal.Gen LayerFns LayerBridge Cert.ReferenceIdeal.RefSpec

variable [Cert.ReferenceIdeal.Facts]

set_option maxHeartbeats 8000000 in
/-- Regions 4 and 5 over any contents: if region 4 finds real features `x`, their neighbour sum and the real weights
    `W1`, `b1`, and region 5 finds region 4's hidden rows, the host's mean and variance of its column sums, and the real
    `g`, `be`, `W2`, `b2`, then region 5 leaves the reference's layer of those arrays, a real array. -/
theorem layer2_regions (Va Vb : (c : Dev nD) → (b : Ref sig .tc) → Buf (Elt Ideal) ((c : Thread nD τ).loc b)) (c : Dev nD)
    (x : FA Cert.ReferenceIdeal.S100000x128) (src dst : IA Cert.ReferenceIdeal.S1600000) (W1 : FA Cert.ReferenceIdeal.S128x128) (b1 g be : FA Cert.ReferenceIdeal.S128)
    (W2 : FA Cert.ReferenceIdeal.S128x128) (b2 : FA Cert.ReferenceIdeal.S128)
    (hx : AllReal x) (hW1 : AllReal W1) (hb1 : AllReal b1) (hg : AllReal g) (hbe : AllReal be) (hW2 : AllReal W2)
    (hb2 : AllReal b2)
    (sx : (Va c (Pipeline.arrRef spec4 0) : S100000x128.Idx → EReal) = x)
    (sa : (Va c (Pipeline.arrRef spec4 1) : S100000x128.Idx → EReal) = neighbourSum x src dst)
    (sw : (Va c (Pipeline.arrRef spec4 2) : S128x128.Idx → EReal) = W1)
    (sb : (Va c (Pipeline.arrRef spec4 3) : S128.Idx → EReal) = b1)
    (sh : (Vb c (Pipeline.arrRef spec5 0) : S100000x128.Idx → EReal) = (dat4 Va c).arrAt 4 cfg4.N)
    (sm : (Vb c (Pipeline.arrRef spec5 1) : S1x128.Idx → EReal) = RunV.meanOf ((dat4 Va c).arrAt 5 cfg4.N))
    (sv : (Vb c (Pipeline.arrRef spec5 2) : S1x128.Idx → EReal) = RunV.varOf ((dat4 Va c).arrAt 5 cfg4.N) ((dat4 Va c).arrAt 6 cfg4.N))
    (sg : (Vb c (Pipeline.arrRef spec5 3) : S128.Idx → EReal) = g)
    (sbe : (Vb c (Pipeline.arrRef spec5 4) : S128.Idx → EReal) = be)
    (sw2 : (Vb c (Pipeline.arrRef spec5 5) : S128x128.Idx → EReal) = W2)
    (sb2 : (Vb c (Pipeline.arrRef spec5 6) : S128.Idx → EReal) = b2) :
    ((dat5 Vb c).arrAt 7 cfg5.N : S100000x128.Idx → EReal) = refLayer x src dst W1 b1 g be W2 b2
      ∧ AllReal (refLayer x src dst W1 b1 g be W2 b2) := by
  -- what region 4 found, by row and column
  have eX : Layer1V.R4.inX Va c = fun r j => x (ix2 r j) := funext fun r => funext fun j => congrFun sx (ix2 r j)
  have eA : Layer1V.R4.inA Va c = fun r j => neighbourSum x src dst (ix2 r j) :=
    funext fun r => funext fun j => congrFun sa (ix2 r j)
  have eW : Layer1V.R4.inW Va c = fun j k => W1 (ix2 j k) := funext fun j => funext fun k => congrFun sw (ix2 j k)
  have eB : Layer1V.R4.inB Va c = fun k => b1 (ix1 k) := funext fun k => congrFun sb (ix1 k)
  -- the hidden rows, the mean and the variance region 5 finds, in terms of region 4's inputs
  have hHk : ∀ r j, (Vb c (Pipeline.arrRef spec5 0) : S100000x128.Idx → EReal) (ix2 r j) = h1Fn (Layer1V.R4.inX Va c) (Layer1V.R4.inA Va c) (Layer1V.R4.inW Va c) (Layer1V.R4.inB Va c) r j :=
    fun r j => (congrFun sh (ix2 r j)).trans (Layer1V.R4.arr_h_apply Va c r j)
  have hMk : ∀ j, (Vb c (Pipeline.arrRef spec5 1) : S1x128.Idx → EReal) (ix2 (0 : Fin 1) j)
      = Ideal.div (∑ r, h1Fn (Layer1V.R4.inX Va c) (Layer1V.R4.inA Va c) (Layer1V.R4.inW Va c) (Layer1V.R4.inB Va c) r j) ((100000 : ℝ) : EReal) := fun j => by
    rw [sm, meanOf_apply, Layer1V.R4.sum_arr_apply Va c j]
  have hVk : ∀ j, (Vb c (Pipeline.arrRef spec5 2) : S1x128.Idx → EReal) (ix2 (0 : Fin 1) j)
      = Ideal.div (∑ r, h1Fn (Layer1V.R4.inX Va c) (Layer1V.R4.inA Va c) (Layer1V.R4.inW Va c) (Layer1V.R4.inB Va c) r j * h1Fn (Layer1V.R4.inX Va c) (Layer1V.R4.inA Va c) (Layer1V.R4.inW Va c) (Layer1V.R4.inB Va c) r j) ((100000 : ℝ) : EReal)
        - Ideal.div (∑ r, h1Fn (Layer1V.R4.inX Va c) (Layer1V.R4.inA Va c) (Layer1V.R4.inW Va c) (Layer1V.R4.inB Va c) r j) ((100000 : ℝ) : EReal) * Ideal.div (∑ r, h1Fn (Layer1V.R4.inX Va c) (Layer1V.R4.inA Va c) (Layer1V.R4.inW Va c) (Layer1V.R4.inB Va c) r j) ((100000 : ℝ) : EReal) := fun j => by
    rw [sv, varOf_apply, Layer1V.R4.sumsq_arr_apply Va c j, Layer1V.R4.sum_arr_apply Va c j]
  have key : ∀ (r : Fin 100000) (k : Fin 128),
      ((dat5 Vb c).arrAt 7 cfg5.N : S100000x128.Idx → EReal) (ix2 r k) = refLayer x src dst W1 b1 g be W2 b2 (ix2 r k)
        ∧ ∃ y : ℝ, refLayer x src dst W1 b1 g be W2 b2 (ix2 r k) = (y : EReal) := fun r k => by
    have hcore := layer_core x src dst W1 b1 g be W2 b2 (fun r j => hx (ix2 r j))
      (fun r j => neighbourSum_real x hx src dst r j) (fun j k => hW1 (ix2 j k)) (fun k => hb1 (ix1 k))
      (fun j => hg (ix1 j)) (fun j => hbe (ix1 j)) (fun j k => hW2 (ix2 j k)) (fun k => hb2 (ix1 k))
      (fun r j => (Vb c (Pipeline.arrRef spec5 0) : S100000x128.Idx → EReal) (ix2 r j))
      (fun j => (Vb c (Pipeline.arrRef spec5 1) : S1x128.Idx → EReal) (ix2 (0 : Fin 1) j))
      (fun j => (Vb c (Pipeline.arrRef spec5 2) : S1x128.Idx → EReal) (ix2 (0 : Fin 1) j))
      (fun j => (Vb c (Pipeline.arrRef spec5 3) : S128.Idx → EReal) (ix1 j))
      (fun j => (Vb c (Pipeline.arrRef spec5 4) : S128.Idx → EReal) (ix1 j))
      (fun j k => (Vb c (Pipeline.arrRef spec5 5) : S128x128.Idx → EReal) (ix2 j k))
      (fun k => (Vb c (Pipeline.arrRef spec5 6) : S128.Idx → EReal) (ix1 k))
      (fun r j => by dsimp only; rw [hHk r j, eX, eA, eW, eB])
      (fun j => by dsimp only; rw [hMk j]; simp only [hHk])
      (fun j => by dsimp only; rw [hVk j, hMk j]; simp only [hHk])
      (fun j => congrFun sg (ix1 j)) (fun j => congrFun sbe (ix1 j)) (fun j k => congrFun sw2 (ix2 j k))
      (fun k => congrFun sb2 (ix1 k)) r k
    exact ⟨(Layer2V.arr5_7_apply Vb c r k).trans hcore.1, hcore.2⟩
  refine ⟨funext fun i => ?_, fun i => ?_⟩
  · obtain ⟨r, k, rfl⟩ : ∃ (r : Fin 100000) (k : Fin 128), i = ix2 r k := ⟨i 0, i 1, eq_ix2 i⟩
    exact (key r k).1
  · obtain ⟨r, k, rfl⟩ : ∃ (r : Fin 100000) (k : Fin 128), i = ix2 r k := ⟨i 0, i 1, eq_ix2 i⟩
    exact (key r k).2

set_option maxHeartbeats 8000000 in
/-- Layer 2 on the launched weights: if the features entering the layer — what region 3 left — are a real array `X`,
    then with real weights region 5 leaves the reference's layer 2 of `X`, the launched edge table and stacked weights,
    a real array. -/
theorem layer2_out (m : (ℓ : Loc nD τ sig) → Buf (Elt Ideal) ℓ) (ρ : Dev nD → PrngReg) (c : Dev nD)
    (X : FA Cert.ReferenceIdeal.S100000x128)
    (hX : ((dat3 (V7 m ρ) c).arrAt 7 cfg3.N : S100000x128.Idx → EReal) = X) (hXr : AllReal X)
    (h3 : AllReal (s := Cert.ReferenceIdeal.S5x128x128) (m ((c : Thread nD τ).loc main_arg3))) (h4 : AllReal (s := Cert.ReferenceIdeal.S5x128) (m ((c : Thread nD τ).loc main_arg4)))
    (h5 : AllReal (s := Cert.ReferenceIdeal.S5x128) (m ((c : Thread nD τ).loc main_arg5))) (h6 : AllReal (s := Cert.ReferenceIdeal.S5x128) (m ((c : Thread nD τ).loc main_arg6)))
    (h7 : AllReal (s := Cert.ReferenceIdeal.S5x128x128) (m ((c : Thread nD τ).loc main_arg7))) (h8 : AllReal (s := Cert.ReferenceIdeal.S5x128) (m ((c : Thread nD τ).loc main_arg8))) :
    ((dat5 (V11 m ρ) c).arrAt 7 cfg5.N : S100000x128.Idx → EReal)
        = layerAt 2 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) X
      ∧ AllReal (s := Cert.ReferenceIdeal.S100000x128) ((dat5 (V11 m ρ) c).arrAt 7 cfg5.N) := by
  have h := layer2_regions (V9 m ρ) (V11 m ρ) c X (edgeRow 0 (m ((c : Thread nD τ).loc main_arg1))) (edgeRow 1 (m ((c : Thread nD τ).loc main_arg1)))
    (mat 2 (m ((c : Thread nD τ).loc main_arg3))) (vec 2 (m ((c : Thread nD τ).loc main_arg4))) (vec 2 (m ((c : Thread nD τ).loc main_arg5))) (vec 2 (m ((c : Thread nD τ).loc main_arg6))) (mat 2 (m ((c : Thread nD τ).loc main_arg7))) (vec 2 (m ((c : Thread nD τ).loc main_arg8)))
    hXr (fun i => mat_real 2 _ h3 i) (fun i => vec_real 2 _ h4 i) (fun i => vec_real 2 _ h5 i)
    (fun i => vec_real 2 _ h6 i) (fun i => mat_real 2 _ h7 i) (fun i => vec_real 2 _ h8 i)
    ((RunV.s4_x m ρ c).trans hX)
    ((RunV.s4_agg m ρ c).trans (by rw [hX]; exact nbrSum_eq _ _))
    ((RunV.s4_w m ρ c).trans (layerMat_eq2 _ _))
    ((RunV.s4_b m ρ c).trans (layerVec_eq2 _ _))
    (RunV.s5_h m ρ c) (RunV.s5_mean m ρ c) (RunV.s5_var m ρ c)
    ((RunV.s5_gamma m ρ c).trans (layerVec_eq2 _ _))
    ((RunV.s5_beta m ρ c).trans (layerVec_eq2 _ _))
    ((RunV.s5_w2 m ρ c).trans (layerMat_eq2 _ _))
    ((RunV.s5_b2 m ρ c).trans (layerVec_eq2 _ _))
  exact ⟨h.1, h.1 ▸ h.2⟩

end Cert.KernelIdeal.LayerV

end
-- ==== Proof.KernelRunVWalkB.lean ====
/-
  The same walk continued through regions 5 to 9: at each of their exits the argument arrays later stretches read hold
  their launched contents, and the two rows of the edge table hold what the first stretch computed.
-/
import proofs.«164329_j2903397892177_1_alg».proof.Proof.Gen.KernelIdeal.Frame
import proofs.«164329_j2903397892177_1_alg».proof.Proof.KernelRunVHost
import proofs.«164329_j2903397892177_1_alg».proof.Proof.KernelRunVWalkA

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- At region 5's exit `main_arg2` holds its launched contents: region 5 has no window on it and no host operation of the stretch before
    the region writes it, so it holds what it held at region 4's exit. -/
theorem w12_main_arg2 (c : Dev nD) : W12 m ρ c (Proc.devRef .tc main_arg2) = m ((c : Thread nD τ).loc main_arg2) :=
  (W12_of_ne m ρ c main_arg2 (by decide)).trans ((by
    show StableHlo.after hostOps5 (W10 m ρ c) (Proc.devRef .tc main_arg2) = W10 m ρ c (Proc.devRef .tc main_arg2)
    after_results <;> rfl : W11 m ρ c (Proc.devRef .tc main_arg2) = W10 m ρ c (Proc.devRef .tc main_arg2)).trans (w10_main_arg2 m ρ c))

/-- At region 5's exit `main_arg3` holds its launched contents: region 5 has no window on it and no host operation of the stretch before
    the region writes it, so it holds what it held at region 4's exit. -/
theorem w12_main_arg3 (c : Dev nD) : W12 m ρ c (Proc.devRef .tc main_arg3) = m ((c : Thread nD τ).loc main_arg3) :=
  (W12_of_ne m ρ c main_arg3 (by decide)).trans ((by
    show StableHlo.after hostOps5 (W10 m ρ c) (Proc.devRef .tc main_arg3) = W10 m ρ c (Proc.devRef .tc main_arg3)
    after_results <;> rfl : W11 m ρ c (Proc.devRef .tc main_arg3) = W10 m ρ c (Proc.devRef .tc main_arg3)).trans (w10_main_arg3 m ρ c))

/-- At region 5's exit `main_arg4` holds its launched contents: region 5 has no window on it and no host operation of the stretch before
    the region writes it, so it holds what it held at region 4's exit. -/
theorem w12_main_arg4 (c : Dev nD) : W12 m ρ c (Proc.devRef .tc main_arg4) = m ((c : Thread nD τ).loc main_arg4) :=
  (W12_of_ne m ρ c main_arg4 (by decide)).trans ((by
    show StableHlo.after hostOps5 (W10 m ρ c) (Proc.devRef .tc main_arg4) = W10 m ρ c (Proc.devRef .tc main_arg4)
    after_results <;> rfl : W11 m ρ c (Proc.devRef .tc main_arg4) = W10 m ρ c (Proc.devRef .tc main_arg4)).trans (w10_main_arg4 m ρ c))

/-- At region 5's exit `main_arg5` holds its launched contents: region 5 has no window on it and no host operation of the stretch before
    the region writes it, so it holds what it held at region 4's exit. -/
theorem w12_main_arg5 (c : Dev nD) : W12 m ρ c (Proc.devRef .tc main_arg5) = m ((c : Thread nD τ).loc main_arg5) :=
  (W12_of_ne m ρ c main_arg5 (by decide)).trans ((by
    show StableHlo.after hostOps5 (W10 m ρ c) (Proc.devRef .tc main_arg5) = W10 m ρ c (Proc.devRef .tc main_arg5)
    after_results <;> rfl : W11 m ρ c (Proc.devRef .tc main_arg5) = W10 m ρ c (Proc.devRef .tc main_arg5)).trans (w10_main_arg5 m ρ c))

/-- At region 5's exit `main_arg6` holds its launched contents: region 5 has no window on it and no host operation of the stretch before
    the region writes it, so it holds what it held at region 4's exit. -/
theorem w12_main_arg6 (c : Dev nD) : W12 m ρ c (Proc.devRef .tc main_arg6) = m ((c : Thread nD τ).loc main_arg6) :=
  (W12_of_ne m ρ c main_arg6 (by decide)).trans ((by
    show StableHlo.after hostOps5 (W10 m ρ c) (Proc.devRef .tc main_arg6) = W10 m ρ c (Proc.devRef .tc main_arg6)
    after_results <;> rfl : W11 m ρ c (Proc.devRef .tc main_arg6) = W10 m ρ c (Proc.devRef .tc main_arg6)).trans (w10_main_arg6 m ρ c))

/-- At region 5's exit `main_arg7` holds its launched contents: region 5 has no window on it and no host operation of the stretch before
    the region writes it, so it holds what it held at region 4's exit. -/
theorem w12_main_arg7 (c : Dev nD) : W12 m ρ c (Proc.devRef .tc main_arg7) = m ((c : Thread nD τ).loc main_arg7) :=
  (W12_of_ne m ρ c main_arg7 (by decide)).trans ((by
    show StableHlo.after hostOps5 (W10 m ρ c) (Proc.devRef .tc main_arg7) = W10 m ρ c (Proc.devRef .tc main_arg7)
    after_results <;> rfl : W11 m ρ c (Proc.devRef .tc main_arg7) = W10 m ρ c (Proc.devRef .tc main_arg7)).trans (w10_main_arg7 m ρ c))

/-- At region 5's exit `main_arg8` holds its launched contents: region 5 has no window on it and no host operation of the stretch before
    the region writes it, so it holds what it held at region 4's exit. -/
theorem w12_main_arg8 (c : Dev nD) : W12 m ρ c (Proc.devRef .tc main_arg8) = m ((c : Thread nD τ).loc main_arg8) :=
  (W12_of_ne m ρ c main_arg8 (by decide)).trans ((by
    show StableHlo.after hostOps5 (W10 m ρ c) (Proc.devRef .tc main_arg8) = W10 m ρ c (Proc.devRef .tc main_arg8)
    after_results <;> rfl : W11 m ρ c (Proc.devRef .tc main_arg8) = W10 m ρ c (Proc.devRef .tc main_arg8)).trans (w10_main_arg8 m ρ c))

/-- At region 5's exit the source-index vector holds row 0 of the launched edge table: region 5 has no window on it and no host operation of the stretch before
    the region writes it, so it holds what it held at region 4's exit. -/
theorem w12_main_v1 (c : Dev nD) : W12 m ρ c (Proc.devRef .tc main_v1) = edgeSrc (m ((c : Thread nD τ).loc main_arg1)) :=
  (W12_of_ne m ρ c main_v1 (by decide)).trans ((by
    show StableHlo.after hostOps5 (W10 m ρ c) (Proc.devRef .tc main_v1) = W10 m ρ c (Proc.devRef .tc main_v1)
    after_results <;> rfl : W11 m ρ c (Proc.devRef .tc main_v1) = W10 m ρ c (Proc.devRef .tc main_v1)).trans (w10_main_v1 m ρ c))

/-- At region 5's exit the destination-index vector holds row 1 of the launched edge table: region 5 has no window on it and no host operation of the stretch before
    the region writes it, so it holds what it held at region 4's exit. -/
theorem w12_main_v3 (c : Dev nD) : W12 m ρ c (Proc.devRef .tc main_v3) = edgeDst (m ((c : Thread nD τ).loc main_arg1)) :=
  (W12_of_ne m ρ c main_v3 (by decide)).trans ((by
    show StableHlo.after hostOps5 (W10 m ρ c) (Proc.devRef .tc main_v3) = W10 m ρ c (Proc.devRef .tc main_v3)
    after_results <;> rfl : W11 m ρ c (Proc.devRef .tc main_v3) = W10 m ρ c (Proc.devRef .tc main_v3)).trans (w10_main_v3 m ρ c))

/-- At region 6's exit `main_arg2` holds its launched contents: region 6 has no window on it and no host operation of the stretch before
    the region writes it, so it holds what it held at region 5's exit. -/
theorem w14_main_arg2 (c : Dev nD) : W14 m ρ c (Proc.devRef .tc main_arg2) = m ((c : Thread nD τ).loc main_arg2) :=
  (W14_of_ne m ρ c main_arg2 (by decide)).trans ((by
    show StableHlo.after hostOps6 (W12 m ρ c) (Proc.devRef .tc main_arg2) = W12 m ρ c (Proc.devRef .tc main_arg2)
    after_results <;> rfl : W13 m ρ c (Proc.devRef .tc main_arg2) = W12 m ρ c (Proc.devRef .tc main_arg2)).trans (w12_main_arg2 m ρ c))

/-- At region 6's exit `main_arg3` holds its launched contents: region 6 has no window on it and no host operation of the stretch before
    the region writes it, so it holds what it held at region 5's exit. -/
theorem w14_main_arg3 (c : Dev nD) : W14 m ρ c (Proc.devRef .tc main_arg3) = m ((c : Thread nD τ).loc main_arg3) :=
  (W14_of_ne m ρ c main_arg3 (by decide)).trans ((by
    show StableHlo.after hostOps6 (W12 m ρ c) (Proc.devRef .tc main_arg3) = W12 m ρ c (Proc.devRef .tc main_arg3)
    after_results <;> rfl : W13 m ρ c (Proc.devRef .tc main_arg3) = W12 m ρ c (Proc.devRef .tc main_arg3)).trans (w12_main_arg3 m ρ c))

/-- At region 6's exit `main_arg4` holds its launched contents: region 6 has no window on it and no host operation of the stretch before
    the region writes it, so it holds what it held at region 5's exit. -/
theorem w14_main_arg4 (c : Dev nD) : W14 m ρ c (Proc.devRef .tc main_arg4) = m ((c : Thread nD τ).loc main_arg4) :=
  (W14_of_ne m ρ c main_arg4 (by decide)).trans ((by
    show StableHlo.after hostOps6 (W12 m ρ c) (Proc.devRef .tc main_arg4) = W12 m ρ c (Proc.devRef .tc main_arg4)
    after_results <;> rfl : W13 m ρ c (Proc.devRef .tc main_arg4) = W12 m ρ c (Proc.devRef .tc main_arg4)).trans (w12_main_arg4 m ρ c))

/-- At region 6's exit `main_arg5` holds its launched contents: region 6 has no window on it and no host operation of the stretch before
    the region writes it, so it holds what it held at region 5's exit. -/
theorem w14_main_arg5 (c : Dev nD) : W14 m ρ c (Proc.devRef .tc main_arg5) = m ((c : Thread nD τ).loc main_arg5) :=
  (W14_of_ne m ρ c main_arg5 (by decide)).trans ((by
    show StableHlo.after hostOps6 (W12 m ρ c) (Proc.devRef .tc main_arg5) = W12 m ρ c (Proc.devRef .tc main_arg5)
    after_results <;> rfl : W13 m ρ c (Proc.devRef .tc main_arg5) = W12 m ρ c (Proc.devRef .tc main_arg5)).trans (w12_main_arg5 m ρ c))

/-- At region 6's exit `main_arg6` holds its launched contents: region 6 has no window on it and no host operation of the stretch before
    the region writes it, so it holds what it held at region 5's exit. -/
theorem w14_main_arg6 (c : Dev nD) : W14 m ρ c (Proc.devRef .tc main_arg6) = m ((c : Thread nD τ).loc main_arg6) :=
  (W14_of_ne m ρ c main_arg6 (by decide)).trans ((by
    show StableHlo.after hostOps6 (W12 m ρ c) (Proc.devRef .tc main_arg6) = W12 m ρ c (Proc.devRef .tc main_arg6)
    after_results <;> rfl : W13 m ρ c (Proc.devRef .tc main_arg6) = W12 m ρ c (Proc.devRef .tc main_arg6)).trans (w12_main_arg6 m ρ c))

/-- At region 6's exit `main_arg7` holds its launched contents: region 6 has no window on it and no host operation of the stretch before
    the region writes it, so it holds what it held at region 5's exit. -/
theorem w14_main_arg7 (c : Dev nD) : W14 m ρ c (Proc.devRef .tc main_arg7) = m ((c : Thread nD τ).loc main_arg7) :=
  (W14_of_ne m ρ c main_arg7 (by decide)).trans ((by
    show StableHlo.after hostOps6 (W12 m ρ c) (Proc.devRef .tc main_arg7) = W12 m ρ c (Proc.devRef .tc main_arg7)
    after_results <;> rfl : W13 m ρ c (Proc.devRef .tc main_arg7) = W12 m ρ c (Proc.devRef .tc main_arg7)).trans (w12_main_arg7 m ρ c))

/-- At region 6's exit `main_arg8` holds its launched contents: region 6 has no window on it and no host operation of the stretch before
    the region writes it, so it holds what it held at region 5's exit. -/
theorem w14_main_arg8 (c : Dev nD) : W14 m ρ c (Proc.devRef .tc main_arg8) = m ((c : Thread nD τ).loc main_arg8) :=
  (W14_of_ne m ρ c main_arg8 (by decide)).trans ((by
    show StableHlo.after hostOps6 (W12 m ρ c) (Proc.devRef .tc main_arg8) = W12 m ρ c (Proc.devRef .tc main_arg8)
    after_results <;> rfl : W13 m ρ c (Proc.devRef .tc main_arg8) = W12 m ρ c (Proc.devRef .tc main_arg8)).trans (w12_main_arg8 m ρ c))

/-- At region 6's exit the source-index vector holds row 0 of the launched edge table: region 6 has no window on it and no host operation of the stretch before
    the region writes it, so it holds what it held at region 5's exit. -/
theorem w14_main_v1 (c : Dev nD) : W14 m ρ c (Proc.devRef .tc main_v1) = edgeSrc (m ((c : Thread nD τ).loc main_arg1)) :=
  (W14_of_ne m ρ c main_v1 (by decide)).trans ((by
    show StableHlo.after hostOps6 (W12 m ρ c) (Proc.devRef .tc main_v1) = W12 m ρ c (Proc.devRef .tc main_v1)
    after_results <;> rfl : W13 m ρ c (Proc.devRef .tc main_v1) = W12 m ρ c (Proc.devRef .tc main_v1)).trans (w12_main_v1 m ρ c))

/-- At region 6's exit the destination-index vector holds row 1 of the launched edge table: region 6 has no window on it and no host operation of the stretch before
    the region writes it, so it holds what it held at region 5's exit. -/
theorem w14_main_v3 (c : Dev nD) : W14 m ρ c (Proc.devRef .tc main_v3) = edgeDst (m ((c : Thread nD τ).loc main_arg1)) :=
  (W14_of_ne m ρ c main_v3 (by decide)).trans ((by
    show StableHlo.after hostOps6 (W12 m ρ c) (Proc.devRef .tc main_v3) = W12 m ρ c (Proc.devRef .tc main_v3)
    after_results <;> rfl : W13 m ρ c (Proc.devRef .tc main_v3) = W12 m ρ c (Proc.devRef .tc main_v3)).trans (w12_main_v3 m ρ c))

/-- At region 7's exit `main_arg2` holds its launched contents: region 7 has no window on it and no host operation of the stretch before
    the region writes it, so it holds what it held at region 6's exit. -/
theorem w16_main_arg2 (c : Dev nD) : W16 m ρ c (Proc.devRef .tc main_arg2) = m ((c : Thread nD τ).loc main_arg2) :=
  (W16_of_ne m ρ c main_arg2 (by decide)).trans ((by
    show StableHlo.after hostOps7 (W14 m ρ c) (Proc.devRef .tc main_arg2) = W14 m ρ c (Proc.devRef .tc main_arg2)
    after_results <;> rfl : W15 m ρ c (Proc.devRef .tc main_arg2) = W14 m ρ c (Proc.devRef .tc main_arg2)).trans (w14_main_arg2 m ρ c))

/-- At region 7's exit `main_arg3` holds its launched contents: region 7 has no window on it and no host operation of the stretch before
    the region writes it, so it holds what it held at region 6's exit. -/
theorem w16_main_arg3 (c : Dev nD) : W16 m ρ c (Proc.devRef .tc main_arg3) = m ((c : Thread nD τ).loc main_arg3) :=
  (W16_of_ne m ρ c main_arg3 (by decide)).trans ((by
    show StableHlo.after hostOps7 (W14 m ρ c) (Proc.devRef .tc main_arg3) = W14 m ρ c (Proc.devRef .tc main_arg3)
    after_results <;> rfl : W15 m ρ c (Proc.devRef .tc main_arg3) = W14 m ρ c (Proc.devRef .tc main_arg3)).trans (w14_main_arg3 m ρ c))

/-- At region 7's exit `main_arg4` holds its launched contents: region 7 has no window on it and no host operation of the stretch before
    the region writes it, so it holds what it held at region 6's exit. -/
theorem w16_main_arg4 (c : Dev nD) : W16 m ρ c (Proc.devRef .tc main_arg4) = m ((c : Thread nD τ).loc main_arg4) :=
  (W16_of_ne m ρ c main_arg4 (by decide)).trans ((by
    show StableHlo.after hostOps7 (W14 m ρ c) (Proc.devRef .tc main_arg4) = W14 m ρ c (Proc.devRef .tc main_arg4)
    after_results <;> rfl : W15 m ρ c (Proc.devRef .tc main_arg4) = W14 m ρ c (Proc.devRef .tc main_arg4)).trans (w14_main_arg4 m ρ c))

/-- At region 7's exit `main_arg5` holds its launched contents: region 7 has no window on it and no host operation of the stretch before
    the region writes it, so it holds what it held at region 6's exit. -/
theorem w16_main_arg5 (c : Dev nD) : W16 m ρ c (Proc.devRef .tc main_arg5) = m ((c : Thread nD τ).loc main_arg5) :=
  (W16_of_ne m ρ c main_arg5 (by decide)).trans ((by
    show StableHlo.after hostOps7 (W14 m ρ c) (Proc.devRef .tc main_arg5) = W14 m ρ c (Proc.devRef .tc main_arg5)
    after_results <;> rfl : W15 m ρ c (Proc.devRef .tc main_arg5) = W14 m ρ c (Proc.devRef .tc main_arg5)).trans (w14_main_arg5 m ρ c))

/-- At region 7's exit `main_arg6` holds its launched contents: region 7 has no window on it and no host operation of the stretch before
    the region writes it, so it holds what it held at region 6's exit. -/
theorem w16_main_arg6 (c : Dev nD) : W16 m ρ c (Proc.devRef .tc main_arg6) = m ((c : Thread nD τ).loc main_arg6) :=
  (W16_of_ne m ρ c main_arg6 (by decide)).trans ((by
    show StableHlo.after hostOps7 (W14 m ρ c) (Proc.devRef .tc main_arg6) = W14 m ρ c (Proc.devRef .tc main_arg6)
    after_results <;> rfl : W15 m ρ c (Proc.devRef .tc main_arg6) = W14 m ρ c (Proc.devRef .tc main_arg6)).trans (w14_main_arg6 m ρ c))

/-- At region 7's exit `main_arg7` holds its launched contents: region 7 has no window on it and no host operation of the stretch before
    the region writes it, so it holds what it held at region 6's exit. -/
theorem w16_main_arg7 (c : Dev nD) : W16 m ρ c (Proc.devRef .tc main_arg7) = m ((c : Thread nD τ).loc main_arg7) :=
  (W16_of_ne m ρ c main_arg7 (by decide)).trans ((by
    show StableHlo.after hostOps7 (W14 m ρ c) (Proc.devRef .tc main_arg7) = W14 m ρ c (Proc.devRef .tc main_arg7)
    after_results <;> rfl : W15 m ρ c (Proc.devRef .tc main_arg7) = W14 m ρ c (Proc.devRef .tc main_arg7)).trans (w14_main_arg7 m ρ c))

/-- At region 7's exit `main_arg8` holds its launched contents: region 7 has no window on it and no host operation of the stretch before
    the region writes it, so it holds what it held at region 6's exit. -/
theorem w16_main_arg8 (c : Dev nD) : W16 m ρ c (Proc.devRef .tc main_arg8) = m ((c : Thread nD τ).loc main_arg8) :=
  (W16_of_ne m ρ c main_arg8 (by decide)).trans ((by
    show StableHlo.after hostOps7 (W14 m ρ c) (Proc.devRef .tc main_arg8) = W14 m ρ c (Proc.devRef .tc main_arg8)
    after_results <;> rfl : W15 m ρ c (Proc.devRef .tc main_arg8) = W14 m ρ c (Proc.devRef .tc main_arg8)).trans (w14_main_arg8 m ρ c))

/-- At region 7's exit the source-index vector holds row 0 of the launched edge table: region 7 has no window on it and no host operation of the stretch before
    the region writes it, so it holds what it held at region 6's exit. -/
theorem w16_main_v1 (c : Dev nD) : W16 m ρ c (Proc.devRef .tc main_v1) = edgeSrc (m ((c : Thread nD τ).loc main_arg1)) :=
  (W16_of_ne m ρ c main_v1 (by decide)).trans ((by
    show StableHlo.after hostOps7 (W14 m ρ c) (Proc.devRef .tc main_v1) = W14 m ρ c (Proc.devRef .tc main_v1)
    after_results <;> rfl : W15 m ρ c (Proc.devRef .tc main_v1) = W14 m ρ c (Proc.devRef .tc main_v1)).trans (w14_main_v1 m ρ c))

/-- At region 7's exit the destination-index vector holds row 1 of the launched edge table: region 7 has no window on it and no host operation of the stretch before
    the region writes it, so it holds what it held at region 6's exit. -/
theorem w16_main_v3 (c : Dev nD) : W16 m ρ c (Proc.devRef .tc main_v3) = edgeDst (m ((c : Thread nD τ).loc main_arg1)) :=
  (W16_of_ne m ρ c main_v3 (by decide)).trans ((by
    show StableHlo.after hostOps7 (W14 m ρ c) (Proc.devRef .tc main_v3) = W14 m ρ c (Proc.devRef .tc main_v3)
    after_results <;> rfl : W15 m ρ c (Proc.devRef .tc main_v3) = W14 m ρ c (Proc.devRef .tc main_v3)).trans (w14_main_v3 m ρ c))

/-- At region 8's exit `main_arg2` holds its launched contents: region 8 has no window on it and no host operation of the stretch before
    the region writes it, so it holds what it held at region 7's exit. -/
theorem w18_main_arg2 (c : Dev nD) : W18 m ρ c (Proc.devRef .tc main_arg2) = m ((c : Thread nD τ).loc main_arg2) :=
  (W18_of_ne m ρ c main_arg2 (by decide)).trans ((by
    show StableHlo.after hostOps8 (W16 m ρ c) (Proc.devRef .tc main_arg2) = W16 m ρ c (Proc.devRef .tc main_arg2)
    after_results <;> rfl : W17 m ρ c (Proc.devRef .tc main_arg2) = W16 m ρ c (Proc.devRef .tc main_arg2)).trans (w16_main_arg2 m ρ c))

/-- At region 8's exit `main_arg5` holds its launched contents: region 8 has no window on it and no host operation of the stretch before
    the region writes it, so it holds what it held at region 7's exit. -/
theorem w18_main_arg5 (c : Dev nD) : W18 m ρ c (Proc.devRef .tc main_arg5) = m ((c : Thread nD τ).loc main_arg5) :=
  (W18_of_ne m ρ c main_arg5 (by decide)).trans ((by
    show StableHlo.after hostOps8 (W16 m ρ c) (Proc.devRef .tc main_arg5) = W16 m ρ c (Proc.devRef .tc main_arg5)
    after_results <;> rfl : W17 m ρ c (Proc.devRef .tc main_arg5) = W16 m ρ c (Proc.devRef .tc main_arg5)).trans (w16_main_arg5 m ρ c))

/-- At region 8's exit `main_arg6` holds its launched contents: region 8 has no window on it and no host operation of the stretch before
    the region writes it, so it holds what it held at region 7's exit. -/
theorem w18_main_arg6 (c : Dev nD) : W18 m ρ c (Proc.devRef .tc main_arg6) = m ((c : Thread nD τ).loc main_arg6) :=
  (W18_of_ne m ρ c main_arg6 (by decide)).trans ((by
    show StableHlo.after hostOps8 (W16 m ρ c) (Proc.devRef .tc main_arg6) = W16 m ρ c (Proc.devRef .tc main_arg6)
    after_results <;> rfl : W17 m ρ c (Proc.devRef .tc main_arg6) = W16 m ρ c (Proc.devRef .tc main_arg6)).trans (w16_main_arg6 m ρ c))

/-- At region 8's exit `main_arg7` holds its launched contents: region 8 has no window on it and no host operation of the stretch before
    the region writes it, so it holds what it held at region 7's exit. -/
theorem w18_main_arg7 (c : Dev nD) : W18 m ρ c (Proc.devRef .tc main_arg7) = m ((c : Thread nD τ).loc main_arg7) :=
  (W18_of_ne m ρ c main_arg7 (by decide)).trans ((by
    show StableHlo.after hostOps8 (W16 m ρ c) (Proc.devRef .tc main_arg7) = W16 m ρ c (Proc.devRef .tc main_arg7)
    after_results <;> rfl : W17 m ρ c (Proc.devRef .tc main_arg7) = W16 m ρ c (Proc.devRef .tc main_arg7)).trans (w16_main_arg7 m ρ c))

/-- At region 8's exit `main_arg8` holds its launched contents: region 8 has no window on it and no host operation of the stretch before
    the region writes it, so it holds what it held at region 7's exit. -/
theorem w18_main_arg8 (c : Dev nD) : W18 m ρ c (Proc.devRef .tc main_arg8) = m ((c : Thread nD τ).loc main_arg8) :=
  (W18_of_ne m ρ c main_arg8 (by decide)).trans ((by
    show StableHlo.after hostOps8 (W16 m ρ c) (Proc.devRef .tc main_arg8) = W16 m ρ c (Proc.devRef .tc main_arg8)
    after_results <;> rfl : W17 m ρ c (Proc.devRef .tc main_arg8) = W16 m ρ c (Proc.devRef .tc main_arg8)).trans (w16_main_arg8 m ρ c))

/-- At region 9's exit `main_arg2` holds its launched contents: region 9 has no window on it and no host operation of the stretch before
    the region writes it, so it holds what it held at region 8's exit. -/
theorem w20_main_arg2 (c : Dev nD) : W20 m ρ c (Proc.devRef .tc main_arg2) = m ((c : Thread nD τ).loc main_arg2) :=
  (W20_of_ne m ρ c main_arg2 (by decide)).trans ((by
    show StableHlo.after hostOps9 (W18 m ρ c) (Proc.devRef .tc main_arg2) = W18 m ρ c (Proc.devRef .tc main_arg2)
    after_results <;> rfl : W19 m ρ c (Proc.devRef .tc main_arg2) = W18 m ρ c (Proc.devRef .tc main_arg2)).trans (w18_main_arg2 m ρ c))

end Cert.KernelIdeal.RunV

end
-- ==== Proof.KernelRunVS6.lean ====
/-
  Layer 3's first region (region 6) is entered after a stretch of host operations run from region 5's exit. Its four
  input arrays then hold: the features x that layer 2's second region left; the neighbour sum of x along the launched
  edge table; layer 3's slice of the first stacked weight matrix and of the first stacked bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkB

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 6, input window 0 holds the features as region 5's write-backs left them (its output window 7):
    no operation of the stretch writes that array. -/
theorem s6_x (c : Dev nD) :
    (V13 m ρ c main_v93 : (⟨S100000x128, .f32⟩ : BufTy).Contents (Elt F)) = (dat5 (V11 m ρ) c).arrAt 7 cfg5.N := by
  have h7 : W12 m ρ c (Proc.devRef .tc main_v93) = (dat5 (V11 m ρ) c).arrAt 7 cfg5.N := W12_arr m ρ c 7
  rw [← h7]
  show StableHlo.after hostOps6 (W12 m ρ c) (Proc.devRef .tc main_v93) = _
  after_results <;> rfl

/-- Entering region 6, input window 1 holds the neighbour sum of the features region 5 left, along the launched edge
    table (its two rows as the first stretch read them off). -/
theorem s6_agg (c : Dev nD) :
    (V13 m ρ c main_v103 : (⟨S100000x128, .f32⟩ : BufTy).Contents (Elt F))
      = nbrSum ((dat5 (V11 m ρ) c).arrAt 7 cfg5.N) (edgeSrc (m ((c : Thread nD τ).loc main_arg1))) (edgeDst (m ((c : Thread nD τ).loc main_arg1))) := by
  have h7 : W12 m ρ c (Proc.devRef .tc main_v93) = (dat5 (V11 m ρ) c).arrAt 7 cfg5.N := W12_arr m ρ c 7
  rw [← h7, ← w12_main_v1 m ρ c, ← w12_main_v3 m ρ c]
  unfold nbrSum
  show StableHlo.after hostOps6 (W12 m ρ c) (Proc.devRef .tc main_v103) = _
  after_results_simp <;> rfl

/-- Entering region 6, input window 2 holds layer 3's matrix of the first stacked weights, as launched. -/
theorem s6_w (c : Dev nD) :
    (V13 m ρ c main_v105 : (⟨S128x128, .f32⟩ : BufTy).Contents (Elt F))
      = layerMat ![3, 0, 0] slices_S5x128x128_S1x128x128_3_0_0 (m ((c : Thread nD τ).loc main_arg3)) := by
  rw [← w12_main_arg3 m ρ c]
  unfold layerMat
  show StableHlo.after hostOps6 (W12 m ρ c) (Proc.devRef .tc main_v105) = _
  after_results <;> rfl

/-- Entering region 6, input window 3 holds layer 3's vector of the first stacked biases, as launched. -/
theorem s6_b (c : Dev nD) :
    (V13 m ρ c main_v107 : (⟨S128, .f32⟩ : BufTy).Contents (Elt F))
      = layerVec ![3, 0] slices_S5x128_S1x128_3_0 (m ((c : Thread nD τ).loc main_arg4)) := by
  rw [← w12_main_arg4 m ρ c]
  unfold layerVec
  show StableHlo.after hostOps6 (W12 m ρ c) (Proc.devRef .tc main_v107) = _
  after_results <;> rfl

end Cert.KernelIdeal.RunV

end
-- ==== Proof.KernelRunVS7.lean ====
/-
  Layer 3's second region (region 7) is entered after a stretch of host operations run from region 6's exit. Its
  seven input arrays then hold: the first linear map's output h as region 6 left it; the column mean and variance of
  h from the column sums s and ss region 6 left (s / 100000 and ss / 100000 - (s / 100000)^2); layer 3's slices of the
  stacked scale, shift, second weight matrix and second bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkB

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 7, input window 0 holds the first linear map's output as region 6's write-backs left it (its
    output window 4): no operation of the stretch writes that array. -/
theorem s7_h (c : Dev nD) :
    (V15 m ρ c main_v108_0 : (⟨S100000x128, .f32⟩ : BufTy).Contents (Elt F)) = (dat6 (V13 m ρ) c).arrAt 4 cfg6.N := by
  have h4 : W14 m ρ c (Proc.devRef .tc main_v108_0) = (dat6 (V13 m ρ) c).arrAt 4 cfg6.N := W14_arr m ρ c 4
  rw [← h4]
  show StableHlo.after hostOps7 (W14 m ρ c) (Proc.devRef .tc main_v108_0) = _
  after_results <;> rfl

/-- Entering region 7, input window 1 holds the column mean: region 6's column sum (its output window 5) over 100000. -/
theorem s7_mean (c : Dev nD) :
    (V15 m ρ c main_v110 : (⟨S1x128, .f32⟩ : BufTy).Contents (Elt F)) = meanOf ((dat6 (V13 m ρ) c).arrAt 5 cfg6.N) := by
  have h5 : W14 m ρ c (Proc.devRef .tc main_v108_1) = (dat6 (V13 m ρ) c).arrAt 5 cfg6.N := W14_arr m ρ c 5
  rw [← h5]
  unfold meanOf
  show StableHlo.after hostOps7 (W14 m ρ c) (Proc.devRef .tc main_v110) = _
  after_results <;> rfl

/-- Entering region 7, input window 2 holds the column variance: region 6's column sum of squares (its output window 6)
    over 100000, less the square of the column mean. -/
theorem s7_var (c : Dev nD) :
    (V15 m ρ c main_v114 : (⟨S1x128, .f32⟩ : BufTy).Contents (Elt F))
      = varOf ((dat6 (V13 m ρ) c).arrAt 5 cfg6.N) ((dat6 (V13 m ρ) c).arrAt 6 cfg6.N) := by
  have h5 : W14 m ρ c (Proc.devRef .tc main_v108_1) = (dat6 (V13 m ρ) c).arrAt 5 cfg6.N := W14_arr m ρ c 5
  have h6 : W14 m ρ c (Proc.devRef .tc main_v108_2) = (dat6 (V13 m ρ) c).arrAt 6 cfg6.N := W14_arr m ρ c 6
  rw [← h5, ← h6]
  unfold varOf meanOf
  show StableHlo.after hostOps7 (W14 m ρ c) (Proc.devRef .tc main_v114) = _
  after_results <;> rfl

/-- Entering region 7, input window 3 holds layer 3's slice of the stacked scale, as launched. -/
theorem s7_gamma (c : Dev nD) :
    (V15 m ρ c main_v116 : (⟨S128, .f32⟩ : BufTy).Contents (Elt F)) = layerVec ![3, 0] slices_S5x128_S1x128_3_0 (m ((c : Thread nD τ).loc main_arg5)) := by
  rw [← w14_main_arg5 m ρ c]
  unfold layerVec
  show StableHlo.after hostOps7 (W14 m ρ c) (Proc.devRef .tc main_v116) = _
  after_results <;> rfl

/-- Entering region 7, input window 4 holds layer 3's slice of the stacked shift, as launched. -/
theorem s7_beta (c : Dev nD) :
    (V15 m ρ c main_v118 : (⟨S128, .f32⟩ : BufTy).Contents (Elt F)) = layerVec ![3, 0] slices_S5x128_S1x128_3_0 (m ((c : Thread nD τ).loc main_arg6)) := by
  rw [← w14_main_arg6 m ρ c]
  unfold layerVec
  show StableHlo.after hostOps7 (W14 m ρ c) (Proc.devRef .tc main_v118) = _
  after_results <;> rfl

/-- Entering region 7, input window 5 holds layer 3's slice of the stacked second weight matrix, as launched. -/
theorem s7_w2 (c : Dev nD) :
    (V15 m ρ c main_v120 : (⟨S128x128, .f32⟩ : BufTy).Contents (Elt F)) = layerMat ![3, 0, 0] slices_S5x128x128_S1x128x128_3_0_0 (m ((c : Thread nD τ).loc main_arg7)) := by
  rw [← w14_main_arg7 m ρ c]
  unfold layerMat
  show StableHlo.after hostOps7 (W14 m ρ c) (Proc.devRef .tc main_v120) = _
  after_results <;> rfl

/-- Entering region 7, input window 6 holds layer 3's slice of the stacked second bias, as launched. -/
theorem s7_b2 (c : Dev nD) :
    (V15 m ρ c main_v122 : (⟨S128, .f32⟩ : BufTy).Contents (Elt F)) = layerVec ![3, 0] slices_S5x128_S1x128_3_0 (m ((c : Thread nD τ).loc main_arg8)) := by
  rw [← w14_main_arg8 m ρ c]
  unfold layerVec
  show StableHlo.after hostOps7 (W14 m ρ c) (Proc.devRef .tc main_v122) = _
  after_results <;> rfl

end Cert.KernelIdeal.RunV

end
-- ==== Proof.Layer1V6Pieces.lean ====
/-
  What one run of the first dense map's body leaves in its three output tiles.

  The body writes the tile of h once, and each of the two running rows once (at the first grid point twice: the zero
  row first, then the updated row, which reads the zero row back).  Each tile therefore ends holding the value of its
  last store: the tile of h; the running row plus the tile's column sums, where at the first point the running row is
  the zero row just stored and at a later point it is what the tile held before the body ran.
-/
import proofs.«164329_j2903397892177_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Layer1V.R6

open Cert.KernelIdeal Cert.KernelIdeal.Gen Idealize.ShloMosaic.ValueIdx

variable {F : FTy → Type} [FloatOps F]

/-- Zero offsets on two axes, as the stores spell them. -/
theorem hz2 : (![0, 0] : Fin 2 → Nat) = fun _ => 0 := funext fun a => by fin_cases a <;> rfl
/-- Zero offset on one axis. -/
theorem hz1 : (![0] : Fin 1 → Nat) = fun _ => 0 := funext fun a => by fin_cases a; rfl

/-- First point: the h tile ends at the body's h of the four input tiles. -/
theorem out_A_4 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond6_0 i)
    (x0 : Vec F S5000x128 .f32) (x1 : Vec F S5000x128 .f32) (x2 : Vec F S128x128 .f32) (x3 : Vec F S128 .f32) :
    out6_A_4 c i arg1 harg1 arg2 harg2 arg3 harg3 arg4 harg4 arg5 harg5 arg6 harg6 arg7 harg7 hc0 x0 x1 x2 x3 = k6_pay3 x0 x1 x2 x3 := by
  unfold out6_A_4
  rw [View.read_writes_eq_canon _ _ _ (cover6_A_4 c i arg1 harg1 arg2 harg2 arg3 harg3 arg4 harg4 arg5 harg5 arg6 harg6 arg7 harg7 hc0 x0 x1 x2 x3)]
  unfold kernelRun6_A
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum ends at the zero row plus the tile's column sums of h. -/
theorem out_A_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond6_0 i)
    (x0 : Vec F S5000x128 .f32) (x1 : Vec F S5000x128 .f32) (x2 : Vec F S128x128 .f32) (x3 : Vec F S128 .f32) :
    out6_A_5 c i arg1 harg1 arg2 harg2 arg3 harg3 arg4 harg4 arg5 harg5 arg6 harg6 arg7 harg7 hc0 x0 x1 x2 x3 = k6_pay4 x0 x1 x2 x3 k6_pay1 := by
  unfold out6_A_5
  rw [View.read_writes_eq_canon _ _ _ (cover6_A_5 c i arg1 harg1 arg2 harg2 arg3 harg3 arg4 harg4 arg5 harg5 arg6 harg6 arg7 harg7 hc0 x0 x1 x2 x3)]
  unfold kernelRun6_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum of squares ends at the zero row plus the tile's column sums of h·h. -/
theorem out_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond6_0 i)
    (x0 : Vec F S5000x128 .f32) (x1 : Vec F S5000x128 .f32) (x2 : Vec F S128x128 .f32) (x3 : Vec F S128 .f32) :
    out6_A_6 c i arg1 harg1 arg2 harg2 arg3 harg3 arg4 harg4 arg5 harg5 arg6 harg6 arg7 harg7 hc0 x0 x1 x2 x3 = k6_pay5 x0 x1 x2 x3 k6_pay2 := by
  unfold out6_A_6
  rw [View.read_writes_eq_canon _ _ _ (cover6_A_6 c i arg1 harg1 arg2 harg2 arg3 harg3 arg4 harg4 arg5 harg5 arg6 harg6 arg7 harg7 hc0 x0 x1 x2 x3)]
  unfold kernelRun6_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the h tile ends at the body's h of the four input tiles. -/
theorem out_B_4 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i)
    (x0 : Vec F S5000x128 .f32) (x1 : Vec F S5000x128 .f32) (x2 : Vec F S128x128 .f32) (x3 : Vec F S128 .f32) (xo5 : Vec F S1x128 .f32) (xo6 : Vec F S1x128 .f32) :
    out6_B_4 c i arg1 harg1 arg2 harg2 arg3 harg3 arg4 harg4 arg5 harg5 arg6 harg6 arg7 harg7 hc0 x0 x1 x2 x3 xo5 xo6 = k6_pay3 x0 x1 x2 x3 := by
  unfold out6_B_4
  rw [View.read_writes_eq_canon _ _ _ (cover6_B_4 c i arg1 harg1 arg2 harg2 arg3 harg3 arg4 harg4 arg5 harg5 arg6 harg6 arg7 harg7 hc0 x0 x1 x2 x3 xo5 xo6)]
  unfold kernelRun6_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum ends at what it held plus the tile's column sums of h. -/
theorem out_B_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i)
    (x0 : Vec F S5000x128 .f32) (x1 : Vec F S5000x128 .f32) (x2 : Vec F S128x128 .f32) (x3 : Vec F S128 .f32) (xo5 : Vec F S1x128 .f32) (xo6 : Vec F S1x128 .f32) :
    out6_B_5 c i arg1 harg1 arg2 harg2 arg3 harg3 arg4 harg4 arg5 harg5 arg6 harg6 arg7 harg7 hc0 x0 x1 x2 x3 xo5 xo6 = k6_pay4 x0 x1 x2 x3 xo5 := by
  unfold out6_B_5
  rw [View.read_writes_eq_canon _ _ _ (cover6_B_5 c i arg1 harg1 arg2 harg2 arg3 harg3 arg4 harg4 arg5 harg5 arg6 harg6 arg7 harg7 hc0 x0 x1 x2 x3 xo5 xo6)]
  unfold kernelRun6_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum of squares ends at what it held plus the tile's column sums of h·h. -/
theorem out_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond6_0 i)
    (x0 : Vec F S5000x128 .f32) (x1 : Vec F S5000x128 .f32) (x2 : Vec F S128x128 .f32) (x3 : Vec F S128 .f32) (xo5 : Vec F S1x128 .f32) (xo6 : Vec F S1x128 .f32) :
    out6_B_6 c i arg1 harg1 arg2 harg2 arg3 harg3 arg4 harg4 arg5 harg5 arg6 harg6 arg7 harg7 hc0 x0 x1 x2 x3 xo5 xo6 = k6_pay5 x0 x1 x2 x3 xo6 := by
  unfold out6_B_6
  rw [View.read_writes_eq_canon _ _ _ (cover6_B_6 c i arg1 harg1 arg2 harg2 arg3 harg3 arg4 harg4 arg5 harg5 arg6 harg6 arg7 harg7 hc0 x0 x1 x2 x3 xo5 xo6)]
  unfold kernelRun6_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

end Cert.KernelIdeal.Layer1V.R6

end
-- ==== Proof.Layer1V6Outs.lean ====
/-
  The three output tiles after each grid point of the first dense map, as values of the body's arithmetic.

  After the first point the tiles hold h of the point's input tiles, and the two running rows hold the zero row plus
  that tile's column sums.  After a later point they hold h of that point's input tiles, and the running rows hold
  what the point before left plus that tile's column sums.
-/
import proofs.«164329_j2903397892177_1_alg».proof.Proof.Layer1V6Pieces
import Idealize.ShloMosaic.Lib.ValueIdx

noncomputable section

open Idealize.ShloMosaic Idealize.ShloMosaic.TcCoe Idealize.SL.Sem
open Idealize.ShloMosaic.Pipeline (Dat)

namespace Cert.KernelIdeal.Layer1V.R6

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- After the first point: h of its tiles, and the zero rows plus the tile's column sums. -/
theorem outs_A (t : Fin cfg6.N) (h0 : t.val % 20 = 0) :
    outsAt6 V c t.val t.isLt
      = (k6_pay3 (iblk6 V c 0 t) (iblk6 V c 1 t) (iblk6 V c 2 t) (iblk6 V c 3 t),
         k6_pay4 (iblk6 V c 0 t) (iblk6 V c 1 t) (iblk6 V c 2 t) (iblk6 V c 3 t) k6_pay1,
         k6_pay5 (iblk6 V c 0 t) (iblk6 V c 1 t) (iblk6 V c 2 t) (iblk6 V c 3 t) k6_pay2) :=
  (outsAt6_A V c t h0).trans
    (congrArg₂ Prod.mk
      (out_A_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))
      (congrArg₂ Prod.mk
        (out_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))
        (out_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))))

/-- After a later point: h of its tiles, and what the point before left plus the tile's column sums. -/
theorem outs_B (t : Fin cfg6.N) (h0 : ¬t.val % 20 = 0) :
    outsAt6 V c t.val t.isLt
      = (k6_pay3 (iblk6 V c 0 t) (iblk6 V c 1 t) (iblk6 V c 2 t) (iblk6 V c 3 t),
         k6_pay4 (iblk6 V c 0 t) (iblk6 V c 1 t) (iblk6 V c 2 t) (iblk6 V c 3 t) (outsAt6 V c (t.val - 1) (Nat.lt_of_le_of_lt (Nat.sub_le _ _) t.isLt)).2.1,
         k6_pay5 (iblk6 V c 0 t) (iblk6 V c 1 t) (iblk6 V c 2 t) (iblk6 V c 3 t) (outsAt6 V c (t.val - 1) (Nat.lt_of_le_of_lt (Nat.sub_le _ _) t.isLt)).2.2) :=
  (outsAt6_B V c t h0).trans
    (congrArg₂ Prod.mk
      (out_B_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2)
      (congrArg₂ Prod.mk
        (out_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2)
        (out_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2)))

/-- The h tile after any point is h of that point's input tiles. -/
theorem outs_h (t : Fin cfg6.N) : (outsAt6 V c t.val t.isLt).1 = k6_pay3 (iblk6 V c 0 t) (iblk6 V c 1 t) (iblk6 V c 2 t) (iblk6 V c 3 t) := by
  by_cases h0 : t.val % 20 = 0
  · rw [outs_A V c t h0]
  · rw [outs_B V c t h0]

end Cert.KernelIdeal.Layer1V.R6

end
-- ==== Proof.Layer1V6Blocks.lean ====
/-
  The input tiles of the first dense map as rows of the arrays they are cut from.

  At grid point t the row tiles of x and of the neighbour sums hold rows 5000·t … 5000·t + 4999 of their arrays, all
  128 lanes; the weight tile is the whole 128 × 128 weight matrix and the bias tile the whole bias vector at every
  point.  The output tile of h sits at the same rows; the two running rows are their whole 1 × 128 arrays.
-/
import proofs.«164329_j2903397892177_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Layer1V.R6

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- Where each window's tile sits at grid point t: the row windows at block row t, every other coordinate at block 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- The grid has 20 points. -/
theorem lt20 (t : Fin cfg6.N) : t.val < 20 := lt_of_lt_of_eq t.isLt (show cfg6.N = 20 from N_6)

/-- The x tile at point t, entry (p, j), is x at row 5000·t + p, lane j. -/
theorem iblk_x (t : Fin cfg6.N) (p : Fin 5000) (j : Fin 128) (r : Fin 100000) (hr : r.val = 5000 * t.val + p.val) :
    (iblk6 V c 0 t : Vec F S5000x128 .f32) (ix2 p j)
      = (V c (Pipeline.arrRef spec6 0) : S100000x128.Idx → Elt F .f32) (ix2 r j) := by
  obtain ⟨e0, e1, -⟩ := idx_facts t
  unfold iblk6
  rw [View.read_apply]
  refine congrArg (V c (Pipeline.arrRef spec6 0) : S100000x128.Idx → Elt F .f32) (funext fun a => Fin.ext ?_)
  match a with
  | ⟨0, _⟩ => show win6_0.index t (0 : Fin 2) * 5000 + 1 * p.val = r.val; rw [e0, hr]; omega
  | ⟨1, _⟩ => show win6_0.index t (1 : Fin 2) * 128 + 1 * j.val = j.val; rw [e1]; omega

/-- The neighbour-sum tile at point t, entry (p, j), is the neighbour sums at row 5000·t + p, lane j. -/
theorem iblk_a (t : Fin cfg6.N) (p : Fin 5000) (j : Fin 128) (r : Fin 100000) (hr : r.val = 5000 * t.val + p.val) :
    (iblk6 V c 1 t : Vec F S5000x128 .f32) (ix2 p j)
      = (V c (Pipeline.arrRef spec6 1) : S100000x128.Idx → Elt F .f32) (ix2 r j) := by
  obtain ⟨-, -, e0, e1, -⟩ := idx_facts t
  unfold iblk6
  rw [View.read_apply]
  refine congrArg (V c (Pipeline.arrRef spec6 1) : S100000x128.Idx → Elt F .f32) (funext fun a => Fin.ext ?_)
  match a with
  | ⟨0, _⟩ => show win6_1.index t (0 : Fin 2) * 5000 + 1 * p.val = r.val; rw [e0, hr]; omega
  | ⟨1, _⟩ => show win6_1.index t (1 : Fin 2) * 128 + 1 * j.val = j.val; rw [e1]; omega

/-- The weight tile at any point is the weight matrix. -/
theorem iblk_w (t : Fin cfg6.N) (j q : Fin 128) :
    (iblk6 V c 2 t : Vec F S128x128 .f32) (ix2 j q)
      = (V c (Pipeline.arrRef spec6 2) : S128x128.Idx → Elt F .f32) (ix2 j q) := by
  obtain ⟨-, -, -, -, e0, e1, -⟩ := idx_facts t
  unfold iblk6
  rw [View.read_apply]
  refine congrArg (V c (Pipeline.arrRef spec6 2) : S128x128.Idx → Elt F .f32) (funext fun a => Fin.ext ?_)
  match a with
  | ⟨0, _⟩ => show win6_2.index t (0 : Fin 2) * 128 + 1 * j.val = j.val; rw [e0]; omega
  | ⟨1, _⟩ => show win6_2.index t (1 : Fin 2) * 128 + 1 * q.val = q.val; rw [e1]; omega

/-- The bias tile at any point is the bias vector. -/
theorem iblk_b (t : Fin cfg6.N) (q : Fin 128) :
    (iblk6 V c 3 t : Vec F S128 .f32) (ix1 q)
      = (V c (Pipeline.arrRef spec6 3) : S128.Idx → Elt F .f32) (ix1 q) := by
  obtain ⟨-, -, -, -, -, -, e0, -⟩ := idx_facts t
  unfold iblk6
  rw [View.read_apply]
  refine congrArg (V c (Pipeline.arrRef spec6 3) : S128.Idx → Elt F .f32) (funext fun a => Fin.ext ?_)
  match a with
  | ⟨0, _⟩ => show win6_3.index t (0 : Fin 1) * 128 + 1 * q.val = q.val; rw [e0]; omega

end Cert.KernelIdeal.Layer1V.R6

end
-- ==== Proof.Layer1V6Pay.lean ====
/-
  The first dense map's body, read entry by entry on the extended reals.

  On one tile of 5000 rows the body forms h = (x + a)·W + b and adds the tile's column sums of h and of h·h onto two
  running rows.  Entry by entry: h at (p, q) is the sum over j of (x(p, j) + a(p, j)) · W(j, q), plus b(q): a change
  of float format is the identity on the extended reals, the product accumulates into zero, and the bias row is the
  same in every row.  The running sum at lane q grows by the sum over the tile's rows p of h(p, q), the running sum
  of squares by the sum of h(p, q) · h(p, q).  The two rows a first tile starts from are zero.
-/
import proofs.«164329_j2903397892177_1_alg».proof.Proof.Gen.KernelIdeal.Skeleton
import proofs.«164329_j2903397892177_1_alg».proof.Proof.Layer1VMatmul
import proofs.«164329_j2903397892177_1_alg».proof.Proof.Layer1VOps
import Idealize.ShloMosaic.Lib.Pipeline.Value

noncomputable section

namespace Cert.KernelIdeal.Layer1V.R6

open Cert.KernelIdeal Cert.KernelIdeal.Gen Idealize.ShloMosaic Idealize.ShloMosaic.ValueIdx

/-- The tile of h at row p and lane q: the sum over j of (x(p, j) + a(p, j)) · W(j, q), plus b(q). -/
theorem pay3_apply (x0 x1 : FVec Ideal S5000x128 .f32) (x2 : FVec Ideal S128x128 .f32) (x3 : FVec Ideal S128 .f32)
    (p : Fin 5000) (q : Fin 128) :
    k6_pay3 x0 x1 x2 x3 (ix2 p q)
      = (∑ j : Fin 128, (x0 (ix2 p j) + x1 (ix2 p j)) * x2 (ix2 j q)) + x3 (ix1 q) := by
  unfold k6_pay3
  refine congrArg₂ (· + ·) ?_ ?_
  · refine (matmul_rows_cols_apply _ none _ _ p q).trans ?_
    refine Finset.sum_congr rfl fun j _ => ?_
    rw [shapeCast_self, shapeCast_self, shapeCast_self]
    rfl
  · refine (row_repeat_apply _ _ _ p q).trans ?_
    rw [shapeCast_self]

/-- The running column sum after a tile, at lane q: what it held plus the sum over the tile's rows of h. -/
theorem pay4_apply (x0 x1 : FVec Ideal S5000x128 .f32) (x2 : FVec Ideal S128x128 .f32) (x3 : FVec Ideal S128 .f32)
    (s : FVec Ideal S1x128 .f32) (u : Fin 1) (q : Fin 128) :
    k6_pay4 x0 x1 x2 x3 s (ix2 u q) = s (ix2 u q) + ∑ p : Fin 5000, k6_pay3 x0 x1 x2 x3 (ix2 p q) := by
  unfold k6_pay4
  refine congrArg₂ (· + ·) ?_ ?_
  · rw [shapeCast_self]
  · refine (shapeCast_a_1a_apply _ _ u q).trans ?_
    exact colsum_apply _ _ _ _ q

/-- The running column sum of squares after a tile, at lane q: what it held plus the sum over the tile's rows of h·h. -/
theorem pay5_apply (x0 x1 : FVec Ideal S5000x128 .f32) (x2 : FVec Ideal S128x128 .f32) (x3 : FVec Ideal S128 .f32)
    (s : FVec Ideal S1x128 .f32) (u : Fin 1) (q : Fin 128) :
    k6_pay5 x0 x1 x2 x3 s (ix2 u q)
      = s (ix2 u q) + ∑ p : Fin 5000, k6_pay3 x0 x1 x2 x3 (ix2 p q) * k6_pay3 x0 x1 x2 x3 (ix2 p q) := by
  unfold k6_pay5
  refine congrArg₂ (· + ·) ?_ ?_
  · rw [shapeCast_self]
  · refine (shapeCast_a_1a_apply _ _ u q).trans ?_
    exact colsum_apply _ _ _ _ q

/-- The row the running column sum starts from is zero. -/
theorem pay1_apply (u : Fin 1) (q : Fin 128) : k6_pay1 (F := Ideal) (ix2 u q) = 0 :=
  Ideal.ofBits_zero_f32

/-- The row the running column sum of squares starts from is zero. -/
theorem pay2_apply (u : Fin 1) (q : Fin 128) : k6_pay2 (F := Ideal) (ix2 u q) = 0 :=
  Ideal.ofBits_zero_f32

end Cert.KernelIdeal.Layer1V.R6

end
-- ==== Proof.Layer1V6H1.lean ====
/-
  The array of h after the first dense map's grid has run.

  Each grid point writes its 5000-row tile of h back to the rows it was computed from, and the twenty tiles cover the
  100000 rows.  Entry (r, k) of the array is therefore (x + a)·W + b at row r and lane k, of the four arrays the
  map found when it started.
-/
import proofs.«164329_j2903397892177_1_alg».proof.Proof.Layer1V6Outs
import proofs.«164329_j2903397892177_1_alg».proof.Proof.Layer1V6Blocks
import proofs.«164329_j2903397892177_1_alg».proof.Proof.Layer1V6Pay
import proofs.«164329_j2903397892177_1_alg».proof.Proof.LayerFns
import Idealize.ShloMosaic.Lib.ValueIdx

noncomputable section

open Idealize.ShloMosaic Idealize.ShloMosaic.TcCoe Idealize.SL.Sem
open Idealize.ShloMosaic.Pipeline (Dat)

namespace Cert.KernelIdeal.Layer1V.R6

open Cert.KernelIdeal Cert.KernelIdeal.Gen Idealize.ShloMosaic.ValueIdx

variable (V : (c : Dev nD) → (b : Ref sig .tc) → Buf (Elt Ideal) ((c : Thread nD τ).loc b)) (c : Dev nD)

/-- The array x as the map finds it, by row and lane. -/
abbrev inX : Fin 100000 → Fin 128 → EReal := fun r j => (V c (Pipeline.arrRef spec6 0) : S100000x128.Idx → EReal) (ix2 r j)
/-- The neighbour sums as the map finds them, by row and lane. -/
abbrev inA : Fin 100000 → Fin 128 → EReal := fun r j => (V c (Pipeline.arrRef spec6 1) : S100000x128.Idx → EReal) (ix2 r j)
/-- The weight matrix as the map finds it, by row and column. -/
abbrev inW : Fin 128 → Fin 128 → EReal := fun j k => (V c (Pipeline.arrRef spec6 2) : S128x128.Idx → EReal) (ix2 j k)
/-- The bias vector as the map finds it. -/
abbrev inB : Fin 128 → EReal := fun k => (V c (Pipeline.arrRef spec6 3) : S128.Idx → EReal) (ix1 k)

/-- h of point t's tiles at (p, q) is (x + a)·W + b at row 5000·t + p and lane q. -/
theorem pay3_block (t : Fin cfg6.N) (p : Fin 5000) (q : Fin 128) (r : Fin 100000) (hr : r.val = 5000 * t.val + p.val) :
    k6_pay3 (iblk6 V c 0 t) (iblk6 V c 1 t) (iblk6 V c 2 t) (iblk6 V c 3 t) (ix2 p q) = LayerFns.h1Fn (inX V c) (inA V c) (inW V c) (inB V c) r q := by
  refine (pay3_apply (iblk6 V c 0 t) (iblk6 V c 1 t) (iblk6 V c 2 t) (iblk6 V c 3 t) p q).trans ?_
  unfold LayerFns.h1Fn
  refine congrArg₂ (· + ·) (Finset.sum_congr rfl fun j _ => ?_) (iblk_b V c t q)
  exact congrArg₂ (· * ·) (congrArg₂ (· + ·) (iblk_x V c t p j r hr) (iblk_a V c t p j r hr)) (iblk_w V c t j q)

/-- The whole array of h, entry by entry. -/
def hArr : S100000x128.Idx → EReal := fun i => LayerFns.h1Fn (inX V c) (inA V c) (inW V c) (inB V c) (i 0) (i 1)

/-- What point t writes back is its tile of the whole array of h. -/
theorem flushed_h (t : Fin cfg6.N) (hf : (cfg6.win 4).flush t = true) :
    (dat6 V c).flushed 4 t = ((cfg6.win 4).blk t).view.read (Elt Ideal) (hArr V c) := by
  show (cfg6.win 4).cut (grid6.coords t) ((dat6 V c).after 4 t) = _
  rw [after6_4, outs_h]
  funext y
  obtain ⟨p, q, rfl⟩ : ∃ (p : Fin 5000) (q : Fin 128), y = ix2 p q := ⟨y 0, y 1, eq_ix2 y⟩
  rw [View.read_apply]
  obtain ⟨-, -, -, -, -, -, -, e0, e1, -⟩ := idx_facts t
  have ht := lt20 t
  have hr : 5000 * t.val + p.val < 100000 := by have := p.isLt; omega
  have c0 : (((cfg6.win 4).blk t).view.emb (ix2 p q)) 0 = (⟨5000 * t.val + p.val, hr⟩ : Fin 100000) :=
    Fin.ext (by show win6_4.index t (0 : Fin 2) * 5000 + 1 * p.val = 5000 * t.val + p.val; rw [e0]; omega)
  have c1 : (((cfg6.win 4).blk t).view.emb (ix2 p q)) 1 = q :=
    Fin.ext (by show win6_4.index t (1 : Fin 2) * 128 + 1 * q.val = q.val; rw [e1]; omega)
  exact (pay3_block V c t p q ⟨5000 * t.val + p.val, hr⟩ rfl).trans
    (congrArg₂ (LayerFns.h1Fn (inX V c) (inA V c) (inW V c) (inB V c)) c0.symm c1.symm)

/-- Every row lies in the tile of the point that its quotient by 5000 names. -/
theorem cover_h (i : S100000x128.Idx) :
    ∃ t : Fin cfg6.N, (cfg6.win 4).flush t = true ∧ i ∈ ((cfg6.win 4).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨-, -, -, -, -, -, -, e0, e1, -⟩ := idx_facts t
  refine ⟨t, flush6_4 t, ?_⟩
  have he : ((cfg6.win 4).blk t).view.emb (ix2 (⟨(i 0).val % 5000, Nat.mod_lt _ (by decide)⟩ : Fin 5000) (⟨(i 1).val, hi1⟩ : Fin 128)) = i := by
    funext a
    apply Fin.ext
    match a with
    | ⟨0, _⟩ =>
      show win6_4.index t (0 : Fin 2) * 5000 + 1 * ((i 0).val % 5000) = (i 0).val
      rw [e0]; show (i 0).val / 5000 * 5000 + 1 * ((i 0).val % 5000) = (i 0).val; omega
    | ⟨1, _⟩ =>
      show win6_4.index t (1 : Fin 2) * 128 + 1 * (i 1).val = (i 1).val
      rw [e1]; omega
  rw [← he]
  exact ((cfg6.win 4).blk t).view.emb_mem_set _

/-- The array of h after the grid: (x + a)·W + b, entry by entry. -/
theorem arr_h : (dat6 V c).arrAt 4 cfg6.N = hArr V c :=
  (dat6 V c).arrAt_eq_of_cover 4 (hArr V c) (flushed_h V c) (cover_h)

/-- Entry (r, k) of the array of h after the grid. -/
theorem arr_h_apply (r : Fin 100000) (k : Fin 128) :
    ((dat6 V c).arrAt 4 cfg6.N : S100000x128.Idx → EReal) (ix2 r k) = LayerFns.h1Fn (inX V c) (inA V c) (inW V c) (inB V c) r k := by
  rw [arr_h]; rfl

end Cert.KernelIdeal.Layer1V.R6

end
-- ==== Proof.Layer1V6Sum.lean ====
/-
  The column sums of h after the first dense map's grid has run.

  The running row starts at zero at the first grid point and each point adds its tile's column sums of h.  After the
  twentieth point it holds, at lane k, the sum over all 100000 rows r of h(r, k): a sum taken tile by tile is the sum
  over all rows, in any commutative additive monoid, so the extended reals need no finiteness here.  The row is
  written back once, after the last point, and is the whole 1 × 128 array.
-/
import proofs.«164329_j2903397892177_1_alg».proof.Proof.Layer1V6H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R6

open Cert.KernelIdeal Cert.KernelIdeal.Gen Idealize.ShloMosaic.ValueIdx

variable (V : (c : Dev nD) → (b : Ref sig .tc) → Buf (Elt Ideal) ((c : Thread nD τ).loc b)) (c : Dev nD)

/-- h at row i and lane q, by the row's number; zero past the last row. -/
def sumFn (q : Fin 128) (i : ℕ) : EReal := if h : i < 100000 then LayerFns.h1Fn (inX V c) (inA V c) (inW V c) (inB V c) ⟨i, h⟩ q else 0

/-- The running sum at lane q before point k: zero, then one tile's column sum of h more per point. -/
def sumAcc (q : Fin 128) : ℕ → EReal
  | 0 => 0
  | k + 1 => sumAcc q k + ∑ p ∈ Finset.range 5000, sumFn V c q (5000 * k + p)

/-- Point t's column sum of h at lane q is the sum of h over rows 5000·t … 5000·t + 4999. -/
theorem sum_tile (t : Fin cfg6.N) (q : Fin 128) :
    ∑ p : Fin 5000, k6_pay3 (iblk6 V c 0 t) (iblk6 V c 1 t) (iblk6 V c 2 t) (iblk6 V c 3 t) (ix2 p q) = ∑ p ∈ Finset.range 5000, sumFn V c q (5000 * t.val + p) := by
  rw [Finset.sum_range]
  refine Finset.sum_congr rfl fun p _ => ?_
  have ht := lt20 t
  have hr : 5000 * t.val + p.val < 100000 := by have := p.isLt; omega
  unfold sumFn
  rw [dif_pos hr, pay3_block V c t p q ⟨5000 * t.val + p.val, hr⟩ rfl]

/-- After point n the running row holds, at lane q, the running sum before point n + 1. -/
theorem sum_inv : ∀ (n : ℕ) (h : n < cfg6.N) (u : Fin 1) (q : Fin 128),
    (outsAt6 V c n h).2.1 (ix2 u q) = sumAcc V c q (n + 1)
  | 0, h, u, q => by
    refine (congrFun (congrArg (fun x => x.2.1) (outs_A V c ⟨0, h⟩ rfl)) (ix2 u q)).trans ?_
    refine (pay4_apply (iblk6 V c 0 ⟨0, h⟩) (iblk6 V c 1 ⟨0, h⟩) (iblk6 V c 2 ⟨0, h⟩) (iblk6 V c 3 ⟨0, h⟩) k6_pay1 u q).trans ?_
    show _ = (0 : EReal) + ∑ p ∈ Finset.range 5000, sumFn V c q (5000 * 0 + p)
    exact congrArg₂ (· + ·) (pay1_apply u q) (sum_tile V c ⟨0, h⟩ q)
  | n + 1, h, u, q => by
    have hN : cfg6.N = 20 := N_6
    have hB : ¬(⟨n + 1, h⟩ : Fin cfg6.N).val % 20 = 0 := by dsimp only; omega
    refine (congrFun (congrArg (fun x => x.2.1) (outs_B V c ⟨n + 1, h⟩ hB)) (ix2 u q)).trans ?_
    refine (pay4_apply (iblk6 V c 0 ⟨n + 1, h⟩) (iblk6 V c 1 ⟨n + 1, h⟩) (iblk6 V c 2 ⟨n + 1, h⟩) (iblk6 V c 3 ⟨n + 1, h⟩) (outsAt6 V c n (Nat.lt_of_succ_lt h)).2.1 u q).trans ?_
    show _ = sumAcc V c q (n + 1) + ∑ p ∈ Finset.range 5000, sumFn V c q (5000 * (n + 1) + p)
    exact congrArg₂ (· + ·) (sum_inv n (Nat.lt_of_succ_lt h) u q) (sum_tile V c ⟨n + 1, h⟩ q)

/-- After twenty tiles the running sum is the sum of h over all rows. -/
theorem sum_total (q : Fin 128) : sumAcc V c q 20 = ∑ r : Fin 100000, LayerFns.h1Fn (inX V c) (inA V c) (inW V c) (inB V c) r q := by
  rw [Cert.BlockSum.accumulate_blocks 5000 (sumFn V c q) (sumAcc V c q) rfl (fun k => rfl) 20, Finset.sum_range]
  refine Finset.sum_congr rfl fun r _ => ?_
  unfold sumFn
  rw [dif_pos r.isLt]

/-- The row of column sums of h, entry by entry. -/
def sumArr : S1x128.Idx → EReal := fun i => ∑ r : Fin 100000, LayerFns.h1Fn (inX V c) (inA V c) (inW V c) (inB V c) r (i 1)

/-- The one write-back, after the last point, writes the row of column sums of h. -/
theorem sum_flushed (t : Fin cfg6.N) (hf : (cfg6.win 5).flush t = true) :
    (dat6 V c).flushed 5 t = ((cfg6.win 5).blk t).view.read (Elt Ideal) (sumArr V c) := by
  have hN : cfg6.N = 20 := N_6
  have h19 : t.val = 19 := by have := (flush6_5 t).mp hf; have := lt20 t; omega
  show (cfg6.win 5).cut (grid6.coords t) ((dat6 V c).after 5 t) = _
  rw [after6_5]
  funext y
  obtain ⟨u, q, rfl⟩ : ∃ (u : Fin 1) (q : Fin 128), y = ix2 u q := ⟨y 0, y 1, eq_ix2 y⟩
  rw [View.read_apply]
  obtain ⟨-, -, -, -, -, -, -, -, -, e0, e1, -⟩ := idx_facts t
  have c1 : (((cfg6.win 5).blk t).view.emb (ix2 u q)) 1 = q :=
    Fin.ext (by show win6_5.index t (1 : Fin 2) * 128 + 1 * q.val = q.val; rw [e1]; omega)
  have key : ∀ i : S1x128.Idx, i 1 = q → sumArr V c i = ∑ r : Fin 100000, LayerFns.h1Fn (inX V c) (inA V c) (inW V c) (inB V c) r q := fun i hi => by
    unfold sumArr; rw [hi]
  have e20 : sumAcc V c q (t.val + 1) = sumAcc V c q 20 := by rw [h19]
  have k1 := key (((cfg6.win 5).blk t).view.emb (ix2 u q)) c1
  generalize sumArr V c (((cfg6.win 5).blk t).view.emb (ix2 u q)) = S at k1 ⊢
  show (outsAt6 V c t.val t.isLt).2.1 (ix2 u q) = S
  exact (sum_inv V c t.val t.isLt u q).trans (e20.trans ((sum_total V c q).trans k1.symm))

/-- The last point's tile is the whole row. -/
theorem sum_cover (i : S1x128.Idx) :
    ∃ t : Fin cfg6.N, (cfg6.win 5).flush t = true ∧ i ∈ ((cfg6.win 5).blk t).view.set := by
  have hi0 : (i 0).val < 1 := (i 0).isLt
  have hi1 : (i 1).val < 128 := (i 1).isLt
  have hN : cfg6.N = 20 := N_6
  let t : Fin cfg6.N := ⟨19, by rw [hN]; decide⟩
  obtain ⟨-, -, -, -, -, -, -, -, -, e0, e1, -⟩ := idx_facts t
  refine ⟨t, (flush6_5 t).mpr rfl, ?_⟩
  have he : ((cfg6.win 5).blk t).view.emb (ix2 (⟨(i 0).val, hi0⟩ : Fin 1) (⟨(i 1).val, hi1⟩ : Fin 128)) = i := by
    funext a
    apply Fin.ext
    match a with
    | ⟨0, _⟩ =>
      show win6_5.index t (0 : Fin 2) * 1 + 1 * (i 0).val = (i 0).val
      rw [e0]; omega
    | ⟨1, _⟩ =>
      show win6_5.index t (1 : Fin 2) * 128 + 1 * (i 1).val = (i 1).val
      rw [e1]; omega
  rw [← he]
  exact ((cfg6.win 5).blk t).view.emb_mem_set _

/-- The array of column sums of h after the grid. -/
theorem sum_arr : (dat6 V c).arrAt 5 cfg6.N = sumArr V c :=
  (dat6 V c).arrAt_eq_of_cover 5 (sumArr V c) (sum_flushed V c) (sum_cover)

/-- Lane k of the column sums of h after the grid. -/
theorem sum_arr_apply (k : Fin 128) :
    ((dat6 V c).arrAt 5 cfg6.N : S1x128.Idx → EReal) (ix2 0 k) = ∑ r : Fin 100000, LayerFns.h1Fn (inX V c) (inA V c) (inW V c) (inB V c) r k := by
  rw [sum_arr]; rfl

end Cert.KernelIdeal.Layer1V.R6

end
-- ==== Proof.Layer1V6SumSq.lean ====
/-
  The column sums of h·h after the first dense map's grid has run.

  The running row starts at zero at the first grid point and each point adds its tile's column sums of h·h.  After the
  twentieth point it holds, at lane k, the sum over all 100000 rows r of h(r, k)·h(r, k): a sum taken tile by tile is
  the sum over all rows, in any commutative additive monoid, so the extended reals need no finiteness here.  The row
  is written back once, after the last point, and is the whole 1 × 128 array.
-/
import proofs.«164329_j2903397892177_1_alg».proof.Proof.Layer1V6H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R6

open Cert.KernelIdeal Cert.KernelIdeal.Gen Idealize.ShloMosaic.ValueIdx

variable (V : (c : Dev nD) → (b : Ref sig .tc) → Buf (Elt Ideal) ((c : Thread nD τ).loc b)) (c : Dev nD)

/-- h·h at row i and lane q, by the row's number; zero past the last row. -/
def sumsqFn (q : Fin 128) (i : ℕ) : EReal := if h : i < 100000 then LayerFns.h1Fn (inX V c) (inA V c) (inW V c) (inB V c) ⟨i, h⟩ q * LayerFns.h1Fn (inX V c) (inA V c) (inW V c) (inB V c) ⟨i, h⟩ q else 0

/-- The running sum of squares at lane q before point k: zero, then one tile's column sum of h·h more per point. -/
def sumsqAcc (q : Fin 128) : ℕ → EReal
  | 0 => 0
  | k + 1 => sumsqAcc q k + ∑ p ∈ Finset.range 5000, sumsqFn V c q (5000 * k + p)

/-- Point t's column sum of h·h at lane q is the sum of h·h over rows 5000·t … 5000·t + 4999. -/
theorem sumsq_tile (t : Fin cfg6.N) (q : Fin 128) :
    ∑ p : Fin 5000, k6_pay3 (iblk6 V c 0 t) (iblk6 V c 1 t) (iblk6 V c 2 t) (iblk6 V c 3 t) (ix2 p q) * k6_pay3 (iblk6 V c 0 t) (iblk6 V c 1 t) (iblk6 V c 2 t) (iblk6 V c 3 t) (ix2 p q) = ∑ p ∈ Finset.range 5000, sumsqFn V c q (5000 * t.val + p) := by
  rw [Finset.sum_range]
  refine Finset.sum_congr rfl fun p _ => ?_
  have ht := lt20 t
  have hr : 5000 * t.val + p.val < 100000 := by have := p.isLt; omega
  unfold sumsqFn
  rw [dif_pos hr, pay3_block V c t p q ⟨5000 * t.val + p.val, hr⟩ rfl]

/-- After point n the running row of squares holds, at lane q, the running sum of squares before point n + 1. -/
theorem sumsq_inv : ∀ (n : ℕ) (h : n < cfg6.N) (u : Fin 1) (q : Fin 128),
    (outsAt6 V c n h).2.2 (ix2 u q) = sumsqAcc V c q (n + 1)
  | 0, h, u, q => by
    refine (congrFun (congrArg (fun x => x.2.2) (outs_A V c ⟨0, h⟩ rfl)) (ix2 u q)).trans ?_
    refine (pay5_apply (iblk6 V c 0 ⟨0, h⟩) (iblk6 V c 1 ⟨0, h⟩) (iblk6 V c 2 ⟨0, h⟩) (iblk6 V c 3 ⟨0, h⟩) k6_pay2 u q).trans ?_
    show _ = (0 : EReal) + ∑ p ∈ Finset.range 5000, sumsqFn V c q (5000 * 0 + p)
    exact congrArg₂ (· + ·) (pay2_apply u q) (sumsq_tile V c ⟨0, h⟩ q)
  | n + 1, h, u, q => by
    have hN : cfg6.N = 20 := N_6
    have hB : ¬(⟨n + 1, h⟩ : Fin cfg6.N).val % 20 = 0 := by dsimp only; omega
    refine (congrFun (congrArg (fun x => x.2.2) (outs_B V c ⟨n + 1, h⟩ hB)) (ix2 u q)).trans ?_
    refine (pay5_apply (iblk6 V c 0 ⟨n + 1, h⟩) (iblk6 V c 1 ⟨n + 1, h⟩) (iblk6 V c 2 ⟨n + 1, h⟩) (iblk6 V c 3 ⟨n + 1, h⟩) (outsAt6 V c n (Nat.lt_of_succ_lt h)).2.2 u q).trans ?_
    show _ = sumsqAcc V c q (n + 1) + ∑ p ∈ Finset.range 5000, sumsqFn V c q (5000 * (n + 1) + p)
    exact congrArg₂ (· + ·) (sumsq_inv n (Nat.lt_of_succ_lt h) u q) (sumsq_tile V c ⟨n + 1, h⟩ q)

/-- After twenty tiles the running sum of squares is the sum of h·h over all rows. -/
theorem sumsq_total (q : Fin 128) : sumsqAcc V c q 20 = ∑ r : Fin 100000, LayerFns.h1Fn (inX V c) (inA V c) (inW V c) (inB V c) r q * LayerFns.h1Fn (inX V c) (inA V c) (inW V c) (inB V c) r q := by
  rw [Cert.BlockSum.accumulate_blocks 5000 (sumsqFn V c q) (sumsqAcc V c q) rfl (fun k => rfl) 20, Finset.sum_range]
  refine Finset.sum_congr rfl fun r _ => ?_
  unfold sumsqFn
  rw [dif_pos r.isLt]

/-- The row of column sums of h·h, entry by entry. -/
def sumsqArr : S1x128.Idx → EReal := fun i => ∑ r : Fin 100000, LayerFns.h1Fn (inX V c) (inA V c) (inW V c) (inB V c) r (i 1) * LayerFns.h1Fn (inX V c) (inA V c) (inW V c) (inB V c) r (i 1)

/-- The one write-back, after the last point, writes the row of column sums of h·h. -/
theorem sumsq_flushed (t : Fin cfg6.N) (hf : (cfg6.win 6).flush t = true) :
    (dat6 V c).flushed 6 t = ((cfg6.win 6).blk t).view.read (Elt Ideal) (sumsqArr V c) := by
  have hN : cfg6.N = 20 := N_6
  have h19 : t.val = 19 := by have := (flush6_6 t).mp hf; have := lt20 t; omega
  show (cfg6.win 6).cut (grid6.coords t) ((dat6 V c).after 6 t) = _
  rw [after6_6]
  funext y
  obtain ⟨u, q, rfl⟩ : ∃ (u : Fin 1) (q : Fin 128), y = ix2 u q := ⟨y 0, y 1, eq_ix2 y⟩
  rw [View.read_apply]
  obtain ⟨-, -, -, -, -, -, -, -, -, -, -, e0, e1⟩ := idx_facts t
  have c1 : (((cfg6.win 6).blk t).view.emb (ix2 u q)) 1 = q :=
    Fin.ext (by show win6_6.index t (1 : Fin 2) * 128 + 1 * q.val = q.val; rw [e1]; omega)
  have key : ∀ i : S1x128.Idx, i 1 = q → sumsqArr V c i = ∑ r : Fin 100000, LayerFns.h1Fn (inX V c) (inA V c) (inW V c) (inB V c) r q * LayerFns.h1Fn (inX V c) (inA V c) (inW V c) (inB V c) r q := fun i hi => by
    unfold sumsqArr; rw [hi]
  have e20 : sumsqAcc V c q (t.val + 1) = sumsqAcc V c q 20 := by rw [h19]
  have k1 := key (((cfg6.win 6).blk t).view.emb (ix2 u q)) c1
  generalize sumsqArr V c (((cfg6.win 6).blk t).view.emb (ix2 u q)) = S at k1 ⊢
  show (outsAt6 V c t.val t.isLt).2.2 (ix2 u q) = S
  exact (sumsq_inv V c t.val t.isLt u q).trans (e20.trans ((sumsq_total V c q).trans k1.symm))

/-- The last point's tile is the whole row. -/
theorem sumsq_cover (i : S1x128.Idx) :
    ∃ t : Fin cfg6.N, (cfg6.win 6).flush t = true ∧ i ∈ ((cfg6.win 6).blk t).view.set := by
  have hi0 : (i 0).val < 1 := (i 0).isLt
  have hi1 : (i 1).val < 128 := (i 1).isLt
  have hN : cfg6.N = 20 := N_6
  let t : Fin cfg6.N := ⟨19, by rw [hN]; decide⟩
  obtain ⟨-, -, -, -, -, -, -, -, -, -, -, e0, e1⟩ := idx_facts t
  refine ⟨t, (flush6_6 t).mpr rfl, ?_⟩
  have he : ((cfg6.win 6).blk t).view.emb (ix2 (⟨(i 0).val, hi0⟩ : Fin 1) (⟨(i 1).val, hi1⟩ : Fin 128)) = i := by
    funext a
    apply Fin.ext
    match a with
    | ⟨0, _⟩ =>
      show win6_6.index t (0 : Fin 2) * 1 + 1 * (i 0).val = (i 0).val
      rw [e0]; omega
    | ⟨1, _⟩ =>
      show win6_6.index t (1 : Fin 2) * 128 + 1 * (i 1).val = (i 1).val
      rw [e1]; omega
  rw [← he]
  exact ((cfg6.win 6).blk t).view.emb_mem_set _

/-- The array of column sums of h·h after the grid. -/
theorem sumsq_arr : (dat6 V c).arrAt 6 cfg6.N = sumsqArr V c :=
  (dat6 V c).arrAt_eq_of_cover 6 (sumsqArr V c) (sumsq_flushed V c) (sumsq_cover)

/-- Lane k of the column sums of h·h after the grid. -/
theorem sumsq_arr_apply (k : Fin 128) :
    ((dat6 V c).arrAt 6 cfg6.N : S1x128.Idx → EReal) (ix2 0 k) = ∑ r : Fin 100000, LayerFns.h1Fn (inX V c) (inA V c) (inW V c) (inB V c) r k * LayerFns.h1Fn (inX V c) (inA V c) (inW V c) (inB V c) r k := by
  rw [sumsq_arr]; rfl

end Cert.KernelIdeal.Layer1V.R6

end
-- ==== Proof.Layer2V7Payload.lean ====
/-
  The second half of a layer, on one tile of 5000 rows: what the body stores, entry by entry.

  The body reads the tile h of the hidden rows, the column means m and variances v (each a 1 × 128 row), the scale γ,
  the shift β, the weight matrix W and the bias b. It normalises each entry, γ·(h − m)·rsqrt(v + ε) + β, takes the
  maximum with 0, multiplies the 5000 × 128 result by W on the matrix unit into a zero accumulator, adds b and takes
  the maximum with 0 again. Every step but the product is entrywise, and the row statistics, scale, shift and bias
  reach the tile by being repeated over its rows; so the stored entry at row p, column q depends on row p of the tile
  only: it is max(∑ j, max(γ j·(h p j − m j)·rsqrt(v j + ε) + β j, 0)·W j q + b q, 0).
-/
import proofs.«164329_j2903397892177_1_alg».proof.Proof.Gen.KernelIdeal.Skeleton
import proofs.«164329_j2903397892177_1_alg».proof.Proof.LayerFns
import proofs.«164329_j2903397892177_1_alg».proof.Proof.LibMatmulEntry
import proofs.«164329_j2903397892177_1_alg».proof.Proof.LibRowOfVector
import Idealize.ShloMosaic.Lib.ValueIdx

noncomputable section

namespace Cert.KernelIdeal.Layer2V

open Cert.KernelIdeal Cert.KernelIdeal.Gen Idealize.ShloMosaic Idealize.ShloMosaic.ValueIdx

/-- The stored entry at row p, column q of the tile: the normalised, scaled and shifted row p, cut at 0, times column
    q of the weights, plus the bias at q, cut at 0. The format changes in front of the product are the identity on
    the extended reals, and the product into zeros is the plain sum over the 128 contracted positions. -/
theorem k7_pay1_apply (vr : FVec Ideal S1x128 .f32) (g : FVec Ideal S128 .f32) (h : FVec Ideal S5000x128 .f32)
    (mn : FVec Ideal S1x128 .f32) (bt : FVec Ideal S128 .f32) (w : FVec Ideal S128x128 .f32) (b2 : FVec Ideal S128 .f32)
    (p : Fin 5000) (q : Fin 128) :
    k7_pay1 (F := Ideal) vr g h mn bt w b2 (ix2 p q)
      = max ((∑ j : Fin 128,
            max (g (ix1 j) * (h (ix2 p j) - mn (ix2 (0 : Fin 1) j)) * Ideal.rsqrt (vr (ix2 (0 : Fin 1) j) + LayerFns.eps)
              + bt (ix1 j)) 0 * w (ix2 j q)) + b2 (ix1 q)) 0 := by
  unfold k7_pay1
  refine (maximumf_apply _ _ (ix2 p q)).trans ?_
  refine congrArg₂ max ?_ Ideal.ofBits_zero_f32
  refine (addf_apply _ _ (ix2 p q)).trans ?_
  refine congrArg₂ (· + ·) ?_ (RowOfVector.vecSelfRow_apply b2 _ _ _ p q)
  refine (PlainMatmul.matmul_zero_apply Facts₀.dot_S5000x128_S128x128_S5000x128_1_0_0_1_n_n_wf none _ _ p q).trans ?_
  refine Finset.sum_congr rfl fun j _ => ?_
  refine congrArg₂ (· * ·) ?_ (congrFun (shapeCast_self w _) (ix2 j q))
  refine congrArg₂ max ?_ Ideal.ofBits_zero_f32
  refine congrArg₂ (· + ·) ?_ (RowOfVector.vecSelfRow_apply bt _ _ _ p j)
  refine congrArg₂ (· * ·)
    (congrArg₂ (· * ·) (RowOfVector.vecSelfRow_apply g _ _ _ p j)
      (congrArg₂ (· - ·) (congrFun (shapeCast_self h _) (ix2 p j)) (RowOfVector.rowSelfRow_apply mn _ _ p j))) ?_
  refine (broadcastTo_1b_ab_apply _ _ p j).trans ?_
  exact congrArg (fun t => Ideal.rsqrt (t + LayerFns.eps)) (congrFun (shapeCast_self vr _) (ix2 (0 : Fin 1) j))

end Cert.KernelIdeal.Layer2V

end
-- ==== Proof.Layer2V7Blocks.lean ====
/-
  The second half of a layer, over the whole array: from the tiles to the 100000 × 128 result.

  The region runs the body at 20 grid points. At point t the tile of hidden rows is rows 5000·t … 5000·t + 4999 of
  the array it reads, the six small operands (column means and variances, scale, shift, weights, bias) are whole
  arrays at every point, and the tile written back is rows 5000·t … 5000·t + 4999 of the result. The body's entry at
  row p of the tile depends on row p of its tile only, so what point t writes back is rows 5000·t … of ONE function of
  the arrays, the layer's second half entry by entry; the 20 tiles cover all 100000 rows (row r lies in tile
  r / 5000), so that function is the whole result.
-/
import proofs.«164329_j2903397892177_1_alg».proof.Proof.Gen.KernelIdeal.Frame
import proofs.«164329_j2903397892177_1_alg».proof.Proof.Layer2V7Payload
import Idealize.ShloMosaic.Lib.Pipeline.Value

set_option maxRecDepth 16384

noncomputable section

namespace Cert.KernelIdeal.Layer2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The region's result as one function of the arrays it reads, entry by entry: the layer's second half at row
    `i 0` and column `i 1`, of the hidden rows (window 0), the column means and variances (windows 1 and 2, each one
    row), the scale and the shift (windows 3 and 4), the weights (window 5) and the bias (window 6). -/
def result7 : S100000x128.Idx → EReal := fun i =>
  LayerFns.layer2Fn
    (fun r j => (V c (Pipeline.arrRef spec7 0) : S100000x128.Idx → EReal) (ix2 r j))
    (fun j => (V c (Pipeline.arrRef spec7 1) : S1x128.Idx → EReal) (ix2 (0 : Fin 1) j))
    (fun j => (V c (Pipeline.arrRef spec7 2) : S1x128.Idx → EReal) (ix2 (0 : Fin 1) j))
    (fun j => (V c (Pipeline.arrRef spec7 3) : S128.Idx → EReal) (ix1 j))
    (fun j => (V c (Pipeline.arrRef spec7 4) : S128.Idx → EReal) (ix1 j))
    (fun j k => (V c (Pipeline.arrRef spec7 5) : S128x128.Idx → EReal) (ix2 j k))
    (fun k => (V c (Pipeline.arrRef spec7 6) : S128.Idx → EReal) (ix1 k))
    ⟨(i 0).val, idx2_lt0 i⟩ ⟨(i 1).val, idx2_lt1 i⟩

/-- The zero offsets of a whole rank-2 buffer, as a constant function. -/
private theorem zeroPair : (![0, 0] : Fin 2 → Nat) = fun _ => 0 := funext fun a => by fin_cases a <;> rfl
/-- The zero offset of a whole rank-1 buffer, as a constant function. -/
private theorem zeroSingle : (![0] : Fin 1 → Nat) = fun _ => 0 := funext fun a => by fin_cases a <;> rfl

/-- The index maps over the grid: the tile read and the tile written move with the point along the rows, and the six
    small operands stay at block 0. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 1) = 0
    ∧ win7_4.index t (0 : Fin 1) = 0
    ∧ win7_5.index t (0 : Fin 2) = 0 ∧ win7_5.index t (1 : Fin 2) = 0
    ∧ win7_6.index t (0 : Fin 1) = 0
    ∧ win7_7.index t (0 : Fin 2) = t.val ∧ win7_7.index t (1 : Fin 2) = 0 :=
  (by decide +kernel : ∀ t : Fin grid7.N, _)

/-! ## The blocks the body reads, as entries of the arrays -/

/-- Row p of the tile read at point t is row 5000·t + p of the array of hidden rows. -/
theorem read7_0 (t : Fin cfg7.N) (p : Fin 5000) (j : Fin 128) (r : Fin 100000) (hr : r.val = 5000 * t.val + p.val) :
    iblk7 V c 0 t (ix2 p j) = V c (Pipeline.arrRef spec7 0) (ix2 r j) := by
  obtain ⟨e0, e1, -⟩ := idx_facts7 t
  show V c (Pipeline.arrRef spec7 0) (((cfg7.win 0).blk t).view.emb (ix2 p j)) = _
  refine congrArg _ (funext fun a => Fin.ext ?_)
  match a with
  | ⟨0, _⟩ => show win7_0.index t (0 : Fin 2) * 5000 + 1 * p.val = r.val; rw [e0, hr]; omega
  | ⟨1, _⟩ => show win7_0.index t (1 : Fin 2) * 128 + 1 * j.val = j.val; rw [e1]; omega

/-- The row of column means is read whole at every point. -/
theorem read7_1 (t : Fin cfg7.N) (j : Fin 128) :
    iblk7 V c 1 t (ix2 (0 : Fin 1) j) = V c (Pipeline.arrRef spec7 1) (ix2 (0 : Fin 1) j) := by
  obtain ⟨-, -, e0, e1, -⟩ := idx_facts7 t
  show V c (Pipeline.arrRef spec7 1) (((cfg7.win 1).blk t).view.emb (ix2 (0 : Fin 1) j)) = _
  refine congrArg _ (funext fun a => Fin.ext ?_)
  match a with
  | ⟨0, _⟩ => show win7_1.index t (0 : Fin 2) * 1 + 1 * 0 = 0; rw [e0]
  | ⟨1, _⟩ => show win7_1.index t (1 : Fin 2) * 128 + 1 * j.val = j.val; rw [e1]; omega

/-- The row of column variances is read whole at every point. -/
theorem read7_2 (t : Fin cfg7.N) (j : Fin 128) :
    iblk7 V c 2 t (ix2 (0 : Fin 1) j) = V c (Pipeline.arrRef spec7 2) (ix2 (0 : Fin 1) j) := by
  obtain ⟨-, -, -, -, e0, e1, -⟩ := idx_facts7 t
  show V c (Pipeline.arrRef spec7 2) (((cfg7.win 2).blk t).view.emb (ix2 (0 : Fin 1) j)) = _
  refine congrArg _ (funext fun a => Fin.ext ?_)
  match a with
  | ⟨0, _⟩ => show win7_2.index t (0 : Fin 2) * 1 + 1 * 0 = 0; rw [e0]
  | ⟨1, _⟩ => show win7_2.index t (1 : Fin 2) * 128 + 1 * j.val = j.val; rw [e1]; omega

/-- The scale is read whole at every point. -/
theorem read7_3 (t : Fin cfg7.N) (j : Fin 128) :
    iblk7 V c 3 t (ix1 j) = V c (Pipeline.arrRef spec7 3) (ix1 j) := by
  obtain ⟨-, -, -, -, -, -, e0, -⟩ := idx_facts7 t
  show V c (Pipeline.arrRef spec7 3) (((cfg7.win 3).blk t).view.emb (ix1 j)) = _
  refine congrArg _ (funext fun a => Fin.ext ?_)
  match a with
  | ⟨0, _⟩ => show win7_3.index t (0 : Fin 1) * 128 + 1 * j.val = j.val; rw [e0]; omega

/-- The shift is read whole at every point. -/
theorem read7_4 (t : Fin cfg7.N) (j : Fin 128) :
    iblk7 V c 4 t (ix1 j) = V c (Pipeline.arrRef spec7 4) (ix1 j) := by
  obtain ⟨-, -, -, -, -, -, -, e0, -⟩ := idx_facts7 t
  show V c (Pipeline.arrRef spec7 4) (((cfg7.win 4).blk t).view.emb (ix1 j)) = _
  refine congrArg _ (funext fun a => Fin.ext ?_)
  match a with
  | ⟨0, _⟩ => show win7_4.index t (0 : Fin 1) * 128 + 1 * j.val = j.val; rw [e0]; omega

/-- The weights are read whole at every point. -/
theorem read7_5 (t : Fin cfg7.N) (j k : Fin 128) :
    iblk7 V c 5 t (ix2 j k) = V c (Pipeline.arrRef spec7 5) (ix2 j k) := by
  obtain ⟨-, -, -, -, -, -, -, -, e0, e1, -⟩ := idx_facts7 t
  show V c (Pipeline.arrRef spec7 5) (((cfg7.win 5).blk t).view.emb (ix2 j k)) = _
  refine congrArg _ (funext fun a => Fin.ext ?_)
  match a with
  | ⟨0, _⟩ => show win7_5.index t (0 : Fin 2) * 128 + 1 * j.val = j.val; rw [e0]; omega
  | ⟨1, _⟩ => show win7_5.index t (1 : Fin 2) * 128 + 1 * k.val = k.val; rw [e1]; omega

/-- The bias is read whole at every point. -/
theorem read7_6 (t : Fin cfg7.N) (k : Fin 128) :
    iblk7 V c 6 t (ix1 k) = V c (Pipeline.arrRef spec7 6) (ix1 k) := by
  obtain ⟨-, -, -, -, -, -, -, -, -, -, e0, -⟩ := idx_facts7 t
  show V c (Pipeline.arrRef spec7 6) (((cfg7.win 6).blk t).view.emb (ix1 k)) = _
  refine congrArg _ (funext fun a => Fin.ext ?_)
  match a with
  | ⟨0, _⟩ => show win7_6.index t (0 : Fin 1) * 128 + 1 * k.val = k.val; rw [e0]; omega

/-- Row p of the tile written at point t is row 5000·t + p of the result. -/
theorem emb7_7 (t : Fin cfg7.N) (p : Fin 5000) (q : Fin 128) (r : Fin 100000) (hr : r.val = 5000 * t.val + p.val) :
    ((cfg7.win 7).blk t).view.emb (ix2 p q) = ix2 r q := by
  obtain ⟨-, -, -, -, -, -, -, -, -, -, -, e0, e1⟩ := idx_facts7 t
  refine funext fun a => Fin.ext ?_
  match a with
  | ⟨0, _⟩ => show win7_7.index t (0 : Fin 2) * 5000 + 1 * p.val = r.val; rw [e0, hr]; omega
  | ⟨1, _⟩ => show win7_7.index t (1 : Fin 2) * 128 + 1 * q.val = q.val; rw [e1]; omega

/-! ## What a point writes back -/

/-- What point t writes back is rows 5000·t … 5000·t + 4999 of `result7`: the body's entry at row p of its tile is
    the layer's second half of row p of the tile read, which is row 5000·t + p of the array. -/
theorem flushed7_7_eq (t : Fin cfg7.N) :
    (dat7 V c).flushed 7 t = ((cfg7.win 7).blk t).view.read (Elt Ideal) (result7 V c) := by
  show (cfg7.win 7).cut (grid7.coords t) ((dat7 V c).after 7 t) = _
  rw [after7_7]
  unfold out7_7
  rw [View.canon_unit_zero zeroPair]
  simp only [View.ld_unit_zero (S := S5000x128) zeroPair, View.ld_unit_zero (S := S1x128) zeroPair,
    View.ld_unit_zero (S := S128x128) zeroPair, View.ld_unit_zero (S := S128) zeroSingle]
  funext y
  obtain ⟨p, q, rfl⟩ : ∃ (p : Fin 5000) (q : Fin 128), y = ix2 p q := ⟨y 0, y 1, eq_ix2 (n0 := 5000) (n1 := 128) y⟩
  have hN : cfg7.N = 20 := N_7
  have htl : t.val < 20 := hN ▸ t.isLt
  obtain ⟨r, hr⟩ : ∃ r : Fin 100000, r.val = 5000 * t.val + p.val := ⟨⟨5000 * t.val + p.val, by have := p.isLt; omega⟩, rfl⟩
  show k7_pay1 (F := Ideal) (iblk7 V c 2 t) (iblk7 V c 3 t) (iblk7 V c 0 t) (iblk7 V c 1 t) (iblk7 V c 4 t) (iblk7 V c 5 t) (iblk7 V c 6 t) (ix2 p q)
      = result7 V c (((cfg7.win 7).blk t).view.emb (ix2 p q))
  refine (k7_pay1_apply (iblk7 V c 2 t) (iblk7 V c 3 t) (iblk7 V c 0 t) (iblk7 V c 1 t) (iblk7 V c 4 t) (iblk7 V c 5 t) (iblk7 V c 6 t) p q).trans ?_
  refine Eq.trans ?_ (congrArg (result7 V c) (emb7_7 t p q r hr)).symm
  show _ = LayerFns.layer2Fn _ _ _ _ _ _ _ r q
  unfold LayerFns.layer2Fn LayerFns.normFn
  refine congrArg₂ max (congrArg₂ (· + ·) (Finset.sum_congr rfl fun j _ => ?_) (read7_6 V c t q)) rfl
  refine congrArg₂ (· * ·) (congrArg₂ max (congrArg₂ (· + ·) (congrArg₂ (· * ·) (congrArg₂ (· * ·) (read7_3 V c t j)
    (congrArg₂ (· - ·) (read7_0 V c t p j r hr) (read7_1 V c t j)))
    (congrArg (fun x => Ideal.rsqrt (x + LayerFns.eps)) (read7_2 V c t j))) (read7_4 V c t j)) rfl) (read7_5 V c t j q)

/-! ## The 20 tiles cover the result -/

/-- An index of the result is in point t's tile iff each coordinate is in the tile's range on its axis. -/
theorem mem_blk7_7 (t : Fin cfg7.N) (i : S100000x128.Idx) :
    i ∈ ((cfg7.win 7).blk t).view.set ↔ ∀ a : Fin 2, win7_7.index t a * S5000x128.size a ≤ (i a).val
      ∧ (i a).val < win7_7.index t a * S5000x128.size a + S5000x128.size a := by
  show i ∈ ((View.whole (Pipeline.arrRef spec7 7)).slice (win7_7.rect t)).set ↔ _
  rw [View.set_slice_whole, Rect.mem_set_unit]
  exact Iff.rfl

/-- Row r of the result lies in the tile of point r / 5000, and every point writes its tile back. -/
theorem cover7_7_arr (i : S100000x128.Idx) :
    ∃ t : Fin cfg7.N, (cfg7.win 7).flush t = true ∧ i ∈ ((cfg7.win 7).blk t).view.set := by
  have hN : cfg7.N = 20 := N_7
  have hi0 : (i 0).val < 100000 := idx2_lt0 i
  have hi1 : (i 1).val < 128 := idx2_lt1 i
  obtain ⟨t, ht⟩ : ∃ t : Fin cfg7.N, t.val = (i 0).val / 5000 := ⟨⟨(i 0).val / 5000, by rw [hN]; omega⟩, rfl⟩
  obtain ⟨-, -, -, -, -, -, -, -, -, -, -, e0, e1⟩ := idx_facts7 t
  refine ⟨t, flush7_7 t, ?_⟩
  rw [mem_blk7_7]
  intro a
  match a with
  | ⟨0, _⟩ =>
    show win7_7.index t (0 : Fin 2) * 5000 ≤ (i 0).val ∧ (i 0).val < win7_7.index t (0 : Fin 2) * 5000 + 5000
    rw [e0]; omega
  | ⟨1, _⟩ =>
    show win7_7.index t (1 : Fin 2) * 128 ≤ (i 1).val ∧ (i 1).val < win7_7.index t (1 : Fin 2) * 128 + 128
    rw [e1]; omega

/-! ## The result -/

/-- THE ARRAY the region leaves in its result window is `result7` of the arrays it reads. -/
theorem arr7_7_eq : (dat7 V c).arrAt 7 cfg7.N = result7 V c :=
  (dat7 V c).arrAt_eq_of_cover 7 (result7 V c) (fun t _ => flushed7_7_eq V c t) (cover7_7_arr)

/-- Entry by entry: row r, column k of the result is the layer's second half of row r of the hidden rows. -/
theorem arr7_7_apply (r : Fin 100000) (k : Fin 128) :
    (dat7 V c).arrAt 7 cfg7.N (ix2 r k)
      = LayerFns.layer2Fn
          (fun r j => (V c (Pipeline.arrRef spec7 0) : S100000x128.Idx → EReal) (ix2 r j))
          (fun j => (V c (Pipeline.arrRef spec7 1) : S1x128.Idx → EReal) (ix2 (0 : Fin 1) j))
          (fun j => (V c (Pipeline.arrRef spec7 2) : S1x128.Idx → EReal) (ix2 (0 : Fin 1) j))
          (fun j => (V c (Pipeline.arrRef spec7 3) : S128.Idx → EReal) (ix1 j))
          (fun j => (V c (Pipeline.arrRef spec7 4) : S128.Idx → EReal) (ix1 j))
          (fun j k => (V c (Pipeline.arrRef spec7 5) : S128x128.Idx → EReal) (ix2 j k))
          (fun k => (V c (Pipeline.arrRef spec7 6) : S128.Idx → EReal) (ix1 k)) r k :=
  congrFun (arr7_7_eq V c) (ix2 r k)

end Cert.KernelIdeal.Layer2V

end
-- ==== Proof.KernelLayer3.lean ====
/-
  Layer 3 of the network as the kernel's regions 6 and 7 compute it is the reference's layer 3.

  Region 6 finds the node features, their neighbour sums and the layer's first weights and bias, and leaves the hidden
  rows H = (x + a)·W1 + b1 and the column sums of H and of H·H.  Between the regions the host takes the column mean and
  the column variance from those sums.  Region 7 finds H, the mean, the variance and the layer's scale, shift, second
  weights and bias, and leaves max(max(γ·(H − mean)·rsqrt(var + ε) + β, 0)·W2 + b2, 0).  With real features and real
  weights this is, entry by entry, the reference's layer of the same arrays, and it is real again.
-/
import proofs.«164329_j2903397892177_1_alg».proof.Proof.KernelRunVS6
import proofs.«164329_j2903397892177_1_alg».proof.Proof.KernelRunVS7
import proofs.«164329_j2903397892177_1_alg».proof.Proof.Layer1V6Sum
import proofs.«164329_j2903397892177_1_alg».proof.Proof.Layer1V6SumSq
import proofs.«164329_j2903397892177_1_alg».proof.Proof.Layer2V7Blocks
import proofs.«164329_j2903397892177_1_alg».proof.Proof.NeighbourReal
import proofs.«164329_j2903397892177_1_alg».proof.Proof.KernelLayerStats
import proofs.«164329_j2903397892177_1_alg».proof.Proof.KernelLayerHost

set_option maxRecDepth 16384

noncomputable section

namespace Cert.KernelIdeal.LayerV

open Idealize.ShloMosaic Idealize.ShloMosaic.TcCoe Idealize.ShloMosaic.ValueIdx Idealize.SL.Sem
open Idealize.ShloMosaic.Pipeline (Dat)
open Cert.KernelIdeal Cert.KernelIdeal.Gen LayerFns LayerBridge Cert.ReferenceIdeal.RefSpec

variable [Cert.ReferenceIdeal.Facts]

set_option maxHeartbeats 8000000 in
/-- Regions 6 and 7 over any contents: if region 6 finds real features `x`, their neighbour sum and the real weights
    `W1`, `b1`, and region 7 finds region 6's hidden rows, the host's mean and variance of its column sums, and the real
    `g`, `be`, `W2`, `b2`, then region 7 leaves the reference's layer of those arrays, a real array. -/
theorem layer3_regions (Va Vb : (c : Dev nD) → (b : Ref sig .tc) → Buf (Elt Ideal) ((c : Thread nD τ).loc b)) (c : Dev nD)
    (x : FA Cert.ReferenceIdeal.S100000x128) (src dst : IA Cert.ReferenceIdeal.S1600000) (W1 : FA Cert.ReferenceIdeal.S128x128) (b1 g be : FA Cert.ReferenceIdeal.S128)
    (W2 : FA Cert.ReferenceIdeal.S128x128) (b2 : FA Cert.ReferenceIdeal.S128)
    (hx : AllReal x) (hW1 : AllReal W1) (hb1 : AllReal b1) (hg : AllReal g) (hbe : AllReal be) (hW2 : AllReal W2)
    (hb2 : AllReal b2)
    (sx : (Va c (Pipeline.arrRef spec6 0) : S100000x128.Idx → EReal) = x)
    (sa : (Va c (Pipeline.arrRef spec6 1) : S100000x128.Idx → EReal) = neighbourSum x src dst)
    (sw : (Va c (Pipeline.arrRef spec6 2) : S128x128.Idx → EReal) = W1)
    (sb : (Va c (Pipeline.arrRef spec6 3) : S128.Idx → EReal) = b1)
    (sh : (Vb c (Pipeline.arrRef spec7 0) : S100000x128.Idx → EReal) = (dat6 Va c).arrAt 4 cfg6.N)
    (sm : (Vb c (Pipeline.arrRef spec7 1) : S1x128.Idx → EReal) = RunV.meanOf ((dat6 Va c).arrAt 5 cfg6.N))
    (sv : (Vb c (Pipeline.arrRef spec7 2) : S1x128.Idx → EReal) = RunV.varOf ((dat6 Va c).arrAt 5 cfg6.N) ((dat6 Va c).arrAt 6 cfg6.N))
    (sg : (Vb c (Pipeline.arrRef spec7 3) : S128.Idx → EReal) = g)
    (sbe : (Vb c (Pipeline.arrRef spec7 4) : S128.Idx → EReal) = be)
    (sw2 : (Vb c (Pipeline.arrRef spec7 5) : S128x128.Idx → EReal) = W2)
    (sb2 : (Vb c (Pipeline.arrRef spec7 6) : S128.Idx → EReal) = b2) :
    ((dat7 Vb c).arrAt 7 cfg7.N : S100000x128.Idx → EReal) = refLayer x src dst W1 b1 g be W2 b2
      ∧ AllReal (refLayer x src dst W1 b1 g be W2 b2) := by
  -- what region 6 found, by row and column
  have eX : Layer1V.R6.inX Va c = fun r j => x (ix2 r j) := funext fun r => funext fun j => congrFun sx (ix2 r j)
  have eA : Layer1V.R6.inA Va c = fun r j => neighbourSum x src dst (ix2 r j) :=
    funext fun r => funext fun j => congrFun sa (ix2 r j)
  have eW : Layer1V.R6.inW Va c = fun j k => W1 (ix2 j k) := funext fun j => funext fun k => congrFun sw (ix2 j k)
  have eB : Layer1V.R6.inB Va c = fun k => b1 (ix1 k) := funext fun k => congrFun sb (ix1 k)
  -- the hidden rows, the mean and the variance region 7 finds, in terms of region 6's inputs
  have hHk : ∀ r j, (Vb c (Pipeline.arrRef spec7 0) : S100000x128.Idx → EReal) (ix2 r j) = h1Fn (Layer1V.R6.inX Va c) (Layer1V.R6.inA Va c) (Layer1V.R6.inW Va c) (Layer1V.R6.inB Va c) r j :=
    fun r j => (congrFun sh (ix2 r j)).trans (Layer1V.R6.arr_h_apply Va c r j)
  have hMk : ∀ j, (Vb c (Pipeline.arrRef spec7 1) : S1x128.Idx → EReal) (ix2 (0 : Fin 1) j)
      = Ideal.div (∑ r, h1Fn (Layer1V.R6.inX Va c) (Layer1V.R6.inA Va c) (Layer1V.R6.inW Va c) (Layer1V.R6.inB Va c) r j) ((100000 : ℝ) : EReal) := fun j => by
    rw [sm, meanOf_apply, Layer1V.R6.sum_arr_apply Va c j]
  have hVk : ∀ j, (Vb c (Pipeline.arrRef spec7 2) : S1x128.Idx → EReal) (ix2 (0 : Fin 1) j)
      = Ideal.div (∑ r, h1Fn (Layer1V.R6.inX Va c) (Layer1V.R6.inA Va c) (Layer1V.R6.inW Va c) (Layer1V.R6.inB Va c) r j * h1Fn (Layer1V.R6.inX Va c) (Layer1V.R6.inA Va c) (Layer1V.R6.inW Va c) (Layer1V.R6.inB Va c) r j) ((100000 : ℝ) : EReal)
        - Ideal.div (∑ r, h1Fn (Layer1V.R6.inX Va c) (Layer1V.R6.inA Va c) (Layer1V.R6.inW Va c) (Layer1V.R6.inB Va c) r j) ((100000 : ℝ) : EReal) * Ideal.div (∑ r, h1Fn (Layer1V.R6.inX Va c) (Layer1V.R6.inA Va c) (Layer1V.R6.inW Va c) (Layer1V.R6.inB Va c) r j) ((100000 : ℝ) : EReal) := fun j => by
    rw [sv, varOf_apply, Layer1V.R6.sumsq_arr_apply Va c j, Layer1V.R6.sum_arr_apply Va c j]
  have key : ∀ (r : Fin 100000) (k : Fin 128),
      ((dat7 Vb c).arrAt 7 cfg7.N : S100000x128.Idx → EReal) (ix2 r k) = refLayer x src dst W1 b1 g be W2 b2 (ix2 r k)
        ∧ ∃ y : ℝ, refLayer x src dst W1 b1 g be W2 b2 (ix2 r k) = (y : EReal) := fun r k => by
    have hcore := layer_core x src dst W1 b1 g be W2 b2 (fun r j => hx (ix2 r j))
      (fun r j => neighbourSum_real x hx src dst r j) (fun j k => hW1 (ix2 j k)) (fun k => hb1 (ix1 k))
      (fun j => hg (ix1 j)) (fun j => hbe (ix1 j)) (fun j k => hW2 (ix2 j k)) (fun k => hb2 (ix1 k))
      (fun r j => (Vb c (Pipeline.arrRef spec7 0) : S100000x128.Idx → EReal) (ix2 r j))
      (fun j => (Vb c (Pipeline.arrRef spec7 1) : S1x128.Idx → EReal) (ix2 (0 : Fin 1) j))
      (fun j => (Vb c (Pipeline.arrRef spec7 2) : S1x128.Idx → EReal) (ix2 (0 : Fin 1) j))
      (fun j => (Vb c (Pipeline.arrRef spec7 3) : S128.Idx → EReal) (ix1 j))
      (fun j => (Vb c (Pipeline.arrRef spec7 4) : S128.Idx → EReal) (ix1 j))
      (fun j k => (Vb c (Pipeline.arrRef spec7 5) : S128x128.Idx → EReal) (ix2 j k))
      (fun k => (Vb c (Pipeline.arrRef spec7 6) : S128.Idx → EReal) (ix1 k))
      (fun r j => by dsimp only; rw [hHk r j, eX, eA, eW, eB])
      (fun j => by dsimp only; rw [hMk j]; simp only [hHk])
      (fun j => by dsimp only; rw [hVk j, hMk j]; simp only [hHk])
      (fun j => congrFun sg (ix1 j)) (fun j => congrFun sbe (ix1 j)) (fun j k => congrFun sw2 (ix2 j k))
      (fun k => congrFun sb2 (ix1 k)) r k
    exact ⟨(Layer2V.arr7_7_apply Vb c r k).trans hcore.1, hcore.2⟩
  refine ⟨funext fun i => ?_, fun i => ?_⟩
  · obtain ⟨r, k, rfl⟩ : ∃ (r : Fin 100000) (k : Fin 128), i = ix2 r k := ⟨i 0, i 1, eq_ix2 i⟩
    exact (key r k).1
  · obtain ⟨r, k, rfl⟩ : ∃ (r : Fin 100000) (k : Fin 128), i = ix2 r k := ⟨i 0, i 1, eq_ix2 i⟩
    exact (key r k).2

set_option maxHeartbeats 8000000 in
/-- Layer 3 on the launched weights: if the features entering the layer — what region 5 left — are a real array `X`,
    then with real weights region 7 leaves the reference's layer 3 of `X`, the launched edge table and stacked weights,
    a real array. -/
theorem layer3_out (m : (ℓ : Loc nD τ sig) → Buf (Elt Ideal) ℓ) (ρ : Dev nD → PrngReg) (c : Dev nD)
    (X : FA Cert.ReferenceIdeal.S100000x128)
    (hX : ((dat5 (V11 m ρ) c).arrAt 7 cfg5.N : S100000x128.Idx → EReal) = X) (hXr : AllReal X)
    (h3 : AllReal (s := Cert.ReferenceIdeal.S5x128x128) (m ((c : Thread nD τ).loc main_arg3))) (h4 : AllReal (s := Cert.ReferenceIdeal.S5x128) (m ((c : Thread nD τ).loc main_arg4)))
    (h5 : AllReal (s := Cert.ReferenceIdeal.S5x128) (m ((c : Thread nD τ).loc main_arg5))) (h6 : AllReal (s := Cert.ReferenceIdeal.S5x128) (m ((c : Thread nD τ).loc main_arg6)))
    (h7 : AllReal (s := Cert.ReferenceIdeal.S5x128x128) (m ((c : Thread nD τ).loc main_arg7))) (h8 : AllReal (s := Cert.ReferenceIdeal.S5x128) (m ((c : Thread nD τ).loc main_arg8))) :
    ((dat7 (V15 m ρ) c).arrAt 7 cfg7.N : S100000x128.Idx → EReal)
        = layerAt 3 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) X
      ∧ AllReal (s := Cert.ReferenceIdeal.S100000x128) ((dat7 (V15 m ρ) c).arrAt 7 cfg7.N) := by
  have h := layer3_regions (V13 m ρ) (V15 m ρ) c X (edgeRow 0 (m ((c : Thread nD τ).loc main_arg1))) (edgeRow 1 (m ((c : Thread nD τ).loc main_arg1)))
    (mat 3 (m ((c : Thread nD τ).loc main_arg3))) (vec 3 (m ((c : Thread nD τ).loc main_arg4))) (vec 3 (m ((c : Thread nD τ).loc main_arg5))) (vec 3 (m ((c : Thread nD τ).loc main_arg6))) (mat 3 (m ((c : Thread nD τ).loc main_arg7))) (vec 3 (m ((c : Thread nD τ).loc main_arg8)))
    hXr (fun i => mat_real 3 _ h3 i) (fun i => vec_real 3 _ h4 i) (fun i => vec_real 3 _ h5 i)
    (fun i => vec_real 3 _ h6 i) (fun i => mat_real 3 _ h7 i) (fun i => vec_real 3 _ h8 i)
    ((RunV.s6_x m ρ c).trans hX)
    ((RunV.s6_agg m ρ c).trans (by rw [hX]; exact nbrSum_eq _ _))
    ((RunV.s6_w m ρ c).trans (layerMat_eq3 _ _))
    ((RunV.s6_b m ρ c).trans (layerVec_eq3 _ _))
    (RunV.s7_h m ρ c) (RunV.s7_mean m ρ c) (RunV.s7_var m ρ c)
    ((RunV.s7_gamma m ρ c).trans (layerVec_eq3 _ _))
    ((RunV.s7_beta m ρ c).trans (layerVec_eq3 _ _))
    ((RunV.s7_w2 m ρ c).trans (layerMat_eq3 _ _))
    ((RunV.s7_b2 m ρ c).trans (layerVec_eq3 _ _))
  exact ⟨h.1, h.1 ▸ h.2⟩

end Cert.KernelIdeal.LayerV

end
-- ==== Proof.KernelRunVS8.lean ====
/-
  Layer 4's first region (region 8) is entered after a stretch of host operations run from region 7's exit. Its four
  input arrays then hold: the features x that layer 3's second region left; the neighbour sum of x along the launched
  edge table; layer 4's slice of the first stacked weight matrix and of the first stacked bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkB

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 8, input window 0 holds the features as region 7's write-backs left them (its output window 7):
    no operation of the stretch writes that array. -/
theorem s8_x (c : Dev nD) :
    (V17 m ρ c main_v123 : (⟨S100000x128, .f32⟩ : BufTy).Contents (Elt F)) = (dat7 (V15 m ρ) c).arrAt 7 cfg7.N := by
  have h7 : W16 m ρ c (Proc.devRef .tc main_v123) = (dat7 (V15 m ρ) c).arrAt 7 cfg7.N := W16_arr m ρ c 7
  rw [← h7]
  show StableHlo.after hostOps8 (W16 m ρ c) (Proc.devRef .tc main_v123) = _
  after_results <;> rfl

/-- Entering region 8, input window 1 holds the neighbour sum of the features region 7 left, along the launched edge
    table (its two rows as the first stretch read them off). -/
theorem s8_agg (c : Dev nD) :
    (V17 m ρ c main_v133 : (⟨S100000x128, .f32⟩ : BufTy).Contents (Elt F))
      = nbrSum ((dat7 (V15 m ρ) c).arrAt 7 cfg7.N) (edgeSrc (m ((c : Thread nD τ).loc main_arg1))) (edgeDst (m ((c : Thread nD τ).loc main_arg1))) := by
  have h7 : W16 m ρ c (Proc.devRef .tc main_v123) = (dat7 (V15 m ρ) c).arrAt 7 cfg7.N := W16_arr m ρ c 7
  rw [← h7, ← w16_main_v1 m ρ c, ← w16_main_v3 m ρ c]
  unfold nbrSum
  show StableHlo.after hostOps8 (W16 m ρ c) (Proc.devRef .tc main_v133) = _
  after_results_simp <;> rfl

/-- Entering region 8, input window 2 holds layer 4's matrix of the first stacked weights, as launched. -/
theorem s8_w (c : Dev nD) :
    (V17 m ρ c main_v135 : (⟨S128x128, .f32⟩ : BufTy).Contents (Elt F))
      = layerMat ![4, 0, 0] slices_S5x128x128_S1x128x128_4_0_0 (m ((c : Thread nD τ).loc main_arg3)) := by
  rw [← w16_main_arg3 m ρ c]
  unfold layerMat
  show StableHlo.after hostOps8 (W16 m ρ c) (Proc.devRef .tc main_v135) = _
  after_results <;> rfl

/-- Entering region 8, input window 3 holds layer 4's vector of the first stacked biases, as launched. -/
theorem s8_b (c : Dev nD) :
    (V17 m ρ c main_v137 : (⟨S128, .f32⟩ : BufTy).Contents (Elt F))
      = layerVec ![4, 0] slices_S5x128_S1x128_4_0 (m ((c : Thread nD τ).loc main_arg4)) := by
  rw [← w16_main_arg4 m ρ c]
  unfold layerVec
  show StableHlo.after hostOps8 (W16 m ρ c) (Proc.devRef .tc main_v137) = _
  after_results <;> rfl

end Cert.KernelIdeal.RunV

end
-- ==== Proof.KernelRunVS9.lean ====
/-
  Layer 4's second region (region 9) is entered after a stretch of host operations run from region 8's exit. Its
  seven input arrays then hold: the first linear map's output h as region 8 left it; the column mean and variance of
  h from the column sums s and ss region 8 left (s / 100000 and ss / 100000 - (s / 100000)^2); layer 4's slices of the
  stacked scale, shift, second weight matrix and second bias, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkB

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 9, input window 0 holds the first linear map's output as region 8's write-backs left it (its
    output window 4): no operation of the stretch writes that array. -/
theorem s9_h (c : Dev nD) :
    (V19 m ρ c main_v138_0 : (⟨S100000x128, .f32⟩ : BufTy).Contents (Elt F)) = (dat8 (V17 m ρ) c).arrAt 4 cfg8.N := by
  have h4 : W18 m ρ c (Proc.devRef .tc main_v138_0) = (dat8 (V17 m ρ) c).arrAt 4 cfg8.N := W18_arr m ρ c 4
  rw [← h4]
  show StableHlo.after hostOps9 (W18 m ρ c) (Proc.devRef .tc main_v138_0) = _
  after_results <;> rfl

/-- Entering region 9, input window 1 holds the column mean: region 8's column sum (its output window 5) over 100000. -/
theorem s9_mean (c : Dev nD) :
    (V19 m ρ c main_v140 : (⟨S1x128, .f32⟩ : BufTy).Contents (Elt F)) = meanOf ((dat8 (V17 m ρ) c).arrAt 5 cfg8.N) := by
  have h5 : W18 m ρ c (Proc.devRef .tc main_v138_1) = (dat8 (V17 m ρ) c).arrAt 5 cfg8.N := W18_arr m ρ c 5
  rw [← h5]
  unfold meanOf
  show StableHlo.after hostOps9 (W18 m ρ c) (Proc.devRef .tc main_v140) = _
  after_results <;> rfl

/-- Entering region 9, input window 2 holds the column variance: region 8's column sum of squares (its output window 6)
    over 100000, less the square of the column mean. -/
theorem s9_var (c : Dev nD) :
    (V19 m ρ c main_v144 : (⟨S1x128, .f32⟩ : BufTy).Contents (Elt F))
      = varOf ((dat8 (V17 m ρ) c).arrAt 5 cfg8.N) ((dat8 (V17 m ρ) c).arrAt 6 cfg8.N) := by
  have h5 : W18 m ρ c (Proc.devRef .tc main_v138_1) = (dat8 (V17 m ρ) c).arrAt 5 cfg8.N := W18_arr m ρ c 5
  have h6 : W18 m ρ c (Proc.devRef .tc main_v138_2) = (dat8 (V17 m ρ) c).arrAt 6 cfg8.N := W18_arr m ρ c 6
  rw [← h5, ← h6]
  unfold varOf meanOf
  show StableHlo.after hostOps9 (W18 m ρ c) (Proc.devRef .tc main_v144) = _
  after_results <;> rfl

/-- Entering region 9, input window 3 holds layer 4's slice of the stacked scale, as launched. -/
theorem s9_gamma (c : Dev nD) :
    (V19 m ρ c main_v146 : (⟨S128, .f32⟩ : BufTy).Contents (Elt F)) = layerVec ![4, 0] slices_S5x128_S1x128_4_0 (m ((c : Thread nD τ).loc main_arg5)) := by
  rw [← w18_main_arg5 m ρ c]
  unfold layerVec
  show StableHlo.after hostOps9 (W18 m ρ c) (Proc.devRef .tc main_v146) = _
  after_results <;> rfl

/-- Entering region 9, input window 4 holds layer 4's slice of the stacked shift, as launched. -/
theorem s9_beta (c : Dev nD) :
    (V19 m ρ c main_v148 : (⟨S128, .f32⟩ : BufTy).Contents (Elt F)) = layerVec ![4, 0] slices_S5x128_S1x128_4_0 (m ((c : Thread nD τ).loc main_arg6)) := by
  rw [← w18_main_arg6 m ρ c]
  unfold layerVec
  show StableHlo.after hostOps9 (W18 m ρ c) (Proc.devRef .tc main_v148) = _
  after_results <;> rfl

/-- Entering region 9, input window 5 holds layer 4's slice of the stacked second weight matrix, as launched. -/
theorem s9_w2 (c : Dev nD) :
    (V19 m ρ c main_v150 : (⟨S128x128, .f32⟩ : BufTy).Contents (Elt F)) = layerMat ![4, 0, 0] slices_S5x128x128_S1x128x128_4_0_0 (m ((c : Thread nD τ).loc main_arg7)) := by
  rw [← w18_main_arg7 m ρ c]
  unfold layerMat
  show StableHlo.after hostOps9 (W18 m ρ c) (Proc.devRef .tc main_v150) = _
  after_results <;> rfl

/-- Entering region 9, input window 6 holds layer 4's slice of the stacked second bias, as launched. -/
theorem s9_b2 (c : Dev nD) :
    (V19 m ρ c main_v152 : (⟨S128, .f32⟩ : BufTy).Contents (Elt F)) = layerVec ![4, 0] slices_S5x128_S1x128_4_0 (m ((c : Thread nD τ).loc main_arg8)) := by
  rw [← w18_main_arg8 m ρ c]
  unfold layerVec
  show StableHlo.after hostOps9 (W18 m ρ c) (Proc.devRef .tc main_v152) = _
  after_results <;> rfl

end Cert.KernelIdeal.RunV

end
-- ==== Proof.Layer1V8Pieces.lean ====
/-
  What one run of the first dense map's body leaves in its three output tiles.

  The body writes the tile of h once, and each of the two running rows once (at the first grid point twice: the zero
  row first, then the updated row, which reads the zero row back).  Each tile therefore ends holding the value of its
  last store: the tile of h; the running row plus the tile's column sums, where at the first point the running row is
  the zero row just stored and at a later point it is what the tile held before the body ran.
-/
import proofs.«164329_j2903397892177_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Layer1V.R8

open Cert.KernelIdeal Cert.KernelIdeal.Gen Idealize.ShloMosaic.ValueIdx

variable {F : FTy → Type} [FloatOps F]

/-- Zero offsets on two axes, as the stores spell them. -/
theorem hz2 : (![0, 0] : Fin 2 → Nat) = fun _ => 0 := funext fun a => by fin_cases a <;> rfl
/-- Zero offset on one axis. -/
theorem hz1 : (![0] : Fin 1 → Nat) = fun _ => 0 := funext fun a => by fin_cases a; rfl

/-- First point: the h tile ends at the body's h of the four input tiles. -/
theorem out_A_4 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond8_0 i)
    (x0 : Vec F S5000x128 .f32) (x1 : Vec F S5000x128 .f32) (x2 : Vec F S128x128 .f32) (x3 : Vec F S128 .f32) :
    out8_A_4 c i arg1 harg1 arg2 harg2 arg3 harg3 arg4 harg4 arg5 harg5 arg6 harg6 arg7 harg7 hc0 x0 x1 x2 x3 = k8_pay3 x0 x1 x2 x3 := by
  unfold out8_A_4
  rw [View.read_writes_eq_canon _ _ _ (cover8_A_4 c i arg1 harg1 arg2 harg2 arg3 harg3 arg4 harg4 arg5 harg5 arg6 harg6 arg7 harg7 hc0 x0 x1 x2 x3)]
  unfold kernelRun8_A
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum ends at the zero row plus the tile's column sums of h. -/
theorem out_A_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond8_0 i)
    (x0 : Vec F S5000x128 .f32) (x1 : Vec F S5000x128 .f32) (x2 : Vec F S128x128 .f32) (x3 : Vec F S128 .f32) :
    out8_A_5 c i arg1 harg1 arg2 harg2 arg3 harg3 arg4 harg4 arg5 harg5 arg6 harg6 arg7 harg7 hc0 x0 x1 x2 x3 = k8_pay4 x0 x1 x2 x3 k8_pay1 := by
  unfold out8_A_5
  rw [View.read_writes_eq_canon _ _ _ (cover8_A_5 c i arg1 harg1 arg2 harg2 arg3 harg3 arg4 harg4 arg5 harg5 arg6 harg6 arg7 harg7 hc0 x0 x1 x2 x3)]
  unfold kernelRun8_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- First point: the running sum of squares ends at the zero row plus the tile's column sums of h·h. -/
theorem out_A_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond8_0 i)
    (x0 : Vec F S5000x128 .f32) (x1 : Vec F S5000x128 .f32) (x2 : Vec F S128x128 .f32) (x3 : Vec F S128 .f32) :
    out8_A_6 c i arg1 harg1 arg2 harg2 arg3 harg3 arg4 harg4 arg5 harg5 arg6 harg6 arg7 harg7 hc0 x0 x1 x2 x3 = k8_pay5 x0 x1 x2 x3 k8_pay2 := by
  unfold out8_A_6
  rw [View.read_writes_eq_canon _ _ _ (cover8_A_6 c i arg1 harg1 arg2 harg2 arg3 harg3 arg4 harg4 arg5 harg5 arg6 harg6 arg7 harg7 hc0 x0 x1 x2 x3)]
  unfold kernelRun8_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the h tile ends at the body's h of the four input tiles. -/
theorem out_B_4 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i)
    (x0 : Vec F S5000x128 .f32) (x1 : Vec F S5000x128 .f32) (x2 : Vec F S128x128 .f32) (x3 : Vec F S128 .f32) (xo5 : Vec F S1x128 .f32) (xo6 : Vec F S1x128 .f32) :
    out8_B_4 c i arg1 harg1 arg2 harg2 arg3 harg3 arg4 harg4 arg5 harg5 arg6 harg6 arg7 harg7 hc0 x0 x1 x2 x3 xo5 xo6 = k8_pay3 x0 x1 x2 x3 := by
  unfold out8_B_4
  rw [View.read_writes_eq_canon _ _ _ (cover8_B_4 c i arg1 harg1 arg2 harg2 arg3 harg3 arg4 harg4 arg5 harg5 arg6 harg6 arg7 harg7 hc0 x0 x1 x2 x3 xo5 xo6)]
  unfold kernelRun8_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum ends at what it held plus the tile's column sums of h. -/
theorem out_B_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i)
    (x0 : Vec F S5000x128 .f32) (x1 : Vec F S5000x128 .f32) (x2 : Vec F S128x128 .f32) (x3 : Vec F S128 .f32) (xo5 : Vec F S1x128 .f32) (xo6 : Vec F S1x128 .f32) :
    out8_B_5 c i arg1 harg1 arg2 harg2 arg3 harg3 arg4 harg4 arg5 harg5 arg6 harg6 arg7 harg7 hc0 x0 x1 x2 x3 xo5 xo6 = k8_pay4 x0 x1 x2 x3 xo5 := by
  unfold out8_B_5
  rw [View.read_writes_eq_canon _ _ _ (cover8_B_5 c i arg1 harg1 arg2 harg2 arg3 harg3 arg4 harg4 arg5 harg5 arg6 harg6 arg7 harg7 hc0 x0 x1 x2 x3 xo5 xo6)]
  unfold kernelRun8_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

/-- Later point: the running sum of squares ends at what it held plus the tile's column sums of h·h. -/
theorem out_B_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond8_0 i)
    (x0 : Vec F S5000x128 .f32) (x1 : Vec F S5000x128 .f32) (x2 : Vec F S128x128 .f32) (x3 : Vec F S128 .f32) (xo5 : Vec F S1x128 .f32) (xo6 : Vec F S1x128 .f32) :
    out8_B_6 c i arg1 harg1 arg2 harg2 arg3 harg3 arg4 harg4 arg5 harg5 arg6 harg6 arg7 harg7 hc0 x0 x1 x2 x3 xo5 xo6 = k8_pay5 x0 x1 x2 x3 xo6 := by
  unfold out8_B_6
  rw [View.read_writes_eq_canon _ _ _ (cover8_B_6 c i arg1 harg1 arg2 harg2 arg3 harg3 arg4 harg4 arg5 harg5 arg6 harg6 arg7 harg7 hc0 x0 x1 x2 x3 xo5 xo6)]
  unfold kernelRun8_B
  dsimp only
  try sl_unfold_words
  rw [View.canon_unit_zero hz2]
  simp only [View.readAt_eq_ld, harg1.read_unread, harg2.read_unread, harg3.read_unread, harg4.read_unread, harg6.read_unread, harg7.read_unread,
    View.ld_unit_zero (S := S5000x128) hz2, View.ld_unit_zero (S := S128x128) hz2, View.ld_unit_zero (S := S128) hz1,
    View.ld_unit_zero (S := S1x128) hz2]

end Cert.KernelIdeal.Layer1V.R8

end
-- ==== Proof.Layer1V8Outs.lean ====
/-
  The three output tiles after each grid point of the first dense map, as values of the body's arithmetic.

  After the first point the tiles hold h of the point's input tiles, and the two running rows hold the zero row plus
  that tile's column sums.  After a later point they hold h of that point's input tiles, and the running rows hold
  what the point before left plus that tile's column sums.
-/
import proofs.«164329_j2903397892177_1_alg».proof.Proof.Layer1V8Pieces
import Idealize.ShloMosaic.Lib.ValueIdx

noncomputable section

open Idealize.ShloMosaic Idealize.ShloMosaic.TcCoe Idealize.SL.Sem
open Idealize.ShloMosaic.Pipeline (Dat)

namespace Cert.KernelIdeal.Layer1V.R8

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- After the first point: h of its tiles, and the zero rows plus the tile's column sums. -/
theorem outs_A (t : Fin cfg8.N) (h0 : t.val % 20 = 0) :
    outsAt8 V c t.val t.isLt
      = (k8_pay3 (iblk8 V c 0 t) (iblk8 V c 1 t) (iblk8 V c 2 t) (iblk8 V c 3 t),
         k8_pay4 (iblk8 V c 0 t) (iblk8 V c 1 t) (iblk8 V c 2 t) (iblk8 V c 3 t) k8_pay1,
         k8_pay5 (iblk8 V c 0 t) (iblk8 V c 1 t) (iblk8 V c 2 t) (iblk8 V c 3 t) k8_pay2) :=
  (outsAt8_A V c t h0).trans
    (congrArg₂ Prod.mk
      (out_A_4 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) ((hcond8_0 t).mpr h0) (iblk8 V c 0 t) (iblk8 V c 1 t) (iblk8 V c 2 t) (iblk8 V c 3 t))
      (congrArg₂ Prod.mk
        (out_A_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) ((hcond8_0 t).mpr h0) (iblk8 V c 0 t) (iblk8 V c 1 t) (iblk8 V c 2 t) (iblk8 V c 3 t))
        (out_A_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) ((hcond8_0 t).mpr h0) (iblk8 V c 0 t) (iblk8 V c 1 t) (iblk8 V c 2 t) (iblk8 V c 3 t))))

/-- After a later point: h of its tiles, and what the point before left plus the tile's column sums. -/
theorem outs_B (t : Fin cfg8.N) (h0 : ¬t.val % 20 = 0) :
    outsAt8 V c t.val t.isLt
      = (k8_pay3 (iblk8 V c 0 t) (iblk8 V c 1 t) (iblk8 V c 2 t) (iblk8 V c 3 t),
         k8_pay4 (iblk8 V c 0 t) (iblk8 V c 1 t) (iblk8 V c 2 t) (iblk8 V c 3 t) (outsAt8 V c (t.val - 1) (Nat.lt_of_le_of_lt (Nat.sub_le _ _) t.isLt)).2.1,
         k8_pay5 (iblk8 V c 0 t) (iblk8 V c 1 t) (iblk8 V c 2 t) (iblk8 V c 3 t) (outsAt8 V c (t.val - 1) (Nat.lt_of_le_of_lt (Nat.sub_le _ _) t.isLt)).2.2) :=
  (outsAt8_B V c t h0).trans
    (congrArg₂ Prod.mk
      (out_B_4 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (fun h => h0 ((hcond8_0 t).mp h)) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2)
      (congrArg₂ Prod.mk
        (out_B_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (fun h => h0 ((hcond8_0 t).mp h)) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2)
        (out_B_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (fun h => h0 ((hcond8_0 t).mp h)) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2)))

/-- The h tile after any point is h of that point's input tiles. -/
theorem outs_h (t : Fin cfg8.N) : (outsAt8 V c t.val t.isLt).1 = k8_pay3 (iblk8 V c 0 t) (iblk8 V c 1 t) (iblk8 V c 2 t) (iblk8 V c 3 t) := by
  by_cases h0 : t.val % 20 = 0
  · rw [outs_A V c t h0]
  · rw [outs_B V c t h0]

end Cert.KernelIdeal.Layer1V.R8

end
-- ==== Proof.Layer1V8Blocks.lean ====
/-
  The input tiles of the first dense map as rows of the arrays they are cut from.

  At grid point t the row tiles of x and of the neighbour sums hold rows 5000·t … 5000·t + 4999 of their arrays, all
  128 lanes; the weight tile is the whole 128 × 128 weight matrix and the bias tile the whole bias vector at every
  point.  The output tile of h sits at the same rows; the two running rows are their whole 1 × 128 arrays.
-/
import proofs.«164329_j2903397892177_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Layer1V.R8

open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-- Where each window's tile sits at grid point t: the row windows at block row t, every other coordinate at block 0. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 1) = 0
    ∧ win8_4.index t (0 : Fin 2) = t.val ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0 :=
  (by decide +kernel : ∀ t : Fin grid8.N, _)

/-- The grid has 20 points. -/
theorem lt20 (t : Fin cfg8.N) : t.val < 20 := lt_of_lt_of_eq t.isLt (show cfg8.N = 20 from N_8)

/-- The x tile at point t, entry (p, j), is x at row 5000·t + p, lane j. -/
theorem iblk_x (t : Fin cfg8.N) (p : Fin 5000) (j : Fin 128) (r : Fin 100000) (hr : r.val = 5000 * t.val + p.val) :
    (iblk8 V c 0 t : Vec F S5000x128 .f32) (ix2 p j)
      = (V c (Pipeline.arrRef spec8 0) : S100000x128.Idx → Elt F .f32) (ix2 r j) := by
  obtain ⟨e0, e1, -⟩ := idx_facts t
  unfold iblk8
  rw [View.read_apply]
  refine congrArg (V c (Pipeline.arrRef spec8 0) : S100000x128.Idx → Elt F .f32) (funext fun a => Fin.ext ?_)
  match a with
  | ⟨0, _⟩ => show win8_0.index t (0 : Fin 2) * 5000 + 1 * p.val = r.val; rw [e0, hr]; omega
  | ⟨1, _⟩ => show win8_0.index t (1 : Fin 2) * 128 + 1 * j.val = j.val; rw [e1]; omega

/-- The neighbour-sum tile at point t, entry (p, j), is the neighbour sums at row 5000·t + p, lane j. -/
theorem iblk_a (t : Fin cfg8.N) (p : Fin 5000) (j : Fin 128) (r : Fin 100000) (hr : r.val = 5000 * t.val + p.val) :
    (iblk8 V c 1 t : Vec F S5000x128 .f32) (ix2 p j)
      = (V c (Pipeline.arrRef spec8 1) : S100000x128.Idx → Elt F .f32) (ix2 r j) := by
  obtain ⟨-, -, e0, e1, -⟩ := idx_facts t
  unfold iblk8
  rw [View.read_apply]
  refine congrArg (V c (Pipeline.arrRef spec8 1) : S100000x128.Idx → Elt F .f32) (funext fun a => Fin.ext ?_)
  match a with
  | ⟨0, _⟩ => show win8_1.index t (0 : Fin 2) * 5000 + 1 * p.val = r.val; rw [e0, hr]; omega
  | ⟨1, _⟩ => show win8_1.index t (1 : Fin 2) * 128 + 1 * j.val = j.val; rw [e1]; omega

/-- The weight tile at any point is the weight matrix. -/
theorem iblk_w (t : Fin cfg8.N) (j q : Fin 128) :
    (iblk8 V c 2 t : Vec F S128x128 .f32) (ix2 j q)
      = (V c (Pipeline.arrRef spec8 2) : S128x128.Idx → Elt F .f32) (ix2 j q) := by
  obtain ⟨-, -, -, -, e0, e1, -⟩ := idx_facts t
  unfold iblk8
  rw [View.read_apply]
  refine congrArg (V c (Pipeline.arrRef spec8 2) : S128x128.Idx → Elt F .f32) (funext fun a => Fin.ext ?_)
  match a with
  | ⟨0, _⟩ => show win8_2.index t (0 : Fin 2) * 128 + 1 * j.val = j.val; rw [e0]; omega
  | ⟨1, _⟩ => show win8_2.index t (1 : Fin 2) * 128 + 1 * q.val = q.val; rw [e1]; omega

/-- The bias tile at any point is the bias vector. -/
theorem iblk_b (t : Fin cfg8.N) (q : Fin 128) :
    (iblk8 V c 3 t : Vec F S128 .f32) (ix1 q)
      = (V c (Pipeline.arrRef spec8 3) : S128.Idx → Elt F .f32) (ix1 q) := by
  obtain ⟨-, -, -, -, -, -, e0, -⟩ := idx_facts t
  unfold iblk8
  rw [View.read_apply]
  refine congrArg (V c (Pipeline.arrRef spec8 3) : S128.Idx → Elt F .f32) (funext fun a => Fin.ext ?_)
  match a with
  | ⟨0, _⟩ => show win8_3.index t (0 : Fin 1) * 128 + 1 * q.val = q.val; rw [e0]; omega

end Cert.KernelIdeal.Layer1V.R8

end
-- ==== Proof.Layer1V8Pay.lean ====
/-
  The first dense map's body, read entry by entry on the extended reals.

  On one tile of 5000 rows the body forms h = (x + a)·W + b and adds the tile's column sums of h and of h·h onto two
  running rows.  Entry by entry: h at (p, q) is the sum over j of (x(p, j) + a(p, j)) · W(j, q), plus b(q): a change
  of float format is the identity on the extended reals, the product accumulates into zero, and the bias row is the
  same in every row.  The running sum at lane q grows by the sum over the tile's rows p of h(p, q), the running sum
  of squares by the sum of h(p, q) · h(p, q).  The two rows a first tile starts from are zero.
-/
import proofs.«164329_j2903397892177_1_alg».proof.Proof.Gen.KernelIdeal.Skeleton
import proofs.«164329_j2903397892177_1_alg».proof.Proof.Layer1VMatmul
import proofs.«164329_j2903397892177_1_alg».proof.Proof.Layer1VOps
import Idealize.ShloMosaic.Lib.Pipeline.Value

noncomputable section

namespace Cert.KernelIdeal.Layer1V.R8

open Cert.KernelIdeal Cert.KernelIdeal.Gen Idealize.ShloMosaic Idealize.ShloMosaic.ValueIdx

/-- The tile of h at row p and lane q: the sum over j of (x(p, j) + a(p, j)) · W(j, q), plus b(q). -/
theorem pay3_apply (x0 x1 : FVec Ideal S5000x128 .f32) (x2 : FVec Ideal S128x128 .f32) (x3 : FVec Ideal S128 .f32)
    (p : Fin 5000) (q : Fin 128) :
    k8_pay3 x0 x1 x2 x3 (ix2 p q)
      = (∑ j : Fin 128, (x0 (ix2 p j) + x1 (ix2 p j)) * x2 (ix2 j q)) + x3 (ix1 q) := by
  unfold k8_pay3
  refine congrArg₂ (· + ·) ?_ ?_
  · refine (matmul_rows_cols_apply _ none _ _ p q).trans ?_
    refine Finset.sum_congr rfl fun j _ => ?_
    rw [shapeCast_self, shapeCast_self, shapeCast_self]
    rfl
  · refine (row_repeat_apply _ _ _ p q).trans ?_
    rw [shapeCast_self]

/-- The running column sum after a tile, at lane q: what it held plus the sum over the tile's rows of h. -/
theorem pay4_apply (x0 x1 : FVec Ideal S5000x128 .f32) (x2 : FVec Ideal S128x128 .f32) (x3 : FVec Ideal S128 .f32)
    (s : FVec Ideal S1x128 .f32) (u : Fin 1) (q : Fin 128) :
    k8_pay4 x0 x1 x2 x3 s (ix2 u q) = s (ix2 u q) + ∑ p : Fin 5000, k8_pay3 x0 x1 x2 x3 (ix2 p q) := by
  unfold k8_pay4
  refine congrArg₂ (· + ·) ?_ ?_
  · rw [shapeCast_self]
  · refine (shapeCast_a_1a_apply _ _ u q).trans ?_
    exact colsum_apply _ _ _ _ q

/-- The running column sum of squares after a tile, at lane q: what it held plus the sum over the tile's rows of h·h. -/
theorem pay5_apply (x0 x1 : FVec Ideal S5000x128 .f32) (x2 : FVec Ideal S128x128 .f32) (x3 : FVec Ideal S128 .f32)
    (s : FVec Ideal S1x128 .f32) (u : Fin 1) (q : Fin 128) :
    k8_pay5 x0 x1 x2 x3 s (ix2 u q)
      = s (ix2 u q) + ∑ p : Fin 5000, k8_pay3 x0 x1 x2 x3 (ix2 p q) * k8_pay3 x0 x1 x2 x3 (ix2 p q) := by
  unfold k8_pay5
  refine congrArg₂ (· + ·) ?_ ?_
  · rw [shapeCast_self]
  · refine (shapeCast_a_1a_apply _ _ u q).trans ?_
    exact colsum_apply _ _ _ _ q

/-- The row the running column sum starts from is zero. -/
theorem pay1_apply (u : Fin 1) (q : Fin 128) : k8_pay1 (F := Ideal) (ix2 u q) = 0 :=
  Ideal.ofBits_zero_f32

/-- The row the running column sum of squares starts from is zero. -/
theorem pay2_apply (u : Fin 1) (q : Fin 128) : k8_pay2 (F := Ideal) (ix2 u q) = 0 :=
  Ideal.ofBits_zero_f32

end Cert.KernelIdeal.Layer1V.R8

end
-- ==== Proof.Layer1V8H1.lean ====
/-
  The array of h after the first dense map's grid has run.

  Each grid point writes its 5000-row tile of h back to the rows it was computed from, and the twenty tiles cover the
  100000 rows.  Entry (r, k) of the array is therefore (x + a)·W + b at row r and lane k, of the four arrays the
  map found when it started.
-/
import proofs.«164329_j2903397892177_1_alg».proof.Proof.Layer1V8Outs
import proofs.«164329_j2903397892177_1_alg».proof.Proof.Layer1V8Blocks
import proofs.«164329_j2903397892177_1_alg».proof.Proof.Layer1V8Pay
import proofs.«164329_j2903397892177_1_alg».proof.Proof.LayerFns
import Idealize.ShloMosaic.Lib.ValueIdx

noncomputable section

open Idealize.ShloMosaic Idealize.ShloMosaic.TcCoe Idealize.SL.Sem
open Idealize.ShloMosaic.Pipeline (Dat)

namespace Cert.KernelIdeal.Layer1V.R8

open Cert.KernelIdeal Cert.KernelIdeal.Gen Idealize.ShloMosaic.ValueIdx

variable (V : (c : Dev nD) → (b : Ref sig .tc) → Buf (Elt Ideal) ((c : Thread nD τ).loc b)) (c : Dev nD)

/-- The array x as the map finds it, by row and lane. -/
abbrev inX : Fin 100000 → Fin 128 → EReal := fun r j => (V c (Pipeline.arrRef spec8 0) : S100000x128.Idx → EReal) (ix2 r j)
/-- The neighbour sums as the map finds them, by row and lane. -/
abbrev inA : Fin 100000 → Fin 128 → EReal := fun r j => (V c (Pipeline.arrRef spec8 1) : S100000x128.Idx → EReal) (ix2 r j)
/-- The weight matrix as the map finds it, by row and column. -/
abbrev inW : Fin 128 → Fin 128 → EReal := fun j k => (V c (Pipeline.arrRef spec8 2) : S128x128.Idx → EReal) (ix2 j k)
/-- The bias vector as the map finds it. -/
abbrev inB : Fin 128 → EReal := fun k => (V c (Pipeline.arrRef spec8 3) : S128.Idx → EReal) (ix1 k)

/-- h of point t's tiles at (p, q) is (x + a)·W + b at row 5000·t + p and lane q. -/
theorem pay3_block (t : Fin cfg8.N) (p : Fin 5000) (q : Fin 128) (r : Fin 100000) (hr : r.val = 5000 * t.val + p.val) :
    k8_pay3 (iblk8 V c 0 t) (iblk8 V c 1 t) (iblk8 V c 2 t) (iblk8 V c 3 t) (ix2 p q) = LayerFns.h1Fn (inX V c) (inA V c) (inW V c) (inB V c) r q := by
  refine (pay3_apply (iblk8 V c 0 t) (iblk8 V c 1 t) (iblk8 V c 2 t) (iblk8 V c 3 t) p q).trans ?_
  unfold LayerFns.h1Fn
  refine congrArg₂ (· + ·) (Finset.sum_congr rfl fun j _ => ?_) (iblk_b V c t q)
  exact congrArg₂ (· * ·) (congrArg₂ (· + ·) (iblk_x V c t p j r hr) (iblk_a V c t p j r hr)) (iblk_w V c t j q)

/-- The whole array of h, entry by entry. -/
def hArr : S100000x128.Idx → EReal := fun i => LayerFns.h1Fn (inX V c) (inA V c) (inW V c) (inB V c) (i 0) (i 1)

/-- What point t writes back is its tile of the whole array of h. -/
theorem flushed_h (t : Fin cfg8.N) (hf : (cfg8.win 4).flush t = true) :
    (dat8 V c).flushed 4 t = ((cfg8.win 4).blk t).view.read (Elt Ideal) (hArr V c) := by
  show (cfg8.win 4).cut (grid8.coords t) ((dat8 V c).after 4 t) = _
  rw [after8_4, outs_h]
  funext y
  obtain ⟨p, q, rfl⟩ : ∃ (p : Fin 5000) (q : Fin 128), y = ix2 p q := ⟨y 0, y 1, eq_ix2 y⟩
  rw [View.read_apply]
  obtain ⟨-, -, -, -, -, -, -, e0, e1, -⟩ := idx_facts t
  have ht := lt20 t
  have hr : 5000 * t.val + p.val < 100000 := by have := p.isLt; omega
  have c0 : (((cfg8.win 4).blk t).view.emb (ix2 p q)) 0 = (⟨5000 * t.val + p.val, hr⟩ : Fin 100000) :=
    Fin.ext (by show win8_4.index t (0 : Fin 2) * 5000 + 1 * p.val = 5000 * t.val + p.val; rw [e0]; omega)
  have c1 : (((cfg8.win 4).blk t).view.emb (ix2 p q)) 1 = q :=
    Fin.ext (by show win8_4.index t (1 : Fin 2) * 128 + 1 * q.val = q.val; rw [e1]; omega)
  exact (pay3_block V c t p q ⟨5000 * t.val + p.val, hr⟩ rfl).trans
    (congrArg₂ (LayerFns.h1Fn (inX V c) (inA V c) (inW V c) (inB V c)) c0.symm c1.symm)

/-- Every row lies in the tile of the point that its quotient by 5000 names. -/
theorem cover_h (i : S100000x128.Idx) :
    ∃ t : Fin cfg8.N, (cfg8.win 4).flush t = true ∧ i ∈ ((cfg8.win 4).blk t).view.set := by
  have hi0 : (i 0).val < 100000 := (i 0).isLt
  have hi1 : (i 1).val < 128 := (i 1).isLt
  have hN : cfg8.N = 20 := N_8
  let t : Fin cfg8.N := ⟨(i 0).val / 5000, by rw [hN]; omega⟩
  obtain ⟨-, -, -, -, -, -, -, e0, e1, -⟩ := idx_facts t
  refine ⟨t, flush8_4 t, ?_⟩
  have he : ((cfg8.win 4).blk t).view.emb (ix2 (⟨(i 0).val % 5000, Nat.mod_lt _ (by decide)⟩ : Fin 5000) (⟨(i 1).val, hi1⟩ : Fin 128)) = i := by
    funext a
    apply Fin.ext
    match a with
    | ⟨0, _⟩ =>
      show win8_4.index t (0 : Fin 2) * 5000 + 1 * ((i 0).val % 5000) = (i 0).val
      rw [e0]; show (i 0).val / 5000 * 5000 + 1 * ((i 0).val % 5000) = (i 0).val; omega
    | ⟨1, _⟩ =>
      show win8_4.index t (1 : Fin 2) * 128 + 1 * (i 1).val = (i 1).val
      rw [e1]; omega
  rw [← he]
  exact ((cfg8.win 4).blk t).view.emb_mem_set _

/-- The array of h after the grid: (x + a)·W + b, entry by entry. -/
theorem arr_h : (dat8 V c).arrAt 4 cfg8.N = hArr V c :=
  (dat8 V c).arrAt_eq_of_cover 4 (hArr V c) (flushed_h V c) (cover_h)

/-- Entry (r, k) of the array of h after the grid. -/
theorem arr_h_apply (r : Fin 100000) (k : Fin 128) :
    ((dat8 V c).arrAt 4 cfg8.N : S100000x128.Idx → EReal) (ix2 r k) = LayerFns.h1Fn (inX V c) (inA V c) (inW V c) (inB V c) r k := by
  rw [arr_h]; rfl

end Cert.KernelIdeal.Layer1V.R8

end
-- ==== Proof.Layer1V8Sum.lean ====
/-
  The column sums of h after the first dense map's grid has run.

  The running row starts at zero at the first grid point and each point adds its tile's column sums of h.  After the
  twentieth point it holds, at lane k, the sum over all 100000 rows r of h(r, k): a sum taken tile by tile is the sum
  over all rows, in any commutative additive monoid, so the extended reals need no finiteness here.  The row is
  written back once, after the last point, and is the whole 1 × 128 array.
-/
import proofs.«164329_j2903397892177_1_alg».proof.Proof.Layer1V8H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R8

open Cert.KernelIdeal Cert.KernelIdeal.Gen Idealize.ShloMosaic.ValueIdx

variable (V : (c : Dev nD) → (b : Ref sig .tc) → Buf (Elt Ideal) ((c : Thread nD τ).loc b)) (c : Dev nD)

/-- h at row i and lane q, by the row's number; zero past the last row. -/
def sumFn (q : Fin 128) (i : ℕ) : EReal := if h : i < 100000 then LayerFns.h1Fn (inX V c) (inA V c) (inW V c) (inB V c) ⟨i, h⟩ q else 0

/-- The running sum at lane q before point k: zero, then one tile's column sum of h more per point. -/
def sumAcc (q : Fin 128) : ℕ → EReal
  | 0 => 0
  | k + 1 => sumAcc q k + ∑ p ∈ Finset.range 5000, sumFn V c q (5000 * k + p)

/-- Point t's column sum of h at lane q is the sum of h over rows 5000·t … 5000·t + 4999. -/
theorem sum_tile (t : Fin cfg8.N) (q : Fin 128) :
    ∑ p : Fin 5000, k8_pay3 (iblk8 V c 0 t) (iblk8 V c 1 t) (iblk8 V c 2 t) (iblk8 V c 3 t) (ix2 p q) = ∑ p ∈ Finset.range 5000, sumFn V c q (5000 * t.val + p) := by
  rw [Finset.sum_range]
  refine Finset.sum_congr rfl fun p _ => ?_
  have ht := lt20 t
  have hr : 5000 * t.val + p.val < 100000 := by have := p.isLt; omega
  unfold sumFn
  rw [dif_pos hr, pay3_block V c t p q ⟨5000 * t.val + p.val, hr⟩ rfl]

/-- After point n the running row holds, at lane q, the running sum before point n + 1. -/
theorem sum_inv : ∀ (n : ℕ) (h : n < cfg8.N) (u : Fin 1) (q : Fin 128),
    (outsAt8 V c n h).2.1 (ix2 u q) = sumAcc V c q (n + 1)
  | 0, h, u, q => by
    refine (congrFun (congrArg (fun x => x.2.1) (outs_A V c ⟨0, h⟩ rfl)) (ix2 u q)).trans ?_
    refine (pay4_apply (iblk8 V c 0 ⟨0, h⟩) (iblk8 V c 1 ⟨0, h⟩) (iblk8 V c 2 ⟨0, h⟩) (iblk8 V c 3 ⟨0, h⟩) k8_pay1 u q).trans ?_
    show _ = (0 : EReal) + ∑ p ∈ Finset.range 5000, sumFn V c q (5000 * 0 + p)
    exact congrArg₂ (· + ·) (pay1_apply u q) (sum_tile V c ⟨0, h⟩ q)
  | n + 1, h, u, q => by
    have hN : cfg8.N = 20 := N_8
    have hB : ¬(⟨n + 1, h⟩ : Fin cfg8.N).val % 20 = 0 := by dsimp only; omega
    refine (congrFun (congrArg (fun x => x.2.1) (outs_B V c ⟨n + 1, h⟩ hB)) (ix2 u q)).trans ?_
    refine (pay4_apply (iblk8 V c 0 ⟨n + 1, h⟩) (iblk8 V c 1 ⟨n + 1, h⟩) (iblk8 V c 2 ⟨n + 1, h⟩) (iblk8 V c 3 ⟨n + 1, h⟩) (outsAt8 V c n (Nat.lt_of_succ_lt h)).2.1 u q).trans ?_
    show _ = sumAcc V c q (n + 1) + ∑ p ∈ Finset.range 5000, sumFn V c q (5000 * (n + 1) + p)
    exact congrArg₂ (· + ·) (sum_inv n (Nat.lt_of_succ_lt h) u q) (sum_tile V c ⟨n + 1, h⟩ q)

/-- After twenty tiles the running sum is the sum of h over all rows. -/
theorem sum_total (q : Fin 128) : sumAcc V c q 20 = ∑ r : Fin 100000, LayerFns.h1Fn (inX V c) (inA V c) (inW V c) (inB V c) r q := by
  rw [Cert.BlockSum.accumulate_blocks 5000 (sumFn V c q) (sumAcc V c q) rfl (fun k => rfl) 20, Finset.sum_range]
  refine Finset.sum_congr rfl fun r _ => ?_
  unfold sumFn
  rw [dif_pos r.isLt]

/-- The row of column sums of h, entry by entry. -/
def sumArr : S1x128.Idx → EReal := fun i => ∑ r : Fin 100000, LayerFns.h1Fn (inX V c) (inA V c) (inW V c) (inB V c) r (i 1)

/-- The one write-back, after the last point, writes the row of column sums of h. -/
theorem sum_flushed (t : Fin cfg8.N) (hf : (cfg8.win 5).flush t = true) :
    (dat8 V c).flushed 5 t = ((cfg8.win 5).blk t).view.read (Elt Ideal) (sumArr V c) := by
  have hN : cfg8.N = 20 := N_8
  have h19 : t.val = 19 := by have := (flush8_5 t).mp hf; have := lt20 t; omega
  show (cfg8.win 5).cut (grid8.coords t) ((dat8 V c).after 5 t) = _
  rw [after8_5]
  funext y
  obtain ⟨u, q, rfl⟩ : ∃ (u : Fin 1) (q : Fin 128), y = ix2 u q := ⟨y 0, y 1, eq_ix2 y⟩
  rw [View.read_apply]
  obtain ⟨-, -, -, -, -, -, -, -, -, e0, e1, -⟩ := idx_facts t
  have c1 : (((cfg8.win 5).blk t).view.emb (ix2 u q)) 1 = q :=
    Fin.ext (by show win8_5.index t (1 : Fin 2) * 128 + 1 * q.val = q.val; rw [e1]; omega)
  have key : ∀ i : S1x128.Idx, i 1 = q → sumArr V c i = ∑ r : Fin 100000, LayerFns.h1Fn (inX V c) (inA V c) (inW V c) (inB V c) r q := fun i hi => by
    unfold sumArr; rw [hi]
  have e20 : sumAcc V c q (t.val + 1) = sumAcc V c q 20 := by rw [h19]
  have k1 := key (((cfg8.win 5).blk t).view.emb (ix2 u q)) c1
  generalize sumArr V c (((cfg8.win 5).blk t).view.emb (ix2 u q)) = S at k1 ⊢
  show (outsAt8 V c t.val t.isLt).2.1 (ix2 u q) = S
  exact (sum_inv V c t.val t.isLt u q).trans (e20.trans ((sum_total V c q).trans k1.symm))

/-- The last point's tile is the whole row. -/
theorem sum_cover (i : S1x128.Idx) :
    ∃ t : Fin cfg8.N, (cfg8.win 5).flush t = true ∧ i ∈ ((cfg8.win 5).blk t).view.set := by
  have hi0 : (i 0).val < 1 := (i 0).isLt
  have hi1 : (i 1).val < 128 := (i 1).isLt
  have hN : cfg8.N = 20 := N_8
  let t : Fin cfg8.N := ⟨19, by rw [hN]; decide⟩
  obtain ⟨-, -, -, -, -, -, -, -, -, e0, e1, -⟩ := idx_facts t
  refine ⟨t, (flush8_5 t).mpr rfl, ?_⟩
  have he : ((cfg8.win 5).blk t).view.emb (ix2 (⟨(i 0).val, hi0⟩ : Fin 1) (⟨(i 1).val, hi1⟩ : Fin 128)) = i := by
    funext a
    apply Fin.ext
    match a with
    | ⟨0, _⟩ =>
      show win8_5.index t (0 : Fin 2) * 1 + 1 * (i 0).val = (i 0).val
      rw [e0]; omega
    | ⟨1, _⟩ =>
      show win8_5.index t (1 : Fin 2) * 128 + 1 * (i 1).val = (i 1).val
      rw [e1]; omega
  rw [← he]
  exact ((cfg8.win 5).blk t).view.emb_mem_set _

/-- The array of column sums of h after the grid. -/
theorem sum_arr : (dat8 V c).arrAt 5 cfg8.N = sumArr V c :=
  (dat8 V c).arrAt_eq_of_cover 5 (sumArr V c) (sum_flushed V c) (sum_cover)

/-- Lane k of the column sums of h after the grid. -/
theorem sum_arr_apply (k : Fin 128) :
    ((dat8 V c).arrAt 5 cfg8.N : S1x128.Idx → EReal) (ix2 0 k) = ∑ r : Fin 100000, LayerFns.h1Fn (inX V c) (inA V c) (inW V c) (inB V c) r k := by
  rw [sum_arr]; rfl

end Cert.KernelIdeal.Layer1V.R8

end
-- ==== Proof.Layer1V8SumSq.lean ====
/-
  The column sums of h·h after the first dense map's grid has run.

  The running row starts at zero at the first grid point and each point adds its tile's column sums of h·h.  After the
  twentieth point it holds, at lane k, the sum over all 100000 rows r of h(r, k)·h(r, k): a sum taken tile by tile is
  the sum over all rows, in any commutative additive monoid, so the extended reals need no finiteness here.  The row
  is written back once, after the last point, and is the whole 1 × 128 array.
-/
import proofs.«164329_j2903397892177_1_alg».proof.Proof.Layer1V8H1
import proofs.«164329_j2903397892177_1_alg».proof.Proof.LibBlockAccumulate
import Idealize.ShloMosaic.Lib.ValueIdx

noncomputable section

open Idealize.ShloMosaic Idealize.ShloMosaic.TcCoe Idealize.SL.Sem
open Idealize.ShloMosaic.Pipeline (Dat)

namespace Cert.KernelIdeal.Layer1V.R8

open Cert.KernelIdeal Cert.KernelIdeal.Gen Idealize.ShloMosaic.ValueIdx

variable (V : (c : Dev nD) → (b : Ref sig .tc) → Buf (Elt Ideal) ((c : Thread nD τ).loc b)) (c : Dev nD)

/-- h·h at row i and lane q, by the row's number; zero past the last row. -/
def sumsqFn (q : Fin 128) (i : ℕ) : EReal := if h : i < 100000 then LayerFns.h1Fn (inX V c) (inA V c) (inW V c) (inB V c) ⟨i, h⟩ q * LayerFns.h1Fn (inX V c) (inA V c) (inW V c) (inB V c) ⟨i, h⟩ q else 0

/-- The running sum of squares at lane q before point k: zero, then one tile's column sum of h·h more per point. -/
def sumsqAcc (q : Fin 128) : ℕ → EReal
  | 0 => 0
  | k + 1 => sumsqAcc q k + ∑ p ∈ Finset.range 5000, sumsqFn V c q (5000 * k + p)

/-- Point t's column sum of h·h at lane q is the sum of h·h over rows 5000·t … 5000·t + 4999. -/
theorem sumsq_tile (t : Fin cfg8.N) (q : Fin 128) :
    ∑ p : Fin 5000, k8_pay3 (iblk8 V c 0 t) (iblk8 V c 1 t) (iblk8 V c 2 t) (iblk8 V c 3 t) (ix2 p q) * k8_pay3 (iblk8 V c 0 t) (iblk8 V c 1 t) (iblk8 V c 2 t) (iblk8 V c 3 t) (ix2 p q) = ∑ p ∈ Finset.range 5000, sumsqFn V c q (5000 * t.val + p) := by
  rw [Finset.sum_range]
  refine Finset.sum_congr rfl fun p _ => ?_
  have ht := lt20 t
  have hr : 5000 * t.val + p.val < 100000 := by have := p.isLt; omega
  unfold sumsqFn
  rw [dif_pos hr, pay3_block V c t p q ⟨5000 * t.val + p.val, hr⟩ rfl]

/-- After point n the running row of squares holds, at lane q, the running sum of squares before point n + 1. -/
theorem sumsq_inv : ∀ (n : ℕ) (h : n < cfg8.N) (u : Fin 1) (q : Fin 128),
    (outsAt8 V c n h).2.2 (ix2 u q) = sumsqAcc V c q (n + 1)
  | 0, h, u, q => by
    refine (congrFun (congrArg (fun x => x.2.2) (outs_A V c ⟨0, h⟩ rfl)) (ix2 u q)).trans ?_
    refine (pay5_apply (iblk8 V c 0 ⟨0, h⟩) (iblk8 V c 1 ⟨0, h⟩) (iblk8 V c 2 ⟨0, h⟩) (iblk8 V c 3 ⟨0, h⟩) k8_pay2 u q).trans ?_
    show _ = (0 : EReal) + ∑ p ∈ Finset.range 5000, sumsqFn V c q (5000 * 0 + p)
    exact congrArg₂ (· + ·) (pay2_apply u q) (sumsq_tile V c ⟨0, h⟩ q)
  | n + 1, h, u, q => by
    have hN : cfg8.N = 20 := N_8
    have hB : ¬(⟨n + 1, h⟩ : Fin cfg8.N).val % 20 = 0 := by dsimp only; omega
    refine (congrFun (congrArg (fun x => x.2.2) (outs_B V c ⟨n + 1, h⟩ hB)) (ix2 u q)).trans ?_
    refine (pay5_apply (iblk8 V c 0 ⟨n + 1, h⟩) (iblk8 V c 1 ⟨n + 1, h⟩) (iblk8 V c 2 ⟨n + 1, h⟩) (iblk8 V c 3 ⟨n + 1, h⟩) (outsAt8 V c n (Nat.lt_of_succ_lt h)).2.2 u q).trans ?_
    show _ = sumsqAcc V c q (n + 1) + ∑ p ∈ Finset.range 5000, sumsqFn V c q (5000 * (n + 1) + p)
    exact congrArg₂ (· + ·) (sumsq_inv n (Nat.lt_of_succ_lt h) u q) (sumsq_tile V c ⟨n + 1, h⟩ q)

/-- After twenty tiles the running sum of squares is the sum of h·h over all rows. -/
theorem sumsq_total (q : Fin 128) : sumsqAcc V c q 20 = ∑ r : Fin 100000, LayerFns.h1Fn (inX V c) (inA V c) (inW V c) (inB V c) r q * LayerFns.h1Fn (inX V c) (inA V c) (inW V c) (inB V c) r q := by
  rw [Cert.BlockSum.accumulate_blocks 5000 (sumsqFn V c q) (sumsqAcc V c q) rfl (fun k => rfl) 20, Finset.sum_range]
  refine Finset.sum_congr rfl fun r _ => ?_
  unfold sumsqFn
  rw [dif_pos r.isLt]

/-- The row of column sums of h·h, entry by entry. -/
def sumsqArr : S1x128.Idx → EReal := fun i => ∑ r : Fin 100000, LayerFns.h1Fn (inX V c) (inA V c) (inW V c) (inB V c) r (i 1) * LayerFns.h1Fn (inX V c) (inA V c) (inW V c) (inB V c) r (i 1)

/-- The one write-back, after the last point, writes the row of column sums of h·h. -/
theorem sumsq_flushed (t : Fin cfg8.N) (hf : (cfg8.win 6).flush t = true) :
    (dat8 V c).flushed 6 t = ((cfg8.win 6).blk t).view.read (Elt Ideal) (sumsqArr V c) := by
  have hN : cfg8.N = 20 := N_8
  have h19 : t.val = 19 := by have := (flush8_6 t).mp hf; have := lt20 t; omega
  show (cfg8.win 6).cut (grid8.coords t) ((dat8 V c).after 6 t) = _
  rw [after8_6]
  funext y
  obtain ⟨u, q, rfl⟩ : ∃ (u : Fin 1) (q : Fin 128), y = ix2 u q := ⟨y 0, y 1, eq_ix2 y⟩
  rw [View.read_apply]
  obtain ⟨-, -, -, -, -, -, -, -, -, -, -, e0, e1⟩ := idx_facts t
  have c1 : (((cfg8.win 6).blk t).view.emb (ix2 u q)) 1 = q :=
    Fin.ext (by show win8_6.index t (1 : Fin 2) * 128 + 1 * q.val = q.val; rw [e1]; omega)
  have key : ∀ i : S1x128.Idx, i 1 = q → sumsqArr V c i = ∑ r : Fin 100000, LayerFns.h1Fn (inX V c) (inA V c) (inW V c) (inB V c) r q * LayerFns.h1Fn (inX V c) (inA V c) (inW V c) (inB V c) r q := fun i hi => by
    unfold sumsqArr; rw [hi]
  have e20 : sumsqAcc V c q (t.val + 1) = sumsqAcc V c q 20 := by rw [h19]
  have k1 := key (((cfg8.win 6).blk t).view.emb (ix2 u q)) c1
  generalize sumsqArr V c (((cfg8.win 6).blk t).view.emb (ix2 u q)) = S at k1 ⊢
  show (outsAt8 V c t.val t.isLt).2.2 (ix2 u q) = S
  exact (sumsq_inv V c t.val t.isLt u q).trans (e20.trans ((sumsq_total V c q).trans k1.symm))

/-- The last point's tile is the whole row. -/
theorem sumsq_cover (i : S1x128.Idx) :
    ∃ t : Fin cfg8.N, (cfg8.win 6).flush t = true ∧ i ∈ ((cfg8.win 6).blk t).view.set := by
  have hi0 : (i 0).val < 1 := (i 0).isLt
  have hi1 : (i 1).val < 128 := (i 1).isLt
  have hN : cfg8.N = 20 := N_8
  let t : Fin cfg8.N := ⟨19, by rw [hN]; decide⟩
  obtain ⟨-, -, -, -, -, -, -, -, -, -, -, e0, e1⟩ := idx_facts t
  refine ⟨t, (flush8_6 t).mpr rfl, ?_⟩
  have he : ((cfg8.win 6).blk t).view.emb (ix2 (⟨(i 0).val, hi0⟩ : Fin 1) (⟨(i 1).val, hi1⟩ : Fin 128)) = i := by
    funext a
    apply Fin.ext
    match a with
    | ⟨0, _⟩ =>
      show win8_6.index t (0 : Fin 2) * 1 + 1 * (i 0).val = (i 0).val
      rw [e0]; omega
    | ⟨1, _⟩ =>
      show win8_6.index t (1 : Fin 2) * 128 + 1 * (i 1).val = (i 1).val
      rw [e1]; omega
  rw [← he]
  exact ((cfg8.win 6).blk t).view.emb_mem_set _

/-- The array of column sums of h·h after the grid. -/
theorem sumsq_arr : (dat8 V c).arrAt 6 cfg8.N = sumsqArr V c :=
  (dat8 V c).arrAt_eq_of_cover 6 (sumsqArr V c) (sumsq_flushed V c) (sumsq_cover)

/-- Lane k of the column sums of h·h after the grid. -/
theorem sumsq_arr_apply (k : Fin 128) :
    ((dat8 V c).arrAt 6 cfg8.N : S1x128.Idx → EReal) (ix2 0 k) = ∑ r : Fin 100000, LayerFns.h1Fn (inX V c) (inA V c) (inW V c) (inB V c) r k * LayerFns.h1Fn (inX V c) (inA V c) (inW V c) (inB V c) r k := by
  rw [sumsq_arr]; rfl

end Cert.KernelIdeal.Layer1V.R8

end
-- ==== Proof.Layer2V9Payload.lean ====
/-
  The second half of a layer, on one tile of 5000 rows: what the body stores, entry by entry.

  The body reads the tile h of the hidden rows, the column means m and variances v (each a 1 × 128 row), the scale γ,
  the shift β, the weight matrix W and the bias b. It normalises each entry, γ·(h − m)·rsqrt(v + ε) + β, takes the
  maximum with 0, multiplies the 5000 × 128 result by W on the matrix unit into a zero accumulator, adds b and takes
  the maximum with 0 again. Every step but the product is entrywise, and the row statistics, scale, shift and bias
  reach the tile by being repeated over its rows; so the stored entry at row p, column q depends on row p of the tile
  only: it is max(∑ j, max(γ j·(h p j − m j)·rsqrt(v j + ε) + β j, 0)·W j q + b q, 0).
-/
import proofs.«164329_j2903397892177_1_alg».proof.Proof.Gen.KernelIdeal.Skeleton
import proofs.«164329_j2903397892177_1_alg».proof.Proof.LayerFns
import proofs.«164329_j2903397892177_1_alg».proof.Proof.LibMatmulEntry
import proofs.«164329_j2903397892177_1_alg».proof.Proof.LibRowOfVector
import Idealize.ShloMosaic.Lib.ValueIdx

noncomputable section

namespace Cert.KernelIdeal.Layer2V

open Cert.KernelIdeal Cert.KernelIdeal.Gen Idealize.ShloMosaic Idealize.ShloMosaic.ValueIdx

/-- The stored entry at row p, column q of the tile: the normalised, scaled and shifted row p, cut at 0, times column
    q of the weights, plus the bias at q, cut at 0. The format changes in front of the product are the identity on
    the extended reals, and the product into zeros is the plain sum over the 128 contracted positions. -/
theorem k9_pay1_apply (vr : FVec Ideal S1x128 .f32) (g : FVec Ideal S128 .f32) (h : FVec Ideal S5000x128 .f32)
    (mn : FVec Ideal S1x128 .f32) (bt : FVec Ideal S128 .f32) (w : FVec Ideal S128x128 .f32) (b2 : FVec Ideal S128 .f32)
    (p : Fin 5000) (q : Fin 128) :
    k9_pay1 (F := Ideal) vr g h mn bt w b2 (ix2 p q)
      = max ((∑ j : Fin 128,
            max (g (ix1 j) * (h (ix2 p j) - mn (ix2 (0 : Fin 1) j)) * Ideal.rsqrt (vr (ix2 (0 : Fin 1) j) + LayerFns.eps)
              + bt (ix1 j)) 0 * w (ix2 j q)) + b2 (ix1 q)) 0 := by
  unfold k9_pay1
  refine (maximumf_apply _ _ (ix2 p q)).trans ?_
  refine congrArg₂ max ?_ Ideal.ofBits_zero_f32
  refine (addf_apply _ _ (ix2 p q)).trans ?_
  refine congrArg₂ (· + ·) ?_ (RowOfVector.vecSelfRow_apply b2 _ _ _ p q)
  refine (PlainMatmul.matmul_zero_apply Facts₀.dot_S5000x128_S128x128_S5000x128_1_0_0_1_n_n_wf none _ _ p q).trans ?_
  refine Finset.sum_congr rfl fun j _ => ?_
  refine congrArg₂ (· * ·) ?_ (congrFun (shapeCast_self w _) (ix2 j q))
  refine congrArg₂ max ?_ Ideal.ofBits_zero_f32
  refine congrArg₂ (· + ·) ?_ (RowOfVector.vecSelfRow_apply bt _ _ _ p j)
  refine congrArg₂ (· * ·)
    (congrArg₂ (· * ·) (RowOfVector.vecSelfRow_apply g _ _ _ p j)
      (congrArg₂ (· - ·) (congrFun (shapeCast_self h _) (ix2 p j)) (RowOfVector.rowSelfRow_apply mn _ _ p j))) ?_
  refine (broadcastTo_1b_ab_apply _ _ p j).trans ?_
  exact congrArg (fun t => Ideal.rsqrt (t + LayerFns.eps)) (congrFun (shapeCast_self vr _) (ix2 (0 : Fin 1) j))

end Cert.KernelIdeal.Layer2V

end
-- ==== Proof.Layer2V9Blocks.lean ====
/-
  The second half of a layer, over the whole array: from the tiles to the 100000 × 128 result.

  The region runs the body at 20 grid points. At point t the tile of hidden rows is rows 5000·t … 5000·t + 4999 of
  the array it reads, the six small operands (column means and variances, scale, shift, weights, bias) are whole
  arrays at every point, and the tile written back is rows 5000·t … 5000·t + 4999 of the result. The body's entry at
  row p of the tile depends on row p of its tile only, so what point t writes back is rows 5000·t … of ONE function of
  the arrays, the layer's second half entry by entry; the 20 tiles cover all 100000 rows (row r lies in tile
  r / 5000), so that function is the whole result.
-/
import proofs.«164329_j2903397892177_1_alg».proof.Proof.Gen.KernelIdeal.Frame
import proofs.«164329_j2903397892177_1_alg».proof.Proof.Layer2V9Payload
import Idealize.ShloMosaic.Lib.Pipeline.Value

set_option maxRecDepth 16384

noncomputable section

namespace Cert.KernelIdeal.Layer2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The region's result as one function of the arrays it reads, entry by entry: the layer's second half at row
    `i 0` and column `i 1`, of the hidden rows (window 0), the column means and variances (windows 1 and 2, each one
    row), the scale and the shift (windows 3 and 4), the weights (window 5) and the bias (window 6). -/
def result9 : S100000x128.Idx → EReal := fun i =>
  LayerFns.layer2Fn
    (fun r j => (V c (Pipeline.arrRef spec9 0) : S100000x128.Idx → EReal) (ix2 r j))
    (fun j => (V c (Pipeline.arrRef spec9 1) : S1x128.Idx → EReal) (ix2 (0 : Fin 1) j))
    (fun j => (V c (Pipeline.arrRef spec9 2) : S1x128.Idx → EReal) (ix2 (0 : Fin 1) j))
    (fun j => (V c (Pipeline.arrRef spec9 3) : S128.Idx → EReal) (ix1 j))
    (fun j => (V c (Pipeline.arrRef spec9 4) : S128.Idx → EReal) (ix1 j))
    (fun j k => (V c (Pipeline.arrRef spec9 5) : S128x128.Idx → EReal) (ix2 j k))
    (fun k => (V c (Pipeline.arrRef spec9 6) : S128.Idx → EReal) (ix1 k))
    ⟨(i 0).val, idx2_lt0 i⟩ ⟨(i 1).val, idx2_lt1 i⟩

/-- The zero offsets of a whole rank-2 buffer, as a constant function. -/
private theorem zeroPair : (![0, 0] : Fin 2 → Nat) = fun _ => 0 := funext fun a => by fin_cases a <;> rfl
/-- The zero offset of a whole rank-1 buffer, as a constant function. -/
private theorem zeroSingle : (![0] : Fin 1 → Nat) = fun _ => 0 := funext fun a => by fin_cases a <;> rfl

/-- The index maps over the grid: the tile read and the tile written move with the point along the rows, and the six
    small operands stay at block 0. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 1) = 0
    ∧ win9_4.index t (0 : Fin 1) = 0
    ∧ win9_5.index t (0 : Fin 2) = 0 ∧ win9_5.index t (1 : Fin 2) = 0
    ∧ win9_6.index t (0 : Fin 1) = 0
    ∧ win9_7.index t (0 : Fin 2) = t.val ∧ win9_7.index t (1 : Fin 2) = 0 :=
  (by decide +kernel : ∀ t : Fin grid9.N, _)

/-! ## The blocks the body reads, as entries of the arrays -/

/-- Row p of the tile read at point t is row 5000·t + p of the array of hidden rows. -/
theorem read9_0 (t : Fin cfg9.N) (p : Fin 5000) (j : Fin 128) (r : Fin 100000) (hr : r.val = 5000 * t.val + p.val) :
    iblk9 V c 0 t (ix2 p j) = V c (Pipeline.arrRef spec9 0) (ix2 r j) := by
  obtain ⟨e0, e1, -⟩ := idx_facts9 t
  show V c (Pipeline.arrRef spec9 0) (((cfg9.win 0).blk t).view.emb (ix2 p j)) = _
  refine congrArg _ (funext fun a => Fin.ext ?_)
  match a with
  | ⟨0, _⟩ => show win9_0.index t (0 : Fin 2) * 5000 + 1 * p.val = r.val; rw [e0, hr]; omega
  | ⟨1, _⟩ => show win9_0.index t (1 : Fin 2) * 128 + 1 * j.val = j.val; rw [e1]; omega

/-- The row of column means is read whole at every point. -/
theorem read9_1 (t : Fin cfg9.N) (j : Fin 128) :
    iblk9 V c 1 t (ix2 (0 : Fin 1) j) = V c (Pipeline.arrRef spec9 1) (ix2 (0 : Fin 1) j) := by
  obtain ⟨-, -, e0, e1, -⟩ := idx_facts9 t
  show V c (Pipeline.arrRef spec9 1) (((cfg9.win 1).blk t).view.emb (ix2 (0 : Fin 1) j)) = _
  refine congrArg _ (funext fun a => Fin.ext ?_)
  match a with
  | ⟨0, _⟩ => show win9_1.index t (0 : Fin 2) * 1 + 1 * 0 = 0; rw [e0]
  | ⟨1, _⟩ => show win9_1.index t (1 : Fin 2) * 128 + 1 * j.val = j.val; rw [e1]; omega

/-- The row of column variances is read whole at every point. -/
theorem read9_2 (t : Fin cfg9.N) (j : Fin 128) :
    iblk9 V c 2 t (ix2 (0 : Fin 1) j) = V c (Pipeline.arrRef spec9 2) (ix2 (0 : Fin 1) j) := by
  obtain ⟨-, -, -, -, e0, e1, -⟩ := idx_facts9 t
  show V c (Pipeline.arrRef spec9 2) (((cfg9.win 2).blk t).view.emb (ix2 (0 : Fin 1) j)) = _
  refine congrArg _ (funext fun a => Fin.ext ?_)
  match a with
  | ⟨0, _⟩ => show win9_2.index t (0 : Fin 2) * 1 + 1 * 0 = 0; rw [e0]
  | ⟨1, _⟩ => show win9_2.index t (1 : Fin 2) * 128 + 1 * j.val = j.val; rw [e1]; omega

/-- The scale is read whole at every point. -/
theorem read9_3 (t : Fin cfg9.N) (j : Fin 128) :
    iblk9 V c 3 t (ix1 j) = V c (Pipeline.arrRef spec9 3) (ix1 j) := by
  obtain ⟨-, -, -, -, -, -, e0, -⟩ := idx_facts9 t
  show V c (Pipeline.arrRef spec9 3) (((cfg9.win 3).blk t).view.emb (ix1 j)) = _
  refine congrArg _ (funext fun a => Fin.ext ?_)
  match a with
  | ⟨0, _⟩ => show win9_3.index t (0 : Fin 1) * 128 + 1 * j.val = j.val; rw [e0]; omega

/-- The shift is read whole at every point. -/
theorem read9_4 (t : Fin cfg9.N) (j : Fin 128) :
    iblk9 V c 4 t (ix1 j) = V c (Pipeline.arrRef spec9 4) (ix1 j) := by
  obtain ⟨-, -, -, -, -, -, -, e0, -⟩ := idx_facts9 t
  show V c (Pipeline.arrRef spec9 4) (((cfg9.win 4).blk t).view.emb (ix1 j)) = _
  refine congrArg _ (funext fun a => Fin.ext ?_)
  match a with
  | ⟨0, _⟩ => show win9_4.index t (0 : Fin 1) * 128 + 1 * j.val = j.val; rw [e0]; omega

/-- The weights are read whole at every point. -/
theorem read9_5 (t : Fin cfg9.N) (j k : Fin 128) :
    iblk9 V c 5 t (ix2 j k) = V c (Pipeline.arrRef spec9 5) (ix2 j k) := by
  obtain ⟨-, -, -, -, -, -, -, -, e0, e1, -⟩ := idx_facts9 t
  show V c (Pipeline.arrRef spec9 5) (((cfg9.win 5).blk t).view.emb (ix2 j k)) = _
  refine congrArg _ (funext fun a => Fin.ext ?_)
  match a with
  | ⟨0, _⟩ => show win9_5.index t (0 : Fin 2) * 128 + 1 * j.val = j.val; rw [e0]; omega
  | ⟨1, _⟩ => show win9_5.index t (1 : Fin 2) * 128 + 1 * k.val = k.val; rw [e1]; omega

/-- The bias is read whole at every point. -/
theorem read9_6 (t : Fin cfg9.N) (k : Fin 128) :
    iblk9 V c 6 t (ix1 k) = V c (Pipeline.arrRef spec9 6) (ix1 k) := by
  obtain ⟨-, -, -, -, -, -, -, -, -, -, e0, -⟩ := idx_facts9 t
  show V c (Pipeline.arrRef spec9 6) (((cfg9.win 6).blk t).view.emb (ix1 k)) = _
  refine congrArg _ (funext fun a => Fin.ext ?_)
  match a with
  | ⟨0, _⟩ => show win9_6.index t (0 : Fin 1) * 128 + 1 * k.val = k.val; rw [e0]; omega

/-- Row p of the tile written at point t is row 5000·t + p of the result. -/
theorem emb9_7 (t : Fin cfg9.N) (p : Fin 5000) (q : Fin 128) (r : Fin 100000) (hr : r.val = 5000 * t.val + p.val) :
    ((cfg9.win 7).blk t).view.emb (ix2 p q) = ix2 r q := by
  obtain ⟨-, -, -, -, -, -, -, -, -, -, -, e0, e1⟩ := idx_facts9 t
  refine funext fun a => Fin.ext ?_
  match a with
  | ⟨0, _⟩ => show win9_7.index t (0 : Fin 2) * 5000 + 1 * p.val = r.val; rw [e0, hr]; omega
  | ⟨1, _⟩ => show win9_7.index t (1 : Fin 2) * 128 + 1 * q.val = q.val; rw [e1]; omega

/-! ## What a point writes back -/

/-- What point t writes back is rows 5000·t … 5000·t + 4999 of `result9`: the body's entry at row p of its tile is
    the layer's second half of row p of the tile read, which is row 5000·t + p of the array. -/
theorem flushed9_7_eq (t : Fin cfg9.N) :
    (dat9 V c).flushed 7 t = ((cfg9.win 7).blk t).view.read (Elt Ideal) (result9 V c) := by
  show (cfg9.win 7).cut (grid9.coords t) ((dat9 V c).after 7 t) = _
  rw [after9_7]
  unfold out9_7
  rw [View.canon_unit_zero zeroPair]
  simp only [View.ld_unit_zero (S := S5000x128) zeroPair, View.ld_unit_zero (S := S1x128) zeroPair,
    View.ld_unit_zero (S := S128x128) zeroPair, View.ld_unit_zero (S := S128) zeroSingle]
  funext y
  obtain ⟨p, q, rfl⟩ : ∃ (p : Fin 5000) (q : Fin 128), y = ix2 p q := ⟨y 0, y 1, eq_ix2 (n0 := 5000) (n1 := 128) y⟩
  have hN : cfg9.N = 20 := N_9
  have htl : t.val < 20 := hN ▸ t.isLt
  obtain ⟨r, hr⟩ : ∃ r : Fin 100000, r.val = 5000 * t.val + p.val := ⟨⟨5000 * t.val + p.val, by have := p.isLt; omega⟩, rfl⟩
  show k9_pay1 (F := Ideal) (iblk9 V c 2 t) (iblk9 V c 3 t) (iblk9 V c 0 t) (iblk9 V c 1 t) (iblk9 V c 4 t) (iblk9 V c 5 t) (iblk9 V c 6 t) (ix2 p q)
      = result9 V c (((cfg9.win 7).blk t).view.emb (ix2 p q))
  refine (k9_pay1_apply (iblk9 V c 2 t) (iblk9 V c 3 t) (iblk9 V c 0 t) (iblk9 V c 1 t) (iblk9 V c 4 t) (iblk9 V c 5 t) (iblk9 V c 6 t) p q).trans ?_
  refine Eq.trans ?_ (congrArg (result9 V c) (emb9_7 t p q r hr)).symm
  show _ = LayerFns.layer2Fn _ _ _ _ _ _ _ r q
  unfold LayerFns.layer2Fn LayerFns.normFn
  refine congrArg₂ max (congrArg₂ (· + ·) (Finset.sum_congr rfl fun j _ => ?_) (read9_6 V c t q)) rfl
  refine congrArg₂ (· * ·) (congrArg₂ max (congrArg₂ (· + ·) (congrArg₂ (· * ·) (congrArg₂ (· * ·) (read9_3 V c t j)
    (congrArg₂ (· - ·) (read9_0 V c t p j r hr) (read9_1 V c t j)))
    (congrArg (fun x => Ideal.rsqrt (x + LayerFns.eps)) (read9_2 V c t j))) (read9_4 V c t j)) rfl) (read9_5 V c t j q)

/-! ## The 20 tiles cover the result -/

/-- An index of the result is in point t's tile iff each coordinate is in the tile's range on its axis. -/
theorem mem_blk9_7 (t : Fin cfg9.N) (i : S100000x128.Idx) :
    i ∈ ((cfg9.win 7).blk t).view.set ↔ ∀ a : Fin 2, win9_7.index t a * S5000x128.size a ≤ (i a).val
      ∧ (i a).val < win9_7.index t a * S5000x128.size a + S5000x128.size a := by
  show i ∈ ((View.whole (Pipeline.arrRef spec9 7)).slice (win9_7.rect t)).set ↔ _
  rw [View.set_slice_whole, Rect.mem_set_unit]
  exact Iff.rfl

/-- Row r of the result lies in the tile of point r / 5000, and every point writes its tile back. -/
theorem cover9_7_arr (i : S100000x128.Idx) :
    ∃ t : Fin cfg9.N, (cfg9.win 7).flush t = true ∧ i ∈ ((cfg9.win 7).blk t).view.set := by
  have hN : cfg9.N = 20 := N_9
  have hi0 : (i 0).val < 100000 := idx2_lt0 i
  have hi1 : (i 1).val < 128 := idx2_lt1 i
  obtain ⟨t, ht⟩ : ∃ t : Fin cfg9.N, t.val = (i 0).val / 5000 := ⟨⟨(i 0).val / 5000, by rw [hN]; omega⟩, rfl⟩
  obtain ⟨-, -, -, -, -, -, -, -, -, -, -, e0, e1⟩ := idx_facts9 t
  refine ⟨t, flush9_7 t, ?_⟩
  rw [mem_blk9_7]
  intro a
  match a with
  | ⟨0, _⟩ =>
    show win9_7.index t (0 : Fin 2) * 5000 ≤ (i 0).val ∧ (i 0).val < win9_7.index t (0 : Fin 2) * 5000 + 5000
    rw [e0]; omega
  | ⟨1, _⟩ =>
    show win9_7.index t (1 : Fin 2) * 128 ≤ (i 1).val ∧ (i 1).val < win9_7.index t (1 : Fin 2) * 128 + 128
    rw [e1]; omega

/-! ## The result -/

/-- THE ARRAY the region leaves in its result window is `result9` of the arrays it reads. -/
theorem arr9_7_eq : (dat9 V c).arrAt 7 cfg9.N = result9 V c :=
  (dat9 V c).arrAt_eq_of_cover 7 (result9 V c) (fun t _ => flushed9_7_eq V c t) (cover9_7_arr)

/-- Entry by entry: row r, column k of the result is the layer's second half of row r of the hidden rows. -/
theorem arr9_7_apply (r : Fin 100000) (k : Fin 128) :
    (dat9 V c).arrAt 7 cfg9.N (ix2 r k)
      = LayerFns.layer2Fn
          (fun r j => (V c (Pipeline.arrRef spec9 0) : S100000x128.Idx → EReal) (ix2 r j))
          (fun j => (V c (Pipeline.arrRef spec9 1) : S1x128.Idx → EReal) (ix2 (0 : Fin 1) j))
          (fun j => (V c (Pipeline.arrRef spec9 2) : S1x128.Idx → EReal) (ix2 (0 : Fin 1) j))
          (fun j => (V c (Pipeline.arrRef spec9 3) : S128.Idx → EReal) (ix1 j))
          (fun j => (V c (Pipeline.arrRef spec9 4) : S128.Idx → EReal) (ix1 j))
          (fun j k => (V c (Pipeline.arrRef spec9 5) : S128x128.Idx → EReal) (ix2 j k))
          (fun k => (V c (Pipeline.arrRef spec9 6) : S128.Idx → EReal) (ix1 k)) r k :=
  congrFun (arr9_7_eq V c) (ix2 r k)

end Cert.KernelIdeal.Layer2V

end
-- ==== Proof.KernelLayer4.lean ====
/-
  Layer 4 of the network as the kernel's regions 8 and 9 compute it is the reference's layer 4.

  Region 8 finds the node features, their neighbour sums and the layer's first weights and bias, and leaves the hidden
  rows H = (x + a)·W1 + b1 and the column sums of H and of H·H.  Between the regions the host takes the column mean and
  the column variance from those sums.  Region 9 finds H, the mean, the variance and the layer's scale, shift, second
  weights and bias, and leaves max(max(γ·(H − mean)·rsqrt(var + ε) + β, 0)·W2 + b2, 0).  With real features and real
  weights this is, entry by entry, the reference's layer of the same arrays, and it is real again.
-/
import proofs.«164329_j2903397892177_1_alg».proof.Proof.KernelRunVS8
import proofs.«164329_j2903397892177_1_alg».proof.Proof.KernelRunVS9
import proofs.«164329_j2903397892177_1_alg».proof.Proof.Layer1V8Sum
import proofs.«164329_j2903397892177_1_alg».proof.Proof.Layer1V8SumSq
import proofs.«164329_j2903397892177_1_alg».proof.Proof.Layer2V9Blocks
import proofs.«164329_j2903397892177_1_alg».proof.Proof.NeighbourReal
import proofs.«164329_j2903397892177_1_alg».proof.Proof.KernelLayerStats
import proofs.«164329_j2903397892177_1_alg».proof.Proof.KernelLayerHost

set_option maxRecDepth 16384

noncomputable section

namespace Cert.KernelIdeal.LayerV

open Idealize.ShloMosaic Idealize.ShloMosaic.TcCoe Idealize.ShloMosaic.ValueIdx Idealize.SL.Sem
open Idealize.ShloMosaic.Pipeline (Dat)
open Cert.KernelIdeal Cert.KernelIdeal.Gen LayerFns LayerBridge Cert.ReferenceIdeal.RefSpec

variable [Cert.ReferenceIdeal.Facts]

set_option maxHeartbeats 8000000 in
/-- Regions 8 and 9 over any contents: if region 8 finds real features `x`, their neighbour sum and the real weights
    `W1`, `b1`, and region 9 finds region 8's hidden rows, the host's mean and variance of its column sums, and the real
    `g`, `be`, `W2`, `b2`, then region 9 leaves the reference's layer of those arrays, a real array. -/
theorem layer4_regions (Va Vb : (c : Dev nD) → (b : Ref sig .tc) → Buf (Elt Ideal) ((c : Thread nD τ).loc b)) (c : Dev nD)
    (x : FA Cert.ReferenceIdeal.S100000x128) (src dst : IA Cert.ReferenceIdeal.S1600000) (W1 : FA Cert.ReferenceIdeal.S128x128) (b1 g be : FA Cert.ReferenceIdeal.S128)
    (W2 : FA Cert.ReferenceIdeal.S128x128) (b2 : FA Cert.ReferenceIdeal.S128)
    (hx : AllReal x) (hW1 : AllReal W1) (hb1 : AllReal b1) (hg : AllReal g) (hbe : AllReal be) (hW2 : AllReal W2)
    (hb2 : AllReal b2)
    (sx : (Va c (Pipeline.arrRef spec8 0) : S100000x128.Idx → EReal) = x)
    (sa : (Va c (Pipeline.arrRef spec8 1) : S100000x128.Idx → EReal) = neighbourSum x src dst)
    (sw : (Va c (Pipeline.arrRef spec8 2) : S128x128.Idx → EReal) = W1)
    (sb : (Va c (Pipeline.arrRef spec8 3) : S128.Idx → EReal) = b1)
    (sh : (Vb c (Pipeline.arrRef spec9 0) : S100000x128.Idx → EReal) = (dat8 Va c).arrAt 4 cfg8.N)
    (sm : (Vb c (Pipeline.arrRef spec9 1) : S1x128.Idx → EReal) = RunV.meanOf ((dat8 Va c).arrAt 5 cfg8.N))
    (sv : (Vb c (Pipeline.arrRef spec9 2) : S1x128.Idx → EReal) = RunV.varOf ((dat8 Va c).arrAt 5 cfg8.N) ((dat8 Va c).arrAt 6 cfg8.N))
    (sg : (Vb c (Pipeline.arrRef spec9 3) : S128.Idx → EReal) = g)
    (sbe : (Vb c (Pipeline.arrRef spec9 4) : S128.Idx → EReal) = be)
    (sw2 : (Vb c (Pipeline.arrRef spec9 5) : S128x128.Idx → EReal) = W2)
    (sb2 : (Vb c (Pipeline.arrRef spec9 6) : S128.Idx → EReal) = b2) :
    ((dat9 Vb c).arrAt 7 cfg9.N : S100000x128.Idx → EReal) = refLayer x src dst W1 b1 g be W2 b2
      ∧ AllReal (refLayer x src dst W1 b1 g be W2 b2) := by
  -- what region 8 found, by row and column
  have eX : Layer1V.R8.inX Va c = fun r j => x (ix2 r j) := funext fun r => funext fun j => congrFun sx (ix2 r j)
  have eA : Layer1V.R8.inA Va c = fun r j => neighbourSum x src dst (ix2 r j) :=
    funext fun r => funext fun j => congrFun sa (ix2 r j)
  have eW : Layer1V.R8.inW Va c = fun j k => W1 (ix2 j k) := funext fun j => funext fun k => congrFun sw (ix2 j k)
  have eB : Layer1V.R8.inB Va c = fun k => b1 (ix1 k) := funext fun k => congrFun sb (ix1 k)
  -- the hidden rows, the mean and the variance region 9 finds, in terms of region 8's inputs
  have hHk : ∀ r j, (Vb c (Pipeline.arrRef spec9 0) : S100000x128.Idx → EReal) (ix2 r j) = h1Fn (Layer1V.R8.inX Va c) (Layer1V.R8.inA Va c) (Layer1V.R8.inW Va c) (Layer1V.R8.inB Va c) r j :=
    fun r j => (congrFun sh (ix2 r j)).trans (Layer1V.R8.arr_h_apply Va c r j)
  have hMk : ∀ j, (Vb c (Pipeline.arrRef spec9 1) : S1x128.Idx → EReal) (ix2 (0 : Fin 1) j)
      = Ideal.div (∑ r, h1Fn (Layer1V.R8.inX Va c) (Layer1V.R8.inA Va c) (Layer1V.R8.inW Va c) (Layer1V.R8.inB Va c) r j) ((100000 : ℝ) : EReal) := fun j => by
    rw [sm, meanOf_apply, Layer1V.R8.sum_arr_apply Va c j]
  have hVk : ∀ j, (Vb c (Pipeline.arrRef spec9 2) : S1x128.Idx → EReal) (ix2 (0 : Fin 1) j)
      = Ideal.div (∑ r, h1Fn (Layer1V.R8.inX Va c) (Layer1V.R8.inA Va c) (Layer1V.R8.inW Va c) (Layer1V.R8.inB Va c) r j * h1Fn (Layer1V.R8.inX Va c) (Layer1V.R8.inA Va c) (Layer1V.R8.inW Va c) (Layer1V.R8.inB Va c) r j) ((100000 : ℝ) : EReal)
        - Ideal.div (∑ r, h1Fn (Layer1V.R8.inX Va c) (Layer1V.R8.inA Va c) (Layer1V.R8.inW Va c) (Layer1V.R8.inB Va c) r j) ((100000 : ℝ) : EReal) * Ideal.div (∑ r, h1Fn (Layer1V.R8.inX Va c) (Layer1V.R8.inA Va c) (Layer1V.R8.inW Va c) (Layer1V.R8.inB Va c) r j) ((100000 : ℝ) : EReal) := fun j => by
    rw [sv, varOf_apply, Layer1V.R8.sumsq_arr_apply Va c j, Layer1V.R8.sum_arr_apply Va c j]
  have key : ∀ (r : Fin 100000) (k : Fin 128),
      ((dat9 Vb c).arrAt 7 cfg9.N : S100000x128.Idx → EReal) (ix2 r k) = refLayer x src dst W1 b1 g be W2 b2 (ix2 r k)
        ∧ ∃ y : ℝ, refLayer x src dst W1 b1 g be W2 b2 (ix2 r k) = (y : EReal) := fun r k => by
    have hcore := layer_core x src dst W1 b1 g be W2 b2 (fun r j => hx (ix2 r j))
      (fun r j => neighbourSum_real x hx src dst r j) (fun j k => hW1 (ix2 j k)) (fun k => hb1 (ix1 k))
      (fun j => hg (ix1 j)) (fun j => hbe (ix1 j)) (fun j k => hW2 (ix2 j k)) (fun k => hb2 (ix1 k))
      (fun r j => (Vb c (Pipeline.arrRef spec9 0) : S100000x128.Idx → EReal) (ix2 r j))
      (fun j => (Vb c (Pipeline.arrRef spec9 1) : S1x128.Idx → EReal) (ix2 (0 : Fin 1) j))
      (fun j => (Vb c (Pipeline.arrRef spec9 2) : S1x128.Idx → EReal) (ix2 (0 : Fin 1) j))
      (fun j => (Vb c (Pipeline.arrRef spec9 3) : S128.Idx → EReal) (ix1 j))
      (fun j => (Vb c (Pipeline.arrRef spec9 4) : S128.Idx → EReal) (ix1 j))
      (fun j k => (Vb c (Pipeline.arrRef spec9 5) : S128x128.Idx → EReal) (ix2 j k))
      (fun k => (Vb c (Pipeline.arrRef spec9 6) : S128.Idx → EReal) (ix1 k))
      (fun r j => by dsimp only; rw [hHk r j, eX, eA, eW, eB])
      (fun j => by dsimp only; rw [hMk j]; simp only [hHk])
      (fun j => by dsimp only; rw [hVk j, hMk j]; simp only [hHk])
      (fun j => congrFun sg (ix1 j)) (fun j => congrFun sbe (ix1 j)) (fun j k => congrFun sw2 (ix2 j k))
      (fun k => congrFun sb2 (ix1 k)) r k
    exact ⟨(Layer2V.arr9_7_apply Vb c r k).trans hcore.1, hcore.2⟩
  refine ⟨funext fun i => ?_, fun i => ?_⟩
  · obtain ⟨r, k, rfl⟩ : ∃ (r : Fin 100000) (k : Fin 128), i = ix2 r k := ⟨i 0, i 1, eq_ix2 i⟩
    exact (key r k).1
  · obtain ⟨r, k, rfl⟩ : ∃ (r : Fin 100000) (k : Fin 128), i = ix2 r k := ⟨i 0, i 1, eq_ix2 i⟩
    exact (key r k).2

set_option maxHeartbeats 8000000 in
/-- Layer 4 on the launched weights: if the features entering the layer — what region 7 left — are a real array `X`,
    then with real weights region 9 leaves the reference's layer 4 of `X`, the launched edge table and stacked weights,
    a real array. -/
theorem layer4_out (m : (ℓ : Loc nD τ sig) → Buf (Elt Ideal) ℓ) (ρ : Dev nD → PrngReg) (c : Dev nD)
    (X : FA Cert.ReferenceIdeal.S100000x128)
    (hX : ((dat7 (V15 m ρ) c).arrAt 7 cfg7.N : S100000x128.Idx → EReal) = X) (hXr : AllReal X)
    (h3 : AllReal (s := Cert.ReferenceIdeal.S5x128x128) (m ((c : Thread nD τ).loc main_arg3))) (h4 : AllReal (s := Cert.ReferenceIdeal.S5x128) (m ((c : Thread nD τ).loc main_arg4)))
    (h5 : AllReal (s := Cert.ReferenceIdeal.S5x128) (m ((c : Thread nD τ).loc main_arg5))) (h6 : AllReal (s := Cert.ReferenceIdeal.S5x128) (m ((c : Thread nD τ).loc main_arg6)))
    (h7 : AllReal (s := Cert.ReferenceIdeal.S5x128x128) (m ((c : Thread nD τ).loc main_arg7))) (h8 : AllReal (s := Cert.ReferenceIdeal.S5x128) (m ((c : Thread nD τ).loc main_arg8))) :
    ((dat9 (V19 m ρ) c).arrAt 7 cfg9.N : S100000x128.Idx → EReal)
        = layerAt 4 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) X
      ∧ AllReal (s := Cert.ReferenceIdeal.S100000x128) ((dat9 (V19 m ρ) c).arrAt 7 cfg9.N) := by
  have h := layer4_regions (V17 m ρ) (V19 m ρ) c X (edgeRow 0 (m ((c : Thread nD τ).loc main_arg1))) (edgeRow 1 (m ((c : Thread nD τ).loc main_arg1)))
    (mat 4 (m ((c : Thread nD τ).loc main_arg3))) (vec 4 (m ((c : Thread nD τ).loc main_arg4))) (vec 4 (m ((c : Thread nD τ).loc main_arg5))) (vec 4 (m ((c : Thread nD τ).loc main_arg6))) (mat 4 (m ((c : Thread nD τ).loc main_arg7))) (vec 4 (m ((c : Thread nD τ).loc main_arg8)))
    hXr (fun i => mat_real 4 _ h3 i) (fun i => vec_real 4 _ h4 i) (fun i => vec_real 4 _ h5 i)
    (fun i => vec_real 4 _ h6 i) (fun i => mat_real 4 _ h7 i) (fun i => vec_real 4 _ h8 i)
    ((RunV.s8_x m ρ c).trans hX)
    ((RunV.s8_agg m ρ c).trans (by rw [hX]; exact nbrSum_eq _ _))
    ((RunV.s8_w m ρ c).trans (layerMat_eq4 _ _))
    ((RunV.s8_b m ρ c).trans (layerVec_eq4 _ _))
    (RunV.s9_h m ρ c) (RunV.s9_mean m ρ c) (RunV.s9_var m ρ c)
    ((RunV.s9_gamma m ρ c).trans (layerVec_eq4 _ _))
    ((RunV.s9_beta m ρ c).trans (layerVec_eq4 _ _))
    ((RunV.s9_w2 m ρ c).trans (layerMat_eq4 _ _))
    ((RunV.s9_b2 m ρ c).trans (layerVec_eq4 _ _))
  exact ⟨h.1, h.1 ▸ h.2⟩

end Cert.KernelIdeal.LayerV

end
-- ==== Proof.KernelLayers.lean ====
/-
  The five layers in a row, as the kernel's ten layer regions compute them.

  Each layer turns a real feature array into the reference's layer of it, again real, when the weights are real; the
  features entering layer l + 1 are what layer l left.  So what region 9 leaves is the reference's five layers composed,
  applied to the launched features, and it is real.
-/
import proofs.«164329_j2903397892177_1_alg».proof.Proof.KernelLayer0
import proofs.«164329_j2903397892177_1_alg».proof.Proof.KernelLayer1
import proofs.«164329_j2903397892177_1_alg».proof.Proof.KernelLayer2
import proofs.«164329_j2903397892177_1_alg».proof.Proof.KernelLayer3
import proofs.«164329_j2903397892177_1_alg».proof.Proof.KernelLayer4

set_option maxRecDepth 16384

noncomputable section

namespace Cert.KernelIdeal.LayerV

open Idealize.ShloMosaic Idealize.ShloMosaic.TcCoe Idealize.ShloMosaic.ValueIdx Idealize.SL.Sem
open Idealize.ShloMosaic.Pipeline (Dat)
open Cert.KernelIdeal Cert.KernelIdeal.Gen Cert.ReferenceIdeal.RefSpec

variable [Cert.ReferenceIdeal.Facts]

set_option maxHeartbeats 8000000 in
/-- With real launched features and real stacked weights, the node features region 9 leaves are the reference's five
    layers of the launched features, along the launched edge table with the launched weights — and they are real. -/
theorem layers_out (m : (ℓ : Loc nD τ sig) → Buf (Elt Ideal) ℓ) (ρ : Dev nD → PrngReg) (c : Dev nD)
    (hx : AllReal (s := Cert.ReferenceIdeal.S100000x128) (m ((c : Thread nD τ).loc main_arg0)))
    (h3 : AllReal (s := Cert.ReferenceIdeal.S5x128x128) (m ((c : Thread nD τ).loc main_arg3))) (h4 : AllReal (s := Cert.ReferenceIdeal.S5x128) (m ((c : Thread nD τ).loc main_arg4)))
    (h5 : AllReal (s := Cert.ReferenceIdeal.S5x128) (m ((c : Thread nD τ).loc main_arg5))) (h6 : AllReal (s := Cert.ReferenceIdeal.S5x128) (m ((c : Thread nD τ).loc main_arg6)))
    (h7 : AllReal (s := Cert.ReferenceIdeal.S5x128x128) (m ((c : Thread nD τ).loc main_arg7))) (h8 : AllReal (s := Cert.ReferenceIdeal.S5x128) (m ((c : Thread nD τ).loc main_arg8))) :
    ((dat9 (V19 m ρ) c).arrAt 7 cfg9.N : S100000x128.Idx → EReal)
        = (layerAt 4 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (layerAt 3 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (layerAt 2 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (layerAt 1 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (layerAt 0 (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg0)))))))
      ∧ AllReal (s := Cert.ReferenceIdeal.S100000x128) ((dat9 (V19 m ρ) c).arrAt 7 cfg9.N) := by
  obtain ⟨e0, r0⟩ := layer0_out m ρ c hx h3 h4 h5 h6 h7 h8
  obtain ⟨e1, r1⟩ := layer1_out m ρ c _ e0 (e0 ▸ r0) h3 h4 h5 h6 h7 h8
  obtain ⟨e2, r2⟩ := layer2_out m ρ c _ e1 (e1 ▸ r1) h3 h4 h5 h6 h7 h8
  obtain ⟨e3, r3⟩ := layer3_out m ρ c _ e2 (e2 ▸ r2) h3 h4 h5 h6 h7 h8
  obtain ⟨e4, r4⟩ := layer4_out m ρ c _ e3 (e3 ▸ r3) h3 h4 h5 h6 h7 h8
  exact ⟨e4, r4⟩

end Cert.KernelIdeal.LayerV

end
-- ==== Proof.KernelRunVS10.lean ====
/-
  The head region (region 10) is entered after the last stretch of host operations, run from region 9's exit. Its five
  input arrays then hold: the pooled features, every node's feature row (as layer 4's second region left the features)
  added into the row of the node's graph; and the head's two weight matrices and two biases, as launched.
-/
import proofs.«164329_j2903397892177_1_alg».proof.Proof.Gen.KernelIdeal.Frame
import proofs.«164329_j2903397892177_1_alg».proof.Proof.KernelRunVHost
import proofs.«164329_j2903397892177_1_alg».proof.Proof.KernelRunVWalkB

set_option maxRecDepth 16384

noncomputable section

namespace Cert.KernelIdeal.RunV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Entering region 10, input window 0 holds the pooled features: the rows of the features region 9 left (its output
    window 7), added into a zero 512 x 128 array at the row of each node's launched graph index. -/
theorem s10_pooled (c : Dev nD) :
    (V21 m ρ c main_v156 : (⟨S512x128, .f32⟩ : BufTy).Contents (Elt F))
      = pooledOf ((dat9 (V19 m ρ) c).arrAt 7 cfg9.N) (m ((c : Thread nD τ).loc main_arg2)) := by
  have h7 : W20 m ρ c (Proc.devRef .tc main_v153) = (dat9 (V19 m ρ) c).arrAt 7 cfg9.N := W20_arr m ρ c 7
  rw [← h7, ← w20_main_arg2 m ρ c]
  unfold pooledOf
  show StableHlo.after hostOps10 (W20 m ρ c) (Proc.devRef .tc main_v156) = _
  after_results <;> rfl

/-- Entering region 10, input window 1 holds the head's first weight matrix as launched: the window's array is as entered when the
    region is left, and at the last boundary that argument holds its launched contents. -/
theorem s10_main_arg9 (c : Dev nD) :
    (V21 m ρ c main_arg9 : (⟨S128x128, .f32⟩ : BufTy).Contents (Elt F)) = m ((c : Thread nD τ).loc main_arg9) :=
  ((W22_arr m ρ c 1).trans (((dat10 (V21 m ρ) c).arrAt_in 1 rfl _).trans (A_eq10 (V21 m ρ) c 1))).symm.trans (W22_main_arg9 m ρ c)

/-- Entering region 10, input window 2 holds the head's first bias as launched: the window's array is as entered when the
    region is left, and at the last boundary that argument holds its launched contents. -/
theorem s10_main_arg10 (c : Dev nD) :
    (V21 m ρ c main_arg10 : (⟨S128, .f32⟩ : BufTy).Contents (Elt F)) = m ((c : Thread nD τ).loc main_arg10) :=
  ((W22_arr m ρ c 2).trans (((dat10 (V21 m ρ) c).arrAt_in 2 rfl _).trans (A_eq10 (V21 m ρ) c 2))).symm.trans (W22_main_arg10 m ρ c)

/-- Entering region 10, input window 3 holds the head's second weight matrix as launched: the window's array is as entered when the
    region is left, and at the last boundary that argument holds its launched contents. -/
theorem s10_main_arg11 (c : Dev nD) :
    (V21 m ρ c main_arg11 : (⟨S128x10, .f32⟩ : BufTy).Contents (Elt F)) = m ((c : Thread nD τ).loc main_arg11) :=
  ((W22_arr m ρ c 3).trans (((dat10 (V21 m ρ) c).arrAt_in 3 rfl _).trans (A_eq10 (V21 m ρ) c 3))).symm.trans (W22_main_arg11 m ρ c)

/-- Entering region 10, input window 4 holds the head's second bias as launched: the window's array is as entered when the
    region is left, and at the last boundary that argument holds its launched contents. -/
theorem s10_main_arg12 (c : Dev nD) :
    (V21 m ρ c main_arg12 : (⟨S10, .f32⟩ : BufTy).Contents (Elt F)) = m ((c : Thread nD τ).loc main_arg12) :=
  ((W22_arr m ρ c 4).trans (((dat10 (V21 m ρ) c).arrAt_in 4 rfl _).trans (A_eq10 (V21 m ρ) c 4))).symm.trans (W22_main_arg12 m ρ c)

end Cert.KernelIdeal.RunV

end
-- ==== Proof.HeadVPayload.lean ====
/-
  The classifier head on the pooled rows: what the body stores, entry by entry.

  The body reads the 512 pooled rows P, a 128 × 128 weight matrix W₁ with its bias b₁, and a 128 × 10 weight matrix
  W₂ with its bias b₂. It multiplies P by W₁ on the matrix unit into a zero accumulator, adds b₁ along the rows,
  takes the maximum with 0, multiplies the result by W₂ into a zero accumulator and adds b₂. On the extended reals
  each product is the plain sum over the 128 contracted positions and the format changes in front of them are the
  identity, so the stored entry for graph g and class k is ∑ j, max(∑ i, P g i·W₁ i j + b₁ j, 0)·W₂ j k + b₂ k.
-/
import proofs.«164329_j2903397892177_1_alg».proof.Proof.Gen.KernelIdeal.Skeleton
import proofs.«164329_j2903397892177_1_alg».proof.Proof.LibMatmulEntry
import proofs.«164329_j2903397892177_1_alg».proof.Proof.LibRowOfVector
import Idealize.ShloMosaic.Lib.ValueIdx

noncomputable section

namespace Cert.KernelIdeal.Layer2V

open Cert.KernelIdeal Cert.KernelIdeal.Gen Idealize.ShloMosaic Idealize.ShloMosaic.ValueIdx

/-- The stored entry for graph g and class k: the hidden row of g, (P·W₁ + b₁) cut at 0, times column k of W₂, plus
    the bias at k. -/
theorem k10_pay1_apply (x : FVec Ideal S512x128 .f32) (w1 : FVec Ideal S128x128 .f32) (b1 : FVec Ideal S128 .f32)
    (w2 : FVec Ideal S128x10 .f32) (b2 : FVec Ideal S10 .f32) (g : Fin 512) (k : Fin 10) :
    k10_pay1 (F := Ideal) x w1 b1 w2 b2 (ix2 g k)
      = (∑ j : Fin 128, max ((∑ i : Fin 128, x (ix2 g i) * w1 (ix2 i j)) + b1 (ix1 j)) 0 * w2 (ix2 j k)) + b2 (ix1 k) := by
  unfold k10_pay1
  refine (addf_apply _ _ (ix2 g k)).trans ?_
  refine congrArg₂ (· + ·) ?_ (RowOfVector.vecRow_apply b2 _ _ g k)
  refine (PlainMatmul.matmul_zero_apply Facts₀.dot_S512x128_S128x10_S512x10_1_0_0_1_n_n_wf none _ _ g k).trans ?_
  refine Finset.sum_congr rfl fun j _ => ?_
  refine congrArg₂ (· * ·) ?_ rfl
  refine congrArg₂ max ?_ Ideal.ofBits_zero_f32
  refine congrArg₂ (· + ·) ?_ (RowOfVector.vecRow_apply b1 _ _ g j)
  refine (PlainMatmul.matmul_zero_apply Facts₀.dot_S512x128_S128x128_S512x128_1_0_0_1_n_n_wf none _ _ g j).trans ?_
  refine Finset.sum_congr rfl fun i _ => ?_
  exact congrArg₂ (· * ·) (congrFun (shapeCast_self x _) (ix2 g i)) rfl

end Cert.KernelIdeal.Layer2V

end
-- ==== Proof.HeadVBlocks.lean ====
/-
  The classifier head, over its whole arrays: the 512 × 10 result as one function of what the region reads.

  The region runs the body at a single grid point, where every operand's block is its whole array and the block
  written back is the whole result. The body's entry for graph g and class k is the head of row g of the pooled rows,
  so what the one point writes back is that function of the arrays, entry by entry, and its one block covers the
  result.
-/
import proofs.«164329_j2903397892177_1_alg».proof.Proof.Gen.KernelIdeal.Frame
import proofs.«164329_j2903397892177_1_alg».proof.Proof.HeadVPayload
import proofs.«164329_j2903397892177_1_alg».proof.Proof.LayerFns
import Idealize.ShloMosaic.Lib.Pipeline.Value

set_option maxRecDepth 16384

noncomputable section

namespace Cert.KernelIdeal.Layer2V

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The region's result as one function of the arrays it reads, entry by entry: the head at graph `i 0` and class
    `i 1`, of the pooled rows (window 0), the first weights and bias (windows 1 and 2) and the second weights and bias
    (windows 3 and 4). -/
def result10 : S512x10.Idx → EReal := fun i =>
  LayerFns.headFn
    (fun g i => (V c (Pipeline.arrRef spec10 0) : S512x128.Idx → EReal) (ix2 g i))
    (fun i j => (V c (Pipeline.arrRef spec10 1) : S128x128.Idx → EReal) (ix2 i j))
    (fun j => (V c (Pipeline.arrRef spec10 2) : S128.Idx → EReal) (ix1 j))
    (fun j k => (V c (Pipeline.arrRef spec10 3) : S128x10.Idx → EReal) (ix2 j k))
    (fun k => (V c (Pipeline.arrRef spec10 4) : S10.Idx → EReal) (ix1 k))
    ⟨(i 0).val, idx2_lt0 i⟩ ⟨(i 1).val, idx2_lt1 i⟩

/-- The zero offsets of a whole rank-2 buffer, as a constant function. -/
private theorem zeroPair : (![0, 0] : Fin 2 → Nat) = fun _ => 0 := funext fun a => by fin_cases a <;> rfl
/-- The zero offset of a whole rank-1 buffer, as a constant function. -/
private theorem zeroSingle : (![0] : Fin 1 → Nat) = fun _ => 0 := funext fun a => by fin_cases a <;> rfl

/-- The index maps at the grid's one point: every operand, and the result, at block 0. -/
theorem idx_facts10 : ∀ t : Fin cfg10.N,
    win10_0.index t (0 : Fin 2) = 0 ∧ win10_0.index t (1 : Fin 2) = 0
    ∧ win10_1.index t (0 : Fin 2) = 0 ∧ win10_1.index t (1 : Fin 2) = 0
    ∧ win10_2.index t (0 : Fin 1) = 0
    ∧ win10_3.index t (0 : Fin 2) = 0 ∧ win10_3.index t (1 : Fin 2) = 0
    ∧ win10_4.index t (0 : Fin 1) = 0
    ∧ win10_5.index t (0 : Fin 2) = 0 ∧ win10_5.index t (1 : Fin 2) = 0 :=
  (by decide +kernel : ∀ t : Fin grid10.N, _)

/-! ## The blocks the body reads, as entries of the arrays -/

/-- The pooled rows are read whole. -/
theorem read10_0 (t : Fin cfg10.N) (g : Fin 512) (i : Fin 128) :
    iblk10 V c 0 t (ix2 g i) = V c (Pipeline.arrRef spec10 0) (ix2 g i) := by
  obtain ⟨e0, e1, -⟩ := idx_facts10 t
  show V c (Pipeline.arrRef spec10 0) (((cfg10.win 0).blk t).view.emb (ix2 g i)) = _
  refine congrArg _ (funext fun a => Fin.ext ?_)
  match a with
  | ⟨0, _⟩ => show win10_0.index t (0 : Fin 2) * 512 + 1 * g.val = g.val; rw [e0]; omega
  | ⟨1, _⟩ => show win10_0.index t (1 : Fin 2) * 128 + 1 * i.val = i.val; rw [e1]; omega

/-- The first weights are read whole. -/
theorem read10_1 (t : Fin cfg10.N) (i j : Fin 128) :
    iblk10 V c 1 t (ix2 i j) = V c (Pipeline.arrRef spec10 1) (ix2 i j) := by
  obtain ⟨-, -, e0, e1, -⟩ := idx_facts10 t
  show V c (Pipeline.arrRef spec10 1) (((cfg10.win 1).blk t).view.emb (ix2 i j)) = _
  refine congrArg _ (funext fun a => Fin.ext ?_)
  match a with
  | ⟨0, _⟩ => show win10_1.index t (0 : Fin 2) * 128 + 1 * i.val = i.val; rw [e0]; omega
  | ⟨1, _⟩ => show win10_1.index t (1 : Fin 2) * 128 + 1 * j.val = j.val; rw [e1]; omega

/-- The first bias is read whole. -/
theorem read10_2 (t : Fin cfg10.N) (j : Fin 128) :
    iblk10 V c 2 t (ix1 j) = V c (Pipeline.arrRef spec10 2) (ix1 j) := by
  obtain ⟨-, -, -, -, e0, -⟩ := idx_facts10 t
  show V c (Pipeline.arrRef spec10 2) (((cfg10.win 2).blk t).view.emb (ix1 j)) = _
  refine congrArg _ (funext fun a => Fin.ext ?_)
  match a with
  | ⟨0, _⟩ => show win10_2.index t (0 : Fin 1) * 128 + 1 * j.val = j.val; rw [e0]; omega

/-- The second weights are read whole. -/
theorem read10_3 (t : Fin cfg10.N) (j : Fin 128) (k : Fin 10) :
    iblk10 V c 3 t (ix2 j k) = V c (Pipeline.arrRef spec10 3) (ix2 j k) := by
  obtain ⟨-, -, -, -, -, e0, e1, -⟩ := idx_facts10 t
  show V c (Pipeline.arrRef spec10 3) (((cfg10.win 3).blk t).view.emb (ix2 j k)) = _
  refine congrArg _ (funext fun a => Fin.ext ?_)
  match a with
  | ⟨0, _⟩ => show win10_3.index t (0 : Fin 2) * 128 + 1 * j.val = j.val; rw [e0]; omega
  | ⟨1, _⟩ => show win10_3.index t (1 : Fin 2) * 10 + 1 * k.val = k.val; rw [e1]; omega

/-- The second bias is read whole. -/
theorem read10_4 (t : Fin cfg10.N) (k : Fin 10) :
    iblk10 V c 4 t (ix1 k) = V c (Pipeline.arrRef spec10 4) (ix1 k) := by
  obtain ⟨-, -, -, -, -, -, -, e0, -⟩ := idx_facts10 t
  show V c (Pipeline.arrRef spec10 4) (((cfg10.win 4).blk t).view.emb (ix1 k)) = _
  refine congrArg _ (funext fun a => Fin.ext ?_)
  match a with
  | ⟨0, _⟩ => show win10_4.index t (0 : Fin 1) * 10 + 1 * k.val = k.val; rw [e0]; omega

/-- The block written back is the whole result. -/
theorem emb10_5 (t : Fin cfg10.N) (g : Fin 512) (k : Fin 10) :
    ((cfg10.win 5).blk t).view.emb (ix2 g k) = ix2 g k := by
  obtain ⟨-, -, -, -, -, -, -, -, e0, e1⟩ := idx_facts10 t
  refine funext fun a => Fin.ext ?_
  match a with
  | ⟨0, _⟩ => show win10_5.index t (0 : Fin 2) * 512 + 1 * g.val = g.val; rw [e0]; omega
  | ⟨1, _⟩ => show win10_5.index t (1 : Fin 2) * 10 + 1 * k.val = k.val; rw [e1]; omega

/-! ## What the point writes back -/

/-- What the one point writes back is `result10`, read through the result's one block: the body's entry for graph g
    and class k is the head of row g of the pooled rows. -/
theorem flushed10_5_eq (t : Fin cfg10.N) :
    (dat10 V c).flushed 5 t = ((cfg10.win 5).blk t).view.read (Elt Ideal) (result10 V c) := by
  show (cfg10.win 5).cut (grid10.coords t) ((dat10 V c).after 5 t) = _
  rw [after10_5]
  unfold out10_5
  rw [View.canon_unit_zero zeroPair]
  simp only [View.ld_unit_zero (S := S512x128) zeroPair, View.ld_unit_zero (S := S128x128) zeroPair,
    View.ld_unit_zero (S := S128x10) zeroPair, View.ld_unit_zero (S := S128) zeroSingle,
    View.ld_unit_zero (S := S10) zeroSingle]
  funext y
  obtain ⟨g, k, rfl⟩ : ∃ (g : Fin 512) (k : Fin 10), y = ix2 g k := ⟨y 0, y 1, eq_ix2 (n0 := 512) (n1 := 10) y⟩
  show k10_pay1 (F := Ideal) (iblk10 V c 0 t) (iblk10 V c 1 t) (iblk10 V c 2 t) (iblk10 V c 3 t) (iblk10 V c 4 t) (ix2 g k)
      = result10 V c (((cfg10.win 5).blk t).view.emb (ix2 g k))
  refine (k10_pay1_apply (iblk10 V c 0 t) (iblk10 V c 1 t) (iblk10 V c 2 t) (iblk10 V c 3 t) (iblk10 V c 4 t) g k).trans ?_
  refine Eq.trans ?_ (congrArg (result10 V c) (emb10_5 t g k)).symm
  show _ = LayerFns.headFn _ _ _ _ _ g k
  unfold LayerFns.headFn
  refine congrArg₂ (· + ·) (Finset.sum_congr rfl fun j _ => ?_) (read10_4 V c t k)
  refine congrArg₂ (· * ·) (congrArg₂ max (congrArg₂ (· + ·) (Finset.sum_congr rfl fun i _ => ?_) (read10_2 V c t j)) rfl)
    (read10_3 V c t j k)
  exact congrArg₂ (· * ·) (read10_0 V c t g i) (read10_1 V c t i j)

/-! ## The one block covers the result -/

/-- An index of the result is in the point's block iff each coordinate is in the block's range on its axis. -/
theorem mem_blk10_5 (t : Fin cfg10.N) (i : S512x10.Idx) :
    i ∈ ((cfg10.win 5).blk t).view.set ↔ ∀ a : Fin 2, win10_5.index t a * S512x10.size a ≤ (i a).val
      ∧ (i a).val < win10_5.index t a * S512x10.size a + S512x10.size a := by
  show i ∈ ((View.whole (Pipeline.arrRef spec10 5)).slice (win10_5.rect t)).set ↔ _
  rw [View.set_slice_whole, Rect.mem_set_unit]
  exact Iff.rfl

/-- Every index of the result lies in the one point's block, which is written back. -/
theorem cover10_5_arr (i : S512x10.Idx) :
    ∃ t : Fin cfg10.N, (cfg10.win 5).flush t = true ∧ i ∈ ((cfg10.win 5).blk t).view.set := by
  have hi0 : (i 0).val < 512 := idx2_lt0 i
  have hi1 : (i 1).val < 10 := idx2_lt1 i
  obtain ⟨-, -, -, -, -, -, -, -, e0, e1⟩ := idx_facts10 t10_0
  refine ⟨t10_0, flush10_5 t10_0, ?_⟩
  rw [mem_blk10_5]
  intro a
  match a with
  | ⟨0, _⟩ =>
    show win10_5.index t10_0 (0 : Fin 2) * 512 ≤ (i 0).val ∧ (i 0).val < win10_5.index t10_0 (0 : Fin 2) * 512 + 512
    rw [e0]; omega
  | ⟨1, _⟩ =>
    show win10_5.index t10_0 (1 : Fin 2) * 10 ≤ (i 1).val ∧ (i 1).val < win10_5.index t10_0 (1 : Fin 2) * 10 + 10
    rw [e1]; omega

/-! ## The result -/

/-- THE ARRAY the region leaves in its result window is `result10` of the arrays it reads. -/
theorem arr10_5_eq : (dat10 V c).arrAt 5 cfg10.N = result10 V c :=
  (dat10 V c).arrAt_eq_of_cover 5 (result10 V c) (fun t _ => flushed10_5_eq V c t) (cover10_5_arr)

/-- Entry by entry: graph g, class k of the result is the head of row g of the pooled rows. -/
theorem arr10_5_apply (g : Fin 512) (k : Fin 10) :
    (dat10 V c).arrAt 5 cfg10.N (ix2 g k)
      = LayerFns.headFn
          (fun g i => (V c (Pipeline.arrRef spec10 0) : S512x128.Idx → EReal) (ix2 g i))
          (fun i j => (V c (Pipeline.arrRef spec10 1) : S128x128.Idx → EReal) (ix2 i j))
          (fun j => (V c (Pipeline.arrRef spec10 2) : S128.Idx → EReal) (ix1 j))
          (fun j k => (V c (Pipeline.arrRef spec10 3) : S128x10.Idx → EReal) (ix2 j k))
          (fun k => (V c (Pipeline.arrRef spec10 4) : S10.Idx → EReal) (ix1 k)) g k :=
  congrFun (arr10_5_eq V c) (ix2 g k)

end Cert.KernelIdeal.Layer2V

end
-- ==== Proof.RefHeadRead.lean ====
/-
  The head of the reference, read entry by entry.

  The head first adds every node's feature row into the row of the node's graph, starting from zeros: the 512 pooled
  rows. It then multiplies the pooled rows by a 128 × 128 matrix, adds a bias repeated down the rows, takes the maximum
  with the zero array, multiplies by a 128 × 10 matrix and adds a second bias repeated down the rows. A host product
  read at an entry is the sum over the contracted coordinate, a vector repeated down the rows reads its entry of that
  column, and the zero array reads 0; so the head at graph g and class k is
  ∑ j, max(∑ i, pooled g i · W₁ i j + b₁ j, 0) · W₂ j k + b₂ k. The pooled rows are kept as they are written: nothing
  here looks inside the sum over the nodes.
-/
import proofs.«164329_j2903397892177_1_alg».proof.Proof.RefLayerRead

noncomputable section

namespace Cert.ReferenceIdeal.RefSpec

open Idealize.ShloMosaic Idealize.ShloMosaic.ValueIdx Cert.ReferenceIdeal LayerFns

variable [Facts]
open Facts₀ Facts

/-- The pooled rows: row `batch n` receives row n of x, for every node n, starting from zeros. -/
def pooled (x : FA S100000x128) (batch : IA S100000) : FA S512x128 :=
  Host.scatterAdd scatter_S512x128_S100000x1_S100000x128_1_0_0_1
    (broadcastInDim S512x128 ![] bcast_S_S512x128 (constant (F := Ideal) S_ .f32 0x00000000#32))
    (broadcastInDim S100000x1 ![0] bcast_S100000_S100000x1_0 batch) x

/-- A vector of 128 entries repeated down the 512 rows reads, at (g, j), the vector's entry j. -/
theorem rows512x128_apply (v : FA S128) (g : Fin 512) (j : Fin 128) :
    broadcastInDim S512x128 ![0, 1] bcast_S1x128_S512x128_0_1 (broadcastInDim S1x128 ![1] bcast_S128_S1x128_1 v) (ix2 g j)
      = v (ix1 j) :=
  (broadcastInDim_apply _ _ _ (ix2 g j) (ix2 (0 : Fin 1) j)
      (fun a => by match a with | ⟨0, _⟩ => rfl | ⟨1, _⟩ => rfl)).trans
    (broadcastInDim_apply _ _ _ (ix2 (0 : Fin 1) j) (ix1 j) (fun a => by match a with | ⟨0, _⟩ => rfl))

/-- A vector of 10 entries repeated down the 512 rows reads, at (g, k), the vector's entry k. -/
theorem rows512x10_apply (v : FA S10) (g : Fin 512) (k : Fin 10) :
    broadcastInDim S512x10 ![0, 1] bcast_S1x10_S512x10_0_1 (broadcastInDim S1x10 ![1] bcast_S10_S1x10_1 v) (ix2 g k)
      = v (ix1 k) :=
  (broadcastInDim_apply _ _ _ (ix2 g k) (ix2 (0 : Fin 1) k)
      (fun a => by match a with | ⟨0, _⟩ => rfl | ⟨1, _⟩ => rfl)).trans
    (broadcastInDim_apply _ _ _ (ix2 (0 : Fin 1) k) (ix1 k) (fun a => by match a with | ⟨0, _⟩ => rfl))

/-- The head of the reference at graph g, class k, over the coordinates of its operands and of the pooled rows. -/
theorem refHead_apply (x : FA S100000x128) (batch : IA S100000) (W1 : FA S128x128) (b1 : FA S128) (W2 : FA S128x10)
    (b2 : FA S10) (g : Fin 512) (k : Fin 10) :
    refHead x batch W1 b1 W2 b2 (ix2 g k)
      = LayerFns.headFn (fun g i => pooled x batch (ix2 g i)) (fun i j => W1 (ix2 i j)) (fun j => b1 (ix1 j))
          (fun j k => W2 (ix2 j k)) (fun k => b2 (ix1 k)) g k := by
  unfold refHead headFn
  dsimp only
  refine (addf_apply _ _ (ix2 g k)).trans ?_
  refine congrArg₂ (· + ·) ?_ (rows512x10_apply b2 g k)
  refine (hostDot_apply _ none _ _ g k).trans (Finset.sum_congr rfl fun j _ => ?_)
  refine congrArg (· * W2 (ix2 j k)) ?_
  refine (maximumf_apply _ _ (ix2 g j)).trans ?_
  refine congrArg₂ max ?_ (zeros_apply S512x128 bcast_S_S512x128 (ix2 g j))
  refine (addf_apply _ _ (ix2 g j)).trans ?_
  exact congrArg₂ (· + ·) (hostDot_apply _ none _ _ g j) (rows512x128_apply b1 g j)

end Cert.ReferenceIdeal.RefSpec

end
-- ==== Proof.KernelHead.lean ====
/-
  The kernel program's result is the reference's head of the features the last layer leaves.

  The program's result array is the head region's one output. Entry by entry that output is the dense head map of the
  five arrays the region finds on entry: the pooled rows and the head's two weight matrices and two biases. On entry
  the pooled rows are every node's feature row, as the last layer left the features, added into the row of the node's
  graph, and the four weight arrays are as launched. The reference's head is the same dense map of the same pooled
  rows and weights: both heads apply the same operations, and the two programs write the pooling with the same
  dimension numbers, so the two pooled arrays are one term. No finiteness is used.
-/
import proofs.«164329_j2903397892177_1_alg».proof.Proof.Gen.KernelIdeal.Frame
import proofs.«164329_j2903397892177_1_alg».proof.Proof.KernelRunV
import proofs.«164329_j2903397892177_1_alg».proof.Proof.KernelRunVS10
import proofs.«164329_j2903397892177_1_alg».proof.Proof.HeadVBlocks
import proofs.«164329_j2903397892177_1_alg».proof.Proof.RefHeadRead

set_option maxRecDepth 16384

noncomputable section

namespace Cert.KernelIdeal.LayerV

open Cert.KernelIdeal Cert.KernelIdeal.Gen Idealize.ShloMosaic Idealize.ShloMosaic.TcCoe Idealize.SL.Sem
open Idealize.ShloMosaic.ValueIdx

variable [Cert.ReferenceIdeal.Facts]

/-- The two programs pool with the same operation: the kernel program's pooled rows of features x and graph indices b
    are the reference's. The two dimension-number records hold the same lists, and their side conditions are
    propositions. -/
theorem pooledOf_eq (x : S100000x128.Idx → EReal) (b : S100000.Idx → BitVec 32) :
    (RunV.pooledOf (F := Ideal) x b : S512x128.Idx → EReal) = Cert.ReferenceIdeal.RefSpec.pooled x b := by
  have hd : (scatter_S512x128_S100000x1_S100000x128_1_0_0_1 : ScatterDims S512x128 S100000x1 S100000x128)
      = Cert.ReferenceIdeal.scatter_S512x128_S100000x1_S100000x128_1_0_0_1 := rfl
  unfold RunV.pooledOf Cert.ReferenceIdeal.RefSpec.pooled
  rw [hd]

/-- The result array of the kernel program is the reference's head of the features region 9 leaves, the launched graph
    indices and the launched head weights. -/
theorem head_out (m : (ℓ : Loc nD τ sig) → Buf (Elt Ideal) ℓ) (ρ : Dev nD → PrngReg) (c : Dev nD) :
    W22 m ρ c (Proc.devRef .tc main_v157)
      = Cert.ReferenceIdeal.RefSpec.refHead
          ((dat9 (V19 m ρ) c).arrAt 7 cfg9.N : S100000x128.Idx → EReal)
          (m ((c.tc : Thread nD τ).loc main_arg2))
          (m ((c.tc : Thread nD τ).loc main_arg9))
          (m ((c.tc : Thread nD τ).loc main_arg10))
          (m ((c.tc : Thread nD τ).loc main_arg11))
          (m ((c.tc : Thread nD τ).loc main_arg12)) := by
  rw [RunV.result_eq m ρ c]
  funext y
  obtain ⟨g, k, rfl⟩ : ∃ (g : Fin 512) (k : Fin 10), y = ix2 g k := ⟨y 0, y 1, eq_ix2 (n0 := 512) (n1 := 10) y⟩
  refine (Layer2V.arr10_5_apply (V21 m ρ) c g k).trans ?_
  refine Eq.trans ?_ (Cert.ReferenceIdeal.RefSpec.refHead_apply _ _ _ _ _ _ g k).symm
  have h0 := (RunV.s10_pooled m ρ c).trans (pooledOf_eq _ _)
  have h1 := RunV.s10_main_arg9 m ρ c
  have h2 := RunV.s10_main_arg10 m ρ c
  have h3 := RunV.s10_main_arg11 m ρ c
  have h4 := RunV.s10_main_arg12 m ρ c
  have key : ∀ (P P' : S512x128.Idx → EReal) (W1 W1' : S128x128.Idx → EReal) (b1 b1' : S128.Idx → EReal)
      (W2 W2' : S128x10.Idx → EReal) (b2 b2' : S10.Idx → EReal),
      P = P' → W1 = W1' → b1 = b1' → W2 = W2' → b2 = b2' →
      LayerFns.headFn (fun g i => P (ix2 g i)) (fun i j => W1 (ix2 i j)) (fun j => b1 (ix1 j))
          (fun j k => W2 (ix2 j k)) (fun k => b2 (ix1 k)) g k
        = LayerFns.headFn (fun g i => P' (ix2 g i)) (fun i j => W1' (ix2 i j)) (fun j => b1' (ix1 j))
          (fun j k => W2' (ix2 j k)) (fun k => b2' (ix1 k)) g k := by
    intro P P' W1 W1' b1 b1' W2 W2' b2 b2' e0 e1 e2 e3 e4
    subst e0 e1 e2 e3 e4
    rfl
  exact key _ _ _ _ _ _ _ _ _ _ h0 h1 h2 h3 h4

end Cert.KernelIdeal.LayerV

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.FiniteOpen.lean ====
/-
  The finiteness precondition, opened: every entry of every float argument is a real number.

  The precondition is a conjunction, over the eleven float arrays, of "every entry's absolute value is below +∞",
  each an all-test that reduces a comparison array by `and` into a single word, the words and-ed together.  The result
  being all ones gives each all-test the word 1, each all-test gives the comparison 1 at every index, and an extended
  real whose absolute value is below +∞ is a real number.
-/
import proofs.«164329_j2903397892177_1_alg».proof.Pre_finite_inputs
import proofs.«164329_j2903397892177_1_alg».proof.Proof.LibFiniteEntry
import Idealize.ShloMosaic.Lib.ReduceAll
import Idealize.ShloMosaic.Lib.Affine
import Idealize.ShloMosaic.Lib.ValueIdx
import Idealize.ShloMosaic.Lib.IdealHost

noncomputable section

namespace Cert.Pre_finite_inputs.Open

open Idealize.ShloMosaic Idealize.ShloMosaic.ValueIdx Cert.Pre_finite_inputs

variable [Facts]
open Facts

/-- Every entry of a float array is a real number. -/
def AllReal {s : Shape} (x : FVec Ideal s .f32) : Prop := ∀ i : s.Idx, ∃ r : ℝ, x i = (r : EReal)

/-- One array's all-test being 1 makes every entry real. -/
theorem allReal_of_test {s : Shape} (x : FVec Ideal s .f32) (hb : S_.BroadcastsInDim s ![]) {axes : List (Fin s.rank)}
    (hr : s.ReducesTo axes S_) (hu : 0 < S_.numel)
    (e : Host.reduce IntOp.andi (cmpf .olt (Host.absf x)
        (broadcastInDim s ![] hb (constant (F := Ideal) S_ .f32 0x7F800000#32))) (constantI S_ 1 1#1) hr hu ix0 = 1#1) :
    AllReal x := fun i => by
  have h := Host.reduce_andi_all _ _ hr hu ix0 e i
  rw [cmpf_apply, broadcastInDim_scalar_apply, constant_apply] at h
  exact Cert.FiniteEntry.real_of_abs_lt_top (x i) h

/-- The precondition makes every float argument real, entry by entry. -/
theorem allReal_of_pre (a0 : FVec Ideal S100000x128 .f32) (a1 : IVec S2x1600000 32) (a2 : IVec S100000 32)
    (a3 : FVec Ideal S5x128x128 .f32) (a4 a5 a6 : FVec Ideal S5x128 .f32) (a7 : FVec Ideal S5x128x128 .f32)
    (a8 : FVec Ideal S5x128 .f32) (a9 : FVec Ideal S128x128 .f32) (a10 : FVec Ideal S128 .f32)
    (a11 : FVec Ideal S128x10 .f32) (a12 : FVec Ideal S10 .f32)
    (h : fn (F := Ideal) a0 a1 a2 a3 a4 a5 a6 a7 a8 a9 a10 a11 a12 = fun _ => 1#1) :
    AllReal a0 ∧ AllReal a3 ∧ AllReal a4 ∧ AllReal a5 ∧ AllReal a6 ∧ AllReal a7 ∧ AllReal a8 ∧ AllReal a9
      ∧ AllReal a10 ∧ AllReal a11 ∧ AllReal a12 := by
  have h0 := congrFun h ix0
  dsimp only [fn, fn_part1, fn_part2, fn_part3, andi] at h0
  simp only [IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨allReal_of_test a0 _ _ _ e0, allReal_of_test a3 _ _ _ e3, allReal_of_test a4 _ _ _ e4,
    allReal_of_test a5 _ _ _ e5, allReal_of_test a6 _ _ _ e6, allReal_of_test a7 _ _ _ e7, allReal_of_test a8 _ _ _ e8,
    allReal_of_test a9 _ _ _ e9, allReal_of_test a10 _ _ _ e10, allReal_of_test a11 _ _ _ e11,
    allReal_of_test a12 _ _ _ e12⟩

end Cert.Pre_finite_inputs.Open

end
-- ==== Proof.KernelOut.lean ====
/-
  The kernel's result array is the plain network's function of the arguments.

  Under the finiteness precondition every float argument is a real array.  Layer by layer the features the kernel
  carries are then the plain network's layer of the previous features, and real (so that the next layer's variance
  identity applies); after the fifth layer the head, the same operations on both sides, gives the result.
-/
import proofs.«164329_j2903397892177_1_alg».proof.Proof.KernelLayers
import proofs.«164329_j2903397892177_1_alg».proof.Proof.KernelHead
import proofs.«164329_j2903397892177_1_alg».proof.Proof.FiniteOpen
import proofs.«164329_j2903397892177_1_alg».proof.Defs
import proofs.«164329_j2903397892177_1_alg».proof.Proof.Gen.ReferenceIdeal
import proofs.«164329_j2903397892177_1_alg».proof.Proof.Gen.Pre_finite_inputs

set_option maxRecDepth 16384

noncomputable section

namespace Cert.KernelIdeal.LayerV

open Idealize.ShloMosaic Idealize.ShloMosaic.TcCoe Idealize.SL.Sem
open Cert.KernelIdeal Cert.KernelIdeal.Gen Cert.ReferenceIdeal.RefSpec

/-- Under finite inputs the kernel's 512 × 10 result is the five layers and the head of the plain network, applied to
    the launch contents of the argument arrays. -/
theorem kernel_out (m : (ℓ : Loc nD τ sig) → Buf (Elt Ideal) ℓ) (ρ : Dev nD → PrngReg)
    (hpre : @Cert.Pre_KernelIdeal Cert.Pre_finite_inputs.Gen.facts m) (c : Dev nD) :
    W22 m ρ c (Proc.devRef .tc main_v157)
      = @refOut Cert.ReferenceIdeal.Gen.facts (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  obtain ⟨h0, h3, h4, h5, h6, h7, h8, -⟩ := @Cert.Pre_finite_inputs.Open.allReal_of_pre Cert.Pre_finite_inputs.Gen.facts
    _ _ _ _ _ _ _ _ _ _ _ _ _ (hpre c)
  haveI : Cert.ReferenceIdeal.Facts := Cert.ReferenceIdeal.Gen.facts
  rw [head_out m ρ c, (layers_out m ρ c h0 h3 h4 h5 h6 h7 h8).1]
  rfl

end Cert.KernelIdeal.LayerV

end
-- ==== Proof.lean ====
/-
  A five-layer graph isomorphism network on 100000 nodes with 128 features, its kernel form against its plain form,
  equal entry by entry on the extended reals when every float input is finite.

  One layer: a = the neighbour sum of the features x (row dst(e) receives row src(e) for every edge e); h = (x + a)·W1 + b1;
  batch normalisation of h over its 100000 rows, column by column, with scale γ and shift β and ε the single-precision
  10⁻⁵; a max with 0; ·W2 + b2; a max with 0.  After five layers the node features are added into their graphs' rows
  (512 graphs) and a two-layer head max(p·hW1 + hb1, 0)·hW2 + hb2 gives the 512 × 10 result.

  The kernel form computes h tile by tile (20 tiles of 5000 rows) while accumulating the column sums Σ h and Σ h²,
  takes mean = Σ h / 100000 and variance = Σ h² / 100000 − mean², and applies the normalisation and the second linear
  map in a second tiled pass; the plain form takes the variance as Σ (h − mean)² / 100000.  On the extended reals:
  a tiled matrix product into a zero accumulator is the whole product, entry by entry; a sum taken tile by tile is the
  whole sum (addition of extended reals is commutative and associative, infinities included); a change of float format
  is the identity.  The one law that needs more is the variance identity, which uses distributivity and cancellation
  and so needs REAL entries: the proof carries, from the finiteness of the inputs, that the features entering every
  layer are real (a neighbour sum of reals is a finite sum of reals; the variance of a real column is a nonnegative
  real, so variance + ε is positive and its reciprocal root is real).  Everything else — the gather and the scatter-add,
  the slices of the stacked weights, the head — is the same operations on both sides and is carried unopened.

  The three frames: the kernel's two programs by their generated frame proofs; the plain program by its run, read back
  operation by operation.  The idealization rewrote nothing, so there is nothing to preserve.
-/
import proofs.«164329_j2903397892177_1_alg».proof.Defs
import proofs.«164329_j2903397892177_1_alg».proof.Proof.Gen.Kernel
import proofs.«164329_j2903397892177_1_alg».proof.Proof.Gen.Kernel.Skeleton
import proofs.«164329_j2903397892177_1_alg».proof.Proof.Gen.Kernel.Launch
import proofs.«164329_j2903397892177_1_alg».proof.Proof.Gen.Kernel.Points
import proofs.«164329_j2903397892177_1_alg».proof.Proof.Gen.Kernel.Frame
import proofs.«164329_j2903397892177_1_alg».proof.Proof.Gen.KernelIdeal
import proofs.«164329_j2903397892177_1_alg».proof.Proof.Gen.KernelIdeal.Skeleton
import proofs.«164329_j2903397892177_1_alg».proof.Proof.Gen.KernelIdeal.Launch
import proofs.«164329_j2903397892177_1_alg».proof.Proof.Gen.KernelIdeal.Points
import proofs.«164329_j2903397892177_1_alg».proof.Proof.Gen.KernelIdeal.Frame
import proofs.«164329_j2903397892177_1_alg».proof.Proof.Gen.ReferenceIdeal
import proofs.«164329_j2903397892177_1_alg».proof.Proof.Gen.Pre_finite_inputs
import proofs.«164329_j2903397892177_1_alg».proof.Proof.KernelRunV
import proofs.«164329_j2903397892177_1_alg».proof.Proof.RefRunFrame
import proofs.«164329_j2903397892177_1_alg».proof.Proof.KernelOut
import Idealize.ShloMosaic.Adequacy
import Idealize.ShloMosaic.Init

noncomputable section

namespace Cert.Proof

open Idealize.ShloMosaic Idealize.SL.Sem

/-- Both idealized programs, from memories agreeing on the arguments, end with the same 512 × 10 array: the kernel's
    result array is the plain network's function of the arguments (the layer-by-layer argument, under finiteness), and
    the plain program's run ends at that same function of its own, equal, arguments. -/
theorem algebraic : @Cert.algebraic_KernelIdeal_ReferenceIdeal Cert.KernelIdeal.Gen.facts Cert.ReferenceIdeal.Gen.facts
    Cert.Pre_finite_inputs.Gen.facts := by
  intro m g m' g' hpre hagree
  refine ⟨fun c => Cert.KernelIdeal.Gen.W22 m g c (Proc.devRef .tc Cert.KernelIdeal.main_v157),
    Cert.KernelIdeal.RunV.run_value (F := Ideal) m g, ?_⟩
  refine (θ_run (Cert.ReferenceIdeal.defs (F := Ideal)) _ _).mono (fun r h c => ⟨(h c).1.trans ?_, (h c).2⟩)
    (@Cert.ReferenceIdeal.RefRun.run Cert.ReferenceIdeal.Gen.facts m' g')
  obtain ⟨a0, a1, a2, a3, a4, a5, a6, a7, a8, a9, a10, a11, a12⟩ := hagree c
  rw [a0, a1, a2, a3, a4, a5, a6, a7, a8, a9, a10, a11, a12]
  exact (Cert.KernelIdeal.LayerV.kernel_out m g hpre c).symm

theorem claim : Cert.Claim := ⟨Cert.Kernel.Gen.facts, Cert.KernelIdeal.Gen.facts, Cert.ReferenceIdeal.Gen.facts,
  Cert.Pre_finite_inputs.Gen.facts,
  fun m ρ _ => Cert.Kernel.Gen.frame m ρ,
  fun m ρ _ => Cert.KernelIdeal.Gen.frame m ρ,
  @Cert.ReferenceIdeal.RefRun.frame Cert.ReferenceIdeal.Gen.facts Cert.Pre_finite_inputs.Gen.facts,
  trivial,
  algebraic⟩

end Cert.Proof

end
